-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S2x1024 : Shape := ⟨2, ![2, 1024]⟩
abbrev S256x512 : Shape := ⟨2, ![256, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg6 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x3200000 32 := broadcastInDim S2x3200000 ![] bcast_S_S2x3200000 main_c_8
  let main_v25 : IVec S2x3200000 1 := cmpi .sge main_arg1 main_v24
  let main_c_9 : IVec S_ 1 := constantI S_ 1 1#1
  let main_v26 : IVec S_ 1 := (fun x v => Host.reduce IntOp.andi x v reducesTo_S2x3200000_S_d0_1 h_S_) main_v25 main_c_9
  let main_v27 : IVec S_ 1 := andi main_v23 main_v26
  main_v27

def fn {F : FTy → Type} [FloatOps F] (main_arg0 : FVec F S100000x128 .f32) (main_arg1 : IVec S2x3200000 32) (main_arg2 : IVec S2x1024 32) (main_arg3 : FVec F S256x512 .f32) (main_arg4 : FVec F S512 .f32) (main_arg5 : FVec F S512x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg5
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg1 main_arg6 main_v13 main_v16
-- ==== Kernel.lean ====
abbrev S100000x128 : Shape := ⟨2, ![100000, 128]⟩
abbrev S2x3200000 : Shape := ⟨2, ![2, 3200000]⟩
abbrev S2x1024 : Shape := ⟨2, ![2, 1024]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x1024 : Shape := ⟨2, ![1, 1024]⟩
abbrev S1024 : Shape := ⟨1, ![1024]⟩
abbrev S1x3200000 : Shape := ⟨2, ![1, 3200000]⟩
abbrev S3200000 : Shape := ⟨1, ![3200000]⟩
abbrev S6400000 : Shape := ⟨1, ![6400000]⟩
abbrev S_ : Shape := ⟨0, ![]⟩
abbrev S100000 : Shape := ⟨1, ![100000]⟩
abbrev S1024x1 : Shape := ⟨2, ![1024, 1]⟩
abbrev S6400000x1 : Shape := ⟨2, ![6400000, 1]⟩
abbrev S1025x100224 : Shape := ⟨2, ![1025, 100224]⟩
abbrev S6400000x2 : Shape := ⟨2, ![6400000, 2]⟩
abbrev S1024x100224 : Shape := ⟨2, ![1024, 100224]⟩
abbrev S100224x128 : Shape := ⟨2, ![100224, 128]⟩
abbrev S1024x128 : Shape := ⟨2, ![1024, 128]⟩
abbrev S512x3712 : Shape := ⟨2, ![512, 3712]⟩
abbrev S3712x128 : Shape := ⟨2, ![3712, 128]⟩
abbrev S512x128 : Shape := ⟨2, ![512, 128]⟩
abbrev S128x512 : Shape := ⟨2, ![128, 512]⟩
abbrev S1x512 : Shape := ⟨2, ![1, 512]⟩
abbrev S1x1 : Shape := ⟨2, ![1, 1]⟩
abbrev S1024x512 : Shape := ⟨2, ![1024, 512]⟩

abbrev nBuf : Space → Nat
  | .hbm => 152
  | .vmem => 17
  | .smem => 0
  | _ => 0

abbrev hbmTy0_0 (i : Nat) : BufTy := match i % 128 with
  | 0 => ⟨S100000x128, .f32⟩
  | 1 => ⟨S2x3200000, .i32⟩
  | 2 => ⟨S2x1024, .i32⟩
  | 3 => ⟨S256x512, .f32⟩
  | 4 => ⟨S512, .f32⟩
  | 5 => ⟨S512x1, .f32⟩
  | 6 => ⟨S1, .f32⟩
  | 7 => ⟨S1x1024, .i32⟩
  | 8 => ⟨S1024, .i32⟩
  | 9 => ⟨S1x1024, .i32⟩
  | 10 => ⟨S1024, .i32⟩
  | 11 => ⟨S1x3200000, .i32⟩
  | 12 => ⟨S3200000, .i32⟩
  | 13 => ⟨S1x3200000, .i32⟩
  | 14 => ⟨S3200000, .i32⟩
  | 15 => ⟨S6400000, .i32⟩
  | 16 => ⟨S1x3200000, .i32⟩
  | 17 => ⟨S3200000, .i32⟩
  | 18 => ⟨S1x3200000, .i32⟩
  | 19 => ⟨S3200000, .i32⟩
  | 20 => ⟨S6400000, .i32⟩
  | 21 => ⟨S_, .i32⟩
  | 22 => ⟨S100000, .i32⟩
  | 23 => ⟨S1024, .i32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S100000, .i32⟩
  | 33 => ⟨S_, .i32⟩
  | 34 => ⟨S6400000, .i32⟩
  | 35 => ⟨S6400000, .i1⟩
  | 36 => ⟨S_, .i32⟩
  | 37 => ⟨S6400000, .i32⟩
  | 38 => ⟨S6400000, .i32⟩
  | 39 => ⟨S6400000, .i32⟩
  | 40 => ⟨S6400000x1, .i32⟩
  | 41 => ⟨S6400000, .i32⟩
  | 42 => ⟨S_, .i32⟩
  | 43 => ⟨S6400000, .i32⟩
  | 44 => ⟨S6400000, .i1⟩
  | 45 => ⟨S_, .i32⟩
  | 46 => ⟨S_, .i32⟩
  | 47 => ⟨S6400000, .i32⟩
  | 48 => ⟨S6400000, .i32⟩
  | 49 => ⟨S_, .f32⟩
  | 50 => ⟨S1025x100224, .f32⟩
  | 51 => ⟨S_, .i32⟩
  | 52 => ⟨S6400000, .i32⟩
  | 53 => ⟨S6400000, .i1⟩
  | 54 => ⟨S_, .i32⟩
  | 55 => ⟨S6400000, .i32⟩
  | 56 => ⟨S6400000, .i32⟩
  | 57 => ⟨S6400000, .i32⟩
  | 58 => ⟨S_, .i32⟩
  | 59 => ⟨S6400000, .i32⟩
  | 60 => ⟨S6400000, .i1⟩
  | 61 => ⟨S_, .i32⟩
  | 62 => ⟨S6400000, .i32⟩
  | 63 => ⟨S6400000, .i32⟩
  | 64 => ⟨S6400000, .i32⟩
  | 65 => ⟨S6400000x1, .i32⟩
  | 66 => ⟨S6400000x1, .i32⟩
  | 67 => ⟨S6400000x2, .i32⟩
  | 68 => ⟨S_, .f32⟩
  | 69 => ⟨S6400000, .f32⟩
  | 70 => ⟨S1025x100224, .f32⟩
  | 71 => ⟨S1024x100224, .f32⟩
  | 72 => ⟨S_, .i32⟩
  | 73 => ⟨S100000, .i32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S100000, .i32⟩
  | 84 => ⟨S_, .i32⟩
  | 85 => ⟨S6400000, .i32⟩
  | 86 => ⟨S6400000, .i1⟩
  | 87 => ⟨S_, .i32⟩
  | 88 => ⟨S6400000, .i32⟩
  | 89 => ⟨S6400000, .i32⟩
  | 90 => ⟨S6400000, .i32⟩
  | 91 => ⟨S6400000x1, .i32⟩
  | 92 => ⟨S6400000, .i32⟩
  | 93 => ⟨S_, .i32⟩
  | 94 => ⟨S6400000, .i32⟩
  | 95 => ⟨S6400000, .i1⟩
  | 96 => ⟨S_, .i32⟩
  | 97 => ⟨S_, .i32⟩
  | 98 => ⟨S6400000, .i32⟩
  | 99 => ⟨S6400000, .i32⟩
  | 100 => ⟨S_, .f32⟩
  | 101 => ⟨S1025x100224, .f32⟩
  | 102 => ⟨S_, .i32⟩
  | 103 => ⟨S6400000, .i32⟩
  | 104 => ⟨S6400000, .i1⟩
  | 105 => ⟨S_, .i32⟩
  | 106 => ⟨S6400000, .i32⟩
  | 107 => ⟨S6400000, .i32⟩
  | 108 => ⟨S6400000, .i32⟩
  | 109 => ⟨S_, .i32⟩
  | 110 => ⟨S6400000, .i32⟩
  | 111 => ⟨S6400000, .i1⟩
  | 112 => ⟨S_, .i32⟩
  | 113 => ⟨S6400000, .i32⟩
  | 114 => ⟨S6400000, .i32⟩
  | 115 => ⟨S6400000, .i32⟩
  | 116 => ⟨S6400000x1, .i32⟩
  | 117 => ⟨S6400000x1, .i32⟩
  | 118 => ⟨S6400000x2, .i32⟩
  | 119 => ⟨S_, .f32⟩
  | 120 => ⟨S6400000, .f32⟩
  | 121 => ⟨S1025x100224, .f32⟩
  | 122 => ⟨S1024x100224, .f32⟩
  | 123 => ⟨S_, .i32⟩
  | 124 => ⟨S_, .f32⟩
  | 125 => ⟨S100224x128, .f32⟩
  | 126 => ⟨S1024x128, .f32⟩
  | 127 => ⟨S_, .i32⟩
  | _ => ⟨S100000x128, .f32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1024x128, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1024x128, .f32⟩
  | 17 => ⟨S1024x128, .f32⟩
  | 18 => ⟨S128x512, .f32⟩
  | 19 => ⟨S128x512, .f32⟩
  | 20 => ⟨S1x512, .f32⟩
  | 21 => ⟨S1x1, .f32⟩
  | 22 => ⟨S1024x1, .f32⟩
  | 23 => ⟨S1024, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S512x3712, .f32⟩
  | .local _ .vmem, ⟨1, _⟩ => ⟨S512x3712, .f32⟩
  | .local _ .vmem, ⟨2, _⟩ => ⟨S512x3712, .f32⟩
  | .local _ .vmem, ⟨3, _⟩ => ⟨S512x3712, .f32⟩
  | .local _ .vmem, ⟨4, _⟩ => ⟨S3712x128, .f32⟩
  | .local _ .vmem, ⟨5, _⟩ => ⟨S3712x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1024x128, .f32⟩
  | .local _ .vmem, ⟨10, _⟩ => ⟨S1024x128, .f32⟩
  | .local _ .vmem, ⟨11, _⟩ => ⟨S128x512, .f32⟩
  | .local _ .vmem, ⟨12, _⟩ => ⟨S128x512, .f32⟩
  | .local _ .vmem, ⟨13, _⟩ => ⟨S1x512, .f32⟩
  | .local _ .vmem, ⟨14, _⟩ => ⟨S512x1, .f32⟩
  | .local _ .vmem, ⟨15, _⟩ => ⟨S1x1, .f32⟩
  | .local _ .vmem, ⟨16, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_c_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_v59 : Ref sig .tc := ⟨.hbm, 85, rfl⟩
abbrev main_v60 : Ref sig .tc := ⟨.hbm, 86, rfl⟩
abbrev main_c_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_c_17 : Ref sig .tc := ⟨.hbm, 96, rfl⟩
abbrev main_call1_v0 : Ref sig .tc := ⟨.hbm, 97, rfl⟩
abbrev main_call1_v1 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_c_19 : Ref sig .tc := ⟨.hbm, 102, rfl⟩
abbrev main_v70 : Ref sig .tc := ⟨.hbm, 103, rfl⟩
abbrev main_v71 : Ref sig .tc := ⟨.hbm, 104, rfl⟩
abbrev main_c_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_21 : Ref sig .tc := ⟨.hbm, 109, rfl⟩
abbrev main_v75 : Ref sig .tc := ⟨.hbm, 110, rfl⟩
abbrev main_v76 : Ref sig .tc := ⟨.hbm, 111, rfl⟩
abbrev main_c_22 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_23 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_24 : Ref sig .tc := ⟨.hbm, 123, rfl⟩
abbrev main_call2_v0 : Ref sig .tc := ⟨.hbm, 124, rfl⟩
abbrev main_v86 : Ref sig .tc := ⟨.hbm, 125, rfl⟩
abbrev main_v87 : Ref sig .tc := ⟨.hbm, 126, rfl⟩
abbrev main_c_25 : Ref sig .tc := ⟨.hbm, 127, rfl⟩
abbrev main_v88 : Ref sig .tc := ⟨.hbm, 128, rfl⟩
abbrev main_v89 : Ref sig .tc := ⟨.hbm, 129, rfl⟩
abbrev main_c_26 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_27 : Ref sig .tc := ⟨.hbm, 136, rfl⟩
abbrev main_v95 : Ref sig .tc := ⟨.hbm, 137, rfl⟩
abbrev main_v96 : Ref sig .tc := ⟨.hbm, 138, rfl⟩
abbrev main_c_28 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![2, 27], ![false, false]⟩

def k0_cond2 (i : grid0.Coords) : BitVec 1 :=
  let arg1 : BitVec 32 := BitVec.ofNat 32 (i 1).val
  let c26_i32 : BitVec 32 := 26#32
  let v18 : BitVec 1 := Scalar.cmpi .eq arg1 c26_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3712 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3712x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x1024_S1x1024_0_0 : S2x1024.Slices ![0, 0] S1x1024
  shapeCasts_S1x1024_S1024 : S1x1024.ShapeCasts S1024
  slices_S2x1024_S1x1024_1_0 : S2x1024.Slices ![1, 0] S1x1024
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S3200000_S6400000_d0 : Shape.Concatenates [S3200000, S3200000] S6400000 0
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S1025x100224 : S_.BroadcastsInDim S1025x100224 (![] : Fin 0 → Fin S1025x100224.rank)
  concatenates_S6400000x1_S6400000x1_S6400000x2_d1 : Shape.Concatenates [S6400000x1, S6400000x1] S6400000x2 1
  slices_S1025x100224_S1024x100224_0_0 : S1025x100224.Slices ![0, 0] S1024x100224
  pads_S100000x128_S100224x128_02240_000 : S100000x128.Pads (![0, 0] : Fin 2 → Nat) ![224, 0] ![0, 0] S100224x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x3712_S512x3712_0_0 : ∀ a, (![0, 0] : Fin 2 → Nat) a + S512x3712.size a ≤ S512x3712.size a
  h_S512x3712 : 0 < S512x3712.numel
  shapeCasts_S512x3712_S512x3712 : S512x3712.ShapeCasts S512x3712
  bitsLt_bf16_f32 : FTy.bits .bf16 < FTy.bits .f32
  inb_S3712x128_S3712x128_0_0 : ∀ a, (![0, 0] : Fin 2 → Nat) a + S3712x128.size a ≤ S3712x128.size a
  h_S3712x128 : 0 < S3712x128.numel
  shapeCasts_S3712x128_S3712x128 : S3712x128.ShapeCasts S3712x128
  slices_S256x512_S128x512_0_0 : S256x512.Slices ![0, 0] S128x512
  slices_S256x512_S128x512_128_0 : S256x512.Slices ![128, 0] S128x512
  shapeCasts_S512_S1x512 : S512.ShapeCasts S1x512
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  scatter_S100000_S1024x1_S1024_n_0_0_1_wf : ScatterDims.WF S100000 S1024x1 S1024 [] [0] [0] 1
  gather_S100000_S6400000x1_S6400000_n_0_n_n_0_1_1_wf : GatherDims.WF S100000 S6400000x1 S6400000 [] [0] [] [0] [] 1 ![1]
  scatter_S1025x100224_S6400000x2_S6400000_n_01_01_1_wf : ScatterDims.WF S1025x100224 S6400000x2 S6400000 [] [0, 1] [0, 1] 1
  dot_S512x3712_S3712x128_S512x128_1_0_0_1_n_n_wf : DotDims.WF S512x3712 S3712x128 S512x128 [1] [0] [0] [1] [] []
  gather_S100000x128_S1024x1_S1024x128_1_0_n_n_0_1_1128_wf : GatherDims.WF S100000x128 S1024x1 S1024x128 [1] [0] [] [0] [] 1 ![1, 128]
  dot_S1024x128_S128x512_S1024x512_1_0_0_1_n_n_wf : DotDims.WF S1024x128 S128x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3712.size a ≤ S1024x100224.size a
  hwx0_0 : ∀ i : grid0.Coords, EltTy.bits .f32 = 32 ∨ (Rect.block (s := S1024x100224) S512x3712.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3712.size a ≤ S1024x100224.size a
  hwx0_1 : ∀ i : grid0.Coords, EltTy.bits .f32 = 32 ∨ (Rect.block (s := S1024x100224) S512x3712.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3712x128.size a ≤ S100224x128.size a
  hwx0_2 : ∀ i : grid0.Coords, EltTy.bits .f32 = 32 ∨ (Rect.block (s := S100224x128) S3712x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S1024x128.size a
  hwx0_3 : ∀ i : grid0.Coords, EltTy.bits .f32 = 32 ∨ (Rect.block (s := S1024x128) S512x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)

variable [Facts₀]

def scatter_S100000_S1024x1_S1024_n_0_0_1 : ScatterDims S100000 S1024x1 S1024 where
  updateWindowDims := []
  insertedWindowDims := [0]
  scatterDimsToOperandDims := [0]
  indexVectorDim := 1
  wf := scatter_S100000_S1024x1_S1024_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S1025x100224_S6400000x2_S6400000_n_01_01_1 : ScatterDims S1025x100224 S6400000x2 S6400000 where
  updateWindowDims := []
  insertedWindowDims := [0, 1]
  scatterDimsToOperandDims := [0, 1]
  indexVectorDim := 1
  wf := scatter_S1025x100224_S6400000x2_S6400000_n_01_01_1_wf
def dot_S512x3712_S3712x128_S512x128_1_0_0_1_n_n : DotDims S512x3712 S3712x128 S512x128 where
  lhsContracting := [1]
  rhsContracting := [0]
  lhsNonContracting := [0]
  rhsNonContracting := [1]
  lhsBatch := []
  rhsBatch := []
  wf := dot_S512x3712_S3712x128_S512x128_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v49) S512x3712.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S512x3712.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S3712x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v87) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v102) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v87) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v103) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v104) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v105) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v106) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v107) S1024x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S2x1024 : Shape := ⟨2, ![2, 1024]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x1024 : Shape := ⟨2, ![1, 1024]⟩
abbrev S1024 : Shape := ⟨1, ![1024]⟩
abbrev S1x3200000 : Shape := ⟨2, ![1, 3200000]⟩
abbrev S3200000 : Shape := ⟨1, ![3200000]⟩
abbrev S6400000 : Shape := ⟨1, ![6400000]⟩
abbrev S_ : Shape := ⟨0, ![]⟩
abbrev S100000 : Shape := ⟨1, ![100000]⟩
abbrev S1024x1 : Shape := ⟨2, ![1024, 1]⟩
abbrev S6400000x1 : Shape := ⟨2, ![6400000, 1]⟩
abbrev S1025x100000 : Shape := ⟨2, ![1025, 100000]⟩
abbrev S6400000x2 : Shape := ⟨2, ![6400000, 2]⟩
abbrev S1024x100000 : Shape := ⟨2, ![1024, 100000]⟩
abbrev S1024x128 : Shape := ⟨2, ![1024, 128]⟩
abbrev S1024x256 : Shape := ⟨2, ![1024, 256]⟩
abbrev S1024x512 : Shape := ⟨2, ![1024, 512]⟩
abbrev S1x512 : Shape := ⟨2, ![1, 512]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x3200000, .i32⟩
  | 2 => ⟨S2x1024, .i32⟩
  | 3 => ⟨S256x512, .f32⟩
  | 4 => ⟨S512, .f32⟩
  | 5 => ⟨S512x1, .f32⟩
  | 6 => ⟨S1, .f32⟩
  | 7 => ⟨S1x1024, .i32⟩
  | 8 => ⟨S1024, .i32⟩
  | 9 => ⟨S1x1024, .i32⟩
  | 10 => ⟨S1024, .i32⟩
  | 11 => ⟨S1x3200000, .i32⟩
  | 12 => ⟨S3200000, .i32⟩
  | 13 => ⟨S1x3200000, .i32⟩
  | 14 => ⟨S3200000, .i32⟩
  | 15 => ⟨S6400000, .i32⟩
  | 16 => ⟨S1x3200000, .i32⟩
  | 17 => ⟨S3200000, .i32⟩
  | 18 => ⟨S1x3200000, .i32⟩
  | 19 => ⟨S3200000, .i32⟩
  | 20 => ⟨S6400000, .i32⟩
  | 21 => ⟨S_, .i32⟩
  | 22 => ⟨S100000, .i32⟩
  | 23 => ⟨S1024, .i32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S100000, .i32⟩
  | 33 => ⟨S_, .i32⟩
  | 34 => ⟨S6400000, .i32⟩
  | 35 => ⟨S6400000, .i1⟩
  | 36 => ⟨S_, .i32⟩
  | 37 => ⟨S6400000, .i32⟩
  | 38 => ⟨S6400000, .i32⟩
  | 39 => ⟨S6400000, .i32⟩
  | 40 => ⟨S6400000x1, .i32⟩
  | 41 => ⟨S6400000, .i32⟩
  | 42 => ⟨S_, .i32⟩
  | 43 => ⟨S6400000, .i32⟩
  | 44 => ⟨S6400000, .i1⟩
  | 45 => ⟨S_, .i32⟩
  | 46 => ⟨S_, .i32⟩
  | 47 => ⟨S6400000, .i32⟩
  | 48 => ⟨S6400000, .i32⟩
  | 49 => ⟨S_, .f32⟩
  | 50 => ⟨S1025x100000, .f32⟩
  | 51 => ⟨S_, .i32⟩
  | 52 => ⟨S6400000, .i32⟩
  | 53 => ⟨S6400000, .i1⟩
  | 54 => ⟨S_, .i32⟩
  | 55 => ⟨S6400000, .i32⟩
  | 56 => ⟨S6400000, .i32⟩
  | 57 => ⟨S6400000, .i32⟩
  | 58 => ⟨S_, .i32⟩
  | 59 => ⟨S6400000, .i32⟩
  | 60 => ⟨S6400000, .i1⟩
  | 61 => ⟨S_, .i32⟩
  | 62 => ⟨S6400000, .i32⟩
  | 63 => ⟨S6400000, .i32⟩
  | 64 => ⟨S6400000, .i32⟩
  | 65 => ⟨S6400000x1, .i32⟩
  | 66 => ⟨S6400000x1, .i32⟩
  | 67 => ⟨S6400000x2, .i32⟩
  | 68 => ⟨S_, .f32⟩
  | 69 => ⟨S6400000, .f32⟩
  | 70 => ⟨S1025x100000, .f32⟩
  | 71 => ⟨S1024x100000, .f32⟩
  | 72 => ⟨S_, .i32⟩
  | 73 => ⟨S100000, .i32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S100000, .i32⟩
  | 84 => ⟨S_, .i32⟩
  | 85 => ⟨S6400000, .i32⟩
  | 86 => ⟨S6400000, .i1⟩
  | 87 => ⟨S_, .i32⟩
  | 88 => ⟨S6400000, .i32⟩
  | 89 => ⟨S6400000, .i32⟩
  | 90 => ⟨S6400000, .i32⟩
  | 91 => ⟨S6400000x1, .i32⟩
  | 92 => ⟨S6400000, .i32⟩
  | 93 => ⟨S_, .i32⟩
  | 94 => ⟨S6400000, .i32⟩
  | 95 => ⟨S6400000, .i1⟩
  | 96 => ⟨S_, .i32⟩
  | 97 => ⟨S_, .i32⟩
  | 98 => ⟨S6400000, .i32⟩
  | 99 => ⟨S6400000, .i32⟩
  | 100 => ⟨S_, .f32⟩
  | 101 => ⟨S1025x100000, .f32⟩
  | 102 => ⟨S_, .i32⟩
  | 103 => ⟨S6400000, .i32⟩
  | 104 => ⟨S6400000, .i1⟩
  | 105 => ⟨S_, .i32⟩
  | 106 => ⟨S6400000, .i32⟩
  | 107 => ⟨S6400000, .i32⟩
  | 108 => ⟨S6400000, .i32⟩
  | 109 => ⟨S_, .i32⟩
  | 110 => ⟨S6400000, .i32⟩
  | 111 => ⟨S6400000, .i1⟩
  | 112 => ⟨S_, .i32⟩
  | 113 => ⟨S6400000, .i32⟩
  | 114 => ⟨S6400000, .i32⟩
  | 115 => ⟨S6400000, .i32⟩
  | 116 => ⟨S6400000x1, .i32⟩
  | 117 => ⟨S6400000x1, .i32⟩
  | 118 => ⟨S6400000x2, .i32⟩
  | 119 => ⟨S_, .f32⟩
  | 120 => ⟨S6400000, .f32⟩
  | 121 => ⟨S1025x100000, .f32⟩
  | 122 => ⟨S1024x100000, .f32⟩
  | 123 => ⟨S1024x100000, .f32⟩
  | 124 => ⟨S1024x128, .f32⟩
  | 125 => ⟨S_, .i32⟩
  | 126 => ⟨S1024, .i32⟩
  | 127 => ⟨S1024, .i1⟩
  | _ => ⟨S100000x128, .f32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x128, .f32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S1024x128, .f32⟩
  | 15 => ⟨S1024x128, .f32⟩
  | 16 => ⟨S1024x256, .f32⟩
  | 17 => ⟨S1024x512, .f32⟩
  | 18 => ⟨S1x512, .f32⟩
  | 19 => ⟨S1024x512, .f32⟩
  | 20 => ⟨S1024x512, .f32⟩
  | 21 => ⟨S_, .f32⟩
  | 22 => ⟨S1024x512, .f32⟩
  | 23 => ⟨S1024x512, .f32⟩
  | 24 => ⟨S1024x1, .f32⟩
  | 25 => ⟨S1x1, .f32⟩
  | 26 => ⟨S1024x1, .f32⟩
  | 27 => ⟨S1024x1, .f32⟩
  | 28 => ⟨S1024, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_c_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_v59 : Ref sig .tc := ⟨.hbm, 85, rfl⟩
abbrev main_v60 : Ref sig .tc := ⟨.hbm, 86, rfl⟩
abbrev main_c_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_c_17 : Ref sig .tc := ⟨.hbm, 96, rfl⟩
abbrev main_call1_v0 : Ref sig .tc := ⟨.hbm, 97, rfl⟩
abbrev main_call1_v1 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_c_19 : Ref sig .tc := ⟨.hbm, 102, rfl⟩
abbrev main_v70 : Ref sig .tc := ⟨.hbm, 103, rfl⟩
abbrev main_v71 : Ref sig .tc := ⟨.hbm, 104, rfl⟩
abbrev main_c_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_21 : Ref sig .tc := ⟨.hbm, 109, rfl⟩
abbrev main_v75 : Ref sig .tc := ⟨.hbm, 110, rfl⟩
abbrev main_v76 : Ref sig .tc := ⟨.hbm, 111, rfl⟩
abbrev main_c_22 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_23 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_24 : Ref sig .tc := ⟨.hbm, 125, rfl⟩
abbrev main_v88 : Ref sig .tc := ⟨.hbm, 126, rfl⟩
abbrev main_v89 : Ref sig .tc := ⟨.hbm, 127, rfl⟩
abbrev main_c_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_26 : Ref sig .tc := ⟨.hbm, 134, rfl⟩
abbrev main_v95 : Ref sig .tc := ⟨.hbm, 135, rfl⟩
abbrev main_v96 : Ref sig .tc := ⟨.hbm, 136, rfl⟩
abbrev main_c_27 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call2_cst : Ref sig .tc := ⟨.hbm, 149, rfl⟩
abbrev main_call2_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x1024_S1x1024_0_0 : S2x1024.Slices ![0, 0] S1x1024
  shapeCasts_S1x1024_S1024 : S1x1024.ShapeCasts S1024
  slices_S2x1024_S1x1024_1_0 : S2x1024.Slices ![1, 0] S1x1024
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S3200000_S6400000_d0 : Shape.Concatenates [S3200000, S3200000] S6400000 0
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S1025x100000 : S_.BroadcastsInDim S1025x100000 (![] : Fin 0 → Fin S1025x100000.rank)
  concatenates_S6400000x1_S6400000x1_S6400000x2_d1 : Shape.Concatenates [S6400000x1, S6400000x1] S6400000x2 1
  slices_S1025x100000_S1024x100000_0_0 : S1025x100000.Slices ![0, 0] S1024x100000
  concatenates_S1024x128_S1024x128_S1024x256_d1 : Shape.Concatenates [S1024x128, S1024x128] S1024x256 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S100000_S1024x1_S1024_n_0_0_1_wf : ScatterDims.WF S100000 S1024x1 S1024 [] [0] [0] 1
  gather_S100000_S6400000x1_S6400000_n_0_n_n_0_1_1_wf : GatherDims.WF S100000 S6400000x1 S6400000 [] [0] [] [0] [] 1 ![1]
  scatter_S1025x100000_S6400000x2_S6400000_n_01_01_1_wf : ScatterDims.WF S1025x100000 S6400000x2 S6400000 [] [0, 1] [0, 1] 1
  dot_S1024x100000_S100000x128_S1024x128_1_0_0_1_n_n_wf : DotDims.WF S1024x100000 S100000x128 S1024x128 [1] [0] [0] [1] [] []
  gather_S100000x128_S1024x1_S1024x128_1_0_n_n_0_1_1128_wf : GatherDims.WF S100000x128 S1024x1 S1024x128 [1] [0] [] [0] [] 1 ![1, 128]
  dot_S1024x256_S256x512_S1024x512_1_0_0_1_n_n_wf : DotDims.WF S1024x256 S256x512 S1024x512 [1] [0] [0] [1] [] []
  dot_S1024x512_S512x1_S1024x1_1_0_0_1_n_n_wf : DotDims.WF S1024x512 S512x1 S1024x1 [1] [0] [0] [1] [] []

variable [Facts₀]

def scatter_S100000_S1024x1_S1024_n_0_0_1 : ScatterDims S100000 S1024x1 S1024 where
  updateWindowDims := []
  insertedWindowDims := [0]
  scatterDimsToOperandDims := [0]
  indexVectorDim := 1
  wf := scatter_S100000_S1024x1_S1024_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S1025x100000_S6400000x2_S6400000_n_01_01_1 : ScatterDims S1025x100000 S6400000x2 S6400000 where
  updateWindowDims := []
  insertedWindowDims := [0, 1]
  scatterDimsToOperandDims := [0, 1]
  indexVectorDim := 1
  wf := scatter_S1025x100000_S6400000x2_S6400000_n_01_01_1_wf
def dot_S1024x100000_S100000x128_S1024x128_1_0_0_1_n_n : DotDims S1024x100000 S100000x128 S1024x128 where
  lhsContracting := [1]
  rhsContracting := [0]
  lhsNonContracting := [0]
  rhsNonContracting := [1]
  lhsBatch := []
  rhsBatch := []
  wf := dot_S1024x100000_S100000x128_S1024x128_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

class Facts : Prop extends Facts₀ where

variable [Facts]
-- ==== Proof.K.Data.lean ====
/-
  The proof data of the two kernel regions, at a parameter `V` (the buffers' contents when a region is
  entered).

  Region 0 runs over a 2 × 27 grid. At point (b, n) the kernel multiplies block (b, n) of the two adjacency
  arrays entry by entry, multiplies the product (a 512 × 3712 matrix) by block n of the padded feature array
  (3712 × 128), and adds the result to a 512 × 128 accumulator it keeps in a scratch buffer between points: the
  accumulator restarts from zero where n = 0 and is copied to the output block b where n = 26. `acc0` is that
  accumulator after each point, by recursion on the point; the region's invariant holds the scratch at it.

  Region 1 is one point: the whole two-layer perceptron on whole arrays.
-/
import proofs.«126571_j77292231459355_1_alg».proof.Proof.Gen.Kernel.Launch
import proofs.«126571_j77292231459355_1_alg».proof.Proof.Gen.Kernel.Skeleton
import proofs.«126571_j77292231459355_1_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer the kernel of region 0 keeps its accumulator in. -/
abbrev scM0 : Memref sig .tc .vmem S512x128 .f32 := Memref.whole cc0_scratch0

/-- The accumulator after the body at point `n`: the product of the point's blocks added to zero where the
    second grid coordinate is 0 (`n % 27 = 0`), to the accumulator of the point before otherwise. -/
def acc0 (c : Dev nD) : (n : ℕ) → n < cfg0.N → Vec F S512x128 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 27 = 0 then
      k0_pay2 (iblk0 V c 0 ⟨n + 1, hn⟩) (iblk0 V c 1 ⟨n + 1, hn⟩) (iblk0 V c 2 ⟨n + 1, hn⟩) (k0_pay1 (F := F))
    else
      k0_pay2 (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 27 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact if_pos h

theorem acc0_next (c : Dev nD) (t : Fin cfg0.N) (h : ¬ t.val % 27 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The scoped buffers region 0 neither stages nor touches: region 1's eight staging buffers, each whole at
    some contents. -/
def idle0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f))

/-- Region 0's invariant before position `n`: before the first point every scoped buffer no window stages at
    anything and the generator register at some state; afterwards the scratch at the accumulator the point before
    left, the other such buffers at anything, the register at some state. -/
def Phi0 (c : Dev nD) : (n : ℕ) → n ≤ cfg0.N → sProp 𝕄
  | 0, _ => Pipeline.ΦA spec0 c
  | n + 1, hn => iprop(owns (c : Thread nD τ) scM0 fullShare (acc0 V c n hn) ∗ idle0 (F := F) c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn) ∗ idle0 (F := F) c ∗ (∃ r, prngReg c r)) := rfl

theorem Phi0_pos (c : Dev nD) (n : ℕ) (h : n ≤ cfg0.N) (hz : n ≠ 0) :
    Phi0 V c n h = iprop(owns (c : Thread nD τ) scM0 fullShare (acc0 V c (n - 1) (by omega)) ∗ idle0 (F := F) c ∗ (∃ r, prngReg c r)) := by
  cases n with
  | zero => exact absurd rfl hz
  | succ n => rfl

/-- The proof data of region 0 on core `c`: the arrays as the region finds them; after the body at point `t` each
    input's buffer at its block and the output's at the accumulator (consulted only where the output is written
    back, `t % 27 = 26`); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]

/-! ## Region 1 -/

/-- Window `w`'s block at the one point of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body each input's
    buffer at its block and the output's at the perceptron of the input blocks; the invariant every scoped buffer
    no window stages at anything and the generator register at some state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    k1_pay1 (iblk1 V c 0 t) (iblk1 V c 1 t) (iblk1 V c 2 t) (iblk1 V c 3 t) (iblk1 V c 4 t) (iblk1 V c 5 t) (iblk1 V c 6 t) := by dsimp only [dat1]

end Cert.Kernel.Hand

end
-- ==== Proof.K.Body0.lean ====
/-
  The body of region 0 at every point of its 2 × 27 grid.

  At point (b, n) the kernel reads the three input blocks from their staging buffers, multiplies the two
  adjacency blocks entry by entry and the product by the feature block, and adds the result to the 512 × 128
  accumulator it keeps in its scratch buffer. Where n = 0 it first overwrites the scratch with zeros, so the
  accumulator restarts; where n = 26 it copies the scratch, after the addition, to the output's staging buffer.
  Everywhere else the output's buffer is neither stored into nor written back, and is handed back as found.

  So there are three cases of a point t, by t mod 27: 0 (first), 26 (last), anything else (middle). In each the
  scratch ends at `k0_pay2` of the three blocks and of what the scratch held before the addition: zeros in the
  first case, the accumulator of the point before otherwise. That is `acc0`, by `acc0_first` and `acc0_next`.
  A store through the whole rectangle of a buffer leaves its payload, and a load through it of what such a store
  left reads that payload: this is all the memory reasoning there is.
-/
import proofs.«126571_j77292231459355_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, in closed form over the grid -/

/-- The first branch condition of the body, from the grid coordinates: the second coordinate is 0. -/
abbrev cond0_0 (i : grid0.Coords) : Prop :=
  (Scalar.cmpi .ne (Scalar.extui (Scalar.cmpi .eq (BitVec.ofNat 32 (i 1).val) 0#32)) 0#32) = 1#1
/-- The second branch condition of the body: the second coordinate is 26. -/
abbrev cond0_1 (i : grid0.Coords) : Prop := k0_cond2 i = 1#1

/-- The first condition holds exactly at the points whose second coordinate is 0. -/
theorem hcond0_0 : ∀ t : Fin cfg0.N, cond0_0 (grid0.coords t) ↔ t.val % 27 = 0 :=
  (by decide +kernel : ∀ t : Fin grid0.N, cond0_0 (grid0.coords t) ↔ t.val % 27 = 0)

/-- The second condition holds exactly at the points whose second coordinate is 26. -/
theorem hcond0_1 : ∀ t : Fin cfg0.N, cond0_1 (grid0.coords t) ↔ t.val % 27 = 26 :=
  (by decide +kernel : ∀ t : Fin grid0.N, cond0_1 (grid0.coords t) ↔ t.val % 27 = 26)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the points whose second coordinate is 26 the output is idle, -/
theorem idleAt0_3 : ∀ t : Fin cfg0.N, ¬cond0_1 (grid0.coords t) → cfg0.idle 3 (grid0.coords t) = true := by decide +kernel
/-- and is not written back; -/
theorem noFlush0_3 : ∀ t : Fin cfg0.N, ¬cond0_1 (grid0.coords t) → (cfg0.win 3).flush t = false := by decide +kernel
/-- at those points it is live. -/
theorem liveAt0_3 : ∀ t : Fin cfg0.N, cond0_1 (grid0.coords t) → cfg0.idle 3 (grid0.coords t) = false := by decide +kernel

/-! ## What the body finds in the inputs' buffers -/

/-- An input's current staging buffer holds its block at every point, fetched there or not: unfetched, the block
    index has not moved. For any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant before the first point, opened -/

/-- Separating conjunction re-associated, as an equation between propositions. -/
theorem sep_assoc_eq {M : Type} [URA M] (A B G : sProp M) : (iprop((A ∗ B) ∗ G) : sProp M) = iprop(A ∗ B ∗ G) := by
  have h₁ : (iprop((A ∗ B) ∗ G) : sProp M) ⊢ iprop(A ∗ B ∗ G) := by
    iintro ⟨⟨HA, HB⟩, HG⟩
    isplitl [HA]; · iexact HA
    isplitl [HB]; · iexact HB
    iexact HG
  have h₂ : (iprop(A ∗ B ∗ G) : sProp M) ⊢ iprop((A ∗ B) ∗ G) := by
    iintro ⟨HA, HB, HG⟩
    isplitl [HA HB]
    · isplitl [HA]; · iexact HA
      iexact HB
    iexact HG
  exact BI.equiv_iff.mp ⟨h₁, h₂⟩

/-- Before the first point the region holds the scratch at some contents, region 1's eight staging buffers at some
    contents each, and the generator register at some state. -/
theorem PhiA0_eq (c : Dev nD) :
    (Pipeline.ΦA spec0 c : sProp 𝕄)
      = iprop((∃ a, owns (c : Thread nD τ) scM0 fullShare a) ∗ idle0 (F := F) c ∗ (∃ r, prngReg c r)) := by
  unfold Pipeline.ΦA; rw [scopedRest0_eq]; unfold idle0; simp only [scM0, owns_whole]
  exact sep_assoc_eq _ _ _

/-! ## The kernel on any whole memrefs, case by case

Each triple is over arbitrary whole memrefs and arbitrary contents `x0 x1 x2` of the inputs' buffers. The output's
buffer `arg5` appears only in the last case: elsewhere the kernel does not touch it. -/

/-- The whole 512 × 128 rectangle, through which the kernel loads and stores the scratch and the output. -/
abbrev rAcc : Rect S512x128 := Rect.unit (s := S512x128) ![0, 0] S512x128.size inb_S512x128_S512x128_0_0

theorem zeros_acc : (![0, 0] : Fin S512x128.rank → Nat) = fun _ => 0 := by funext a; fin_cases a <;> rfl
theorem zeros_adj : (![0, 0] : Fin S512x3712.rank → Nat) = fun _ => 0 := by funext a; fin_cases a <;> rfl
theorem zeros_feat : (![0, 0] : Fin S3712x128.rank → Nat) = fun _ => 0 := by funext a; fin_cases a <;> rfl

/-- A load of a whole buffer reads its contents: the two adjacency blocks', the feature block's, the accumulator's. -/
theorem ld_rA (X : Vec F S512x3712 .f32) :
    View.ld X (Rect.unit (s := S512x3712) ![0, 0] S512x3712.size inb_S512x3712_S512x3712_0_0) = X :=
  View.ld_unit_zero (S := S512x3712) zeros_adj inb_S512x3712_S512x3712_0_0 X
theorem ld_rX (X : Vec F S3712x128 .f32) :
    View.ld X (Rect.unit (s := S3712x128) ![0, 0] S3712x128.size inb_S3712x128_S3712x128_0_0) = X :=
  View.ld_unit_zero (S := S3712x128) zeros_feat inb_S3712x128_S3712x128_0_0 X
theorem ld_rAcc (X : Vec F S512x128 .f32) :
    View.ld X (Rect.unit (s := S512x128) ![0, 0] S512x128.size inb_S512x128_S512x128_0_0) = X :=
  View.ld_unit_zero (S := S512x128) zeros_acc inb_S512x128_S512x128_0_0 X

/-- What a buffer reads after a last store of the whole buffer is the stored value, whatever was stored before. -/
theorem read_writes_rAcc {κ : Kind} {sp : Space} (v : View sig κ sp S512x128 .f32) (f : v.ty.Contents (Elt F))
    (w : Vec F S512x128 .f32) (L : List (View.Piece (Elt F) S512x128 .f32)) :
    v.read (Elt F) (v.writes (Elt F) f ((⟨rAcc, w⟩ : View.Piece (Elt F) S512x128 .f32) :: L)) = w := by
  have hcov : ∀ y : S512x128.Idx, ∃ p ∈ ((⟨rAcc, w⟩ : View.Piece (Elt F) S512x128 .f32) :: L), y ∈ p.1.set :=
    fun y => ⟨⟨rAcc, w⟩, List.mem_cons_self, View.mem_set_unit_zero (S := S512x128) zeros_acc inb_S512x128_S512x128_0_0 y⟩
  rw [View.read_writes_eq_canon v f _ hcov]
  exact View.canon_cons_unit_zero (S := S512x128) zeros_acc inb_S512x128_S512x128_0_0 w L

/-- A load of the whole buffer after a store of the whole buffer reads the stored value. -/
theorem readCov_rAcc {κ : Kind} {sp : Space} (v : View sig κ sp S512x128 .f32) (w : Vec F S512x128 .f32)
    (L : List (View.Piece (Elt F) S512x128 .f32)) : v.readCov (⟨rAcc, w⟩ :: L) rAcc.toLoadRect = w :=
  View.readCov_cons_toLoadRect v rAcc w L

set_option maxHeartbeats 1000000 in
/-- FIRST case (second coordinate 0): the scratch, at anything, is overwritten with zeros and the product of the
    blocks is added to that. -/
theorem kernel0_first (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : cond0_0 i) (hc1 : ¬cond0_1 i)
    (x0 x1 : Vec F S512x3712 .f32) (x2 : Vec F S3712x128 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a)
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 x0 x1 x2 (k0_pay1 (F := F)))) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%a, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_rAcc _ _ _ _).trans ?_
  sl_unfold_run_names
  rw [readCov_rAcc, View.readAt_eq_ld, View.readAt_eq_ld, View.readAt_eq_ld, hf0, hf1, hf2, ld_rA, ld_rA, ld_rX]

set_option maxHeartbeats 1000000 in
/-- MIDDLE case (second coordinate neither 0 nor 26): the product of the blocks is added to what the scratch holds. -/
theorem kernel0_mid (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : ¬cond0_0 i) (hc1 : ¬cond0_1 i)
    (x0 x1 : Vec F S512x3712 .f32) (x2 : Vec F S3712x128 .f32) (a : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 x0 x1 x2 a)) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_rAcc _ _ _ _).trans ?_
  try sl_unfold_run_names
  rw [View.readAt_eq_ld, View.readAt_eq_ld, View.readAt_eq_ld, View.readAt_eq_ld, hf0, hf1, hf2, hfs, ld_rA, ld_rA, ld_rX, ld_rAcc]

set_option maxHeartbeats 1000000 in
/-- LAST case (second coordinate 26): the product of the blocks is added to what the scratch holds, and the sum is
    copied to the output's buffer, which held anything. -/
theorem kernel0_last (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : ¬cond0_0 i) (hc1 : cond0_1 i)
    (x0 x1 : Vec F S512x3712 .f32) (x2 : Vec F S3712x128 .f32) (a : Vec F S512x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2 a) ∗ owns (c : Thread nD τ) arg6 fullShare (k0_pay2 x0 x1 x2 a)) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_rAcc _ _ _ _).trans ?_
    try sl_unfold_run_names
    rw [readCov_rAcc, View.readAt_eq_ld, View.readAt_eq_ld, View.readAt_eq_ld, View.readAt_eq_ld, hf0, hf1, hf2, hfs, ld_rA, ld_rA, ld_rX, ld_rAcc]
  iexists _; isplitr
  swap; · iexact HS
  ipureintro
  refine (read_writes_rAcc _ _ _ _).trans ?_
  try sl_unfold_run_names
  rw [View.readAt_eq_ld, View.readAt_eq_ld, View.readAt_eq_ld, View.readAt_eq_ld, hf0, hf1, hf2, hfs, ld_rA, ld_rA, ld_rX, ld_rAcc]

/-! ## The body obligation, at a generic point -/

/-- What the body is called with at point `t`: the invariant, what the core owes, and the four windows' current
    staging buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's residue mod 27 says which case it is
    in; the invariant hands the body the scratch at the accumulator of the point before (at anything before the
    first point) and takes it back at this point's accumulator; the output's buffer is handed back as found except
    at the last case, where it holds this point's accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 54 := lt_of_lt_of_eq t.isLt (show cfg0.N = 54 from N_0)
  by_cases h0 : t.val % 27 = 0
  · -- first case
    have h1 : ¬t.val % 27 = 26 := by omega
    rw [Dat.leavesExact_idle (dat0 V c) 3 t (idleAt0_3 t (fun h => h1 ((hcond0_1 t).mp h))) (noFlush0_3 t (fun h => h1 ((hcond0_1 t).mp h)))]
    rw [acc0_first V c t h0]
    by_cases hz : t.val = 0
    · rw [Phi0_castSucc V c t, Phi0_zero V c _ _ hz, PhiA0_eq]
      iintro ⟨⟨HS, Hi, Hg⟩, Ho, ⟨%d0, H0⟩, ⟨%d1, H1⟩, ⟨%d2, H2⟩, ⟨%d3, H3⟩⟩
      iapply (kernel0_first c Set.univ (grid0.coords t) _ _ _ _ _ _ _ _ _ _ ((hcond0_0 t).mpr h0) (fun h => h1 ((hcond0_1 t).mp h))
        (iblk0 V c 0 t) (iblk0 V c 1 t) (iblk0 V c 2 t) _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨HS, Hi, Hg⟩, Ho, ⟨%d0, H0⟩, ⟨%d1, H1⟩, ⟨%d2, H2⟩, ⟨%d3, H3⟩⟩
      iapply (kernel0_first c Set.univ (grid0.coords t) _ _ _ _ _ _ _ _ _ _ ((hcond0_0 t).mpr h0) (fun h => h1 ((hcond0_1 t).mp h))
        (iblk0 V c 0 t) (iblk0 V c 1 t) (iblk0 V c 2 t) _)
      isplitl [H0]; · iexact H0
      isplitl [H1]; · iexact H1
      isplitl [H2]; · iexact H2
      isplitl [HS]; · iexists _; iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc0_next V c t h0]
    rw [Phi0_castSucc V c t, Phi0_pos V c _ _ hz]
    by_cases h1 : t.val % 27 = 26
    · -- last case
      rw [show (dat0 V c).leavesExact 3 t = owns (c : Thread nD τ) (st0_3 t) fullShare ((dat0 V c).after 3 t) from by
        unfold Dat.leavesExact; rw [liveAt0_3 t ((hcond0_1 t).mpr h1)], after0_3]
      rw [acc0_next V c t h0]
      iintro ⟨⟨HS, Hi, Hg⟩, Ho, ⟨%d0, H0⟩, ⟨%d1, H1⟩, ⟨%d2, H2⟩, ⟨%d3, H3⟩⟩
      iapply (kernel0_last c Set.univ (grid0.coords t) _ _ _ _ _ _ _ _ _ _ (fun h => h0 ((hcond0_0 t).mp h)) ((hcond0_1 t).mpr h1)
        (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexact H3
    · -- middle case
      rw [Dat.leavesExact_idle (dat0 V c) 3 t (idleAt0_3 t (fun h => h1 ((hcond0_1 t).mp h))) (noFlush0_3 t (fun h => h1 ((hcond0_1 t).mp h)))]
      iintro ⟨⟨HS, Hi, Hg⟩, Ho, ⟨%d0, H0⟩, ⟨%d1, H1⟩, ⟨%d2, H2⟩, ⟨%d3, H3⟩⟩
      iapply (kernel0_mid c Set.univ (grid0.coords t) _ _ _ _ _ _ _ _ _ _ (fun h => h0 ((hcond0_0 t).mp h)) (fun h => h1 ((hcond0_1 t).mp h))
        (iblk0 V c 0 t) (iblk0 V c 1 t) (iblk0 V c 2 t) _ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the launch handed over: the accumulator's value is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, Hi, Hg⟩
  isplitl [HS]; · iexists _; iexact HS
  isplitl [Hi]; · iexact Hi
  iexact Hg

/-- In particular after the last. -/
theorem hout0 (c : Dev nD) : (dat0 V c).Φ (Fin.last cfg0.N) ⊢ Pipeline.ΦA spec0 c :=
  Phi0_out V c _ (by rw [Fin.val_last]; have : cfg0.N = 54 := N_0; omega)

end Cert.Kernel.Hand

end
-- ==== Proof.K.Body1.lean ====
/-
  Region 1's body obligation.

  Region 1 has one grid point. Its body reads the seven input buffers whole, reads the output buffer once, and
  stores the two-layer perceptron of the seven values read through the output buffer's whole rectangle. So after the
  body every input buffer still holds its block, the output buffer holds the perceptron of the seven blocks, and the
  region's invariant (the scoped buffers no window stages, the generator register) is handed back as it was found.

  The body's triple is stated over arbitrary whole buffers and arbitrary contents `x0 … x6` of the literal vector
  types; it is instantiated at the windows' blocks only in the last step.
-/
import proofs.«126571_j77292231459355_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's buffer holds its block

An input window is never written by the body, never idle and uncut; so at every point its current buffer holds the
window's block there, fetched at that point or not (unfetched, the block index has not moved). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

/-! ## The body's accesses

Every load and the one store go through the whole rectangle of the buffer's shape: offsets zero, the shape's own
sizes. A load through it reads the contents; one store through it leaves its payload. -/

theorem zeros2 : (![0, 0] : Fin 2 → Nat) = fun _ => 0 := funext fun a => by fin_cases a <;> rfl

abbrev rIn01 : Rect S1024x128 := Rect.unit (s := S1024x128) ![0, 0] S1024x128.size inb_S1024x128_S1024x128_0_0
abbrev rIn23 : Rect S128x512 := Rect.unit (s := S128x512) ![0, 0] S128x512.size inb_S128x512_S128x512_0_0
abbrev rIn4 : Rect S1x512 := Rect.unit (s := S1x512) ![0, 0] S1x512.size inb_S1x512_S1x512_0_0
abbrev rIn5 : Rect S512x1 := Rect.unit (s := S512x1) ![0, 0] S512x1.size inb_S512x1_S512x1_0_0
abbrev rIn6 : Rect S1x1 := Rect.unit (s := S1x1) ![0, 0] S1x1.size inb_S1x1_S1x1_0_0
abbrev rOut : Rect S1024x1 := Rect.unit (s := S1024x1) ![0, 0] S1024x1.size inb_S1024x1_S1024x1_0_0

/-- What the body leaves in the output buffer, as the list of its stores (there is one) over the values its loads
    read. -/
def out1_7 (x0 x1 : Vec F S1024x128 .f32) (x2 x3 : Vec F S128x512 .f32) (x4 : Vec F S1x512 .f32)
    (x5 : Vec F S512x1 .f32) (x6 : Vec F S1x1 .f32) : Vec F S1024x1 .f32 :=
  View.canon [⟨rOut, k1_pay1 (View.ld x0 rIn01) (View.ld x1 rIn01) (View.ld x2 rIn23) (View.ld x3 rIn23)
    (View.ld x4 rIn4) (View.ld x5 rIn5) (View.ld x6 rIn6)⟩]

/-- The one store covers the output buffer: every index lies in the whole rectangle. -/
theorem cover1_7 (p0 : Vec F S1024x1 .f32) (y : S1024x1.Idx) :
    ∃ pc ∈ ([⟨rOut, p0⟩] : List (View.Piece (Elt F) S1024x1 .f32)), y ∈ pc.1.set :=
  ⟨_, List.mem_singleton_self _, View.mem_set_unit_zero (S := S1024x1) zeros2 inb_S1024x1_S1024x1_0_0 y⟩

/-- So the output buffer ends at the perceptron of the contents read: the store's payload, each load reading its
    buffer's contents. -/
theorem out1_7_eq (x0 x1 : Vec F S1024x128 .f32) (x2 x3 : Vec F S128x512 .f32) (x4 : Vec F S1x512 .f32)
    (x5 : Vec F S512x1 .f32) (x6 : Vec F S1x1 .f32) :
    out1_7 x0 x1 x2 x3 x4 x5 x6 = k1_pay1 x0 x1 x2 x3 x4 x5 x6 := by
  unfold out1_7
  rw [View.canon_unit_zero (S := S1024x1) zeros2 inb_S1024x1_S1024x1_0_0]
  rw [View.ld_unit_zero (S := S1024x128) zeros2 inb_S1024x128_S1024x128_0_0 x0,
    View.ld_unit_zero (S := S1024x128) zeros2 inb_S1024x128_S1024x128_0_0 x1,
    View.ld_unit_zero (S := S128x512) zeros2 inb_S128x512_S128x512_0_0 x2,
    View.ld_unit_zero (S := S128x512) zeros2 inb_S128x512_S128x512_0_0 x3,
    View.ld_unit_zero (S := S1x512) zeros2 inb_S1x512_S1x512_0_0 x4,
    View.ld_unit_zero (S := S512x1) zeros2 inb_S512x1_S512x1_0_0 x5,
    View.ld_unit_zero (S := S1x1) zeros2 inb_S1x1_S1x1_0_0 x6]

/-! ## The body's triple -/

set_option maxHeartbeats 1000000 in
/-- The kernel body on whole buffers, the inputs' at contents `x0 … x6` and the output's at anything, runs to the
    continuation holding the inputs' as they were and the output's at the perceptron of `x0 … x6`. -/
theorem sound_kernel1 (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x1 .f32) (harg7 : arg7.IsWhole) (arg8 : Memref sig .tc .vmem S1024x1 .f32) (harg8 : arg8.IsWhole)
    (x0 x1 : Vec F S1024x128 .f32) (x2 x3 : Vec F S128x512 .f32) (x4 : Vec F S1x512 .f32)
    (x5 : Vec F S512x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 x0 x1 x2 x3 x4 x5 x6)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8) K := by
  rw [← out1_7_eq x0 x1 x2 x3 x4 x5 x6]
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation at the region's points -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies at the blocks; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: six stretches of host operations, the first kernel region, a stretch, the
  second region, and the final reshape — ten segments. Between two segments the core holds every unscoped
  buffer at a named valuation: the launch memory, then each stretch's operations applied in order, then, after a
  region, the region's arrays at what its write-backs leave and every other buffer as it was. Every weakly fair
  execution terminates, nothing faults, and every final state has every unscoped buffer at the last valuation:
  the arguments as launched, and the result array at the final reshape of what the second region leaves.
-/
import proofs.«126571_j77292231459355_1_alg».proof.Proof.K.Data
import proofs.«126571_j77292231459355_1_alg».proof.Proof.K.Body0
import proofs.«126571_j77292231459355_1_alg».proof.Proof.K.Body1
import proofs.«126571_j77292231459355_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- When region 0 is entered (after the six host stretches), read at the TensorCore's references. -/
abbrev U6 : (c : Dev nD) → (b : Ref sig .tc) → Buf (Elt F) ((c : Thread nD τ).loc b) := fun c b => V6 m c b

/-- At region 0's exit: its arrays at what the pipeline leaves, every other buffer as entered. -/
def W7 (c : Dev nD) : Valuation τ sig (Elt F) :=
  Pipeline.withArrays spec0 c (V6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- After the stretch between the regions (region 1's entry). -/
abbrev W8 : Dev nD → Valuation τ sig (Elt F) := fun c => StableHlo.after hostOps1 (W7 m c)
abbrev U8 : (c : Dev nD) → (b : Ref sig .tc) → Buf (Elt F) ((c : Thread nD τ).loc b) := fun c b => W8 m c b

/-- At region 1's exit: its arrays at what the pipeline leaves, every other buffer as entered. -/
def W9 (c : Dev nD) : Valuation τ sig (Elt F) :=
  Pipeline.withArrays spec1 c (W8 m c) fun w => (dat1 (U8 m) c).arrAt w cfg1.N
theorem W9_arr (c : Dev nD) (w : Fin cfg1.W) :
    W9 m c (Proc.devRef .tc (Pipeline.arrRef spec1 w)) = (dat1 (U8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev U9 : (c : Dev nD) → (b : Ref sig .tc) → Buf (Elt F) ((c : Thread nD τ).loc b) := fun c b => W9 m c b
theorem hF1 (c : Dev nD) (w : Fin cfg1.W) : (dat1 (U8 m) c).arrAt w cfg1.N = U9 m c (Pipeline.arrRef spec1 w) :=
  (W9_arr m c w).symm
theorem hrest1 (c : Dev nD) : ∀ b, b ∉ Finset.univ.image (Pipeline.arrRef spec1) → U9 m c b = U8 m c b :=
  fun b hb => W9_of_ne m c b fun w e => hb (Finset.mem_image.mpr ⟨w, Finset.mem_univ _, e⟩)

/-- After the final reshape: the last boundary. -/
abbrev W10 : Dev nD → Valuation τ sig (Elt F) := fun c => StableHlo.after hostOps2 (W9 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at the sixth stretch's contents, left at
    `W7`. Its arrays are split out of the unscoped buffers and put back at the exit contents; the generator register
    and the scoped buffers no window stages go into the region's invariant (whose first form is the class's, `hin0`)
    and come back out of its last form (`hout0`); nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U6 m) c).Φ 0 from rfl]
    refine BIBase.Entails.trans ?_ (hin0 (U6 m) c)
    unfold Pipeline.ΦA
    iintro ⟨Hp, -, Hr⟩
    isplitl [Hr]; · iexact Hr
    iexact Hp
  hout c := by
    rw [Pipeline.ownSems0_none, show (pdats m 0 c).Φ (Fin.last _) = (dat0 (U6 m) c).Φ (Fin.last cfg0.N) from rfl]
    refine BIBase.Entails.trans (hout0 (U6 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`; the class's invariant
    in and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (U8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U8 m c) (U9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The ten segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m),
    .host (hseg hostOps2 hostOps2_sub hostOps2_fresh (W9 m)) ]

/-- The program is the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents `W10`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

theorem W10_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : ∀ w, Pipeline.arrRef spec0 w ≠ r)
    (h7 : r ∉ hostOps1_W) (h8 : ∀ w, Pipeline.arrRef spec1 w ≠ r) (h9 : r ∉ hostOps2_W) :
    W10 m c (Proc.devRef .tc r) = m ((c : Thread nD τ).loc r) :=
  (StableHlo.after_of_writes_sub hostOps2 _ hostOps2_writes h9).trans <| (W9_of_ne m c r h8).trans <|
    (StableHlo.after_of_writes_sub hostOps1 _ hostOps1_writes h7).trans <| (W7_of_ne m c r h6).trans <|
    (V6_of m c r h5).trans <| (V5_of m c r h4).trans <| (V4_of m c r h3).trans <| (V3_of m c r h2).trans <|
    (V2_of m c r h1).trans <| (V1_of m c r h0).trans rfl

/-- The second weight matrix is passed to region 1 as an input window's array: an input's array is never written
    back, so it too ends as launched. -/
theorem W10_arg5 (c : Dev nD) : W10 m c (Proc.devRef .tc main_arg5) = m ((c : Thread nD τ).loc main_arg5) :=
  (StableHlo.after_of_writes_sub hostOps2 _ hostOps2_writes (by decide)).trans <|
    ((W9_arr m c 5).trans (((dat1 (U8 m) c).arrAt_in 5 rfl _).trans (A_eq1 (U8 m) c 5))).trans <|
    (StableHlo.after_of_writes_sub hostOps1 _ hostOps1_writes (by decide)).trans <| (W7_of_ne m c main_arg5 (by decide)).trans <|
    (V6_of m c main_arg5 (by decide)).trans <| (V5_of m c main_arg5 (by decide)).trans <| (V4_of m c main_arg5 (by decide)).trans <|
    (V3_of m c main_arg5 (by decide)).trans <| (V2_of m c main_arg5 (by decide)).trans <| (V1_of m c main_arg5 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W10_arg m c main_arg0 (by decide) (by decide) (by decide) (by decide) (by decide) (by decide) (by decide) (by decide) (by decide) (by decide)),
     (h c _ (mem_uc main_arg1 (by decide))).trans (W10_arg m c main_arg1 (by decide) (by decide) (by decide) (by decide) (by decide) (by decide) (by decide) (by decide) (by decide) (by decide)),
     (h c _ (mem_uc main_arg2 (by decide))).trans (W10_arg m c main_arg2 (by decide) (by decide) (by decide) (by decide) (by decide) (by decide) (by decide) (by decide) (by decide) (by decide)),
     (h c _ (mem_uc main_arg3 (by decide))).trans (W10_arg m c main_arg3 (by decide) (by decide) (by decide) (by decide) (by decide) (by decide) (by decide) (by decide) (by decide) (by decide)),
     (h c _ (mem_uc main_arg4 (by decide))).trans (W10_arg m c main_arg4 (by decide) (by decide) (by decide) (by decide) (by decide) (by decide) (by decide) (by decide) (by decide) (by decide)),
     (h c _ (mem_uc main_arg5 (by decide))).trans (W10_arg5 m c),
     (h c _ (mem_uc main_arg6 (by decide))).trans (W10_arg m c main_arg6 (by decide) (by decide) (by decide) (by decide) (by decide) (by decide) (by decide) (by decide) (by decide) (by decide))⟩)
    (run m ρ)

end Cert.Kernel.Hand

end
-- ==== Proof.KI.Data.lean ====
/-
  The proof data of the two kernel regions, at a parameter `V` (the buffers' contents when a region is
  entered).

  Region 0 runs over a 2 × 27 grid. At point (b, n) the kernel multiplies block (b, n) of the two adjacency
  arrays entry by entry, multiplies the product (a 512 × 3712 matrix) by block n of the padded feature array
  (3712 × 128), and adds the result to a 512 × 128 accumulator it keeps in a scratch buffer between points: the
  accumulator restarts from zero where n = 0 and is copied to the output block b where n = 26. `acc0` is that
  accumulator after each point, by recursion on the point; the region's invariant holds the scratch at it.

  Region 1 is one point: the whole two-layer perceptron on whole arrays.
-/
import proofs.«126571_j77292231459355_1_alg».proof.Proof.Gen.KernelIdeal.Launch
import proofs.«126571_j77292231459355_1_alg».proof.Proof.Gen.KernelIdeal.Skeleton
import proofs.«126571_j77292231459355_1_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer the kernel of region 0 keeps its accumulator in. -/
abbrev scM0 : Memref sig .tc .vmem S512x128 .f32 := Memref.whole cc0_scratch0

/-- The accumulator after the body at point `n`: the product of the point's blocks added to zero where the
    second grid coordinate is 0 (`n % 27 = 0`), to the accumulator of the point before otherwise. -/
def acc0 (c : Dev nD) : (n : ℕ) → n < cfg0.N → Vec F S512x128 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 27 = 0 then
      k0_pay2 (iblk0 V c 0 ⟨n + 1, hn⟩) (iblk0 V c 1 ⟨n + 1, hn⟩) (iblk0 V c 2 ⟨n + 1, hn⟩) (k0_pay1 (F := F))
    else
      k0_pay2 (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 27 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact if_pos h

theorem acc0_next (c : Dev nD) (t : Fin cfg0.N) (h : ¬ t.val % 27 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The scoped buffers region 0 neither stages nor touches: region 1's eight staging buffers, each whole at
    some contents. -/
def idle0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f))

/-- Region 0's invariant before position `n`: before the first point every scoped buffer no window stages at
    anything and the generator register at some state; afterwards the scratch at the accumulator the point before
    left, the other such buffers at anything, the register at some state. -/
def Phi0 (c : Dev nD) : (n : ℕ) → n ≤ cfg0.N → sProp 𝕄
  | 0, _ => Pipeline.ΦA spec0 c
  | n + 1, hn => iprop(owns (c : Thread nD τ) scM0 fullShare (acc0 V c n hn) ∗ idle0 (F := F) c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn) ∗ idle0 (F := F) c ∗ (∃ r, prngReg c r)) := rfl

theorem Phi0_pos (c : Dev nD) (n : ℕ) (h : n ≤ cfg0.N) (hz : n ≠ 0) :
    Phi0 V c n h = iprop(owns (c : Thread nD τ) scM0 fullShare (acc0 V c (n - 1) (by omega)) ∗ idle0 (F := F) c ∗ (∃ r, prngReg c r)) := by
  cases n with
  | zero => exact absurd rfl hz
  | succ n => rfl

/-- The proof data of region 0 on core `c`: the arrays as the region finds them; after the body at point `t` each
    input's buffer at its block and the output's at the accumulator (consulted only where the output is written
    back, `t % 27 = 26`); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]

/-! ## Region 1 -/

/-- Window `w`'s block at the one point of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body each input's
    buffer at its block and the output's at the perceptron of the input blocks; the invariant every scoped buffer
    no window stages at anything and the generator register at some state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    k1_pay1 (iblk1 V c 0 t) (iblk1 V c 1 t) (iblk1 V c 2 t) (iblk1 V c 3 t) (iblk1 V c 4 t) (iblk1 V c 5 t) (iblk1 V c 6 t) := by dsimp only [dat1]

end Cert.KernelIdeal.Hand

end
-- ==== Proof.KI.Body0.lean ====
/-
  The body of region 0 at every point of its 2 × 27 grid.

  At point (b, n) the kernel reads the three input blocks from their staging buffers, multiplies the two
  adjacency blocks entry by entry and the product by the feature block, and adds the result to the 512 × 128
  accumulator it keeps in its scratch buffer. Where n = 0 it first overwrites the scratch with zeros, so the
  accumulator restarts; where n = 26 it copies the scratch, after the addition, to the output's staging buffer.
  Everywhere else the output's buffer is neither stored into nor written back, and is handed back as found.

  So there are three cases of a point t, by t mod 27: 0 (first), 26 (last), anything else (middle). In each the
  scratch ends at `k0_pay2` of the three blocks and of what the scratch held before the addition: zeros in the
  first case, the accumulator of the point before otherwise. That is `acc0`, by `acc0_first` and `acc0_next`.
  A store through the whole rectangle of a buffer leaves its payload, and a load through it of what such a store
  left reads that payload: this is all the memory reasoning there is.
-/
import proofs.«126571_j77292231459355_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, in closed form over the grid -/

/-- The first branch condition of the body, from the grid coordinates: the second coordinate is 0. -/
abbrev cond0_0 (i : grid0.Coords) : Prop :=
  (Scalar.cmpi .ne (Scalar.extui (Scalar.cmpi .eq (BitVec.ofNat 32 (i 1).val) 0#32)) 0#32) = 1#1
/-- The second branch condition of the body: the second coordinate is 26. -/
abbrev cond0_1 (i : grid0.Coords) : Prop := k0_cond2 i = 1#1

/-- The first condition holds exactly at the points whose second coordinate is 0. -/
theorem hcond0_0 : ∀ t : Fin cfg0.N, cond0_0 (grid0.coords t) ↔ t.val % 27 = 0 :=
  (by decide +kernel : ∀ t : Fin grid0.N, cond0_0 (grid0.coords t) ↔ t.val % 27 = 0)

/-- The second condition holds exactly at the points whose second coordinate is 26. -/
theorem hcond0_1 : ∀ t : Fin cfg0.N, cond0_1 (grid0.coords t) ↔ t.val % 27 = 26 :=
  (by decide +kernel : ∀ t : Fin grid0.N, cond0_1 (grid0.coords t) ↔ t.val % 27 = 26)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the points whose second coordinate is 26 the output is idle, -/
theorem idleAt0_3 : ∀ t : Fin cfg0.N, ¬cond0_1 (grid0.coords t) → cfg0.idle 3 (grid0.coords t) = true := by decide +kernel
/-- and is not written back; -/
theorem noFlush0_3 : ∀ t : Fin cfg0.N, ¬cond0_1 (grid0.coords t) → (cfg0.win 3).flush t = false := by decide +kernel
/-- at those points it is live. -/
theorem liveAt0_3 : ∀ t : Fin cfg0.N, cond0_1 (grid0.coords t) → cfg0.idle 3 (grid0.coords t) = false := by decide +kernel

/-! ## What the body finds in the inputs' buffers -/

/-- An input's current staging buffer holds its block at every point, fetched there or not: unfetched, the block
    index has not moved. For any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant before the first point, opened -/

/-- Separating conjunction re-associated, as an equation between propositions. -/
theorem sep_assoc_eq {M : Type} [URA M] (A B G : sProp M) : (iprop((A ∗ B) ∗ G) : sProp M) = iprop(A ∗ B ∗ G) := by
  have h₁ : (iprop((A ∗ B) ∗ G) : sProp M) ⊢ iprop(A ∗ B ∗ G) := by
    iintro ⟨⟨HA, HB⟩, HG⟩
    isplitl [HA]; · iexact HA
    isplitl [HB]; · iexact HB
    iexact HG
  have h₂ : (iprop(A ∗ B ∗ G) : sProp M) ⊢ iprop((A ∗ B) ∗ G) := by
    iintro ⟨HA, HB, HG⟩
    isplitl [HA HB]
    · isplitl [HA]; · iexact HA
      iexact HB
    iexact HG
  exact BI.equiv_iff.mp ⟨h₁, h₂⟩

/-- Before the first point the region holds the scratch at some contents, region 1's eight staging buffers at some
    contents each, and the generator register at some state. -/
theorem PhiA0_eq (c : Dev nD) :
    (Pipeline.ΦA spec0 c : sProp 𝕄)
      = iprop((∃ a, owns (c : Thread nD τ) scM0 fullShare a) ∗ idle0 (F := F) c ∗ (∃ r, prngReg c r)) := by
  unfold Pipeline.ΦA; rw [scopedRest0_eq]; unfold idle0; simp only [scM0, owns_whole]
  exact sep_assoc_eq _ _ _

/-! ## The kernel on any whole memrefs, case by case

Each triple is over arbitrary whole memrefs and arbitrary contents `x0 x1 x2` of the inputs' buffers. The output's
buffer `arg5` appears only in the last case: elsewhere the kernel does not touch it. -/

/-- The whole 512 × 128 rectangle, through which the kernel loads and stores the scratch and the output. -/
abbrev rAcc : Rect S512x128 := Rect.unit (s := S512x128) ![0, 0] S512x128.size inb_S512x128_S512x128_0_0

theorem zeros_acc : (![0, 0] : Fin S512x128.rank → Nat) = fun _ => 0 := by funext a; fin_cases a <;> rfl
theorem zeros_adj : (![0, 0] : Fin S512x3712.rank → Nat) = fun _ => 0 := by funext a; fin_cases a <;> rfl
theorem zeros_feat : (![0, 0] : Fin S3712x128.rank → Nat) = fun _ => 0 := by funext a; fin_cases a <;> rfl

/-- A load of a whole buffer reads its contents: the two adjacency blocks', the feature block's, the accumulator's. -/
theorem ld_rA (X : Vec F S512x3712 .f32) :
    View.ld X (Rect.unit (s := S512x3712) ![0, 0] S512x3712.size inb_S512x3712_S512x3712_0_0) = X :=
  View.ld_unit_zero (S := S512x3712) zeros_adj inb_S512x3712_S512x3712_0_0 X
theorem ld_rX (X : Vec F S3712x128 .f32) :
    View.ld X (Rect.unit (s := S3712x128) ![0, 0] S3712x128.size inb_S3712x128_S3712x128_0_0) = X :=
  View.ld_unit_zero (S := S3712x128) zeros_feat inb_S3712x128_S3712x128_0_0 X
theorem ld_rAcc (X : Vec F S512x128 .f32) :
    View.ld X (Rect.unit (s := S512x128) ![0, 0] S512x128.size inb_S512x128_S512x128_0_0) = X :=
  View.ld_unit_zero (S := S512x128) zeros_acc inb_S512x128_S512x128_0_0 X

/-- What a buffer reads after a last store of the whole buffer is the stored value, whatever was stored before. -/
theorem read_writes_rAcc {κ : Kind} {sp : Space} (v : View sig κ sp S512x128 .f32) (f : v.ty.Contents (Elt F))
    (w : Vec F S512x128 .f32) (L : List (View.Piece (Elt F) S512x128 .f32)) :
    v.read (Elt F) (v.writes (Elt F) f ((⟨rAcc, w⟩ : View.Piece (Elt F) S512x128 .f32) :: L)) = w := by
  have hcov : ∀ y : S512x128.Idx, ∃ p ∈ ((⟨rAcc, w⟩ : View.Piece (Elt F) S512x128 .f32) :: L), y ∈ p.1.set :=
    fun y => ⟨⟨rAcc, w⟩, List.mem_cons_self, View.mem_set_unit_zero (S := S512x128) zeros_acc inb_S512x128_S512x128_0_0 y⟩
  rw [View.read_writes_eq_canon v f _ hcov]
  exact View.canon_cons_unit_zero (S := S512x128) zeros_acc inb_S512x128_S512x128_0_0 w L

/-- A load of the whole buffer after a store of the whole buffer reads the stored value. -/
theorem readCov_rAcc {κ : Kind} {sp : Space} (v : View sig κ sp S512x128 .f32) (w : Vec F S512x128 .f32)
    (L : List (View.Piece (Elt F) S512x128 .f32)) : v.readCov (⟨rAcc, w⟩ :: L) rAcc.toLoadRect = w :=
  View.readCov_cons_toLoadRect v rAcc w L

set_option maxHeartbeats 1000000 in
/-- FIRST case (second coordinate 0): the scratch, at anything, is overwritten with zeros and the product of the
    blocks is added to that. -/
theorem kernel0_first (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : cond0_0 i) (hc1 : ¬cond0_1 i)
    (x0 x1 : Vec F S512x3712 .f32) (x2 : Vec F S3712x128 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a)
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 x0 x1 x2 (k0_pay1 (F := F)))) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%a, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_rAcc _ _ _ _).trans ?_
  sl_unfold_run_names
  rw [readCov_rAcc, View.readAt_eq_ld, View.readAt_eq_ld, View.readAt_eq_ld, hf0, hf1, hf2, ld_rA, ld_rA, ld_rX]

set_option maxHeartbeats 1000000 in
/-- MIDDLE case (second coordinate neither 0 nor 26): the product of the blocks is added to what the scratch holds. -/
theorem kernel0_mid (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : ¬cond0_0 i) (hc1 : ¬cond0_1 i)
    (x0 x1 : Vec F S512x3712 .f32) (x2 : Vec F S3712x128 .f32) (a : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 x0 x1 x2 a)) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_rAcc _ _ _ _).trans ?_
  try sl_unfold_run_names
  rw [View.readAt_eq_ld, View.readAt_eq_ld, View.readAt_eq_ld, View.readAt_eq_ld, hf0, hf1, hf2, hfs, ld_rA, ld_rA, ld_rX, ld_rAcc]

set_option maxHeartbeats 1000000 in
/-- LAST case (second coordinate 26): the product of the blocks is added to what the scratch holds, and the sum is
    copied to the output's buffer, which held anything. -/
theorem kernel0_last (c : Dev nD) (E : Set ℕ) (i : grid0.Coords)
    (arg2 : Memref sig .tc .vmem S512x3712 .f32) (harg2 : arg2.IsWhole)
    (arg3 : Memref sig .tc .vmem S512x3712 .f32) (harg3 : arg3.IsWhole)
    (arg4 : Memref sig .tc .vmem S3712x128 .f32) (harg4 : arg4.IsWhole)
    (arg5 : Memref sig .tc .vmem S512x128 .f32) (harg5 : arg5.IsWhole)
    (arg6 : Memref sig .tc .vmem S512x128 .f32) (harg6 : arg6.IsWhole)
    (hc0 : ¬cond0_0 i) (hc1 : cond0_1 i)
    (x0 x1 : Vec F S512x3712 .f32) (x2 : Vec F S3712x128 .f32) (a : Vec F S512x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2 a) ∗ owns (c : Thread nD τ) arg6 fullShare (k0_pay2 x0 x1 x2 a)) -∗ K ⟨⟩))
      ⊢ wp frame (wpE (defs₀ (F := F)) Variants.none c none) E (cc0__cn_matmul_kernel i arg2 harg2 arg3 harg3 arg4 harg4 arg5 harg5 arg6 harg6) K := by
  simp only [cc0__cn_matmul_kernel_eq_skeleton]; unfold cc0__cn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_rAcc _ _ _ _).trans ?_
    try sl_unfold_run_names
    rw [readCov_rAcc, View.readAt_eq_ld, View.readAt_eq_ld, View.readAt_eq_ld, View.readAt_eq_ld, hf0, hf1, hf2, hfs, ld_rA, ld_rA, ld_rX, ld_rAcc]
  iexists _; isplitr
  swap; · iexact HS
  ipureintro
  refine (read_writes_rAcc _ _ _ _).trans ?_
  try sl_unfold_run_names
  rw [View.readAt_eq_ld, View.readAt_eq_ld, View.readAt_eq_ld, View.readAt_eq_ld, hf0, hf1, hf2, hfs, ld_rA, ld_rA, ld_rX, ld_rAcc]

/-! ## The body obligation, at a generic point -/

/-- What the body is called with at point `t`: the invariant, what the core owes, and the four windows' current
    staging buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's residue mod 27 says which case it is
    in; the invariant hands the body the scratch at the accumulator of the point before (at anything before the
    first point) and takes it back at this point's accumulator; the output's buffer is handed back as found except
    at the last case, where it holds this point's accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 54 := lt_of_lt_of_eq t.isLt (show cfg0.N = 54 from N_0)
  by_cases h0 : t.val % 27 = 0
  · -- first case
    have h1 : ¬t.val % 27 = 26 := by omega
    rw [Dat.leavesExact_idle (dat0 V c) 3 t (idleAt0_3 t (fun h => h1 ((hcond0_1 t).mp h))) (noFlush0_3 t (fun h => h1 ((hcond0_1 t).mp h)))]
    rw [acc0_first V c t h0]
    by_cases hz : t.val = 0
    · rw [Phi0_castSucc V c t, Phi0_zero V c _ _ hz, PhiA0_eq]
      iintro ⟨⟨HS, Hi, Hg⟩, Ho, ⟨%d0, H0⟩, ⟨%d1, H1⟩, ⟨%d2, H2⟩, ⟨%d3, H3⟩⟩
      iapply (kernel0_first c Set.univ (grid0.coords t) _ _ _ _ _ _ _ _ _ _ ((hcond0_0 t).mpr h0) (fun h => h1 ((hcond0_1 t).mp h))
        (iblk0 V c 0 t) (iblk0 V c 1 t) (iblk0 V c 2 t) _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨HS, Hi, Hg⟩, Ho, ⟨%d0, H0⟩, ⟨%d1, H1⟩, ⟨%d2, H2⟩, ⟨%d3, H3⟩⟩
      iapply (kernel0_first c Set.univ (grid0.coords t) _ _ _ _ _ _ _ _ _ _ ((hcond0_0 t).mpr h0) (fun h => h1 ((hcond0_1 t).mp h))
        (iblk0 V c 0 t) (iblk0 V c 1 t) (iblk0 V c 2 t) _)
      isplitl [H0]; · iexact H0
      isplitl [H1]; · iexact H1
      isplitl [H2]; · iexact H2
      isplitl [HS]; · iexists _; iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc0_next V c t h0]
    rw [Phi0_castSucc V c t, Phi0_pos V c _ _ hz]
    by_cases h1 : t.val % 27 = 26
    · -- last case
      rw [show (dat0 V c).leavesExact 3 t = owns (c : Thread nD τ) (st0_3 t) fullShare ((dat0 V c).after 3 t) from by
        unfold Dat.leavesExact; rw [liveAt0_3 t ((hcond0_1 t).mpr h1)], after0_3]
      rw [acc0_next V c t h0]
      iintro ⟨⟨HS, Hi, Hg⟩, Ho, ⟨%d0, H0⟩, ⟨%d1, H1⟩, ⟨%d2, H2⟩, ⟨%d3, H3⟩⟩
      iapply (kernel0_last c Set.univ (grid0.coords t) _ _ _ _ _ _ _ _ _ _ (fun h => h0 ((hcond0_0 t).mp h)) ((hcond0_1 t).mpr h1)
        (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexact H3
    · -- middle case
      rw [Dat.leavesExact_idle (dat0 V c) 3 t (idleAt0_3 t (fun h => h1 ((hcond0_1 t).mp h))) (noFlush0_3 t (fun h => h1 ((hcond0_1 t).mp h)))]
      iintro ⟨⟨HS, Hi, Hg⟩, Ho, ⟨%d0, H0⟩, ⟨%d1, H1⟩, ⟨%d2, H2⟩, ⟨%d3, H3⟩⟩
      iapply (kernel0_mid c Set.univ (grid0.coords t) _ _ _ _ _ _ _ _ _ _ (fun h => h0 ((hcond0_0 t).mp h)) (fun h => h1 ((hcond0_1 t).mp h))
        (iblk0 V c 0 t) (iblk0 V c 1 t) (iblk0 V c 2 t) _ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the launch handed over: the accumulator's value is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, Hi, Hg⟩
  isplitl [HS]; · iexists _; iexact HS
  isplitl [Hi]; · iexact Hi
  iexact Hg

/-- In particular after the last. -/
theorem hout0 (c : Dev nD) : (dat0 V c).Φ (Fin.last cfg0.N) ⊢ Pipeline.ΦA spec0 c :=
  Phi0_out V c _ (by rw [Fin.val_last]; have : cfg0.N = 54 := N_0; omega)

end Cert.KernelIdeal.Hand

end
-- ==== Proof.KI.Body1.lean ====
/-
  Region 1's body obligation.

  Region 1 has one grid point. Its body reads the seven input buffers whole, reads the output buffer once, and
  stores the two-layer perceptron of the seven values read through the output buffer's whole rectangle. So after the
  body every input buffer still holds its block, the output buffer holds the perceptron of the seven blocks, and the
  region's invariant (the scoped buffers no window stages, the generator register) is handed back as it was found.

  The body's triple is stated over arbitrary whole buffers and arbitrary contents `x0 … x6` of the literal vector
  types; it is instantiated at the windows' blocks only in the last step.
-/
import proofs.«126571_j77292231459355_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's buffer holds its block

An input window is never written by the body, never idle and uncut; so at every point its current buffer holds the
window's block there, fetched at that point or not (unfetched, the block index has not moved). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

/-! ## The body's accesses

Every load and the one store go through the whole rectangle of the buffer's shape: offsets zero, the shape's own
sizes. A load through it reads the contents; one store through it leaves its payload. -/

theorem zeros2 : (![0, 0] : Fin 2 → Nat) = fun _ => 0 := funext fun a => by fin_cases a <;> rfl

abbrev rIn01 : Rect S1024x128 := Rect.unit (s := S1024x128) ![0, 0] S1024x128.size inb_S1024x128_S1024x128_0_0
abbrev rIn23 : Rect S128x512 := Rect.unit (s := S128x512) ![0, 0] S128x512.size inb_S128x512_S128x512_0_0
abbrev rIn4 : Rect S1x512 := Rect.unit (s := S1x512) ![0, 0] S1x512.size inb_S1x512_S1x512_0_0
abbrev rIn5 : Rect S512x1 := Rect.unit (s := S512x1) ![0, 0] S512x1.size inb_S512x1_S512x1_0_0
abbrev rIn6 : Rect S1x1 := Rect.unit (s := S1x1) ![0, 0] S1x1.size inb_S1x1_S1x1_0_0
abbrev rOut : Rect S1024x1 := Rect.unit (s := S1024x1) ![0, 0] S1024x1.size inb_S1024x1_S1024x1_0_0

/-- What the body leaves in the output buffer, as the list of its stores (there is one) over the values its loads
    read. -/
def out1_7 (x0 x1 : Vec F S1024x128 .f32) (x2 x3 : Vec F S128x512 .f32) (x4 : Vec F S1x512 .f32)
    (x5 : Vec F S512x1 .f32) (x6 : Vec F S1x1 .f32) : Vec F S1024x1 .f32 :=
  View.canon [⟨rOut, k1_pay1 (View.ld x0 rIn01) (View.ld x1 rIn01) (View.ld x2 rIn23) (View.ld x3 rIn23)
    (View.ld x4 rIn4) (View.ld x5 rIn5) (View.ld x6 rIn6)⟩]

/-- The one store covers the output buffer: every index lies in the whole rectangle. -/
theorem cover1_7 (p0 : Vec F S1024x1 .f32) (y : S1024x1.Idx) :
    ∃ pc ∈ ([⟨rOut, p0⟩] : List (View.Piece (Elt F) S1024x1 .f32)), y ∈ pc.1.set :=
  ⟨_, List.mem_singleton_self _, View.mem_set_unit_zero (S := S1024x1) zeros2 inb_S1024x1_S1024x1_0_0 y⟩

/-- So the output buffer ends at the perceptron of the contents read: the store's payload, each load reading its
    buffer's contents. -/
theorem out1_7_eq (x0 x1 : Vec F S1024x128 .f32) (x2 x3 : Vec F S128x512 .f32) (x4 : Vec F S1x512 .f32)
    (x5 : Vec F S512x1 .f32) (x6 : Vec F S1x1 .f32) :
    out1_7 x0 x1 x2 x3 x4 x5 x6 = k1_pay1 x0 x1 x2 x3 x4 x5 x6 := by
  unfold out1_7
  rw [View.canon_unit_zero (S := S1024x1) zeros2 inb_S1024x1_S1024x1_0_0]
  rw [View.ld_unit_zero (S := S1024x128) zeros2 inb_S1024x128_S1024x128_0_0 x0,
    View.ld_unit_zero (S := S1024x128) zeros2 inb_S1024x128_S1024x128_0_0 x1,
    View.ld_unit_zero (S := S128x512) zeros2 inb_S128x512_S128x512_0_0 x2,
    View.ld_unit_zero (S := S128x512) zeros2 inb_S128x512_S128x512_0_0 x3,
    View.ld_unit_zero (S := S1x512) zeros2 inb_S1x512_S1x512_0_0 x4,
    View.ld_unit_zero (S := S512x1) zeros2 inb_S512x1_S512x1_0_0 x5,
    View.ld_unit_zero (S := S1x1) zeros2 inb_S1x1_S1x1_0_0 x6]

/-! ## The body's triple -/

set_option maxHeartbeats 1000000 in
/-- The kernel body on whole buffers, the inputs' at contents `x0 … x6` and the output's at anything, runs to the
    continuation holding the inputs' as they were and the output's at the perceptron of `x0 … x6`. -/
theorem sound_kernel1 (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x1 .f32) (harg7 : arg7.IsWhole) (arg8 : Memref sig .tc .vmem S1024x1 .f32) (harg8 : arg8.IsWhole)
    (x0 x1 : Vec F S1024x128 .f32) (x2 x3 : Vec F S128x512 .f32) (x4 : Vec F S1x512 .f32)
    (x5 : Vec F S512x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 x0 x1 x2 x3 x4 x5 x6)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8) K := by
  rw [← out1_7_eq x0 x1 x2 x3 x4 x5 x6]
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation at the region's points -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies at the blocks; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: six stretches of host operations, the first kernel region, a stretch, the
  second region, and the final reshape — ten segments. Between two segments the core holds every unscoped
  buffer at a named valuation: the launch memory, then each stretch's operations applied in order, then, after a
  region, the region's arrays at what its write-backs leave and every other buffer as it was. Every weakly fair
  execution terminates, nothing faults, and every final state has every unscoped buffer at the last valuation:
  the arguments as launched, and the result array at the final reshape of what the second region leaves.
-/
import proofs.«126571_j77292231459355_1_alg».proof.Proof.KI.Data
import proofs.«126571_j77292231459355_1_alg».proof.Proof.KI.Body0
import proofs.«126571_j77292231459355_1_alg».proof.Proof.KI.Body1
import proofs.«126571_j77292231459355_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- When region 0 is entered (after the six host stretches), read at the TensorCore's references. -/
abbrev U6 : (c : Dev nD) → (b : Ref sig .tc) → Buf (Elt F) ((c : Thread nD τ).loc b) := fun c b => V6 m c b

/-- At region 0's exit: its arrays at what the pipeline leaves, every other buffer as entered. -/
def W7 (c : Dev nD) : Valuation τ sig (Elt F) :=
  Pipeline.withArrays spec0 c (V6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- After the stretch between the regions (region 1's entry). -/
abbrev W8 : Dev nD → Valuation τ sig (Elt F) := fun c => StableHlo.after hostOps1 (W7 m c)
abbrev U8 : (c : Dev nD) → (b : Ref sig .tc) → Buf (Elt F) ((c : Thread nD τ).loc b) := fun c b => W8 m c b

/-- At region 1's exit: its arrays at what the pipeline leaves, every other buffer as entered. -/
def W9 (c : Dev nD) : Valuation τ sig (Elt F) :=
  Pipeline.withArrays spec1 c (W8 m c) fun w => (dat1 (U8 m) c).arrAt w cfg1.N
theorem W9_arr (c : Dev nD) (w : Fin cfg1.W) :
    W9 m c (Proc.devRef .tc (Pipeline.arrRef spec1 w)) = (dat1 (U8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev U9 : (c : Dev nD) → (b : Ref sig .tc) → Buf (Elt F) ((c : Thread nD τ).loc b) := fun c b => W9 m c b
theorem hF1 (c : Dev nD) (w : Fin cfg1.W) : (dat1 (U8 m) c).arrAt w cfg1.N = U9 m c (Pipeline.arrRef spec1 w) :=
  (W9_arr m c w).symm
theorem hrest1 (c : Dev nD) : ∀ b, b ∉ Finset.univ.image (Pipeline.arrRef spec1) → U9 m c b = U8 m c b :=
  fun b hb => W9_of_ne m c b fun w e => hb (Finset.mem_image.mpr ⟨w, Finset.mem_univ _, e⟩)

/-- After the final reshape: the last boundary. -/
abbrev W10 : Dev nD → Valuation τ sig (Elt F) := fun c => StableHlo.after hostOps2 (W9 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at the sixth stretch's contents, left at
    `W7`. Its arrays are split out of the unscoped buffers and put back at the exit contents; the generator register
    and the scoped buffers no window stages go into the region's invariant (whose first form is the class's, `hin0`)
    and come back out of its last form (`hout0`); nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U6 m) c).Φ 0 from rfl]
    refine BIBase.Entails.trans ?_ (hin0 (U6 m) c)
    unfold Pipeline.ΦA
    iintro ⟨Hp, -, Hr⟩
    isplitl [Hr]; · iexact Hr
    iexact Hp
  hout c := by
    rw [Pipeline.ownSems0_none, show (pdats m 0 c).Φ (Fin.last _) = (dat0 (U6 m) c).Φ (Fin.last cfg0.N) from rfl]
    refine BIBase.Entails.trans (hout0 (U6 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`; the class's invariant
    in and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (U8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U8 m c) (U9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The ten segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m),
    .host (hseg hostOps2 hostOps2_sub hostOps2_fresh (W9 m)) ]

/-- The program is the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents `W10`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

theorem W10_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : ∀ w, Pipeline.arrRef spec0 w ≠ r)
    (h7 : r ∉ hostOps1_W) (h8 : ∀ w, Pipeline.arrRef spec1 w ≠ r) (h9 : r ∉ hostOps2_W) :
    W10 m c (Proc.devRef .tc r) = m ((c : Thread nD τ).loc r) :=
  (StableHlo.after_of_writes_sub hostOps2 _ hostOps2_writes h9).trans <| (W9_of_ne m c r h8).trans <|
    (StableHlo.after_of_writes_sub hostOps1 _ hostOps1_writes h7).trans <| (W7_of_ne m c r h6).trans <|
    (V6_of m c r h5).trans <| (V5_of m c r h4).trans <| (V4_of m c r h3).trans <| (V3_of m c r h2).trans <|
    (V2_of m c r h1).trans <| (V1_of m c r h0).trans rfl

/-- The second weight matrix is passed to region 1 as an input window's array: an input's array is never written
    back, so it too ends as launched. -/
theorem W10_arg5 (c : Dev nD) : W10 m c (Proc.devRef .tc main_arg5) = m ((c : Thread nD τ).loc main_arg5) :=
  (StableHlo.after_of_writes_sub hostOps2 _ hostOps2_writes (by decide)).trans <|
    ((W9_arr m c 5).trans (((dat1 (U8 m) c).arrAt_in 5 rfl _).trans (A_eq1 (U8 m) c 5))).trans <|
    (StableHlo.after_of_writes_sub hostOps1 _ hostOps1_writes (by decide)).trans <| (W7_of_ne m c main_arg5 (by decide)).trans <|
    (V6_of m c main_arg5 (by decide)).trans <| (V5_of m c main_arg5 (by decide)).trans <| (V4_of m c main_arg5 (by decide)).trans <|
    (V3_of m c main_arg5 (by decide)).trans <| (V2_of m c main_arg5 (by decide)).trans <| (V1_of m c main_arg5 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W10_arg m c main_arg0 (by decide) (by decide) (by decide) (by decide) (by decide) (by decide) (by decide) (by decide) (by decide) (by decide)),
     (h c _ (mem_uc main_arg1 (by decide))).trans (W10_arg m c main_arg1 (by decide) (by decide) (by decide) (by decide) (by decide) (by decide) (by decide) (by decide) (by decide) (by decide)),
     (h c _ (mem_uc main_arg2 (by decide))).trans (W10_arg m c main_arg2 (by decide) (by decide) (by decide) (by decide) (by decide) (by decide) (by decide) (by decide) (by decide) (by decide)),
     (h c _ (mem_uc main_arg3 (by decide))).trans (W10_arg m c main_arg3 (by decide) (by decide) (by decide) (by decide) (by decide) (by decide) (by decide) (by decide) (by decide) (by decide)),
     (h c _ (mem_uc main_arg4 (by decide))).trans (W10_arg m c main_arg4 (by decide) (by decide) (by decide) (by decide) (by decide) (by decide) (by decide) (by decide) (by decide) (by decide)),
     (h c _ (mem_uc main_arg5 (by decide))).trans (W10_arg5 m c),
     (h c _ (mem_uc main_arg6 (by decide))).trans (W10_arg m c main_arg6 (by decide) (by decide) (by decide) (by decide) (by decide) (by decide) (by decide) (by decide) (by decide) (by decide))⟩)
    (run m ρ)

end Cert.KernelIdeal.Hand

end
-- ==== Proof.Bridge.RefRunSteps.lean ====
/-
  The reference program as a straight line of host operations, and the rule for reading the fold over such a
  line one operation at a time.

  The program is 150 host operations, each writing one buffer as a function of at most three buffers written
  before it (or of arguments); the contents of the buffers after the line are the fold of the operations over
  the launch contents. An operation at the head of a line gives its result buffer the operation's function of
  its operands' contents and leaves every other buffer as it was; that is all the rules below say, one for each
  number of operands and one for a change of shape.
-/
import proofs.«126571_j77292231459355_1_alg».proof.Proof.RefReadP
import Idealize.ShloMosaic.Lib.StableHlo.Run

noncomputable section

namespace Cert.Bridge.RefRun

open Cert.ReferenceIdeal Cert.ReferenceIdeal.Gen Idealize.ShloMosaic Idealize.ShloMosaic.TcCoe Idealize.SL.Sem Idealize.ShloMosaic.StableHlo

/-! ## One operation of the fold

An operation at the head of a line: the contents after it give its result buffer the operation's function of its
operands' contents and every other buffer what it had. -/

section Steps

variable {τ : Topo} {sig : RefSig} {Val : EltTy → Type}

theorem step_nullary {y : Ref sig .tc} {v : y.ty.Contents Val} {hy : y.space ≠ .host ∧ (y : DevRef τ sig).isScoped = false}
    {rest : List (HloOp τ sig Val)} {S : Valuation τ sig Val} {q : DevRef τ sig} {R : q.ty.Contents Val}
    (k : ∀ T : Valuation τ sig Val, T (Proc.devRef .tc y) = v →
      (∀ r : Ref sig .tc, r ≠ y → T (Proc.devRef .tc r) = S (Proc.devRef .tc r)) → after rest T q = R) :
    after (nullary y v hy :: rest) S q = R :=
  k _ (nullary_result y v hy S) (fun r h => by rw [nullary_result_ne]; exact h)

theorem step_unary {x y : Ref sig .tc} {f : x.ty.Contents Val → y.ty.Contents Val}
    {hx : x.space ≠ .host ∧ (x : DevRef τ sig).isScoped = false} {hy : y.space ≠ .host ∧ (y : DevRef τ sig).isScoped = false}
    {rest : List (HloOp τ sig Val)} {S : Valuation τ sig Val} {q : DevRef τ sig} {R : q.ty.Contents Val}
    (k : ∀ T : Valuation τ sig Val, T (Proc.devRef .tc y) = f (S (Proc.devRef .tc x)) →
      (∀ r : Ref sig .tc, r ≠ y → T (Proc.devRef .tc r) = S (Proc.devRef .tc r)) → after rest T q = R) :
    after (unary x y f hx hy :: rest) S q = R :=
  k _ (unary_result x y f hx hy S) (fun r h => by rw [unary_result_ne]; exact h)

theorem step_binary {a b y : Ref sig .tc} {f : a.ty.Contents Val → b.ty.Contents Val → y.ty.Contents Val}
    {ha : a.space ≠ .host ∧ (a : DevRef τ sig).isScoped = false} {hb : b.space ≠ .host ∧ (b : DevRef τ sig).isScoped = false}
    {hy : y.space ≠ .host ∧ (y : DevRef τ sig).isScoped = false}
    {rest : List (HloOp τ sig Val)} {S : Valuation τ sig Val} {q : DevRef τ sig} {R : q.ty.Contents Val}
    (k : ∀ T : Valuation τ sig Val, T (Proc.devRef .tc y) = f (S (Proc.devRef .tc a)) (S (Proc.devRef .tc b)) →
      (∀ r : Ref sig .tc, r ≠ y → T (Proc.devRef .tc r) = S (Proc.devRef .tc r)) → after rest T q = R) :
    after (binary a b y f ha hb hy :: rest) S q = R :=
  k _ (binary_result a b y f ha hb hy S) (fun r h => by rw [binary_result_ne]; exact h)

theorem step_ternary {c a b y : Ref sig .tc} {f : c.ty.Contents Val → a.ty.Contents Val → b.ty.Contents Val → y.ty.Contents Val}
    {hc : c.space ≠ .host ∧ (c : DevRef τ sig).isScoped = false} {ha : a.space ≠ .host ∧ (a : DevRef τ sig).isScoped = false}
    {hb : b.space ≠ .host ∧ (b : DevRef τ sig).isScoped = false} {hy : y.space ≠ .host ∧ (y : DevRef τ sig).isScoped = false}
    {rest : List (HloOp τ sig Val)} {S : Valuation τ sig Val} {q : DevRef τ sig} {R : q.ty.Contents Val}
    (k : ∀ T : Valuation τ sig Val,
      T (Proc.devRef .tc y) = f (S (Proc.devRef .tc c)) (S (Proc.devRef .tc a)) (S (Proc.devRef .tc b)) →
      (∀ r : Ref sig .tc, r ≠ y → T (Proc.devRef .tc r) = S (Proc.devRef .tc r)) → after rest T q = R) :
    after (ternary c a b y f hc ha hb hy :: rest) S q = R :=
  k _ (ternary_result c a b y f hc ha hb hy S) (fun r h => by rw [ternary_result_ne]; exact h)

theorem step_reshape {x y : Ref sig .tc} {he : x.ty.elt = y.ty.elt} {hn : x.ty.shape.ShapeCasts y.ty.shape}
    {hx : x.space ≠ .host ∧ (x : DevRef τ sig).isScoped = false} {hy : y.space ≠ .host ∧ (y : DevRef τ sig).isScoped = false}
    {rest : List (HloOp τ sig Val)} {S : Valuation τ sig Val} {q : DevRef τ sig} {R : q.ty.Contents Val}
    (k : ∀ T : Valuation τ sig Val,
      T (Proc.devRef .tc y) = (fun i => he ▸ shapeCast y.ty.shape (S (Proc.devRef .tc x)) hn i) →
      (∀ r : Ref sig .tc, r ≠ y → T (Proc.devRef .tc r) = S (Proc.devRef .tc r)) → after rest T q = R) :
    after (reshape x y he hn hx hy :: rest) S q = R :=
  k _ (reshape_result x y he hn hx hy S) (fun r h => by rw [reshape_result_ne]; exact h)

end Steps

variable {F : FTy → Type} [FloatOps F]

/-! ## The program as a list -/

/-- @main's 150 operations, in order (a called function's operations stand in its call's place, spelt `TRef.…`). -/
abbrev ops : List (HloOp τ sig (Elt F)) :=
  [ unary main_arg2 main_v0 ((extractStridedSlice S1x1024 ![0, 0] · slices_S2x1024_S1x1024_0_0) : (⟨S2x1024, .i32⟩ : BufTy).Contents (Elt F) → (⟨S1x1024, .i32⟩ : BufTy).Contents (Elt F)),
    reshape main_v0 main_v1 rfl shapeCasts_S1x1024_S1024,
    unary main_arg2 main_v2 ((extractStridedSlice S1x1024 ![1, 0] · slices_S2x1024_S1x1024_1_0) : (⟨S2x1024, .i32⟩ : BufTy).Contents (Elt F) → (⟨S1x1024, .i32⟩ : BufTy).Contents (Elt F)),
    reshape main_v2 main_v3 rfl shapeCasts_S1x1024_S1024,
    unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    reshape main_v4 main_v5 rfl shapeCasts_S1x3200000_S3200000,
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    binary main_v5 main_v7 main_v8 ((fun a b => concatenate S6400000 0 [⟨S3200000, a⟩, ⟨S3200000, b⟩] concatenates_S3200000_S3200000_S6400000_d0) : (⟨S3200000, .i32⟩ : BufTy).Contents (Elt F) → (⟨S3200000, .i32⟩ : BufTy).Contents (Elt F) → (⟨S6400000, .i32⟩ : BufTy).Contents (Elt F)),
    unary main_arg1 main_v9 ((extractStridedSlice S1x3200000 ![1, 0] · slices_S2x3200000_S1x3200000_1_0) : (⟨S2x3200000, .i32⟩ : BufTy).Contents (Elt F) → (⟨S1x3200000, .i32⟩ : BufTy).Contents (Elt F)),
    reshape main_v9 main_v10 rfl shapeCasts_S1x3200000_S3200000,
    unary main_arg1 main_v11 ((extractStridedSlice S1x3200000 ![0, 0] · slices_S2x3200000_S1x3200000_0_0) : (⟨S2x3200000, .i32⟩ : BufTy).Contents (Elt F) → (⟨S1x3200000, .i32⟩ : BufTy).Contents (Elt F)),
    reshape main_v11 main_v12 rfl shapeCasts_S1x3200000_S3200000,
    binary main_v10 main_v12 main_v13 ((fun a b => concatenate S6400000 0 [⟨S3200000, a⟩, ⟨S3200000, b⟩] concatenates_S3200000_S3200000_S6400000_d0) : (⟨S3200000, .i32⟩ : BufTy).Contents (Elt F) → (⟨S3200000, .i32⟩ : BufTy).Contents (Elt F) → (⟨S6400000, .i32⟩ : BufTy).Contents (Elt F)),
    nullary main_c (constantI S_ 32 4294967295#32),
    unary main_c main_v14 (broadcastInDim S100000 ![] bcast_S_S100000 : (⟨S_, .i32⟩ : BufTy).Contents (Elt F) → (⟨S100000, .i32⟩ : BufTy).Contents (Elt F)),
    nullary main_v15 (iotaInDim S1024 32 0),
    nullary main_c_0 (constantI S_ 32 0#32),
    unary main_c_0 main_v16 (broadcastInDim S1024 ![] bcast_S_S1024 : (⟨S_, .i32⟩ : BufTy).Contents (Elt F) → (⟨S1024, .i32⟩ : BufTy).Contents (Elt F)),
    binary main_v1 main_v16 main_v17 (cmpi .slt : (⟨S1024, .i32⟩ : BufTy).Contents (Elt F) → (⟨S1024, .i32⟩ : BufTy).Contents (Elt F) → (⟨S1024, .i1⟩ : BufTy).Contents (Elt F)),
    nullary main_c_1 (constantI S_ 32 100000#32),
    unary main_c_1 main_v18 (broadcastInDim S1024 ![] bcast_S_S1024 : (⟨S_, .i32⟩ : BufTy).Contents (Elt F) → (⟨S1024, .i32⟩ : BufTy).Contents (Elt F)),
    binary main_v1 main_v18 main_v19 (addi : (⟨S1024, .i32⟩ : BufTy).Contents (Elt F) → (⟨S1024, .i32⟩ : BufTy).Contents (Elt F) → (⟨S1024, .i32⟩ : BufTy).Contents (Elt F)),
    ternary main_v17 main_v19 main_v1 main_v20 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v20 main_v21 (broadcastInDim S1024x1 ![0] bcast_S1024_S1024x1_0 : (⟨S1024, .i32⟩ : BufTy).Contents (Elt F) → (⟨S1024x1, .i32⟩ : BufTy).Contents (Elt F)),
    ternary main_v14 main_v21 main_v15 main_v22 ((fun x i u => Host.scatter scatter_S100000_S1024x1_S1024_n_0_0_1 (fun _ b => b) x i u) : (⟨S100000, .i32⟩ : BufTy).Contents (Elt F) → (⟨S1024x1, .i32⟩ : BufTy).Contents (Elt F) → (⟨S1024, .i32⟩ : BufTy).Contents (Elt F) → (⟨S100000, .i32⟩ : BufTy).Contents (Elt F)),
    nullary main_c_2 (constantI S_ 32 0#32),
    unary main_c_2 main_v23 (broadcastInDim S6400000 ![] bcast_S_S6400000 : (⟨S_, .i32⟩ : BufTy).Contents (Elt F) → (⟨S6400000, .i32⟩ : BufTy).Contents (Elt F)),
    binary main_v8 main_v23 main_v24 (cmpi .slt : (⟨S6400000, .i32⟩ : BufTy).Contents (Elt F) → (⟨S6400000, .i32⟩ : BufTy).Contents (Elt F) → (⟨S6400000, .i1⟩ : BufTy).Contents (Elt F)),
    nullary main_c_3 (constantI S_ 32 100000#32),
    unary main_c_3 main_v25 (broadcastInDim S6400000 ![] bcast_S_S6400000 : (⟨S_, .i32⟩ : BufTy).Contents (Elt F) → (⟨S6400000, .i32⟩ : BufTy).Contents (Elt F)),
    binary main_v8 main_v25 main_v26 (addi : (⟨S6400000, .i32⟩ : BufTy).Contents (Elt F) → (⟨S6400000, .i32⟩ : BufTy).Contents (Elt F) → (⟨S6400000, .i32⟩ : BufTy).Contents (Elt F)),
    ternary main_v24 main_v26 main_v8 main_v27 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v27 main_v28 (broadcastInDim S6400000x1 ![0] bcast_S6400000_S6400000x1_0 : (⟨S6400000, .i32⟩ : BufTy).Contents (Elt F) → (⟨S6400000x1, .i32⟩ : BufTy).Contents (Elt F)),
    binary main_v22 main_v28 main_v29 ((fun x i => Host.gather gather_S100000_S6400000x1_S6400000_n_0_n_n_0_1_1 x i) : (⟨S100000, .i32⟩ : BufTy).Contents (Elt F) → (⟨S6400000x1, .i32⟩ : BufTy).Contents (Elt F) → (⟨S6400000, .i32⟩ : BufTy).Contents (Elt F)),
    nullary main_c_4 (constantI S_ 32 0#32),
    unary main_c_4 main_v30 (broadcastInDim S6400000 ![] bcast_S_S6400000 : (⟨S_, .i32⟩ : BufTy).Contents (Elt F) → (⟨S6400000, .i32⟩ : BufTy).Contents (Elt F)),
    binary main_v29 main_v30 main_v31 (cmpi .sge : (⟨S6400000, .i32⟩ : BufTy).Contents (Elt F) → (⟨S6400000, .i32⟩ : BufTy).Contents (Elt F) → (⟨S6400000, .i1⟩ : BufTy).Contents (Elt F)),
    nullary main_c_5 (constantI S_ 32 1024#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S6400000, .i32⟩) main_call0_v1) (broadcastInDim S6400000 ![] bcast_S_S6400000),
    TRef.ternary (TRef.of (T := ⟨S6400000, .i1⟩) main_v31) (TRef.of (T := ⟨S6400000, .i32⟩) main_v29) (TRef.of (T := ⟨S6400000, .i32⟩) main_call0_v1) (TRef.of (T := ⟨S6400000, .i32⟩) main_v32) select,
    nullary main_cst (constant S_ .f32 0x00000000#32),
    unary main_cst main_v33 (broadcastInDim S1025x100000 ![] bcast_S_S1025x100000 : (⟨S_, .f32⟩ : BufTy).Contents (Elt F) → (⟨S1025x100000, .f32⟩ : BufTy).Contents (Elt F)),
    nullary main_c_6 (constantI S_ 32 0#32),
    unary main_c_6 main_v34 (broadcastInDim S6400000 ![] bcast_S_S6400000 : (⟨S_, .i32⟩ : BufTy).Contents (Elt F) → (⟨S6400000, .i32⟩ : BufTy).Contents (Elt F)),
    binary main_v32 main_v34 main_v35 (cmpi .slt : (⟨S6400000, .i32⟩ : BufTy).Contents (Elt F) → (⟨S6400000, .i32⟩ : BufTy).Contents (Elt F) → (⟨S6400000, .i1⟩ : BufTy).Contents (Elt F)),
    nullary main_c_7 (constantI S_ 32 1025#32),
    unary main_c_7 main_v36 (broadcastInDim S6400000 ![] bcast_S_S6400000 : (⟨S_, .i32⟩ : BufTy).Contents (Elt F) → (⟨S6400000, .i32⟩ : BufTy).Contents (Elt F)),
    binary main_v32 main_v36 main_v37 (addi : (⟨S6400000, .i32⟩ : BufTy).Contents (Elt F) → (⟨S6400000, .i32⟩ : BufTy).Contents (Elt F) → (⟨S6400000, .i32⟩ : BufTy).Contents (Elt F)),
    ternary main_v35 main_v37 main_v32 main_v38 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    nullary main_c_8 (constantI S_ 32 0#32),
    unary main_c_8 main_v39 (broadcastInDim S6400000 ![] bcast_S_S6400000 : (⟨S_, .i32⟩ : BufTy).Contents (Elt F) → (⟨S6400000, .i32⟩ : BufTy).Contents (Elt F)),
    binary main_v13 main_v39 main_v40 (cmpi .slt : (⟨S6400000, .i32⟩ : BufTy).Contents (Elt F) → (⟨S6400000, .i32⟩ : BufTy).Contents (Elt F) → (⟨S6400000, .i1⟩ : BufTy).Contents (Elt F)),
    nullary main_c_9 (constantI S_ 32 100000#32),
    unary main_c_9 main_v41 (broadcastInDim S6400000 ![] bcast_S_S6400000 : (⟨S_, .i32⟩ : BufTy).Contents (Elt F) → (⟨S6400000, .i32⟩ : BufTy).Contents (Elt F)),
    binary main_v13 main_v41 main_v42 (addi : (⟨S6400000, .i32⟩ : BufTy).Contents (Elt F) → (⟨S6400000, .i32⟩ : BufTy).Contents (Elt F) → (⟨S6400000, .i32⟩ : BufTy).Contents (Elt F)),
    ternary main_v40 main_v42 main_v13 main_v43 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v38 main_v44 (broadcastInDim S6400000x1 ![0] bcast_S6400000_S6400000x1_0 : (⟨S6400000, .i32⟩ : BufTy).Contents (Elt F) → (⟨S6400000x1, .i32⟩ : BufTy).Contents (Elt F)),
    unary main_v43 main_v45 (broadcastInDim S6400000x1 ![0] bcast_S6400000_S6400000x1_0 : (⟨S6400000, .i32⟩ : BufTy).Contents (Elt F) → (⟨S6400000x1, .i32⟩ : BufTy).Contents (Elt F)),
    binary main_v44 main_v45 main_v46 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)),
    nullary main_cst_10 (constant S_ .f32 0x3F800000#32),
    unary main_cst_10 main_v47 (broadcastInDim S6400000 ![] bcast_S_S6400000 : (⟨S_, .f32⟩ : BufTy).Contents (Elt F) → (⟨S6400000, .f32⟩ : BufTy).Contents (Elt F)),
    ternary main_v33 main_v46 main_v47 main_v48 ((fun x i u => Host.scatterAdd scatter_S1025x100000_S6400000x2_S6400000_n_01_01_1 x i u) : (⟨S1025x100000, .f32⟩ : BufTy).Contents (Elt F) → (⟨S6400000x2, .i32⟩ : BufTy).Contents (Elt F) → (⟨S6400000, .f32⟩ : BufTy).Contents (Elt F) → (⟨S1025x100000, .f32⟩ : BufTy).Contents (Elt F)),
    unary main_v48 main_v49 ((extractStridedSlice S1024x100000 ![0, 0] · slices_S1025x100000_S1024x100000_0_0) : (⟨S1025x100000, .f32⟩ : BufTy).Contents (Elt F) → (⟨S1024x100000, .f32⟩ : BufTy).Contents (Elt F)),
    nullary main_c_11 (constantI S_ 32 4294967295#32),
    unary main_c_11 main_v50 (broadcastInDim S100000 ![] bcast_S_S100000 : (⟨S_, .i32⟩ : BufTy).Contents (Elt F) → (⟨S100000, .i32⟩ : BufTy).Contents (Elt F)),
    nullary main_v51 (iotaInDim S1024 32 0),
    nullary main_c_12 (constantI S_ 32 0#32),
    unary main_c_12 main_v52 (broadcastInDim S1024 ![] bcast_S_S1024 : (⟨S_, .i32⟩ : BufTy).Contents (Elt F) → (⟨S1024, .i32⟩ : BufTy).Contents (Elt F)),
    binary main_v3 main_v52 main_v53 (cmpi .slt : (⟨S1024, .i32⟩ : BufTy).Contents (Elt F) → (⟨S1024, .i32⟩ : BufTy).Contents (Elt F) → (⟨S1024, .i1⟩ : BufTy).Contents (Elt F)),
    nullary main_c_13 (constantI S_ 32 100000#32),
    unary main_c_13 main_v54 (broadcastInDim S1024 ![] bcast_S_S1024 : (⟨S_, .i32⟩ : BufTy).Contents (Elt F) → (⟨S1024, .i32⟩ : BufTy).Contents (Elt F)),
    binary main_v3 main_v54 main_v55 (addi : (⟨S1024, .i32⟩ : BufTy).Contents (Elt F) → (⟨S1024, .i32⟩ : BufTy).Contents (Elt F) → (⟨S1024, .i32⟩ : BufTy).Contents (Elt F)),
    ternary main_v53 main_v55 main_v3 main_v56 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v56 main_v57 (broadcastInDim S1024x1 ![0] bcast_S1024_S1024x1_0 : (⟨S1024, .i32⟩ : BufTy).Contents (Elt F) → (⟨S1024x1, .i32⟩ : BufTy).Contents (Elt F)),
    ternary main_v50 main_v57 main_v51 main_v58 ((fun x i u => Host.scatter scatter_S100000_S1024x1_S1024_n_0_0_1 (fun _ b => b) x i u) : (⟨S100000, .i32⟩ : BufTy).Contents (Elt F) → (⟨S1024x1, .i32⟩ : BufTy).Contents (Elt F) → (⟨S1024, .i32⟩ : BufTy).Contents (Elt F) → (⟨S100000, .i32⟩ : BufTy).Contents (Elt F)),
    nullary main_c_14 (constantI S_ 32 0#32),
    unary main_c_14 main_v59 (broadcastInDim S6400000 ![] bcast_S_S6400000 : (⟨S_, .i32⟩ : BufTy).Contents (Elt F) → (⟨S6400000, .i32⟩ : BufTy).Contents (Elt F)),
    binary main_v8 main_v59 main_v60 (cmpi .slt : (⟨S6400000, .i32⟩ : BufTy).Contents (Elt F) → (⟨S6400000, .i32⟩ : BufTy).Contents (Elt F) → (⟨S6400000, .i1⟩ : BufTy).Contents (Elt F)),
    nullary main_c_15 (constantI S_ 32 100000#32),
    unary main_c_15 main_v61 (broadcastInDim S6400000 ![] bcast_S_S6400000 : (⟨S_, .i32⟩ : BufTy).Contents (Elt F) → (⟨S6400000, .i32⟩ : BufTy).Contents (Elt F)),
    binary main_v8 main_v61 main_v62 (addi : (⟨S6400000, .i32⟩ : BufTy).Contents (Elt F) → (⟨S6400000, .i32⟩ : BufTy).Contents (Elt F) → (⟨S6400000, .i32⟩ : BufTy).Contents (Elt F)),
    ternary main_v60 main_v62 main_v8 main_v63 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v63 main_v64 (broadcastInDim S6400000x1 ![0] bcast_S6400000_S6400000x1_0 : (⟨S6400000, .i32⟩ : BufTy).Contents (Elt F) → (⟨S6400000x1, .i32⟩ : BufTy).Contents (Elt F)),
    binary main_v58 main_v64 main_v65 ((fun x i => Host.gather gather_S100000_S6400000x1_S6400000_n_0_n_n_0_1_1 x i) : (⟨S100000, .i32⟩ : BufTy).Contents (Elt F) → (⟨S6400000x1, .i32⟩ : BufTy).Contents (Elt F) → (⟨S6400000, .i32⟩ : BufTy).Contents (Elt F)),
    nullary main_c_16 (constantI S_ 32 0#32),
    unary main_c_16 main_v66 (broadcastInDim S6400000 ![] bcast_S_S6400000 : (⟨S_, .i32⟩ : BufTy).Contents (Elt F) → (⟨S6400000, .i32⟩ : BufTy).Contents (Elt F)),
    binary main_v65 main_v66 main_v67 (cmpi .sge : (⟨S6400000, .i32⟩ : BufTy).Contents (Elt F) → (⟨S6400000, .i32⟩ : BufTy).Contents (Elt F) → (⟨S6400000, .i1⟩ : BufTy).Contents (Elt F)),
    nullary main_c_17 (constantI S_ 32 1024#32),
    TRef.unary (TRef.of (T := ⟨S_, .i32⟩) main_c_17) (TRef.of (T := ⟨S_, .i32⟩) main_call1_v0) id,
    TRef.unary (TRef.of (T := ⟨S_, .i32⟩) main_call1_v0) (TRef.of (T := ⟨S6400000, .i32⟩) main_call1_v1) (broadcastInDim S6400000 ![] bcast_S_S6400000),
    TRef.ternary (TRef.of (T := ⟨S6400000, .i1⟩) main_v67) (TRef.of (T := ⟨S6400000, .i32⟩) main_v65) (TRef.of (T := ⟨S6400000, .i32⟩) main_call1_v1) (TRef.of (T := ⟨S6400000, .i32⟩) main_v68) select,
    nullary main_cst_18 (constant S_ .f32 0x00000000#32),
    unary main_cst_18 main_v69 (broadcastInDim S1025x100000 ![] bcast_S_S1025x100000 : (⟨S_, .f32⟩ : BufTy).Contents (Elt F) → (⟨S1025x100000, .f32⟩ : BufTy).Contents (Elt F)),
    nullary main_c_19 (constantI S_ 32 0#32),
    unary main_c_19 main_v70 (broadcastInDim S6400000 ![] bcast_S_S6400000 : (⟨S_, .i32⟩ : BufTy).Contents (Elt F) → (⟨S6400000, .i32⟩ : BufTy).Contents (Elt F)),
    binary main_v68 main_v70 main_v71 (cmpi .slt : (⟨S6400000, .i32⟩ : BufTy).Contents (Elt F) → (⟨S6400000, .i32⟩ : BufTy).Contents (Elt F) → (⟨S6400000, .i1⟩ : BufTy).Contents (Elt F)),
    nullary main_c_20 (constantI S_ 32 1025#32),
    unary main_c_20 main_v72 (broadcastInDim S6400000 ![] bcast_S_S6400000 : (⟨S_, .i32⟩ : BufTy).Contents (Elt F) → (⟨S6400000, .i32⟩ : BufTy).Contents (Elt F)),
    binary main_v68 main_v72 main_v73 (addi : (⟨S6400000, .i32⟩ : BufTy).Contents (Elt F) → (⟨S6400000, .i32⟩ : BufTy).Contents (Elt F) → (⟨S6400000, .i32⟩ : BufTy).Contents (Elt F)),
    ternary main_v71 main_v73 main_v68 main_v74 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    nullary main_c_21 (constantI S_ 32 0#32),
    unary main_c_21 main_v75 (broadcastInDim S6400000 ![] bcast_S_S6400000 : (⟨S_, .i32⟩ : BufTy).Contents (Elt F) → (⟨S6400000, .i32⟩ : BufTy).Contents (Elt F)),
    binary main_v13 main_v75 main_v76 (cmpi .slt : (⟨S6400000, .i32⟩ : BufTy).Contents (Elt F) → (⟨S6400000, .i32⟩ : BufTy).Contents (Elt F) → (⟨S6400000, .i1⟩ : BufTy).Contents (Elt F)),
    nullary main_c_22 (constantI S_ 32 100000#32),
    unary main_c_22 main_v77 (broadcastInDim S6400000 ![] bcast_S_S6400000 : (⟨S_, .i32⟩ : BufTy).Contents (Elt F) → (⟨S6400000, .i32⟩ : BufTy).Contents (Elt F)),
    binary main_v13 main_v77 main_v78 (addi : (⟨S6400000, .i32⟩ : BufTy).Contents (Elt F) → (⟨S6400000, .i32⟩ : BufTy).Contents (Elt F) → (⟨S6400000, .i32⟩ : BufTy).Contents (Elt F)),
    ternary main_v76 main_v78 main_v13 main_v79 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v74 main_v80 (broadcastInDim S6400000x1 ![0] bcast_S6400000_S6400000x1_0 : (⟨S6400000, .i32⟩ : BufTy).Contents (Elt F) → (⟨S6400000x1, .i32⟩ : BufTy).Contents (Elt F)),
    unary main_v79 main_v81 (broadcastInDim S6400000x1 ![0] bcast_S6400000_S6400000x1_0 : (⟨S6400000, .i32⟩ : BufTy).Contents (Elt F) → (⟨S6400000x1, .i32⟩ : BufTy).Contents (Elt F)),
    binary main_v80 main_v81 main_v82 ((fun a b => concatenate S6400000x2 1 [⟨S6400000x1, a⟩, ⟨S6400000x1, b⟩] concatenates_S6400000x1_S6400000x1_S6400000x2_d1) : (⟨S6400000x1, .i32⟩ : BufTy).Contents (Elt F) → (⟨S6400000x1, .i32⟩ : BufTy).Contents (Elt F) → (⟨S6400000x2, .i32⟩ : BufTy).Contents (Elt F)),
    nullary main_cst_23 (constant S_ .f32 0x3F800000#32),
    unary main_cst_23 main_v83 (broadcastInDim S6400000 ![] bcast_S_S6400000 : (⟨S_, .f32⟩ : BufTy).Contents (Elt F) → (⟨S6400000, .f32⟩ : BufTy).Contents (Elt F)),
    ternary main_v69 main_v82 main_v83 main_v84 ((fun x i u => Host.scatterAdd scatter_S1025x100000_S6400000x2_S6400000_n_01_01_1 x i u) : (⟨S1025x100000, .f32⟩ : BufTy).Contents (Elt F) → (⟨S6400000x2, .i32⟩ : BufTy).Contents (Elt F) → (⟨S6400000, .f32⟩ : BufTy).Contents (Elt F) → (⟨S1025x100000, .f32⟩ : BufTy).Contents (Elt F)),
    unary main_v84 main_v85 ((extractStridedSlice S1024x100000 ![0, 0] · slices_S1025x100000_S1024x100000_0_0) : (⟨S1025x100000, .f32⟩ : BufTy).Contents (Elt F) → (⟨S1024x100000, .f32⟩ : BufTy).Contents (Elt F)),
    binary main_v49 main_v85 main_v86 (mulf : (⟨S1024x100000, .f32⟩ : BufTy).Contents (Elt F) → (⟨S1024x100000, .f32⟩ : BufTy).Contents (Elt F) → (⟨S1024x100000, .f32⟩ : BufTy).Contents (Elt F)),
    binary main_v86 main_arg0 main_v87 ((fun l r => Host.dotGeneral dot_S1024x100000_S100000x128_S1024x128_1_0_0_1_n_n none l r) : (⟨S1024x100000, .f32⟩ : BufTy).Contents (Elt F) → (⟨S100000x128, .f32⟩ : BufTy).Contents (Elt F) → (⟨S1024x128, .f32⟩ : BufTy).Contents (Elt F)),
    nullary main_c_24 (constantI S_ 32 0#32),
    unary main_c_24 main_v88 (broadcastInDim S1024 ![] bcast_S_S1024 : (⟨S_, .i32⟩ : BufTy).Contents (Elt F) → (⟨S1024, .i32⟩ : BufTy).Contents (Elt F)),
    binary main_v1 main_v88 main_v89 (cmpi .slt : (⟨S1024, .i32⟩ : BufTy).Contents (Elt F) → (⟨S1024, .i32⟩ : BufTy).Contents (Elt F) → (⟨S1024, .i1⟩ : BufTy).Contents (Elt F)),
    nullary main_c_25 (constantI S_ 32 100000#32),
    unary main_c_25 main_v90 (broadcastInDim S1024 ![] bcast_S_S1024 : (⟨S_, .i32⟩ : BufTy).Contents (Elt F) → (⟨S1024, .i32⟩ : BufTy).Contents (Elt F)),
    binary main_v1 main_v90 main_v91 (addi : (⟨S1024, .i32⟩ : BufTy).Contents (Elt F) → (⟨S1024, .i32⟩ : BufTy).Contents (Elt F) → (⟨S1024, .i32⟩ : BufTy).Contents (Elt F)),
    ternary main_v89 main_v91 main_v1 main_v92 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v92 main_v93 (broadcastInDim S1024x1 ![0] bcast_S1024_S1024x1_0 : (⟨S1024, .i32⟩ : BufTy).Contents (Elt F) → (⟨S1024x1, .i32⟩ : BufTy).Contents (Elt F)),
    binary main_arg0 main_v93 main_v94 ((fun x i => Host.gather gather_S100000x128_S1024x1_S1024x128_1_0_n_n_0_1_1128 x i) : (⟨S100000x128, .f32⟩ : BufTy).Contents (Elt F) → (⟨S1024x1, .i32⟩ : BufTy).Contents (Elt F) → (⟨S1024x128, .f32⟩ : BufTy).Contents (Elt F)),
    nullary main_c_26 (constantI S_ 32 0#32),
    unary main_c_26 main_v95 (broadcastInDim S1024 ![] bcast_S_S1024 : (⟨S_, .i32⟩ : BufTy).Contents (Elt F) → (⟨S1024, .i32⟩ : BufTy).Contents (Elt F)),
    binary main_v3 main_v95 main_v96 (cmpi .slt : (⟨S1024, .i32⟩ : BufTy).Contents (Elt F) → (⟨S1024, .i32⟩ : BufTy).Contents (Elt F) → (⟨S1024, .i1⟩ : BufTy).Contents (Elt F)),
    nullary main_c_27 (constantI S_ 32 100000#32),
    unary main_c_27 main_v97 (broadcastInDim S1024 ![] bcast_S_S1024 : (⟨S_, .i32⟩ : BufTy).Contents (Elt F) → (⟨S1024, .i32⟩ : BufTy).Contents (Elt F)),
    binary main_v3 main_v97 main_v98 (addi : (⟨S1024, .i32⟩ : BufTy).Contents (Elt F) → (⟨S1024, .i32⟩ : BufTy).Contents (Elt F) → (⟨S1024, .i32⟩ : BufTy).Contents (Elt F)),
    ternary main_v96 main_v98 main_v3 main_v99 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v99 main_v100 (broadcastInDim S1024x1 ![0] bcast_S1024_S1024x1_0 : (⟨S1024, .i32⟩ : BufTy).Contents (Elt F) → (⟨S1024x1, .i32⟩ : BufTy).Contents (Elt F)),
    binary main_arg0 main_v100 main_v101 ((fun x i => Host.gather gather_S100000x128_S1024x1_S1024x128_1_0_n_n_0_1_1128 x i) : (⟨S100000x128, .f32⟩ : BufTy).Contents (Elt F) → (⟨S1024x1, .i32⟩ : BufTy).Contents (Elt F) → (⟨S1024x128, .f32⟩ : BufTy).Contents (Elt F)),
    binary main_v94 main_v101 main_v102 (mulf : (⟨S1024x128, .f32⟩ : BufTy).Contents (Elt F) → (⟨S1024x128, .f32⟩ : BufTy).Contents (Elt F) → (⟨S1024x128, .f32⟩ : BufTy).Contents (Elt F)),
    binary main_v102 main_v87 main_v103 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v103 main_arg3 main_v104 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F)),
    unary main_arg4 main_v105 (broadcastInDim S1x512 ![1] bcast_S512_S1x512_1 : (⟨S512, .f32⟩ : BufTy).Contents (Elt F) → (⟨S1x512, .f32⟩ : BufTy).Contents (Elt F)),
    unary main_v105 main_v106 (broadcastInDim S1024x512 ![0, 1] bcast_S1x512_S1024x512_0_1 : (⟨S1x512, .f32⟩ : BufTy).Contents (Elt F) → (⟨S1024x512, .f32⟩ : BufTy).Contents (Elt F)),
    binary main_v104 main_v106 main_v107 (addf : (⟨S1024x512, .f32⟩ : BufTy).Contents (Elt F) → (⟨S1024x512, .f32⟩ : BufTy).Contents (Elt F) → (⟨S1024x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x512, .f32⟩) main_call2_v0) (broadcastInDim S1024x512 ![] bcast_S_S1024x512),
    TRef.binary (TRef.of (T := ⟨S1024x512, .f32⟩) main_v107) (TRef.of (T := ⟨S1024x512, .f32⟩) main_call2_v0) (TRef.of (T := ⟨S1024x512, .f32⟩) main_v108) maximumf,
    binary main_v108 main_arg5 main_v109 ((fun l r => Host.dotGeneral dot_S1024x512_S512x1_S1024x1_1_0_0_1_n_n none l r) : (⟨S1024x512, .f32⟩ : BufTy).Contents (Elt F) → (⟨S512x1, .f32⟩ : BufTy).Contents (Elt F) → (⟨S1024x1, .f32⟩ : BufTy).Contents (Elt F)),
    unary main_arg6 main_v110 (broadcastInDim S1x1 ![1] bcast_S1_S1x1_1 : (⟨S1, .f32⟩ : BufTy).Contents (Elt F) → (⟨S1x1, .f32⟩ : BufTy).Contents (Elt F)),
    unary main_v110 main_v111 (broadcastInDim S1024x1 ![0, 1] bcast_S1x1_S1024x1_0_1 : (⟨S1x1, .f32⟩ : BufTy).Contents (Elt F) → (⟨S1024x1, .f32⟩ : BufTy).Contents (Elt F)),
    binary main_v109 main_v111 main_v112 (addf : (⟨S1024x1, .f32⟩ : BufTy).Contents (Elt F) → (⟨S1024x1, .f32⟩ : BufTy).Contents (Elt F) → (⟨S1024x1, .f32⟩ : BufTy).Contents (Elt F)),
    reshape main_v112 main_v113 rfl shapeCasts_S1024x1_S1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

end Cert.Bridge.RefRun

end
-- ==== Proof.Bridge.RefRunWalk.lean ====
/-
  The fold over the reference's 150 operations, read one operation at a time.

  After an operation the contents of the buffers are some valuation of which only this is kept: the buffer just
  written holds the stage's value — the operation's function of its operands' stages, which is the stage's
  definition unfolded once —, and every buffer written earlier that a later operation still reads holds what it
  held, since an operation changes no buffer but its own. So every comparison is between one operation's function
  applied to named stages and that stage's definition, and the result buffer ends at the last stage. Each case
  below is one operation: the step rule for its number of operands, the stage its buffer then holds, and the
  buffers carried past it.
-/
import proofs.«126571_j77292231459355_1_alg».proof.Proof.Bridge.RefRunSteps

noncomputable section

namespace Cert.Bridge.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- From any contents whose argument buffers hold `x0 … x6`, the line leaves the result buffer at the last stage. -/
theorem ref_after (s0 : Valuation τ sig (Elt F))
    (x0 : (⟨S100000x128, .f32⟩ : BufTy).Contents (Elt F))
    (x1 : (⟨S2x3200000, .i32⟩ : BufTy).Contents (Elt F))
    (x2 : (⟨S2x1024, .i32⟩ : BufTy).Contents (Elt F))
    (x3 : (⟨S256x512, .f32⟩ : BufTy).Contents (Elt F))
    (x4 : (⟨S512, .f32⟩ : BufTy).Contents (Elt F))
    (x5 : (⟨S512x1, .f32⟩ : BufTy).Contents (Elt F))
    (x6 : (⟨S1, .f32⟩ : BufTy).Contents (Elt F))
    (a0_arg0 : s0 (Proc.devRef .tc main_arg0) = x0)
    (a0_arg1 : s0 (Proc.devRef .tc main_arg1) = x1)
    (a0_arg2 : s0 (Proc.devRef .tc main_arg2) = x2)
    (a0_arg3 : s0 (Proc.devRef .tc main_arg3) = x3)
    (a0_arg4 : s0 (Proc.devRef .tc main_arg4) = x4)
    (a0_arg5 : s0 (Proc.devRef .tc main_arg5) = x5)
    (a0_arg6 : s0 (Proc.devRef .tc main_arg6) = x6)
    : after (ops (F := F)) s0 (Proc.devRef .tc main_v113) = Read.val_main_v113 (F := F) x0 x1 x2 x3 x4 x5 x6 := by
  -- main_v0
  refine step_unary (fun s1 e fr => ?_)
  have a1_v0 : s1 (Proc.devRef .tc main_v0) = Read.val_main_v0 x2 := e.trans (by rw [a0_arg2]; rfl)
  have a1_arg0 := (fr main_arg0 (by decide)).trans a0_arg0
  have a1_arg1 := (fr main_arg1 (by decide)).trans a0_arg1
  have a1_arg2 := (fr main_arg2 (by decide)).trans a0_arg2
  have a1_arg3 := (fr main_arg3 (by decide)).trans a0_arg3
  have a1_arg4 := (fr main_arg4 (by decide)).trans a0_arg4
  have a1_arg5 := (fr main_arg5 (by decide)).trans a0_arg5
  have a1_arg6 := (fr main_arg6 (by decide)).trans a0_arg6
  clear e fr a0_arg0 a0_arg1 a0_arg2 a0_arg3 a0_arg4 a0_arg5 a0_arg6
  -- main_v1
  refine step_reshape (fun s2 e fr => ?_)
  have a2_v1 : s2 (Proc.devRef .tc main_v1) = Read.val_main_v1 x2 := e.trans (by rw [a1_v0]; rfl)
  have a2_arg0 := (fr main_arg0 (by decide)).trans a1_arg0
  have a2_arg1 := (fr main_arg1 (by decide)).trans a1_arg1
  have a2_arg2 := (fr main_arg2 (by decide)).trans a1_arg2
  have a2_arg3 := (fr main_arg3 (by decide)).trans a1_arg3
  have a2_arg4 := (fr main_arg4 (by decide)).trans a1_arg4
  have a2_arg5 := (fr main_arg5 (by decide)).trans a1_arg5
  have a2_arg6 := (fr main_arg6 (by decide)).trans a1_arg6
  clear e fr a1_arg0 a1_arg1 a1_arg2 a1_arg3 a1_arg4 a1_arg5 a1_arg6 a1_v0 s1
  -- main_v2
  refine step_unary (fun s3 e fr => ?_)
  have a3_v2 : s3 (Proc.devRef .tc main_v2) = Read.val_main_v2 x2 := e.trans (by rw [a2_arg2]; rfl)
  have a3_arg0 := (fr main_arg0 (by decide)).trans a2_arg0
  have a3_arg1 := (fr main_arg1 (by decide)).trans a2_arg1
  have a3_arg3 := (fr main_arg3 (by decide)).trans a2_arg3
  have a3_arg4 := (fr main_arg4 (by decide)).trans a2_arg4
  have a3_arg5 := (fr main_arg5 (by decide)).trans a2_arg5
  have a3_arg6 := (fr main_arg6 (by decide)).trans a2_arg6
  have a3_v1 := (fr main_v1 (by decide)).trans a2_v1
  clear e fr a2_arg0 a2_arg1 a2_arg2 a2_arg3 a2_arg4 a2_arg5 a2_arg6 a2_v1 s2
  -- main_v3
  refine step_reshape (fun s4 e fr => ?_)
  have a4_v3 : s4 (Proc.devRef .tc main_v3) = Read.val_main_v3 x2 := e.trans (by rw [a3_v2]; rfl)
  have a4_arg0 := (fr main_arg0 (by decide)).trans a3_arg0
  have a4_arg1 := (fr main_arg1 (by decide)).trans a3_arg1
  have a4_arg3 := (fr main_arg3 (by decide)).trans a3_arg3
  have a4_arg4 := (fr main_arg4 (by decide)).trans a3_arg4
  have a4_arg5 := (fr main_arg5 (by decide)).trans a3_arg5
  have a4_arg6 := (fr main_arg6 (by decide)).trans a3_arg6
  have a4_v1 := (fr main_v1 (by decide)).trans a3_v1
  clear e fr a3_arg0 a3_arg1 a3_arg3 a3_arg4 a3_arg5 a3_arg6 a3_v1 a3_v2 s3
  -- main_v4
  refine step_unary (fun s5 e fr => ?_)
  have a5_v4 : s5 (Proc.devRef .tc main_v4) = Read.val_main_v4 x1 := e.trans (by rw [a4_arg1]; rfl)
  have a5_arg0 := (fr main_arg0 (by decide)).trans a4_arg0
  have a5_arg1 := (fr main_arg1 (by decide)).trans a4_arg1
  have a5_arg3 := (fr main_arg3 (by decide)).trans a4_arg3
  have a5_arg4 := (fr main_arg4 (by decide)).trans a4_arg4
  have a5_arg5 := (fr main_arg5 (by decide)).trans a4_arg5
  have a5_arg6 := (fr main_arg6 (by decide)).trans a4_arg6
  have a5_v1 := (fr main_v1 (by decide)).trans a4_v1
  have a5_v3 := (fr main_v3 (by decide)).trans a4_v3
  clear e fr a4_arg0 a4_arg1 a4_arg3 a4_arg4 a4_arg5 a4_arg6 a4_v1 a4_v3 s4
  -- main_v5
  refine step_reshape (fun s6 e fr => ?_)
  have a6_v5 : s6 (Proc.devRef .tc main_v5) = Read.val_main_v5 x1 := e.trans (by rw [a5_v4]; rfl)
  have a6_arg0 := (fr main_arg0 (by decide)).trans a5_arg0
  have a6_arg1 := (fr main_arg1 (by decide)).trans a5_arg1
  have a6_arg3 := (fr main_arg3 (by decide)).trans a5_arg3
  have a6_arg4 := (fr main_arg4 (by decide)).trans a5_arg4
  have a6_arg5 := (fr main_arg5 (by decide)).trans a5_arg5
  have a6_arg6 := (fr main_arg6 (by decide)).trans a5_arg6
  have a6_v1 := (fr main_v1 (by decide)).trans a5_v1
  have a6_v3 := (fr main_v3 (by decide)).trans a5_v3
  clear e fr a5_arg0 a5_arg1 a5_arg3 a5_arg4 a5_arg5 a5_arg6 a5_v1 a5_v3 a5_v4 s5
  -- main_v6
  refine step_unary (fun s7 e fr => ?_)
  have a7_v6 : s7 (Proc.devRef .tc main_v6) = Read.val_main_v6 x1 := e.trans (by rw [a6_arg1]; rfl)
  have a7_arg0 := (fr main_arg0 (by decide)).trans a6_arg0
  have a7_arg1 := (fr main_arg1 (by decide)).trans a6_arg1
  have a7_arg3 := (fr main_arg3 (by decide)).trans a6_arg3
  have a7_arg4 := (fr main_arg4 (by decide)).trans a6_arg4
  have a7_arg5 := (fr main_arg5 (by decide)).trans a6_arg5
  have a7_arg6 := (fr main_arg6 (by decide)).trans a6_arg6
  have a7_v1 := (fr main_v1 (by decide)).trans a6_v1
  have a7_v3 := (fr main_v3 (by decide)).trans a6_v3
  have a7_v5 := (fr main_v5 (by decide)).trans a6_v5
  clear e fr a6_arg0 a6_arg1 a6_arg3 a6_arg4 a6_arg5 a6_arg6 a6_v1 a6_v3 a6_v5 s6
  -- main_v7
  refine step_reshape (fun s8 e fr => ?_)
  have a8_v7 : s8 (Proc.devRef .tc main_v7) = Read.val_main_v7 x1 := e.trans (by rw [a7_v6]; rfl)
  have a8_arg0 := (fr main_arg0 (by decide)).trans a7_arg0
  have a8_arg1 := (fr main_arg1 (by decide)).trans a7_arg1
  have a8_arg3 := (fr main_arg3 (by decide)).trans a7_arg3
  have a8_arg4 := (fr main_arg4 (by decide)).trans a7_arg4
  have a8_arg5 := (fr main_arg5 (by decide)).trans a7_arg5
  have a8_arg6 := (fr main_arg6 (by decide)).trans a7_arg6
  have a8_v1 := (fr main_v1 (by decide)).trans a7_v1
  have a8_v3 := (fr main_v3 (by decide)).trans a7_v3
  have a8_v5 := (fr main_v5 (by decide)).trans a7_v5
  clear e fr a7_arg0 a7_arg1 a7_arg3 a7_arg4 a7_arg5 a7_arg6 a7_v1 a7_v3 a7_v5 a7_v6 s7
  -- main_v8
  refine step_binary (fun s9 e fr => ?_)
  have a9_v8 : s9 (Proc.devRef .tc main_v8) = Read.val_main_v8 x1 := e.trans (by rw [a8_v5, a8_v7]; rfl)
  have a9_arg0 := (fr main_arg0 (by decide)).trans a8_arg0
  have a9_arg1 := (fr main_arg1 (by decide)).trans a8_arg1
  have a9_arg3 := (fr main_arg3 (by decide)).trans a8_arg3
  have a9_arg4 := (fr main_arg4 (by decide)).trans a8_arg4
  have a9_arg5 := (fr main_arg5 (by decide)).trans a8_arg5
  have a9_arg6 := (fr main_arg6 (by decide)).trans a8_arg6
  have a9_v1 := (fr main_v1 (by decide)).trans a8_v1
  have a9_v3 := (fr main_v3 (by decide)).trans a8_v3
  clear e fr a8_arg0 a8_arg1 a8_arg3 a8_arg4 a8_arg5 a8_arg6 a8_v1 a8_v3 a8_v5 a8_v7 s8
  -- main_v9
  refine step_unary (fun s10 e fr => ?_)
  have a10_v9 : s10 (Proc.devRef .tc main_v9) = Read.val_main_v9 x1 := e.trans (by rw [a9_arg1]; rfl)
  have a10_arg0 := (fr main_arg0 (by decide)).trans a9_arg0
  have a10_arg1 := (fr main_arg1 (by decide)).trans a9_arg1
  have a10_arg3 := (fr main_arg3 (by decide)).trans a9_arg3
  have a10_arg4 := (fr main_arg4 (by decide)).trans a9_arg4
  have a10_arg5 := (fr main_arg5 (by decide)).trans a9_arg5
  have a10_arg6 := (fr main_arg6 (by decide)).trans a9_arg6
  have a10_v1 := (fr main_v1 (by decide)).trans a9_v1
  have a10_v3 := (fr main_v3 (by decide)).trans a9_v3
  have a10_v8 := (fr main_v8 (by decide)).trans a9_v8
  clear e fr a9_arg0 a9_arg1 a9_arg3 a9_arg4 a9_arg5 a9_arg6 a9_v1 a9_v3 a9_v8 s9
  -- main_v10
  refine step_reshape (fun s11 e fr => ?_)
  have a11_v10 : s11 (Proc.devRef .tc main_v10) = Read.val_main_v10 x1 := e.trans (by rw [a10_v9]; rfl)
  have a11_arg0 := (fr main_arg0 (by decide)).trans a10_arg0
  have a11_arg1 := (fr main_arg1 (by decide)).trans a10_arg1
  have a11_arg3 := (fr main_arg3 (by decide)).trans a10_arg3
  have a11_arg4 := (fr main_arg4 (by decide)).trans a10_arg4
  have a11_arg5 := (fr main_arg5 (by decide)).trans a10_arg5
  have a11_arg6 := (fr main_arg6 (by decide)).trans a10_arg6
  have a11_v1 := (fr main_v1 (by decide)).trans a10_v1
  have a11_v3 := (fr main_v3 (by decide)).trans a10_v3
  have a11_v8 := (fr main_v8 (by decide)).trans a10_v8
  clear e fr a10_arg0 a10_arg1 a10_arg3 a10_arg4 a10_arg5 a10_arg6 a10_v1 a10_v3 a10_v8 a10_v9 s10
  -- main_v11
  refine step_unary (fun s12 e fr => ?_)
  have a12_v11 : s12 (Proc.devRef .tc main_v11) = Read.val_main_v11 x1 := e.trans (by rw [a11_arg1]; rfl)
  have a12_arg0 := (fr main_arg0 (by decide)).trans a11_arg0
  have a12_arg3 := (fr main_arg3 (by decide)).trans a11_arg3
  have a12_arg4 := (fr main_arg4 (by decide)).trans a11_arg4
  have a12_arg5 := (fr main_arg5 (by decide)).trans a11_arg5
  have a12_arg6 := (fr main_arg6 (by decide)).trans a11_arg6
  have a12_v1 := (fr main_v1 (by decide)).trans a11_v1
  have a12_v3 := (fr main_v3 (by decide)).trans a11_v3
  have a12_v8 := (fr main_v8 (by decide)).trans a11_v8
  have a12_v10 := (fr main_v10 (by decide)).trans a11_v10
  clear e fr a11_arg0 a11_arg1 a11_arg3 a11_arg4 a11_arg5 a11_arg6 a11_v1 a11_v3 a11_v8 a11_v10 s11
  -- main_v12
  refine step_reshape (fun s13 e fr => ?_)
  have a13_v12 : s13 (Proc.devRef .tc main_v12) = Read.val_main_v12 x1 := e.trans (by rw [a12_v11]; rfl)
  have a13_arg0 := (fr main_arg0 (by decide)).trans a12_arg0
  have a13_arg3 := (fr main_arg3 (by decide)).trans a12_arg3
  have a13_arg4 := (fr main_arg4 (by decide)).trans a12_arg4
  have a13_arg5 := (fr main_arg5 (by decide)).trans a12_arg5
  have a13_arg6 := (fr main_arg6 (by decide)).trans a12_arg6
  have a13_v1 := (fr main_v1 (by decide)).trans a12_v1
  have a13_v3 := (fr main_v3 (by decide)).trans a12_v3
  have a13_v8 := (fr main_v8 (by decide)).trans a12_v8
  have a13_v10 := (fr main_v10 (by decide)).trans a12_v10
  clear e fr a12_arg0 a12_arg3 a12_arg4 a12_arg5 a12_arg6 a12_v1 a12_v3 a12_v8 a12_v10 a12_v11 s12
  -- main_v13
  refine step_binary (fun s14 e fr => ?_)
  have a14_v13 : s14 (Proc.devRef .tc main_v13) = Read.val_main_v13 x1 := e.trans (by rw [a13_v10, a13_v12]; rfl)
  have a14_arg0 := (fr main_arg0 (by decide)).trans a13_arg0
  have a14_arg3 := (fr main_arg3 (by decide)).trans a13_arg3
  have a14_arg4 := (fr main_arg4 (by decide)).trans a13_arg4
  have a14_arg5 := (fr main_arg5 (by decide)).trans a13_arg5
  have a14_arg6 := (fr main_arg6 (by decide)).trans a13_arg6
  have a14_v1 := (fr main_v1 (by decide)).trans a13_v1
  have a14_v3 := (fr main_v3 (by decide)).trans a13_v3
  have a14_v8 := (fr main_v8 (by decide)).trans a13_v8
  clear e fr a13_arg0 a13_arg3 a13_arg4 a13_arg5 a13_arg6 a13_v1 a13_v3 a13_v8 a13_v10 a13_v12 s13
  -- main_c
  refine step_nullary (fun s15 e fr => ?_)
  have a15_c : s15 (Proc.devRef .tc main_c) = Read.val_main_c := e.trans (rfl)
  have a15_arg0 := (fr main_arg0 (by decide)).trans a14_arg0
  have a15_arg3 := (fr main_arg3 (by decide)).trans a14_arg3
  have a15_arg4 := (fr main_arg4 (by decide)).trans a14_arg4
  have a15_arg5 := (fr main_arg5 (by decide)).trans a14_arg5
  have a15_arg6 := (fr main_arg6 (by decide)).trans a14_arg6
  have a15_v1 := (fr main_v1 (by decide)).trans a14_v1
  have a15_v3 := (fr main_v3 (by decide)).trans a14_v3
  have a15_v8 := (fr main_v8 (by decide)).trans a14_v8
  have a15_v13 := (fr main_v13 (by decide)).trans a14_v13
  clear e fr a14_arg0 a14_arg3 a14_arg4 a14_arg5 a14_arg6 a14_v1 a14_v3 a14_v8 a14_v13 s14
  -- main_v14
  refine step_unary (fun s16 e fr => ?_)
  have a16_v14 : s16 (Proc.devRef .tc main_v14) = Read.val_main_v14 := e.trans (by rw [a15_c]; rfl)
  have a16_arg0 := (fr main_arg0 (by decide)).trans a15_arg0
  have a16_arg3 := (fr main_arg3 (by decide)).trans a15_arg3
  have a16_arg4 := (fr main_arg4 (by decide)).trans a15_arg4
  have a16_arg5 := (fr main_arg5 (by decide)).trans a15_arg5
  have a16_arg6 := (fr main_arg6 (by decide)).trans a15_arg6
  have a16_v1 := (fr main_v1 (by decide)).trans a15_v1
  have a16_v3 := (fr main_v3 (by decide)).trans a15_v3
  have a16_v8 := (fr main_v8 (by decide)).trans a15_v8
  have a16_v13 := (fr main_v13 (by decide)).trans a15_v13
  clear e fr a15_arg0 a15_arg3 a15_arg4 a15_arg5 a15_arg6 a15_v1 a15_v3 a15_v8 a15_v13 a15_c s15
  -- main_v15
  refine step_nullary (fun s17 e fr => ?_)
  have a17_v15 : s17 (Proc.devRef .tc main_v15) = Read.val_main_v15 := e.trans (rfl)
  have a17_arg0 := (fr main_arg0 (by decide)).trans a16_arg0
  have a17_arg3 := (fr main_arg3 (by decide)).trans a16_arg3
  have a17_arg4 := (fr main_arg4 (by decide)).trans a16_arg4
  have a17_arg5 := (fr main_arg5 (by decide)).trans a16_arg5
  have a17_arg6 := (fr main_arg6 (by decide)).trans a16_arg6
  have a17_v1 := (fr main_v1 (by decide)).trans a16_v1
  have a17_v3 := (fr main_v3 (by decide)).trans a16_v3
  have a17_v8 := (fr main_v8 (by decide)).trans a16_v8
  have a17_v13 := (fr main_v13 (by decide)).trans a16_v13
  have a17_v14 := (fr main_v14 (by decide)).trans a16_v14
  clear e fr a16_arg0 a16_arg3 a16_arg4 a16_arg5 a16_arg6 a16_v1 a16_v3 a16_v8 a16_v13 a16_v14 s16
  -- main_c_0
  refine step_nullary (fun s18 e fr => ?_)
  have a18_c_0 : s18 (Proc.devRef .tc main_c_0) = Read.val_main_c_0 := e.trans (rfl)
  have a18_arg0 := (fr main_arg0 (by decide)).trans a17_arg0
  have a18_arg3 := (fr main_arg3 (by decide)).trans a17_arg3
  have a18_arg4 := (fr main_arg4 (by decide)).trans a17_arg4
  have a18_arg5 := (fr main_arg5 (by decide)).trans a17_arg5
  have a18_arg6 := (fr main_arg6 (by decide)).trans a17_arg6
  have a18_v1 := (fr main_v1 (by decide)).trans a17_v1
  have a18_v3 := (fr main_v3 (by decide)).trans a17_v3
  have a18_v8 := (fr main_v8 (by decide)).trans a17_v8
  have a18_v13 := (fr main_v13 (by decide)).trans a17_v13
  have a18_v14 := (fr main_v14 (by decide)).trans a17_v14
  have a18_v15 := (fr main_v15 (by decide)).trans a17_v15
  clear e fr a17_arg0 a17_arg3 a17_arg4 a17_arg5 a17_arg6 a17_v1 a17_v3 a17_v8 a17_v13 a17_v14 a17_v15 s17
  -- main_v16
  refine step_unary (fun s19 e fr => ?_)
  have a19_v16 : s19 (Proc.devRef .tc main_v16) = Read.val_main_v16 := e.trans (by rw [a18_c_0]; rfl)
  have a19_arg0 := (fr main_arg0 (by decide)).trans a18_arg0
  have a19_arg3 := (fr main_arg3 (by decide)).trans a18_arg3
  have a19_arg4 := (fr main_arg4 (by decide)).trans a18_arg4
  have a19_arg5 := (fr main_arg5 (by decide)).trans a18_arg5
  have a19_arg6 := (fr main_arg6 (by decide)).trans a18_arg6
  have a19_v1 := (fr main_v1 (by decide)).trans a18_v1
  have a19_v3 := (fr main_v3 (by decide)).trans a18_v3
  have a19_v8 := (fr main_v8 (by decide)).trans a18_v8
  have a19_v13 := (fr main_v13 (by decide)).trans a18_v13
  have a19_v14 := (fr main_v14 (by decide)).trans a18_v14
  have a19_v15 := (fr main_v15 (by decide)).trans a18_v15
  clear e fr a18_arg0 a18_arg3 a18_arg4 a18_arg5 a18_arg6 a18_v1 a18_v3 a18_v8 a18_v13 a18_v14 a18_v15 a18_c_0 s18
  -- main_v17
  refine step_binary (fun s20 e fr => ?_)
  have a20_v17 : s20 (Proc.devRef .tc main_v17) = Read.val_main_v17 x2 := e.trans (by rw [a19_v1, a19_v16]; rfl)
  have a20_arg0 := (fr main_arg0 (by decide)).trans a19_arg0
  have a20_arg3 := (fr main_arg3 (by decide)).trans a19_arg3
  have a20_arg4 := (fr main_arg4 (by decide)).trans a19_arg4
  have a20_arg5 := (fr main_arg5 (by decide)).trans a19_arg5
  have a20_arg6 := (fr main_arg6 (by decide)).trans a19_arg6
  have a20_v1 := (fr main_v1 (by decide)).trans a19_v1
  have a20_v3 := (fr main_v3 (by decide)).trans a19_v3
  have a20_v8 := (fr main_v8 (by decide)).trans a19_v8
  have a20_v13 := (fr main_v13 (by decide)).trans a19_v13
  have a20_v14 := (fr main_v14 (by decide)).trans a19_v14
  have a20_v15 := (fr main_v15 (by decide)).trans a19_v15
  clear e fr a19_arg0 a19_arg3 a19_arg4 a19_arg5 a19_arg6 a19_v1 a19_v3 a19_v8 a19_v13 a19_v14 a19_v15 a19_v16 s19
  -- main_c_1
  refine step_nullary (fun s21 e fr => ?_)
  have a21_c_1 : s21 (Proc.devRef .tc main_c_1) = Read.val_main_c_1 := e.trans (rfl)
  have a21_arg0 := (fr main_arg0 (by decide)).trans a20_arg0
  have a21_arg3 := (fr main_arg3 (by decide)).trans a20_arg3
  have a21_arg4 := (fr main_arg4 (by decide)).trans a20_arg4
  have a21_arg5 := (fr main_arg5 (by decide)).trans a20_arg5
  have a21_arg6 := (fr main_arg6 (by decide)).trans a20_arg6
  have a21_v1 := (fr main_v1 (by decide)).trans a20_v1
  have a21_v3 := (fr main_v3 (by decide)).trans a20_v3
  have a21_v8 := (fr main_v8 (by decide)).trans a20_v8
  have a21_v13 := (fr main_v13 (by decide)).trans a20_v13
  have a21_v14 := (fr main_v14 (by decide)).trans a20_v14
  have a21_v15 := (fr main_v15 (by decide)).trans a20_v15
  have a21_v17 := (fr main_v17 (by decide)).trans a20_v17
  clear e fr a20_arg0 a20_arg3 a20_arg4 a20_arg5 a20_arg6 a20_v1 a20_v3 a20_v8 a20_v13 a20_v14 a20_v15 a20_v17 s20
  -- main_v18
  refine step_unary (fun s22 e fr => ?_)
  have a22_v18 : s22 (Proc.devRef .tc main_v18) = Read.val_main_v18 := e.trans (by rw [a21_c_1]; rfl)
  have a22_arg0 := (fr main_arg0 (by decide)).trans a21_arg0
  have a22_arg3 := (fr main_arg3 (by decide)).trans a21_arg3
  have a22_arg4 := (fr main_arg4 (by decide)).trans a21_arg4
  have a22_arg5 := (fr main_arg5 (by decide)).trans a21_arg5
  have a22_arg6 := (fr main_arg6 (by decide)).trans a21_arg6
  have a22_v1 := (fr main_v1 (by decide)).trans a21_v1
  have a22_v3 := (fr main_v3 (by decide)).trans a21_v3
  have a22_v8 := (fr main_v8 (by decide)).trans a21_v8
  have a22_v13 := (fr main_v13 (by decide)).trans a21_v13
  have a22_v14 := (fr main_v14 (by decide)).trans a21_v14
  have a22_v15 := (fr main_v15 (by decide)).trans a21_v15
  have a22_v17 := (fr main_v17 (by decide)).trans a21_v17
  clear e fr a21_arg0 a21_arg3 a21_arg4 a21_arg5 a21_arg6 a21_v1 a21_v3 a21_v8 a21_v13 a21_v14 a21_v15 a21_v17 a21_c_1 s21
  -- main_v19
  refine step_binary (fun s23 e fr => ?_)
  have a23_v19 : s23 (Proc.devRef .tc main_v19) = Read.val_main_v19 x2 := e.trans (by rw [a22_v1, a22_v18]; rfl)
  have a23_arg0 := (fr main_arg0 (by decide)).trans a22_arg0
  have a23_arg3 := (fr main_arg3 (by decide)).trans a22_arg3
  have a23_arg4 := (fr main_arg4 (by decide)).trans a22_arg4
  have a23_arg5 := (fr main_arg5 (by decide)).trans a22_arg5
  have a23_arg6 := (fr main_arg6 (by decide)).trans a22_arg6
  have a23_v1 := (fr main_v1 (by decide)).trans a22_v1
  have a23_v3 := (fr main_v3 (by decide)).trans a22_v3
  have a23_v8 := (fr main_v8 (by decide)).trans a22_v8
  have a23_v13 := (fr main_v13 (by decide)).trans a22_v13
  have a23_v14 := (fr main_v14 (by decide)).trans a22_v14
  have a23_v15 := (fr main_v15 (by decide)).trans a22_v15
  have a23_v17 := (fr main_v17 (by decide)).trans a22_v17
  clear e fr a22_arg0 a22_arg3 a22_arg4 a22_arg5 a22_arg6 a22_v1 a22_v3 a22_v8 a22_v13 a22_v14 a22_v15 a22_v17 a22_v18 s22
  -- main_v20
  refine step_ternary (fun s24 e fr => ?_)
  have a24_v20 : s24 (Proc.devRef .tc main_v20) = Read.val_main_v20 x2 := e.trans (by rw [a23_v17, a23_v19, a23_v1]; rfl)
  have a24_arg0 := (fr main_arg0 (by decide)).trans a23_arg0
  have a24_arg3 := (fr main_arg3 (by decide)).trans a23_arg3
  have a24_arg4 := (fr main_arg4 (by decide)).trans a23_arg4
  have a24_arg5 := (fr main_arg5 (by decide)).trans a23_arg5
  have a24_arg6 := (fr main_arg6 (by decide)).trans a23_arg6
  have a24_v1 := (fr main_v1 (by decide)).trans a23_v1
  have a24_v3 := (fr main_v3 (by decide)).trans a23_v3
  have a24_v8 := (fr main_v8 (by decide)).trans a23_v8
  have a24_v13 := (fr main_v13 (by decide)).trans a23_v13
  have a24_v14 := (fr main_v14 (by decide)).trans a23_v14
  have a24_v15 := (fr main_v15 (by decide)).trans a23_v15
  clear e fr a23_arg0 a23_arg3 a23_arg4 a23_arg5 a23_arg6 a23_v1 a23_v3 a23_v8 a23_v13 a23_v14 a23_v15 a23_v17 a23_v19 s23
  -- main_v21
  refine step_unary (fun s25 e fr => ?_)
  have a25_v21 : s25 (Proc.devRef .tc main_v21) = Read.val_main_v21 x2 := e.trans (by rw [a24_v20]; rfl)
  have a25_arg0 := (fr main_arg0 (by decide)).trans a24_arg0
  have a25_arg3 := (fr main_arg3 (by decide)).trans a24_arg3
  have a25_arg4 := (fr main_arg4 (by decide)).trans a24_arg4
  have a25_arg5 := (fr main_arg5 (by decide)).trans a24_arg5
  have a25_arg6 := (fr main_arg6 (by decide)).trans a24_arg6
  have a25_v1 := (fr main_v1 (by decide)).trans a24_v1
  have a25_v3 := (fr main_v3 (by decide)).trans a24_v3
  have a25_v8 := (fr main_v8 (by decide)).trans a24_v8
  have a25_v13 := (fr main_v13 (by decide)).trans a24_v13
  have a25_v14 := (fr main_v14 (by decide)).trans a24_v14
  have a25_v15 := (fr main_v15 (by decide)).trans a24_v15
  clear e fr a24_arg0 a24_arg3 a24_arg4 a24_arg5 a24_arg6 a24_v1 a24_v3 a24_v8 a24_v13 a24_v14 a24_v15 a24_v20 s24
  -- main_v22
  refine step_ternary (fun s26 e fr => ?_)
  have a26_v22 : s26 (Proc.devRef .tc main_v22) = Read.val_main_v22 x2 := e.trans (by rw [a25_v14, a25_v21, a25_v15]; rfl)
  have a26_arg0 := (fr main_arg0 (by decide)).trans a25_arg0
  have a26_arg3 := (fr main_arg3 (by decide)).trans a25_arg3
  have a26_arg4 := (fr main_arg4 (by decide)).trans a25_arg4
  have a26_arg5 := (fr main_arg5 (by decide)).trans a25_arg5
  have a26_arg6 := (fr main_arg6 (by decide)).trans a25_arg6
  have a26_v1 := (fr main_v1 (by decide)).trans a25_v1
  have a26_v3 := (fr main_v3 (by decide)).trans a25_v3
  have a26_v8 := (fr main_v8 (by decide)).trans a25_v8
  have a26_v13 := (fr main_v13 (by decide)).trans a25_v13
  clear e fr a25_arg0 a25_arg3 a25_arg4 a25_arg5 a25_arg6 a25_v1 a25_v3 a25_v8 a25_v13 a25_v14 a25_v15 a25_v21 s25
  -- main_c_2
  refine step_nullary (fun s27 e fr => ?_)
  have a27_c_2 : s27 (Proc.devRef .tc main_c_2) = Read.val_main_c_2 := e.trans (rfl)
  have a27_arg0 := (fr main_arg0 (by decide)).trans a26_arg0
  have a27_arg3 := (fr main_arg3 (by decide)).trans a26_arg3
  have a27_arg4 := (fr main_arg4 (by decide)).trans a26_arg4
  have a27_arg5 := (fr main_arg5 (by decide)).trans a26_arg5
  have a27_arg6 := (fr main_arg6 (by decide)).trans a26_arg6
  have a27_v1 := (fr main_v1 (by decide)).trans a26_v1
  have a27_v3 := (fr main_v3 (by decide)).trans a26_v3
  have a27_v8 := (fr main_v8 (by decide)).trans a26_v8
  have a27_v13 := (fr main_v13 (by decide)).trans a26_v13
  have a27_v22 := (fr main_v22 (by decide)).trans a26_v22
  clear e fr a26_arg0 a26_arg3 a26_arg4 a26_arg5 a26_arg6 a26_v1 a26_v3 a26_v8 a26_v13 a26_v22 s26
  -- main_v23
  refine step_unary (fun s28 e fr => ?_)
  have a28_v23 : s28 (Proc.devRef .tc main_v23) = Read.val_main_v23 := e.trans (by rw [a27_c_2]; rfl)
  have a28_arg0 := (fr main_arg0 (by decide)).trans a27_arg0
  have a28_arg3 := (fr main_arg3 (by decide)).trans a27_arg3
  have a28_arg4 := (fr main_arg4 (by decide)).trans a27_arg4
  have a28_arg5 := (fr main_arg5 (by decide)).trans a27_arg5
  have a28_arg6 := (fr main_arg6 (by decide)).trans a27_arg6
  have a28_v1 := (fr main_v1 (by decide)).trans a27_v1
  have a28_v3 := (fr main_v3 (by decide)).trans a27_v3
  have a28_v8 := (fr main_v8 (by decide)).trans a27_v8
  have a28_v13 := (fr main_v13 (by decide)).trans a27_v13
  have a28_v22 := (fr main_v22 (by decide)).trans a27_v22
  clear e fr a27_arg0 a27_arg3 a27_arg4 a27_arg5 a27_arg6 a27_v1 a27_v3 a27_v8 a27_v13 a27_v22 a27_c_2 s27
  -- main_v24
  refine step_binary (fun s29 e fr => ?_)
  have a29_v24 : s29 (Proc.devRef .tc main_v24) = Read.val_main_v24 x1 := e.trans (by rw [a28_v8, a28_v23]; rfl)
  have a29_arg0 := (fr main_arg0 (by decide)).trans a28_arg0
  have a29_arg3 := (fr main_arg3 (by decide)).trans a28_arg3
  have a29_arg4 := (fr main_arg4 (by decide)).trans a28_arg4
  have a29_arg5 := (fr main_arg5 (by decide)).trans a28_arg5
  have a29_arg6 := (fr main_arg6 (by decide)).trans a28_arg6
  have a29_v1 := (fr main_v1 (by decide)).trans a28_v1
  have a29_v3 := (fr main_v3 (by decide)).trans a28_v3
  have a29_v8 := (fr main_v8 (by decide)).trans a28_v8
  have a29_v13 := (fr main_v13 (by decide)).trans a28_v13
  have a29_v22 := (fr main_v22 (by decide)).trans a28_v22
  clear e fr a28_arg0 a28_arg3 a28_arg4 a28_arg5 a28_arg6 a28_v1 a28_v3 a28_v8 a28_v13 a28_v22 a28_v23 s28
  -- main_c_3
  refine step_nullary (fun s30 e fr => ?_)
  have a30_c_3 : s30 (Proc.devRef .tc main_c_3) = Read.val_main_c_3 := e.trans (rfl)
  have a30_arg0 := (fr main_arg0 (by decide)).trans a29_arg0
  have a30_arg3 := (fr main_arg3 (by decide)).trans a29_arg3
  have a30_arg4 := (fr main_arg4 (by decide)).trans a29_arg4
  have a30_arg5 := (fr main_arg5 (by decide)).trans a29_arg5
  have a30_arg6 := (fr main_arg6 (by decide)).trans a29_arg6
  have a30_v1 := (fr main_v1 (by decide)).trans a29_v1
  have a30_v3 := (fr main_v3 (by decide)).trans a29_v3
  have a30_v8 := (fr main_v8 (by decide)).trans a29_v8
  have a30_v13 := (fr main_v13 (by decide)).trans a29_v13
  have a30_v22 := (fr main_v22 (by decide)).trans a29_v22
  have a30_v24 := (fr main_v24 (by decide)).trans a29_v24
  clear e fr a29_arg0 a29_arg3 a29_arg4 a29_arg5 a29_arg6 a29_v1 a29_v3 a29_v8 a29_v13 a29_v22 a29_v24 s29
  -- main_v25
  refine step_unary (fun s31 e fr => ?_)
  have a31_v25 : s31 (Proc.devRef .tc main_v25) = Read.val_main_v25 := e.trans (by rw [a30_c_3]; rfl)
  have a31_arg0 := (fr main_arg0 (by decide)).trans a30_arg0
  have a31_arg3 := (fr main_arg3 (by decide)).trans a30_arg3
  have a31_arg4 := (fr main_arg4 (by decide)).trans a30_arg4
  have a31_arg5 := (fr main_arg5 (by decide)).trans a30_arg5
  have a31_arg6 := (fr main_arg6 (by decide)).trans a30_arg6
  have a31_v1 := (fr main_v1 (by decide)).trans a30_v1
  have a31_v3 := (fr main_v3 (by decide)).trans a30_v3
  have a31_v8 := (fr main_v8 (by decide)).trans a30_v8
  have a31_v13 := (fr main_v13 (by decide)).trans a30_v13
  have a31_v22 := (fr main_v22 (by decide)).trans a30_v22
  have a31_v24 := (fr main_v24 (by decide)).trans a30_v24
  clear e fr a30_arg0 a30_arg3 a30_arg4 a30_arg5 a30_arg6 a30_v1 a30_v3 a30_v8 a30_v13 a30_v22 a30_v24 a30_c_3 s30
  -- main_v26
  refine step_binary (fun s32 e fr => ?_)
  have a32_v26 : s32 (Proc.devRef .tc main_v26) = Read.val_main_v26 x1 := e.trans (by rw [a31_v8, a31_v25]; rfl)
  have a32_arg0 := (fr main_arg0 (by decide)).trans a31_arg0
  have a32_arg3 := (fr main_arg3 (by decide)).trans a31_arg3
  have a32_arg4 := (fr main_arg4 (by decide)).trans a31_arg4
  have a32_arg5 := (fr main_arg5 (by decide)).trans a31_arg5
  have a32_arg6 := (fr main_arg6 (by decide)).trans a31_arg6
  have a32_v1 := (fr main_v1 (by decide)).trans a31_v1
  have a32_v3 := (fr main_v3 (by decide)).trans a31_v3
  have a32_v8 := (fr main_v8 (by decide)).trans a31_v8
  have a32_v13 := (fr main_v13 (by decide)).trans a31_v13
  have a32_v22 := (fr main_v22 (by decide)).trans a31_v22
  have a32_v24 := (fr main_v24 (by decide)).trans a31_v24
  clear e fr a31_arg0 a31_arg3 a31_arg4 a31_arg5 a31_arg6 a31_v1 a31_v3 a31_v8 a31_v13 a31_v22 a31_v24 a31_v25 s31
  -- main_v27
  refine step_ternary (fun s33 e fr => ?_)
  have a33_v27 : s33 (Proc.devRef .tc main_v27) = Read.val_main_v27 x1 := e.trans (by rw [a32_v24, a32_v26, a32_v8]; rfl)
  have a33_arg0 := (fr main_arg0 (by decide)).trans a32_arg0
  have a33_arg3 := (fr main_arg3 (by decide)).trans a32_arg3
  have a33_arg4 := (fr main_arg4 (by decide)).trans a32_arg4
  have a33_arg5 := (fr main_arg5 (by decide)).trans a32_arg5
  have a33_arg6 := (fr main_arg6 (by decide)).trans a32_arg6
  have a33_v1 := (fr main_v1 (by decide)).trans a32_v1
  have a33_v3 := (fr main_v3 (by decide)).trans a32_v3
  have a33_v8 := (fr main_v8 (by decide)).trans a32_v8
  have a33_v13 := (fr main_v13 (by decide)).trans a32_v13
  have a33_v22 := (fr main_v22 (by decide)).trans a32_v22
  clear e fr a32_arg0 a32_arg3 a32_arg4 a32_arg5 a32_arg6 a32_v1 a32_v3 a32_v8 a32_v13 a32_v22 a32_v24 a32_v26 s32
  -- main_v28
  refine step_unary (fun s34 e fr => ?_)
  have a34_v28 : s34 (Proc.devRef .tc main_v28) = Read.val_main_v28 x1 := e.trans (by rw [a33_v27]; rfl)
  have a34_arg0 := (fr main_arg0 (by decide)).trans a33_arg0
  have a34_arg3 := (fr main_arg3 (by decide)).trans a33_arg3
  have a34_arg4 := (fr main_arg4 (by decide)).trans a33_arg4
  have a34_arg5 := (fr main_arg5 (by decide)).trans a33_arg5
  have a34_arg6 := (fr main_arg6 (by decide)).trans a33_arg6
  have a34_v1 := (fr main_v1 (by decide)).trans a33_v1
  have a34_v3 := (fr main_v3 (by decide)).trans a33_v3
  have a34_v8 := (fr main_v8 (by decide)).trans a33_v8
  have a34_v13 := (fr main_v13 (by decide)).trans a33_v13
  have a34_v22 := (fr main_v22 (by decide)).trans a33_v22
  clear e fr a33_arg0 a33_arg3 a33_arg4 a33_arg5 a33_arg6 a33_v1 a33_v3 a33_v8 a33_v13 a33_v22 a33_v27 s33
  -- main_v29
  refine step_binary (fun s35 e fr => ?_)
  have a35_v29 : s35 (Proc.devRef .tc main_v29) = Read.val_main_v29 x1 x2 := e.trans (by rw [a34_v22, a34_v28]; rfl)
  have a35_arg0 := (fr main_arg0 (by decide)).trans a34_arg0
  have a35_arg3 := (fr main_arg3 (by decide)).trans a34_arg3
  have a35_arg4 := (fr main_arg4 (by decide)).trans a34_arg4
  have a35_arg5 := (fr main_arg5 (by decide)).trans a34_arg5
  have a35_arg6 := (fr main_arg6 (by decide)).trans a34_arg6
  have a35_v1 := (fr main_v1 (by decide)).trans a34_v1
  have a35_v3 := (fr main_v3 (by decide)).trans a34_v3
  have a35_v8 := (fr main_v8 (by decide)).trans a34_v8
  have a35_v13 := (fr main_v13 (by decide)).trans a34_v13
  clear e fr a34_arg0 a34_arg3 a34_arg4 a34_arg5 a34_arg6 a34_v1 a34_v3 a34_v8 a34_v13 a34_v22 a34_v28 s34
  -- main_c_4
  refine step_nullary (fun s36 e fr => ?_)
  have a36_c_4 : s36 (Proc.devRef .tc main_c_4) = Read.val_main_c_4 := e.trans (rfl)
  have a36_arg0 := (fr main_arg0 (by decide)).trans a35_arg0
  have a36_arg3 := (fr main_arg3 (by decide)).trans a35_arg3
  have a36_arg4 := (fr main_arg4 (by decide)).trans a35_arg4
  have a36_arg5 := (fr main_arg5 (by decide)).trans a35_arg5
  have a36_arg6 := (fr main_arg6 (by decide)).trans a35_arg6
  have a36_v1 := (fr main_v1 (by decide)).trans a35_v1
  have a36_v3 := (fr main_v3 (by decide)).trans a35_v3
  have a36_v8 := (fr main_v8 (by decide)).trans a35_v8
  have a36_v13 := (fr main_v13 (by decide)).trans a35_v13
  have a36_v29 := (fr main_v29 (by decide)).trans a35_v29
  clear e fr a35_arg0 a35_arg3 a35_arg4 a35_arg5 a35_arg6 a35_v1 a35_v3 a35_v8 a35_v13 a35_v29 s35
  -- main_v30
  refine step_unary (fun s37 e fr => ?_)
  have a37_v30 : s37 (Proc.devRef .tc main_v30) = Read.val_main_v30 := e.trans (by rw [a36_c_4]; rfl)
  have a37_arg0 := (fr main_arg0 (by decide)).trans a36_arg0
  have a37_arg3 := (fr main_arg3 (by decide)).trans a36_arg3
  have a37_arg4 := (fr main_arg4 (by decide)).trans a36_arg4
  have a37_arg5 := (fr main_arg5 (by decide)).trans a36_arg5
  have a37_arg6 := (fr main_arg6 (by decide)).trans a36_arg6
  have a37_v1 := (fr main_v1 (by decide)).trans a36_v1
  have a37_v3 := (fr main_v3 (by decide)).trans a36_v3
  have a37_v8 := (fr main_v8 (by decide)).trans a36_v8
  have a37_v13 := (fr main_v13 (by decide)).trans a36_v13
  have a37_v29 := (fr main_v29 (by decide)).trans a36_v29
  clear e fr a36_arg0 a36_arg3 a36_arg4 a36_arg5 a36_arg6 a36_v1 a36_v3 a36_v8 a36_v13 a36_v29 a36_c_4 s36
  -- main_v31
  refine step_binary (fun s38 e fr => ?_)
  have a38_v31 : s38 (Proc.devRef .tc main_v31) = Read.val_main_v31 x1 x2 := e.trans (by rw [a37_v29, a37_v30]; rfl)
  have a38_arg0 := (fr main_arg0 (by decide)).trans a37_arg0
  have a38_arg3 := (fr main_arg3 (by decide)).trans a37_arg3
  have a38_arg4 := (fr main_arg4 (by decide)).trans a37_arg4
  have a38_arg5 := (fr main_arg5 (by decide)).trans a37_arg5
  have a38_arg6 := (fr main_arg6 (by decide)).trans a37_arg6
  have a38_v1 := (fr main_v1 (by decide)).trans a37_v1
  have a38_v3 := (fr main_v3 (by decide)).trans a37_v3
  have a38_v8 := (fr main_v8 (by decide)).trans a37_v8
  have a38_v13 := (fr main_v13 (by decide)).trans a37_v13
  have a38_v29 := (fr main_v29 (by decide)).trans a37_v29
  clear e fr a37_arg0 a37_arg3 a37_arg4 a37_arg5 a37_arg6 a37_v1 a37_v3 a37_v8 a37_v13 a37_v29 a37_v30 s37
  -- main_c_5
  refine step_nullary (fun s39 e fr => ?_)
  have a39_c_5 : s39 (Proc.devRef .tc main_c_5) = Read.val_main_c_5 := e.trans (rfl)
  have a39_arg0 := (fr main_arg0 (by decide)).trans a38_arg0
  have a39_arg3 := (fr main_arg3 (by decide)).trans a38_arg3
  have a39_arg4 := (fr main_arg4 (by decide)).trans a38_arg4
  have a39_arg5 := (fr main_arg5 (by decide)).trans a38_arg5
  have a39_arg6 := (fr main_arg6 (by decide)).trans a38_arg6
  have a39_v1 := (fr main_v1 (by decide)).trans a38_v1
  have a39_v3 := (fr main_v3 (by decide)).trans a38_v3
  have a39_v8 := (fr main_v8 (by decide)).trans a38_v8
  have a39_v13 := (fr main_v13 (by decide)).trans a38_v13
  have a39_v29 := (fr main_v29 (by decide)).trans a38_v29
  have a39_v31 := (fr main_v31 (by decide)).trans a38_v31
  clear e fr a38_arg0 a38_arg3 a38_arg4 a38_arg5 a38_arg6 a38_v1 a38_v3 a38_v8 a38_v13 a38_v29 a38_v31 s38
  -- main_call0_v0
  refine step_unary (fun s40 e fr => ?_)
  have a40_call0_v0 : s40 (Proc.devRef .tc main_call0_v0) = Read.val_main_call0_v0 := e.trans (by rw [a39_c_5]; unfold Read.val_main_call0_v0; generalize Read.val_main_c_5 (F := F) = g0; rfl)
  have a40_arg0 := (fr main_arg0 (by decide)).trans a39_arg0
  have a40_arg3 := (fr main_arg3 (by decide)).trans a39_arg3
  have a40_arg4 := (fr main_arg4 (by decide)).trans a39_arg4
  have a40_arg5 := (fr main_arg5 (by decide)).trans a39_arg5
  have a40_arg6 := (fr main_arg6 (by decide)).trans a39_arg6
  have a40_v1 := (fr main_v1 (by decide)).trans a39_v1
  have a40_v3 := (fr main_v3 (by decide)).trans a39_v3
  have a40_v8 := (fr main_v8 (by decide)).trans a39_v8
  have a40_v13 := (fr main_v13 (by decide)).trans a39_v13
  have a40_v29 := (fr main_v29 (by decide)).trans a39_v29
  have a40_v31 := (fr main_v31 (by decide)).trans a39_v31
  clear e fr a39_arg0 a39_arg3 a39_arg4 a39_arg5 a39_arg6 a39_v1 a39_v3 a39_v8 a39_v13 a39_v29 a39_v31 a39_c_5 s39
  -- main_call0_v1
  refine step_unary (fun s41 e fr => ?_)
  have a41_call0_v1 : s41 (Proc.devRef .tc main_call0_v1) = Read.val_main_call0_v1 := e.trans (by rw [a40_call0_v0]; unfold Read.val_main_call0_v1; generalize Read.val_main_call0_v0 (F := F) = g0; rfl)
  have a41_arg0 := (fr main_arg0 (by decide)).trans a40_arg0
  have a41_arg3 := (fr main_arg3 (by decide)).trans a40_arg3
  have a41_arg4 := (fr main_arg4 (by decide)).trans a40_arg4
  have a41_arg5 := (fr main_arg5 (by decide)).trans a40_arg5
  have a41_arg6 := (fr main_arg6 (by decide)).trans a40_arg6
  have a41_v1 := (fr main_v1 (by decide)).trans a40_v1
  have a41_v3 := (fr main_v3 (by decide)).trans a40_v3
  have a41_v8 := (fr main_v8 (by decide)).trans a40_v8
  have a41_v13 := (fr main_v13 (by decide)).trans a40_v13
  have a41_v29 := (fr main_v29 (by decide)).trans a40_v29
  have a41_v31 := (fr main_v31 (by decide)).trans a40_v31
  clear e fr a40_arg0 a40_arg3 a40_arg4 a40_arg5 a40_arg6 a40_v1 a40_v3 a40_v8 a40_v13 a40_v29 a40_v31 a40_call0_v0 s40
  -- main_v32
  refine step_ternary (fun s42 e fr => ?_)
  have a42_v32 : s42 (Proc.devRef .tc main_v32) = Read.val_main_v32 x1 x2 := e.trans (by rw [a41_v31, a41_v29, a41_call0_v1]; unfold Read.val_main_v32; generalize Read.val_main_v31 (F := F) x1 x2 = g0; generalize Read.val_main_v29 (F := F) x1 x2 = g1; generalize Read.val_main_call0_v1 (F := F) = g2; rfl)
  have a42_arg0 := (fr main_arg0 (by decide)).trans a41_arg0
  have a42_arg3 := (fr main_arg3 (by decide)).trans a41_arg3
  have a42_arg4 := (fr main_arg4 (by decide)).trans a41_arg4
  have a42_arg5 := (fr main_arg5 (by decide)).trans a41_arg5
  have a42_arg6 := (fr main_arg6 (by decide)).trans a41_arg6
  have a42_v1 := (fr main_v1 (by decide)).trans a41_v1
  have a42_v3 := (fr main_v3 (by decide)).trans a41_v3
  have a42_v8 := (fr main_v8 (by decide)).trans a41_v8
  have a42_v13 := (fr main_v13 (by decide)).trans a41_v13
  clear e fr a41_arg0 a41_arg3 a41_arg4 a41_arg5 a41_arg6 a41_v1 a41_v3 a41_v8 a41_v13 a41_v29 a41_v31 a41_call0_v1 s41
  -- main_cst
  refine step_nullary (fun s43 e fr => ?_)
  have a43_cst : s43 (Proc.devRef .tc main_cst) = Read.val_main_cst := e.trans (rfl)
  have a43_arg0 := (fr main_arg0 (by decide)).trans a42_arg0
  have a43_arg3 := (fr main_arg3 (by decide)).trans a42_arg3
  have a43_arg4 := (fr main_arg4 (by decide)).trans a42_arg4
  have a43_arg5 := (fr main_arg5 (by decide)).trans a42_arg5
  have a43_arg6 := (fr main_arg6 (by decide)).trans a42_arg6
  have a43_v1 := (fr main_v1 (by decide)).trans a42_v1
  have a43_v3 := (fr main_v3 (by decide)).trans a42_v3
  have a43_v8 := (fr main_v8 (by decide)).trans a42_v8
  have a43_v13 := (fr main_v13 (by decide)).trans a42_v13
  have a43_v32 := (fr main_v32 (by decide)).trans a42_v32
  clear e fr a42_arg0 a42_arg3 a42_arg4 a42_arg5 a42_arg6 a42_v1 a42_v3 a42_v8 a42_v13 a42_v32 s42
  -- main_v33
  refine step_unary (fun s44 e fr => ?_)
  have a44_v33 : s44 (Proc.devRef .tc main_v33) = Read.val_main_v33 := e.trans (by rw [a43_cst]; rfl)
  have a44_arg0 := (fr main_arg0 (by decide)).trans a43_arg0
  have a44_arg3 := (fr main_arg3 (by decide)).trans a43_arg3
  have a44_arg4 := (fr main_arg4 (by decide)).trans a43_arg4
  have a44_arg5 := (fr main_arg5 (by decide)).trans a43_arg5
  have a44_arg6 := (fr main_arg6 (by decide)).trans a43_arg6
  have a44_v1 := (fr main_v1 (by decide)).trans a43_v1
  have a44_v3 := (fr main_v3 (by decide)).trans a43_v3
  have a44_v8 := (fr main_v8 (by decide)).trans a43_v8
  have a44_v13 := (fr main_v13 (by decide)).trans a43_v13
  have a44_v32 := (fr main_v32 (by decide)).trans a43_v32
  clear e fr a43_arg0 a43_arg3 a43_arg4 a43_arg5 a43_arg6 a43_v1 a43_v3 a43_v8 a43_v13 a43_v32 a43_cst s43
  -- main_c_6
  refine step_nullary (fun s45 e fr => ?_)
  have a45_c_6 : s45 (Proc.devRef .tc main_c_6) = Read.val_main_c_6 := e.trans (rfl)
  have a45_arg0 := (fr main_arg0 (by decide)).trans a44_arg0
  have a45_arg3 := (fr main_arg3 (by decide)).trans a44_arg3
  have a45_arg4 := (fr main_arg4 (by decide)).trans a44_arg4
  have a45_arg5 := (fr main_arg5 (by decide)).trans a44_arg5
  have a45_arg6 := (fr main_arg6 (by decide)).trans a44_arg6
  have a45_v1 := (fr main_v1 (by decide)).trans a44_v1
  have a45_v3 := (fr main_v3 (by decide)).trans a44_v3
  have a45_v8 := (fr main_v8 (by decide)).trans a44_v8
  have a45_v13 := (fr main_v13 (by decide)).trans a44_v13
  have a45_v32 := (fr main_v32 (by decide)).trans a44_v32
  have a45_v33 := (fr main_v33 (by decide)).trans a44_v33
  clear e fr a44_arg0 a44_arg3 a44_arg4 a44_arg5 a44_arg6 a44_v1 a44_v3 a44_v8 a44_v13 a44_v32 a44_v33 s44
  -- main_v34
  refine step_unary (fun s46 e fr => ?_)
  have a46_v34 : s46 (Proc.devRef .tc main_v34) = Read.val_main_v34 := e.trans (by rw [a45_c_6]; rfl)
  have a46_arg0 := (fr main_arg0 (by decide)).trans a45_arg0
  have a46_arg3 := (fr main_arg3 (by decide)).trans a45_arg3
  have a46_arg4 := (fr main_arg4 (by decide)).trans a45_arg4
  have a46_arg5 := (fr main_arg5 (by decide)).trans a45_arg5
  have a46_arg6 := (fr main_arg6 (by decide)).trans a45_arg6
  have a46_v1 := (fr main_v1 (by decide)).trans a45_v1
  have a46_v3 := (fr main_v3 (by decide)).trans a45_v3
  have a46_v8 := (fr main_v8 (by decide)).trans a45_v8
  have a46_v13 := (fr main_v13 (by decide)).trans a45_v13
  have a46_v32 := (fr main_v32 (by decide)).trans a45_v32
  have a46_v33 := (fr main_v33 (by decide)).trans a45_v33
  clear e fr a45_arg0 a45_arg3 a45_arg4 a45_arg5 a45_arg6 a45_v1 a45_v3 a45_v8 a45_v13 a45_v32 a45_v33 a45_c_6 s45
  -- main_v35
  refine step_binary (fun s47 e fr => ?_)
  have a47_v35 : s47 (Proc.devRef .tc main_v35) = Read.val_main_v35 x1 x2 := e.trans (by rw [a46_v32, a46_v34]; rfl)
  have a47_arg0 := (fr main_arg0 (by decide)).trans a46_arg0
  have a47_arg3 := (fr main_arg3 (by decide)).trans a46_arg3
  have a47_arg4 := (fr main_arg4 (by decide)).trans a46_arg4
  have a47_arg5 := (fr main_arg5 (by decide)).trans a46_arg5
  have a47_arg6 := (fr main_arg6 (by decide)).trans a46_arg6
  have a47_v1 := (fr main_v1 (by decide)).trans a46_v1
  have a47_v3 := (fr main_v3 (by decide)).trans a46_v3
  have a47_v8 := (fr main_v8 (by decide)).trans a46_v8
  have a47_v13 := (fr main_v13 (by decide)).trans a46_v13
  have a47_v32 := (fr main_v32 (by decide)).trans a46_v32
  have a47_v33 := (fr main_v33 (by decide)).trans a46_v33
  clear e fr a46_arg0 a46_arg3 a46_arg4 a46_arg5 a46_arg6 a46_v1 a46_v3 a46_v8 a46_v13 a46_v32 a46_v33 a46_v34 s46
  -- main_c_7
  refine step_nullary (fun s48 e fr => ?_)
  have a48_c_7 : s48 (Proc.devRef .tc main_c_7) = Read.val_main_c_7 := e.trans (rfl)
  have a48_arg0 := (fr main_arg0 (by decide)).trans a47_arg0
  have a48_arg3 := (fr main_arg3 (by decide)).trans a47_arg3
  have a48_arg4 := (fr main_arg4 (by decide)).trans a47_arg4
  have a48_arg5 := (fr main_arg5 (by decide)).trans a47_arg5
  have a48_arg6 := (fr main_arg6 (by decide)).trans a47_arg6
  have a48_v1 := (fr main_v1 (by decide)).trans a47_v1
  have a48_v3 := (fr main_v3 (by decide)).trans a47_v3
  have a48_v8 := (fr main_v8 (by decide)).trans a47_v8
  have a48_v13 := (fr main_v13 (by decide)).trans a47_v13
  have a48_v32 := (fr main_v32 (by decide)).trans a47_v32
  have a48_v33 := (fr main_v33 (by decide)).trans a47_v33
  have a48_v35 := (fr main_v35 (by decide)).trans a47_v35
  clear e fr a47_arg0 a47_arg3 a47_arg4 a47_arg5 a47_arg6 a47_v1 a47_v3 a47_v8 a47_v13 a47_v32 a47_v33 a47_v35 s47
  -- main_v36
  refine step_unary (fun s49 e fr => ?_)
  have a49_v36 : s49 (Proc.devRef .tc main_v36) = Read.val_main_v36 := e.trans (by rw [a48_c_7]; rfl)
  have a49_arg0 := (fr main_arg0 (by decide)).trans a48_arg0
  have a49_arg3 := (fr main_arg3 (by decide)).trans a48_arg3
  have a49_arg4 := (fr main_arg4 (by decide)).trans a48_arg4
  have a49_arg5 := (fr main_arg5 (by decide)).trans a48_arg5
  have a49_arg6 := (fr main_arg6 (by decide)).trans a48_arg6
  have a49_v1 := (fr main_v1 (by decide)).trans a48_v1
  have a49_v3 := (fr main_v3 (by decide)).trans a48_v3
  have a49_v8 := (fr main_v8 (by decide)).trans a48_v8
  have a49_v13 := (fr main_v13 (by decide)).trans a48_v13
  have a49_v32 := (fr main_v32 (by decide)).trans a48_v32
  have a49_v33 := (fr main_v33 (by decide)).trans a48_v33
  have a49_v35 := (fr main_v35 (by decide)).trans a48_v35
  clear e fr a48_arg0 a48_arg3 a48_arg4 a48_arg5 a48_arg6 a48_v1 a48_v3 a48_v8 a48_v13 a48_v32 a48_v33 a48_v35 a48_c_7 s48
  -- main_v37
  refine step_binary (fun s50 e fr => ?_)
  have a50_v37 : s50 (Proc.devRef .tc main_v37) = Read.val_main_v37 x1 x2 := e.trans (by rw [a49_v32, a49_v36]; rfl)
  have a50_arg0 := (fr main_arg0 (by decide)).trans a49_arg0
  have a50_arg3 := (fr main_arg3 (by decide)).trans a49_arg3
  have a50_arg4 := (fr main_arg4 (by decide)).trans a49_arg4
  have a50_arg5 := (fr main_arg5 (by decide)).trans a49_arg5
  have a50_arg6 := (fr main_arg6 (by decide)).trans a49_arg6
  have a50_v1 := (fr main_v1 (by decide)).trans a49_v1
  have a50_v3 := (fr main_v3 (by decide)).trans a49_v3
  have a50_v8 := (fr main_v8 (by decide)).trans a49_v8
  have a50_v13 := (fr main_v13 (by decide)).trans a49_v13
  have a50_v32 := (fr main_v32 (by decide)).trans a49_v32
  have a50_v33 := (fr main_v33 (by decide)).trans a49_v33
  have a50_v35 := (fr main_v35 (by decide)).trans a49_v35
  clear e fr a49_arg0 a49_arg3 a49_arg4 a49_arg5 a49_arg6 a49_v1 a49_v3 a49_v8 a49_v13 a49_v32 a49_v33 a49_v35 a49_v36 s49
  -- main_v38
  refine step_ternary (fun s51 e fr => ?_)
  have a51_v38 : s51 (Proc.devRef .tc main_v38) = Read.val_main_v38 x1 x2 := e.trans (by rw [a50_v35, a50_v37, a50_v32]; rfl)
  have a51_arg0 := (fr main_arg0 (by decide)).trans a50_arg0
  have a51_arg3 := (fr main_arg3 (by decide)).trans a50_arg3
  have a51_arg4 := (fr main_arg4 (by decide)).trans a50_arg4
  have a51_arg5 := (fr main_arg5 (by decide)).trans a50_arg5
  have a51_arg6 := (fr main_arg6 (by decide)).trans a50_arg6
  have a51_v1 := (fr main_v1 (by decide)).trans a50_v1
  have a51_v3 := (fr main_v3 (by decide)).trans a50_v3
  have a51_v8 := (fr main_v8 (by decide)).trans a50_v8
  have a51_v13 := (fr main_v13 (by decide)).trans a50_v13
  have a51_v33 := (fr main_v33 (by decide)).trans a50_v33
  clear e fr a50_arg0 a50_arg3 a50_arg4 a50_arg5 a50_arg6 a50_v1 a50_v3 a50_v8 a50_v13 a50_v32 a50_v33 a50_v35 a50_v37 s50
  -- main_c_8
  refine step_nullary (fun s52 e fr => ?_)
  have a52_c_8 : s52 (Proc.devRef .tc main_c_8) = Read.val_main_c_8 := e.trans (rfl)
  have a52_arg0 := (fr main_arg0 (by decide)).trans a51_arg0
  have a52_arg3 := (fr main_arg3 (by decide)).trans a51_arg3
  have a52_arg4 := (fr main_arg4 (by decide)).trans a51_arg4
  have a52_arg5 := (fr main_arg5 (by decide)).trans a51_arg5
  have a52_arg6 := (fr main_arg6 (by decide)).trans a51_arg6
  have a52_v1 := (fr main_v1 (by decide)).trans a51_v1
  have a52_v3 := (fr main_v3 (by decide)).trans a51_v3
  have a52_v8 := (fr main_v8 (by decide)).trans a51_v8
  have a52_v13 := (fr main_v13 (by decide)).trans a51_v13
  have a52_v33 := (fr main_v33 (by decide)).trans a51_v33
  have a52_v38 := (fr main_v38 (by decide)).trans a51_v38
  clear e fr a51_arg0 a51_arg3 a51_arg4 a51_arg5 a51_arg6 a51_v1 a51_v3 a51_v8 a51_v13 a51_v33 a51_v38 s51
  -- main_v39
  refine step_unary (fun s53 e fr => ?_)
  have a53_v39 : s53 (Proc.devRef .tc main_v39) = Read.val_main_v39 := e.trans (by rw [a52_c_8]; rfl)
  have a53_arg0 := (fr main_arg0 (by decide)).trans a52_arg0
  have a53_arg3 := (fr main_arg3 (by decide)).trans a52_arg3
  have a53_arg4 := (fr main_arg4 (by decide)).trans a52_arg4
  have a53_arg5 := (fr main_arg5 (by decide)).trans a52_arg5
  have a53_arg6 := (fr main_arg6 (by decide)).trans a52_arg6
  have a53_v1 := (fr main_v1 (by decide)).trans a52_v1
  have a53_v3 := (fr main_v3 (by decide)).trans a52_v3
  have a53_v8 := (fr main_v8 (by decide)).trans a52_v8
  have a53_v13 := (fr main_v13 (by decide)).trans a52_v13
  have a53_v33 := (fr main_v33 (by decide)).trans a52_v33
  have a53_v38 := (fr main_v38 (by decide)).trans a52_v38
  clear e fr a52_arg0 a52_arg3 a52_arg4 a52_arg5 a52_arg6 a52_v1 a52_v3 a52_v8 a52_v13 a52_v33 a52_v38 a52_c_8 s52
  -- main_v40
  refine step_binary (fun s54 e fr => ?_)
  have a54_v40 : s54 (Proc.devRef .tc main_v40) = Read.val_main_v40 x1 := e.trans (by rw [a53_v13, a53_v39]; rfl)
  have a54_arg0 := (fr main_arg0 (by decide)).trans a53_arg0
  have a54_arg3 := (fr main_arg3 (by decide)).trans a53_arg3
  have a54_arg4 := (fr main_arg4 (by decide)).trans a53_arg4
  have a54_arg5 := (fr main_arg5 (by decide)).trans a53_arg5
  have a54_arg6 := (fr main_arg6 (by decide)).trans a53_arg6
  have a54_v1 := (fr main_v1 (by decide)).trans a53_v1
  have a54_v3 := (fr main_v3 (by decide)).trans a53_v3
  have a54_v8 := (fr main_v8 (by decide)).trans a53_v8
  have a54_v13 := (fr main_v13 (by decide)).trans a53_v13
  have a54_v33 := (fr main_v33 (by decide)).trans a53_v33
  have a54_v38 := (fr main_v38 (by decide)).trans a53_v38
  clear e fr a53_arg0 a53_arg3 a53_arg4 a53_arg5 a53_arg6 a53_v1 a53_v3 a53_v8 a53_v13 a53_v33 a53_v38 a53_v39 s53
  -- main_c_9
  refine step_nullary (fun s55 e fr => ?_)
  have a55_c_9 : s55 (Proc.devRef .tc main_c_9) = Read.val_main_c_9 := e.trans (rfl)
  have a55_arg0 := (fr main_arg0 (by decide)).trans a54_arg0
  have a55_arg3 := (fr main_arg3 (by decide)).trans a54_arg3
  have a55_arg4 := (fr main_arg4 (by decide)).trans a54_arg4
  have a55_arg5 := (fr main_arg5 (by decide)).trans a54_arg5
  have a55_arg6 := (fr main_arg6 (by decide)).trans a54_arg6
  have a55_v1 := (fr main_v1 (by decide)).trans a54_v1
  have a55_v3 := (fr main_v3 (by decide)).trans a54_v3
  have a55_v8 := (fr main_v8 (by decide)).trans a54_v8
  have a55_v13 := (fr main_v13 (by decide)).trans a54_v13
  have a55_v33 := (fr main_v33 (by decide)).trans a54_v33
  have a55_v38 := (fr main_v38 (by decide)).trans a54_v38
  have a55_v40 := (fr main_v40 (by decide)).trans a54_v40
  clear e fr a54_arg0 a54_arg3 a54_arg4 a54_arg5 a54_arg6 a54_v1 a54_v3 a54_v8 a54_v13 a54_v33 a54_v38 a54_v40 s54
  -- main_v41
  refine step_unary (fun s56 e fr => ?_)
  have a56_v41 : s56 (Proc.devRef .tc main_v41) = Read.val_main_v41 := e.trans (by rw [a55_c_9]; rfl)
  have a56_arg0 := (fr main_arg0 (by decide)).trans a55_arg0
  have a56_arg3 := (fr main_arg3 (by decide)).trans a55_arg3
  have a56_arg4 := (fr main_arg4 (by decide)).trans a55_arg4
  have a56_arg5 := (fr main_arg5 (by decide)).trans a55_arg5
  have a56_arg6 := (fr main_arg6 (by decide)).trans a55_arg6
  have a56_v1 := (fr main_v1 (by decide)).trans a55_v1
  have a56_v3 := (fr main_v3 (by decide)).trans a55_v3
  have a56_v8 := (fr main_v8 (by decide)).trans a55_v8
  have a56_v13 := (fr main_v13 (by decide)).trans a55_v13
  have a56_v33 := (fr main_v33 (by decide)).trans a55_v33
  have a56_v38 := (fr main_v38 (by decide)).trans a55_v38
  have a56_v40 := (fr main_v40 (by decide)).trans a55_v40
  clear e fr a55_arg0 a55_arg3 a55_arg4 a55_arg5 a55_arg6 a55_v1 a55_v3 a55_v8 a55_v13 a55_v33 a55_v38 a55_v40 a55_c_9 s55
  -- main_v42
  refine step_binary (fun s57 e fr => ?_)
  have a57_v42 : s57 (Proc.devRef .tc main_v42) = Read.val_main_v42 x1 := e.trans (by rw [a56_v13, a56_v41]; rfl)
  have a57_arg0 := (fr main_arg0 (by decide)).trans a56_arg0
  have a57_arg3 := (fr main_arg3 (by decide)).trans a56_arg3
  have a57_arg4 := (fr main_arg4 (by decide)).trans a56_arg4
  have a57_arg5 := (fr main_arg5 (by decide)).trans a56_arg5
  have a57_arg6 := (fr main_arg6 (by decide)).trans a56_arg6
  have a57_v1 := (fr main_v1 (by decide)).trans a56_v1
  have a57_v3 := (fr main_v3 (by decide)).trans a56_v3
  have a57_v8 := (fr main_v8 (by decide)).trans a56_v8
  have a57_v13 := (fr main_v13 (by decide)).trans a56_v13
  have a57_v33 := (fr main_v33 (by decide)).trans a56_v33
  have a57_v38 := (fr main_v38 (by decide)).trans a56_v38
  have a57_v40 := (fr main_v40 (by decide)).trans a56_v40
  clear e fr a56_arg0 a56_arg3 a56_arg4 a56_arg5 a56_arg6 a56_v1 a56_v3 a56_v8 a56_v13 a56_v33 a56_v38 a56_v40 a56_v41 s56
  -- main_v43
  refine step_ternary (fun s58 e fr => ?_)
  have a58_v43 : s58 (Proc.devRef .tc main_v43) = Read.val_main_v43 x1 := e.trans (by rw [a57_v40, a57_v42, a57_v13]; rfl)
  have a58_arg0 := (fr main_arg0 (by decide)).trans a57_arg0
  have a58_arg3 := (fr main_arg3 (by decide)).trans a57_arg3
  have a58_arg4 := (fr main_arg4 (by decide)).trans a57_arg4
  have a58_arg5 := (fr main_arg5 (by decide)).trans a57_arg5
  have a58_arg6 := (fr main_arg6 (by decide)).trans a57_arg6
  have a58_v1 := (fr main_v1 (by decide)).trans a57_v1
  have a58_v3 := (fr main_v3 (by decide)).trans a57_v3
  have a58_v8 := (fr main_v8 (by decide)).trans a57_v8
  have a58_v13 := (fr main_v13 (by decide)).trans a57_v13
  have a58_v33 := (fr main_v33 (by decide)).trans a57_v33
  have a58_v38 := (fr main_v38 (by decide)).trans a57_v38
  clear e fr a57_arg0 a57_arg3 a57_arg4 a57_arg5 a57_arg6 a57_v1 a57_v3 a57_v8 a57_v13 a57_v33 a57_v38 a57_v40 a57_v42 s57
  -- main_v44
  refine step_unary (fun s59 e fr => ?_)
  have a59_v44 : s59 (Proc.devRef .tc main_v44) = Read.val_main_v44 x1 x2 := e.trans (by rw [a58_v38]; rfl)
  have a59_arg0 := (fr main_arg0 (by decide)).trans a58_arg0
  have a59_arg3 := (fr main_arg3 (by decide)).trans a58_arg3
  have a59_arg4 := (fr main_arg4 (by decide)).trans a58_arg4
  have a59_arg5 := (fr main_arg5 (by decide)).trans a58_arg5
  have a59_arg6 := (fr main_arg6 (by decide)).trans a58_arg6
  have a59_v1 := (fr main_v1 (by decide)).trans a58_v1
  have a59_v3 := (fr main_v3 (by decide)).trans a58_v3
  have a59_v8 := (fr main_v8 (by decide)).trans a58_v8
  have a59_v13 := (fr main_v13 (by decide)).trans a58_v13
  have a59_v33 := (fr main_v33 (by decide)).trans a58_v33
  have a59_v43 := (fr main_v43 (by decide)).trans a58_v43
  clear e fr a58_arg0 a58_arg3 a58_arg4 a58_arg5 a58_arg6 a58_v1 a58_v3 a58_v8 a58_v13 a58_v33 a58_v38 a58_v43 s58
  -- main_v45
  refine step_unary (fun s60 e fr => ?_)
  have a60_v45 : s60 (Proc.devRef .tc main_v45) = Read.val_main_v45 x1 := e.trans (by rw [a59_v43]; rfl)
  have a60_arg0 := (fr main_arg0 (by decide)).trans a59_arg0
  have a60_arg3 := (fr main_arg3 (by decide)).trans a59_arg3
  have a60_arg4 := (fr main_arg4 (by decide)).trans a59_arg4
  have a60_arg5 := (fr main_arg5 (by decide)).trans a59_arg5
  have a60_arg6 := (fr main_arg6 (by decide)).trans a59_arg6
  have a60_v1 := (fr main_v1 (by decide)).trans a59_v1
  have a60_v3 := (fr main_v3 (by decide)).trans a59_v3
  have a60_v8 := (fr main_v8 (by decide)).trans a59_v8
  have a60_v13 := (fr main_v13 (by decide)).trans a59_v13
  have a60_v33 := (fr main_v33 (by decide)).trans a59_v33
  have a60_v44 := (fr main_v44 (by decide)).trans a59_v44
  clear e fr a59_arg0 a59_arg3 a59_arg4 a59_arg5 a59_arg6 a59_v1 a59_v3 a59_v8 a59_v13 a59_v33 a59_v43 a59_v44 s59
  -- main_v46
  refine step_binary (fun s61 e fr => ?_)
  have a61_v46 : s61 (Proc.devRef .tc main_v46) = Read.val_main_v46 x1 x2 := e.trans (by rw [a60_v44, a60_v45]; rfl)
  have a61_arg0 := (fr main_arg0 (by decide)).trans a60_arg0
  have a61_arg3 := (fr main_arg3 (by decide)).trans a60_arg3
  have a61_arg4 := (fr main_arg4 (by decide)).trans a60_arg4
  have a61_arg5 := (fr main_arg5 (by decide)).trans a60_arg5
  have a61_arg6 := (fr main_arg6 (by decide)).trans a60_arg6
  have a61_v1 := (fr main_v1 (by decide)).trans a60_v1
  have a61_v3 := (fr main_v3 (by decide)).trans a60_v3
  have a61_v8 := (fr main_v8 (by decide)).trans a60_v8
  have a61_v13 := (fr main_v13 (by decide)).trans a60_v13
  have a61_v33 := (fr main_v33 (by decide)).trans a60_v33
  clear e fr a60_arg0 a60_arg3 a60_arg4 a60_arg5 a60_arg6 a60_v1 a60_v3 a60_v8 a60_v13 a60_v33 a60_v44 a60_v45 s60
  -- main_cst_10
  refine step_nullary (fun s62 e fr => ?_)
  have a62_cst_10 : s62 (Proc.devRef .tc main_cst_10) = Read.val_main_cst_10 := e.trans (rfl)
  have a62_arg0 := (fr main_arg0 (by decide)).trans a61_arg0
  have a62_arg3 := (fr main_arg3 (by decide)).trans a61_arg3
  have a62_arg4 := (fr main_arg4 (by decide)).trans a61_arg4
  have a62_arg5 := (fr main_arg5 (by decide)).trans a61_arg5
  have a62_arg6 := (fr main_arg6 (by decide)).trans a61_arg6
  have a62_v1 := (fr main_v1 (by decide)).trans a61_v1
  have a62_v3 := (fr main_v3 (by decide)).trans a61_v3
  have a62_v8 := (fr main_v8 (by decide)).trans a61_v8
  have a62_v13 := (fr main_v13 (by decide)).trans a61_v13
  have a62_v33 := (fr main_v33 (by decide)).trans a61_v33
  have a62_v46 := (fr main_v46 (by decide)).trans a61_v46
  clear e fr a61_arg0 a61_arg3 a61_arg4 a61_arg5 a61_arg6 a61_v1 a61_v3 a61_v8 a61_v13 a61_v33 a61_v46 s61
  -- main_v47
  refine step_unary (fun s63 e fr => ?_)
  have a63_v47 : s63 (Proc.devRef .tc main_v47) = Read.val_main_v47 := e.trans (by rw [a62_cst_10]; rfl)
  have a63_arg0 := (fr main_arg0 (by decide)).trans a62_arg0
  have a63_arg3 := (fr main_arg3 (by decide)).trans a62_arg3
  have a63_arg4 := (fr main_arg4 (by decide)).trans a62_arg4
  have a63_arg5 := (fr main_arg5 (by decide)).trans a62_arg5
  have a63_arg6 := (fr main_arg6 (by decide)).trans a62_arg6
  have a63_v1 := (fr main_v1 (by decide)).trans a62_v1
  have a63_v3 := (fr main_v3 (by decide)).trans a62_v3
  have a63_v8 := (fr main_v8 (by decide)).trans a62_v8
  have a63_v13 := (fr main_v13 (by decide)).trans a62_v13
  have a63_v33 := (fr main_v33 (by decide)).trans a62_v33
  have a63_v46 := (fr main_v46 (by decide)).trans a62_v46
  clear e fr a62_arg0 a62_arg3 a62_arg4 a62_arg5 a62_arg6 a62_v1 a62_v3 a62_v8 a62_v13 a62_v33 a62_v46 a62_cst_10 s62
  -- main_v48
  refine step_ternary (fun s64 e fr => ?_)
  have a64_v48 : s64 (Proc.devRef .tc main_v48) = Read.val_main_v48 x1 x2 := e.trans (by rw [a63_v33, a63_v46, a63_v47]; rfl)
  have a64_arg0 := (fr main_arg0 (by decide)).trans a63_arg0
  have a64_arg3 := (fr main_arg3 (by decide)).trans a63_arg3
  have a64_arg4 := (fr main_arg4 (by decide)).trans a63_arg4
  have a64_arg5 := (fr main_arg5 (by decide)).trans a63_arg5
  have a64_arg6 := (fr main_arg6 (by decide)).trans a63_arg6
  have a64_v1 := (fr main_v1 (by decide)).trans a63_v1
  have a64_v3 := (fr main_v3 (by decide)).trans a63_v3
  have a64_v8 := (fr main_v8 (by decide)).trans a63_v8
  have a64_v13 := (fr main_v13 (by decide)).trans a63_v13
  clear e fr a63_arg0 a63_arg3 a63_arg4 a63_arg5 a63_arg6 a63_v1 a63_v3 a63_v8 a63_v13 a63_v33 a63_v46 a63_v47 s63
  -- main_v49
  refine step_unary (fun s65 e fr => ?_)
  have a65_v49 : s65 (Proc.devRef .tc main_v49) = Read.val_main_v49 x1 x2 := e.trans (by rw [a64_v48]; rfl)
  have a65_arg0 := (fr main_arg0 (by decide)).trans a64_arg0
  have a65_arg3 := (fr main_arg3 (by decide)).trans a64_arg3
  have a65_arg4 := (fr main_arg4 (by decide)).trans a64_arg4
  have a65_arg5 := (fr main_arg5 (by decide)).trans a64_arg5
  have a65_arg6 := (fr main_arg6 (by decide)).trans a64_arg6
  have a65_v1 := (fr main_v1 (by decide)).trans a64_v1
  have a65_v3 := (fr main_v3 (by decide)).trans a64_v3
  have a65_v8 := (fr main_v8 (by decide)).trans a64_v8
  have a65_v13 := (fr main_v13 (by decide)).trans a64_v13
  clear e fr a64_arg0 a64_arg3 a64_arg4 a64_arg5 a64_arg6 a64_v1 a64_v3 a64_v8 a64_v13 a64_v48 s64
  -- main_c_11
  refine step_nullary (fun s66 e fr => ?_)
  have a66_c_11 : s66 (Proc.devRef .tc main_c_11) = Read.val_main_c_11 := e.trans (rfl)
  have a66_arg0 := (fr main_arg0 (by decide)).trans a65_arg0
  have a66_arg3 := (fr main_arg3 (by decide)).trans a65_arg3
  have a66_arg4 := (fr main_arg4 (by decide)).trans a65_arg4
  have a66_arg5 := (fr main_arg5 (by decide)).trans a65_arg5
  have a66_arg6 := (fr main_arg6 (by decide)).trans a65_arg6
  have a66_v1 := (fr main_v1 (by decide)).trans a65_v1
  have a66_v3 := (fr main_v3 (by decide)).trans a65_v3
  have a66_v8 := (fr main_v8 (by decide)).trans a65_v8
  have a66_v13 := (fr main_v13 (by decide)).trans a65_v13
  have a66_v49 := (fr main_v49 (by decide)).trans a65_v49
  clear e fr a65_arg0 a65_arg3 a65_arg4 a65_arg5 a65_arg6 a65_v1 a65_v3 a65_v8 a65_v13 a65_v49 s65
  -- main_v50
  refine step_unary (fun s67 e fr => ?_)
  have a67_v50 : s67 (Proc.devRef .tc main_v50) = Read.val_main_v50 := e.trans (by rw [a66_c_11]; rfl)
  have a67_arg0 := (fr main_arg0 (by decide)).trans a66_arg0
  have a67_arg3 := (fr main_arg3 (by decide)).trans a66_arg3
  have a67_arg4 := (fr main_arg4 (by decide)).trans a66_arg4
  have a67_arg5 := (fr main_arg5 (by decide)).trans a66_arg5
  have a67_arg6 := (fr main_arg6 (by decide)).trans a66_arg6
  have a67_v1 := (fr main_v1 (by decide)).trans a66_v1
  have a67_v3 := (fr main_v3 (by decide)).trans a66_v3
  have a67_v8 := (fr main_v8 (by decide)).trans a66_v8
  have a67_v13 := (fr main_v13 (by decide)).trans a66_v13
  have a67_v49 := (fr main_v49 (by decide)).trans a66_v49
  clear e fr a66_arg0 a66_arg3 a66_arg4 a66_arg5 a66_arg6 a66_v1 a66_v3 a66_v8 a66_v13 a66_v49 a66_c_11 s66
  -- main_v51
  refine step_nullary (fun s68 e fr => ?_)
  have a68_v51 : s68 (Proc.devRef .tc main_v51) = Read.val_main_v51 := e.trans (rfl)
  have a68_arg0 := (fr main_arg0 (by decide)).trans a67_arg0
  have a68_arg3 := (fr main_arg3 (by decide)).trans a67_arg3
  have a68_arg4 := (fr main_arg4 (by decide)).trans a67_arg4
  have a68_arg5 := (fr main_arg5 (by decide)).trans a67_arg5
  have a68_arg6 := (fr main_arg6 (by decide)).trans a67_arg6
  have a68_v1 := (fr main_v1 (by decide)).trans a67_v1
  have a68_v3 := (fr main_v3 (by decide)).trans a67_v3
  have a68_v8 := (fr main_v8 (by decide)).trans a67_v8
  have a68_v13 := (fr main_v13 (by decide)).trans a67_v13
  have a68_v49 := (fr main_v49 (by decide)).trans a67_v49
  have a68_v50 := (fr main_v50 (by decide)).trans a67_v50
  clear e fr a67_arg0 a67_arg3 a67_arg4 a67_arg5 a67_arg6 a67_v1 a67_v3 a67_v8 a67_v13 a67_v49 a67_v50 s67
  -- main_c_12
  refine step_nullary (fun s69 e fr => ?_)
  have a69_c_12 : s69 (Proc.devRef .tc main_c_12) = Read.val_main_c_12 := e.trans (rfl)
  have a69_arg0 := (fr main_arg0 (by decide)).trans a68_arg0
  have a69_arg3 := (fr main_arg3 (by decide)).trans a68_arg3
  have a69_arg4 := (fr main_arg4 (by decide)).trans a68_arg4
  have a69_arg5 := (fr main_arg5 (by decide)).trans a68_arg5
  have a69_arg6 := (fr main_arg6 (by decide)).trans a68_arg6
  have a69_v1 := (fr main_v1 (by decide)).trans a68_v1
  have a69_v3 := (fr main_v3 (by decide)).trans a68_v3
  have a69_v8 := (fr main_v8 (by decide)).trans a68_v8
  have a69_v13 := (fr main_v13 (by decide)).trans a68_v13
  have a69_v49 := (fr main_v49 (by decide)).trans a68_v49
  have a69_v50 := (fr main_v50 (by decide)).trans a68_v50
  have a69_v51 := (fr main_v51 (by decide)).trans a68_v51
  clear e fr a68_arg0 a68_arg3 a68_arg4 a68_arg5 a68_arg6 a68_v1 a68_v3 a68_v8 a68_v13 a68_v49 a68_v50 a68_v51 s68
  -- main_v52
  refine step_unary (fun s70 e fr => ?_)
  have a70_v52 : s70 (Proc.devRef .tc main_v52) = Read.val_main_v52 := e.trans (by rw [a69_c_12]; rfl)
  have a70_arg0 := (fr main_arg0 (by decide)).trans a69_arg0
  have a70_arg3 := (fr main_arg3 (by decide)).trans a69_arg3
  have a70_arg4 := (fr main_arg4 (by decide)).trans a69_arg4
  have a70_arg5 := (fr main_arg5 (by decide)).trans a69_arg5
  have a70_arg6 := (fr main_arg6 (by decide)).trans a69_arg6
  have a70_v1 := (fr main_v1 (by decide)).trans a69_v1
  have a70_v3 := (fr main_v3 (by decide)).trans a69_v3
  have a70_v8 := (fr main_v8 (by decide)).trans a69_v8
  have a70_v13 := (fr main_v13 (by decide)).trans a69_v13
  have a70_v49 := (fr main_v49 (by decide)).trans a69_v49
  have a70_v50 := (fr main_v50 (by decide)).trans a69_v50
  have a70_v51 := (fr main_v51 (by decide)).trans a69_v51
  clear e fr a69_arg0 a69_arg3 a69_arg4 a69_arg5 a69_arg6 a69_v1 a69_v3 a69_v8 a69_v13 a69_v49 a69_v50 a69_v51 a69_c_12 s69
  -- main_v53
  refine step_binary (fun s71 e fr => ?_)
  have a71_v53 : s71 (Proc.devRef .tc main_v53) = Read.val_main_v53 x2 := e.trans (by rw [a70_v3, a70_v52]; rfl)
  have a71_arg0 := (fr main_arg0 (by decide)).trans a70_arg0
  have a71_arg3 := (fr main_arg3 (by decide)).trans a70_arg3
  have a71_arg4 := (fr main_arg4 (by decide)).trans a70_arg4
  have a71_arg5 := (fr main_arg5 (by decide)).trans a70_arg5
  have a71_arg6 := (fr main_arg6 (by decide)).trans a70_arg6
  have a71_v1 := (fr main_v1 (by decide)).trans a70_v1
  have a71_v3 := (fr main_v3 (by decide)).trans a70_v3
  have a71_v8 := (fr main_v8 (by decide)).trans a70_v8
  have a71_v13 := (fr main_v13 (by decide)).trans a70_v13
  have a71_v49 := (fr main_v49 (by decide)).trans a70_v49
  have a71_v50 := (fr main_v50 (by decide)).trans a70_v50
  have a71_v51 := (fr main_v51 (by decide)).trans a70_v51
  clear e fr a70_arg0 a70_arg3 a70_arg4 a70_arg5 a70_arg6 a70_v1 a70_v3 a70_v8 a70_v13 a70_v49 a70_v50 a70_v51 a70_v52 s70
  -- main_c_13
  refine step_nullary (fun s72 e fr => ?_)
  have a72_c_13 : s72 (Proc.devRef .tc main_c_13) = Read.val_main_c_13 := e.trans (rfl)
  have a72_arg0 := (fr main_arg0 (by decide)).trans a71_arg0
  have a72_arg3 := (fr main_arg3 (by decide)).trans a71_arg3
  have a72_arg4 := (fr main_arg4 (by decide)).trans a71_arg4
  have a72_arg5 := (fr main_arg5 (by decide)).trans a71_arg5
  have a72_arg6 := (fr main_arg6 (by decide)).trans a71_arg6
  have a72_v1 := (fr main_v1 (by decide)).trans a71_v1
  have a72_v3 := (fr main_v3 (by decide)).trans a71_v3
  have a72_v8 := (fr main_v8 (by decide)).trans a71_v8
  have a72_v13 := (fr main_v13 (by decide)).trans a71_v13
  have a72_v49 := (fr main_v49 (by decide)).trans a71_v49
  have a72_v50 := (fr main_v50 (by decide)).trans a71_v50
  have a72_v51 := (fr main_v51 (by decide)).trans a71_v51
  have a72_v53 := (fr main_v53 (by decide)).trans a71_v53
  clear e fr a71_arg0 a71_arg3 a71_arg4 a71_arg5 a71_arg6 a71_v1 a71_v3 a71_v8 a71_v13 a71_v49 a71_v50 a71_v51 a71_v53 s71
  -- main_v54
  refine step_unary (fun s73 e fr => ?_)
  have a73_v54 : s73 (Proc.devRef .tc main_v54) = Read.val_main_v54 := e.trans (by rw [a72_c_13]; rfl)
  have a73_arg0 := (fr main_arg0 (by decide)).trans a72_arg0
  have a73_arg3 := (fr main_arg3 (by decide)).trans a72_arg3
  have a73_arg4 := (fr main_arg4 (by decide)).trans a72_arg4
  have a73_arg5 := (fr main_arg5 (by decide)).trans a72_arg5
  have a73_arg6 := (fr main_arg6 (by decide)).trans a72_arg6
  have a73_v1 := (fr main_v1 (by decide)).trans a72_v1
  have a73_v3 := (fr main_v3 (by decide)).trans a72_v3
  have a73_v8 := (fr main_v8 (by decide)).trans a72_v8
  have a73_v13 := (fr main_v13 (by decide)).trans a72_v13
  have a73_v49 := (fr main_v49 (by decide)).trans a72_v49
  have a73_v50 := (fr main_v50 (by decide)).trans a72_v50
  have a73_v51 := (fr main_v51 (by decide)).trans a72_v51
  have a73_v53 := (fr main_v53 (by decide)).trans a72_v53
  clear e fr a72_arg0 a72_arg3 a72_arg4 a72_arg5 a72_arg6 a72_v1 a72_v3 a72_v8 a72_v13 a72_v49 a72_v50 a72_v51 a72_v53 a72_c_13 s72
  -- main_v55
  refine step_binary (fun s74 e fr => ?_)
  have a74_v55 : s74 (Proc.devRef .tc main_v55) = Read.val_main_v55 x2 := e.trans (by rw [a73_v3, a73_v54]; rfl)
  have a74_arg0 := (fr main_arg0 (by decide)).trans a73_arg0
  have a74_arg3 := (fr main_arg3 (by decide)).trans a73_arg3
  have a74_arg4 := (fr main_arg4 (by decide)).trans a73_arg4
  have a74_arg5 := (fr main_arg5 (by decide)).trans a73_arg5
  have a74_arg6 := (fr main_arg6 (by decide)).trans a73_arg6
  have a74_v1 := (fr main_v1 (by decide)).trans a73_v1
  have a74_v3 := (fr main_v3 (by decide)).trans a73_v3
  have a74_v8 := (fr main_v8 (by decide)).trans a73_v8
  have a74_v13 := (fr main_v13 (by decide)).trans a73_v13
  have a74_v49 := (fr main_v49 (by decide)).trans a73_v49
  have a74_v50 := (fr main_v50 (by decide)).trans a73_v50
  have a74_v51 := (fr main_v51 (by decide)).trans a73_v51
  have a74_v53 := (fr main_v53 (by decide)).trans a73_v53
  clear e fr a73_arg0 a73_arg3 a73_arg4 a73_arg5 a73_arg6 a73_v1 a73_v3 a73_v8 a73_v13 a73_v49 a73_v50 a73_v51 a73_v53 a73_v54 s73
  -- main_v56
  refine step_ternary (fun s75 e fr => ?_)
  have a75_v56 : s75 (Proc.devRef .tc main_v56) = Read.val_main_v56 x2 := e.trans (by rw [a74_v53, a74_v55, a74_v3]; rfl)
  have a75_arg0 := (fr main_arg0 (by decide)).trans a74_arg0
  have a75_arg3 := (fr main_arg3 (by decide)).trans a74_arg3
  have a75_arg4 := (fr main_arg4 (by decide)).trans a74_arg4
  have a75_arg5 := (fr main_arg5 (by decide)).trans a74_arg5
  have a75_arg6 := (fr main_arg6 (by decide)).trans a74_arg6
  have a75_v1 := (fr main_v1 (by decide)).trans a74_v1
  have a75_v3 := (fr main_v3 (by decide)).trans a74_v3
  have a75_v8 := (fr main_v8 (by decide)).trans a74_v8
  have a75_v13 := (fr main_v13 (by decide)).trans a74_v13
  have a75_v49 := (fr main_v49 (by decide)).trans a74_v49
  have a75_v50 := (fr main_v50 (by decide)).trans a74_v50
  have a75_v51 := (fr main_v51 (by decide)).trans a74_v51
  clear e fr a74_arg0 a74_arg3 a74_arg4 a74_arg5 a74_arg6 a74_v1 a74_v3 a74_v8 a74_v13 a74_v49 a74_v50 a74_v51 a74_v53 a74_v55 s74
  -- main_v57
  refine step_unary (fun s76 e fr => ?_)
  have a76_v57 : s76 (Proc.devRef .tc main_v57) = Read.val_main_v57 x2 := e.trans (by rw [a75_v56]; rfl)
  have a76_arg0 := (fr main_arg0 (by decide)).trans a75_arg0
  have a76_arg3 := (fr main_arg3 (by decide)).trans a75_arg3
  have a76_arg4 := (fr main_arg4 (by decide)).trans a75_arg4
  have a76_arg5 := (fr main_arg5 (by decide)).trans a75_arg5
  have a76_arg6 := (fr main_arg6 (by decide)).trans a75_arg6
  have a76_v1 := (fr main_v1 (by decide)).trans a75_v1
  have a76_v3 := (fr main_v3 (by decide)).trans a75_v3
  have a76_v8 := (fr main_v8 (by decide)).trans a75_v8
  have a76_v13 := (fr main_v13 (by decide)).trans a75_v13
  have a76_v49 := (fr main_v49 (by decide)).trans a75_v49
  have a76_v50 := (fr main_v50 (by decide)).trans a75_v50
  have a76_v51 := (fr main_v51 (by decide)).trans a75_v51
  clear e fr a75_arg0 a75_arg3 a75_arg4 a75_arg5 a75_arg6 a75_v1 a75_v3 a75_v8 a75_v13 a75_v49 a75_v50 a75_v51 a75_v56 s75
  -- main_v58
  refine step_ternary (fun s77 e fr => ?_)
  have a77_v58 : s77 (Proc.devRef .tc main_v58) = Read.val_main_v58 x2 := e.trans (by rw [a76_v50, a76_v57, a76_v51]; rfl)
  have a77_arg0 := (fr main_arg0 (by decide)).trans a76_arg0
  have a77_arg3 := (fr main_arg3 (by decide)).trans a76_arg3
  have a77_arg4 := (fr main_arg4 (by decide)).trans a76_arg4
  have a77_arg5 := (fr main_arg5 (by decide)).trans a76_arg5
  have a77_arg6 := (fr main_arg6 (by decide)).trans a76_arg6
  have a77_v1 := (fr main_v1 (by decide)).trans a76_v1
  have a77_v3 := (fr main_v3 (by decide)).trans a76_v3
  have a77_v8 := (fr main_v8 (by decide)).trans a76_v8
  have a77_v13 := (fr main_v13 (by decide)).trans a76_v13
  have a77_v49 := (fr main_v49 (by decide)).trans a76_v49
  clear e fr a76_arg0 a76_arg3 a76_arg4 a76_arg5 a76_arg6 a76_v1 a76_v3 a76_v8 a76_v13 a76_v49 a76_v50 a76_v51 a76_v57 s76
  -- main_c_14
  refine step_nullary (fun s78 e fr => ?_)
  have a78_c_14 : s78 (Proc.devRef .tc main_c_14) = Read.val_main_c_14 := e.trans (rfl)
  have a78_arg0 := (fr main_arg0 (by decide)).trans a77_arg0
  have a78_arg3 := (fr main_arg3 (by decide)).trans a77_arg3
  have a78_arg4 := (fr main_arg4 (by decide)).trans a77_arg4
  have a78_arg5 := (fr main_arg5 (by decide)).trans a77_arg5
  have a78_arg6 := (fr main_arg6 (by decide)).trans a77_arg6
  have a78_v1 := (fr main_v1 (by decide)).trans a77_v1
  have a78_v3 := (fr main_v3 (by decide)).trans a77_v3
  have a78_v8 := (fr main_v8 (by decide)).trans a77_v8
  have a78_v13 := (fr main_v13 (by decide)).trans a77_v13
  have a78_v49 := (fr main_v49 (by decide)).trans a77_v49
  have a78_v58 := (fr main_v58 (by decide)).trans a77_v58
  clear e fr a77_arg0 a77_arg3 a77_arg4 a77_arg5 a77_arg6 a77_v1 a77_v3 a77_v8 a77_v13 a77_v49 a77_v58 s77
  -- main_v59
  refine step_unary (fun s79 e fr => ?_)
  have a79_v59 : s79 (Proc.devRef .tc main_v59) = Read.val_main_v59 := e.trans (by rw [a78_c_14]; rfl)
  have a79_arg0 := (fr main_arg0 (by decide)).trans a78_arg0
  have a79_arg3 := (fr main_arg3 (by decide)).trans a78_arg3
  have a79_arg4 := (fr main_arg4 (by decide)).trans a78_arg4
  have a79_arg5 := (fr main_arg5 (by decide)).trans a78_arg5
  have a79_arg6 := (fr main_arg6 (by decide)).trans a78_arg6
  have a79_v1 := (fr main_v1 (by decide)).trans a78_v1
  have a79_v3 := (fr main_v3 (by decide)).trans a78_v3
  have a79_v8 := (fr main_v8 (by decide)).trans a78_v8
  have a79_v13 := (fr main_v13 (by decide)).trans a78_v13
  have a79_v49 := (fr main_v49 (by decide)).trans a78_v49
  have a79_v58 := (fr main_v58 (by decide)).trans a78_v58
  clear e fr a78_arg0 a78_arg3 a78_arg4 a78_arg5 a78_arg6 a78_v1 a78_v3 a78_v8 a78_v13 a78_v49 a78_v58 a78_c_14 s78
  -- main_v60
  refine step_binary (fun s80 e fr => ?_)
  have a80_v60 : s80 (Proc.devRef .tc main_v60) = Read.val_main_v60 x1 := e.trans (by rw [a79_v8, a79_v59]; rfl)
  have a80_arg0 := (fr main_arg0 (by decide)).trans a79_arg0
  have a80_arg3 := (fr main_arg3 (by decide)).trans a79_arg3
  have a80_arg4 := (fr main_arg4 (by decide)).trans a79_arg4
  have a80_arg5 := (fr main_arg5 (by decide)).trans a79_arg5
  have a80_arg6 := (fr main_arg6 (by decide)).trans a79_arg6
  have a80_v1 := (fr main_v1 (by decide)).trans a79_v1
  have a80_v3 := (fr main_v3 (by decide)).trans a79_v3
  have a80_v8 := (fr main_v8 (by decide)).trans a79_v8
  have a80_v13 := (fr main_v13 (by decide)).trans a79_v13
  have a80_v49 := (fr main_v49 (by decide)).trans a79_v49
  have a80_v58 := (fr main_v58 (by decide)).trans a79_v58
  clear e fr a79_arg0 a79_arg3 a79_arg4 a79_arg5 a79_arg6 a79_v1 a79_v3 a79_v8 a79_v13 a79_v49 a79_v58 a79_v59 s79
  -- main_c_15
  refine step_nullary (fun s81 e fr => ?_)
  have a81_c_15 : s81 (Proc.devRef .tc main_c_15) = Read.val_main_c_15 := e.trans (rfl)
  have a81_arg0 := (fr main_arg0 (by decide)).trans a80_arg0
  have a81_arg3 := (fr main_arg3 (by decide)).trans a80_arg3
  have a81_arg4 := (fr main_arg4 (by decide)).trans a80_arg4
  have a81_arg5 := (fr main_arg5 (by decide)).trans a80_arg5
  have a81_arg6 := (fr main_arg6 (by decide)).trans a80_arg6
  have a81_v1 := (fr main_v1 (by decide)).trans a80_v1
  have a81_v3 := (fr main_v3 (by decide)).trans a80_v3
  have a81_v8 := (fr main_v8 (by decide)).trans a80_v8
  have a81_v13 := (fr main_v13 (by decide)).trans a80_v13
  have a81_v49 := (fr main_v49 (by decide)).trans a80_v49
  have a81_v58 := (fr main_v58 (by decide)).trans a80_v58
  have a81_v60 := (fr main_v60 (by decide)).trans a80_v60
  clear e fr a80_arg0 a80_arg3 a80_arg4 a80_arg5 a80_arg6 a80_v1 a80_v3 a80_v8 a80_v13 a80_v49 a80_v58 a80_v60 s80
  -- main_v61
  refine step_unary (fun s82 e fr => ?_)
  have a82_v61 : s82 (Proc.devRef .tc main_v61) = Read.val_main_v61 := e.trans (by rw [a81_c_15]; rfl)
  have a82_arg0 := (fr main_arg0 (by decide)).trans a81_arg0
  have a82_arg3 := (fr main_arg3 (by decide)).trans a81_arg3
  have a82_arg4 := (fr main_arg4 (by decide)).trans a81_arg4
  have a82_arg5 := (fr main_arg5 (by decide)).trans a81_arg5
  have a82_arg6 := (fr main_arg6 (by decide)).trans a81_arg6
  have a82_v1 := (fr main_v1 (by decide)).trans a81_v1
  have a82_v3 := (fr main_v3 (by decide)).trans a81_v3
  have a82_v8 := (fr main_v8 (by decide)).trans a81_v8
  have a82_v13 := (fr main_v13 (by decide)).trans a81_v13
  have a82_v49 := (fr main_v49 (by decide)).trans a81_v49
  have a82_v58 := (fr main_v58 (by decide)).trans a81_v58
  have a82_v60 := (fr main_v60 (by decide)).trans a81_v60
  clear e fr a81_arg0 a81_arg3 a81_arg4 a81_arg5 a81_arg6 a81_v1 a81_v3 a81_v8 a81_v13 a81_v49 a81_v58 a81_v60 a81_c_15 s81
  -- main_v62
  refine step_binary (fun s83 e fr => ?_)
  have a83_v62 : s83 (Proc.devRef .tc main_v62) = Read.val_main_v62 x1 := e.trans (by rw [a82_v8, a82_v61]; rfl)
  have a83_arg0 := (fr main_arg0 (by decide)).trans a82_arg0
  have a83_arg3 := (fr main_arg3 (by decide)).trans a82_arg3
  have a83_arg4 := (fr main_arg4 (by decide)).trans a82_arg4
  have a83_arg5 := (fr main_arg5 (by decide)).trans a82_arg5
  have a83_arg6 := (fr main_arg6 (by decide)).trans a82_arg6
  have a83_v1 := (fr main_v1 (by decide)).trans a82_v1
  have a83_v3 := (fr main_v3 (by decide)).trans a82_v3
  have a83_v8 := (fr main_v8 (by decide)).trans a82_v8
  have a83_v13 := (fr main_v13 (by decide)).trans a82_v13
  have a83_v49 := (fr main_v49 (by decide)).trans a82_v49
  have a83_v58 := (fr main_v58 (by decide)).trans a82_v58
  have a83_v60 := (fr main_v60 (by decide)).trans a82_v60
  clear e fr a82_arg0 a82_arg3 a82_arg4 a82_arg5 a82_arg6 a82_v1 a82_v3 a82_v8 a82_v13 a82_v49 a82_v58 a82_v60 a82_v61 s82
  -- main_v63
  refine step_ternary (fun s84 e fr => ?_)
  have a84_v63 : s84 (Proc.devRef .tc main_v63) = Read.val_main_v63 x1 := e.trans (by rw [a83_v60, a83_v62, a83_v8]; rfl)
  have a84_arg0 := (fr main_arg0 (by decide)).trans a83_arg0
  have a84_arg3 := (fr main_arg3 (by decide)).trans a83_arg3
  have a84_arg4 := (fr main_arg4 (by decide)).trans a83_arg4
  have a84_arg5 := (fr main_arg5 (by decide)).trans a83_arg5
  have a84_arg6 := (fr main_arg6 (by decide)).trans a83_arg6
  have a84_v1 := (fr main_v1 (by decide)).trans a83_v1
  have a84_v3 := (fr main_v3 (by decide)).trans a83_v3
  have a84_v13 := (fr main_v13 (by decide)).trans a83_v13
  have a84_v49 := (fr main_v49 (by decide)).trans a83_v49
  have a84_v58 := (fr main_v58 (by decide)).trans a83_v58
  clear e fr a83_arg0 a83_arg3 a83_arg4 a83_arg5 a83_arg6 a83_v1 a83_v3 a83_v8 a83_v13 a83_v49 a83_v58 a83_v60 a83_v62 s83
  -- main_v64
  refine step_unary (fun s85 e fr => ?_)
  have a85_v64 : s85 (Proc.devRef .tc main_v64) = Read.val_main_v64 x1 := e.trans (by rw [a84_v63]; rfl)
  have a85_arg0 := (fr main_arg0 (by decide)).trans a84_arg0
  have a85_arg3 := (fr main_arg3 (by decide)).trans a84_arg3
  have a85_arg4 := (fr main_arg4 (by decide)).trans a84_arg4
  have a85_arg5 := (fr main_arg5 (by decide)).trans a84_arg5
  have a85_arg6 := (fr main_arg6 (by decide)).trans a84_arg6
  have a85_v1 := (fr main_v1 (by decide)).trans a84_v1
  have a85_v3 := (fr main_v3 (by decide)).trans a84_v3
  have a85_v13 := (fr main_v13 (by decide)).trans a84_v13
  have a85_v49 := (fr main_v49 (by decide)).trans a84_v49
  have a85_v58 := (fr main_v58 (by decide)).trans a84_v58
  clear e fr a84_arg0 a84_arg3 a84_arg4 a84_arg5 a84_arg6 a84_v1 a84_v3 a84_v13 a84_v49 a84_v58 a84_v63 s84
  -- main_v65
  refine step_binary (fun s86 e fr => ?_)
  have a86_v65 : s86 (Proc.devRef .tc main_v65) = Read.val_main_v65 x1 x2 := e.trans (by rw [a85_v58, a85_v64]; rfl)
  have a86_arg0 := (fr main_arg0 (by decide)).trans a85_arg0
  have a86_arg3 := (fr main_arg3 (by decide)).trans a85_arg3
  have a86_arg4 := (fr main_arg4 (by decide)).trans a85_arg4
  have a86_arg5 := (fr main_arg5 (by decide)).trans a85_arg5
  have a86_arg6 := (fr main_arg6 (by decide)).trans a85_arg6
  have a86_v1 := (fr main_v1 (by decide)).trans a85_v1
  have a86_v3 := (fr main_v3 (by decide)).trans a85_v3
  have a86_v13 := (fr main_v13 (by decide)).trans a85_v13
  have a86_v49 := (fr main_v49 (by decide)).trans a85_v49
  clear e fr a85_arg0 a85_arg3 a85_arg4 a85_arg5 a85_arg6 a85_v1 a85_v3 a85_v13 a85_v49 a85_v58 a85_v64 s85
  -- main_c_16
  refine step_nullary (fun s87 e fr => ?_)
  have a87_c_16 : s87 (Proc.devRef .tc main_c_16) = Read.val_main_c_16 := e.trans (rfl)
  have a87_arg0 := (fr main_arg0 (by decide)).trans a86_arg0
  have a87_arg3 := (fr main_arg3 (by decide)).trans a86_arg3
  have a87_arg4 := (fr main_arg4 (by decide)).trans a86_arg4
  have a87_arg5 := (fr main_arg5 (by decide)).trans a86_arg5
  have a87_arg6 := (fr main_arg6 (by decide)).trans a86_arg6
  have a87_v1 := (fr main_v1 (by decide)).trans a86_v1
  have a87_v3 := (fr main_v3 (by decide)).trans a86_v3
  have a87_v13 := (fr main_v13 (by decide)).trans a86_v13
  have a87_v49 := (fr main_v49 (by decide)).trans a86_v49
  have a87_v65 := (fr main_v65 (by decide)).trans a86_v65
  clear e fr a86_arg0 a86_arg3 a86_arg4 a86_arg5 a86_arg6 a86_v1 a86_v3 a86_v13 a86_v49 a86_v65 s86
  -- main_v66
  refine step_unary (fun s88 e fr => ?_)
  have a88_v66 : s88 (Proc.devRef .tc main_v66) = Read.val_main_v66 := e.trans (by rw [a87_c_16]; rfl)
  have a88_arg0 := (fr main_arg0 (by decide)).trans a87_arg0
  have a88_arg3 := (fr main_arg3 (by decide)).trans a87_arg3
  have a88_arg4 := (fr main_arg4 (by decide)).trans a87_arg4
  have a88_arg5 := (fr main_arg5 (by decide)).trans a87_arg5
  have a88_arg6 := (fr main_arg6 (by decide)).trans a87_arg6
  have a88_v1 := (fr main_v1 (by decide)).trans a87_v1
  have a88_v3 := (fr main_v3 (by decide)).trans a87_v3
  have a88_v13 := (fr main_v13 (by decide)).trans a87_v13
  have a88_v49 := (fr main_v49 (by decide)).trans a87_v49
  have a88_v65 := (fr main_v65 (by decide)).trans a87_v65
  clear e fr a87_arg0 a87_arg3 a87_arg4 a87_arg5 a87_arg6 a87_v1 a87_v3 a87_v13 a87_v49 a87_v65 a87_c_16 s87
  -- main_v67
  refine step_binary (fun s89 e fr => ?_)
  have a89_v67 : s89 (Proc.devRef .tc main_v67) = Read.val_main_v67 x1 x2 := e.trans (by rw [a88_v65, a88_v66]; rfl)
  have a89_arg0 := (fr main_arg0 (by decide)).trans a88_arg0
  have a89_arg3 := (fr main_arg3 (by decide)).trans a88_arg3
  have a89_arg4 := (fr main_arg4 (by decide)).trans a88_arg4
  have a89_arg5 := (fr main_arg5 (by decide)).trans a88_arg5
  have a89_arg6 := (fr main_arg6 (by decide)).trans a88_arg6
  have a89_v1 := (fr main_v1 (by decide)).trans a88_v1
  have a89_v3 := (fr main_v3 (by decide)).trans a88_v3
  have a89_v13 := (fr main_v13 (by decide)).trans a88_v13
  have a89_v49 := (fr main_v49 (by decide)).trans a88_v49
  have a89_v65 := (fr main_v65 (by decide)).trans a88_v65
  clear e fr a88_arg0 a88_arg3 a88_arg4 a88_arg5 a88_arg6 a88_v1 a88_v3 a88_v13 a88_v49 a88_v65 a88_v66 s88
  -- main_c_17
  refine step_nullary (fun s90 e fr => ?_)
  have a90_c_17 : s90 (Proc.devRef .tc main_c_17) = Read.val_main_c_17 := e.trans (rfl)
  have a90_arg0 := (fr main_arg0 (by decide)).trans a89_arg0
  have a90_arg3 := (fr main_arg3 (by decide)).trans a89_arg3
  have a90_arg4 := (fr main_arg4 (by decide)).trans a89_arg4
  have a90_arg5 := (fr main_arg5 (by decide)).trans a89_arg5
  have a90_arg6 := (fr main_arg6 (by decide)).trans a89_arg6
  have a90_v1 := (fr main_v1 (by decide)).trans a89_v1
  have a90_v3 := (fr main_v3 (by decide)).trans a89_v3
  have a90_v13 := (fr main_v13 (by decide)).trans a89_v13
  have a90_v49 := (fr main_v49 (by decide)).trans a89_v49
  have a90_v65 := (fr main_v65 (by decide)).trans a89_v65
  have a90_v67 := (fr main_v67 (by decide)).trans a89_v67
  clear e fr a89_arg0 a89_arg3 a89_arg4 a89_arg5 a89_arg6 a89_v1 a89_v3 a89_v13 a89_v49 a89_v65 a89_v67 s89
  -- main_call1_v0
  refine step_unary (fun s91 e fr => ?_)
  have a91_call1_v0 : s91 (Proc.devRef .tc main_call1_v0) = Read.val_main_call1_v0 := e.trans (by rw [a90_c_17]; unfold Read.val_main_call1_v0; generalize Read.val_main_c_17 (F := F) = g0; rfl)
  have a91_arg0 := (fr main_arg0 (by decide)).trans a90_arg0
  have a91_arg3 := (fr main_arg3 (by decide)).trans a90_arg3
  have a91_arg4 := (fr main_arg4 (by decide)).trans a90_arg4
  have a91_arg5 := (fr main_arg5 (by decide)).trans a90_arg5
  have a91_arg6 := (fr main_arg6 (by decide)).trans a90_arg6
  have a91_v1 := (fr main_v1 (by decide)).trans a90_v1
  have a91_v3 := (fr main_v3 (by decide)).trans a90_v3
  have a91_v13 := (fr main_v13 (by decide)).trans a90_v13
  have a91_v49 := (fr main_v49 (by decide)).trans a90_v49
  have a91_v65 := (fr main_v65 (by decide)).trans a90_v65
  have a91_v67 := (fr main_v67 (by decide)).trans a90_v67
  clear e fr a90_arg0 a90_arg3 a90_arg4 a90_arg5 a90_arg6 a90_v1 a90_v3 a90_v13 a90_v49 a90_v65 a90_v67 a90_c_17 s90
  -- main_call1_v1
  refine step_unary (fun s92 e fr => ?_)
  have a92_call1_v1 : s92 (Proc.devRef .tc main_call1_v1) = Read.val_main_call1_v1 := e.trans (by rw [a91_call1_v0]; unfold Read.val_main_call1_v1; generalize Read.val_main_call1_v0 (F := F) = g0; rfl)
  have a92_arg0 := (fr main_arg0 (by decide)).trans a91_arg0
  have a92_arg3 := (fr main_arg3 (by decide)).trans a91_arg3
  have a92_arg4 := (fr main_arg4 (by decide)).trans a91_arg4
  have a92_arg5 := (fr main_arg5 (by decide)).trans a91_arg5
  have a92_arg6 := (fr main_arg6 (by decide)).trans a91_arg6
  have a92_v1 := (fr main_v1 (by decide)).trans a91_v1
  have a92_v3 := (fr main_v3 (by decide)).trans a91_v3
  have a92_v13 := (fr main_v13 (by decide)).trans a91_v13
  have a92_v49 := (fr main_v49 (by decide)).trans a91_v49
  have a92_v65 := (fr main_v65 (by decide)).trans a91_v65
  have a92_v67 := (fr main_v67 (by decide)).trans a91_v67
  clear e fr a91_arg0 a91_arg3 a91_arg4 a91_arg5 a91_arg6 a91_v1 a91_v3 a91_v13 a91_v49 a91_v65 a91_v67 a91_call1_v0 s91
  -- main_v68
  refine step_ternary (fun s93 e fr => ?_)
  have a93_v68 : s93 (Proc.devRef .tc main_v68) = Read.val_main_v68 x1 x2 := e.trans (by rw [a92_v67, a92_v65, a92_call1_v1]; unfold Read.val_main_v68; generalize Read.val_main_v67 (F := F) x1 x2 = g0; generalize Read.val_main_v65 (F := F) x1 x2 = g1; generalize Read.val_main_call1_v1 (F := F) = g2; rfl)
  have a93_arg0 := (fr main_arg0 (by decide)).trans a92_arg0
  have a93_arg3 := (fr main_arg3 (by decide)).trans a92_arg3
  have a93_arg4 := (fr main_arg4 (by decide)).trans a92_arg4
  have a93_arg5 := (fr main_arg5 (by decide)).trans a92_arg5
  have a93_arg6 := (fr main_arg6 (by decide)).trans a92_arg6
  have a93_v1 := (fr main_v1 (by decide)).trans a92_v1
  have a93_v3 := (fr main_v3 (by decide)).trans a92_v3
  have a93_v13 := (fr main_v13 (by decide)).trans a92_v13
  have a93_v49 := (fr main_v49 (by decide)).trans a92_v49
  clear e fr a92_arg0 a92_arg3 a92_arg4 a92_arg5 a92_arg6 a92_v1 a92_v3 a92_v13 a92_v49 a92_v65 a92_v67 a92_call1_v1 s92
  -- main_cst_18
  refine step_nullary (fun s94 e fr => ?_)
  have a94_cst_18 : s94 (Proc.devRef .tc main_cst_18) = Read.val_main_cst_18 := e.trans (rfl)
  have a94_arg0 := (fr main_arg0 (by decide)).trans a93_arg0
  have a94_arg3 := (fr main_arg3 (by decide)).trans a93_arg3
  have a94_arg4 := (fr main_arg4 (by decide)).trans a93_arg4
  have a94_arg5 := (fr main_arg5 (by decide)).trans a93_arg5
  have a94_arg6 := (fr main_arg6 (by decide)).trans a93_arg6
  have a94_v1 := (fr main_v1 (by decide)).trans a93_v1
  have a94_v3 := (fr main_v3 (by decide)).trans a93_v3
  have a94_v13 := (fr main_v13 (by decide)).trans a93_v13
  have a94_v49 := (fr main_v49 (by decide)).trans a93_v49
  have a94_v68 := (fr main_v68 (by decide)).trans a93_v68
  clear e fr a93_arg0 a93_arg3 a93_arg4 a93_arg5 a93_arg6 a93_v1 a93_v3 a93_v13 a93_v49 a93_v68 s93
  -- main_v69
  refine step_unary (fun s95 e fr => ?_)
  have a95_v69 : s95 (Proc.devRef .tc main_v69) = Read.val_main_v69 := e.trans (by rw [a94_cst_18]; rfl)
  have a95_arg0 := (fr main_arg0 (by decide)).trans a94_arg0
  have a95_arg3 := (fr main_arg3 (by decide)).trans a94_arg3
  have a95_arg4 := (fr main_arg4 (by decide)).trans a94_arg4
  have a95_arg5 := (fr main_arg5 (by decide)).trans a94_arg5
  have a95_arg6 := (fr main_arg6 (by decide)).trans a94_arg6
  have a95_v1 := (fr main_v1 (by decide)).trans a94_v1
  have a95_v3 := (fr main_v3 (by decide)).trans a94_v3
  have a95_v13 := (fr main_v13 (by decide)).trans a94_v13
  have a95_v49 := (fr main_v49 (by decide)).trans a94_v49
  have a95_v68 := (fr main_v68 (by decide)).trans a94_v68
  clear e fr a94_arg0 a94_arg3 a94_arg4 a94_arg5 a94_arg6 a94_v1 a94_v3 a94_v13 a94_v49 a94_v68 a94_cst_18 s94
  -- main_c_19
  refine step_nullary (fun s96 e fr => ?_)
  have a96_c_19 : s96 (Proc.devRef .tc main_c_19) = Read.val_main_c_19 := e.trans (rfl)
  have a96_arg0 := (fr main_arg0 (by decide)).trans a95_arg0
  have a96_arg3 := (fr main_arg3 (by decide)).trans a95_arg3
  have a96_arg4 := (fr main_arg4 (by decide)).trans a95_arg4
  have a96_arg5 := (fr main_arg5 (by decide)).trans a95_arg5
  have a96_arg6 := (fr main_arg6 (by decide)).trans a95_arg6
  have a96_v1 := (fr main_v1 (by decide)).trans a95_v1
  have a96_v3 := (fr main_v3 (by decide)).trans a95_v3
  have a96_v13 := (fr main_v13 (by decide)).trans a95_v13
  have a96_v49 := (fr main_v49 (by decide)).trans a95_v49
  have a96_v68 := (fr main_v68 (by decide)).trans a95_v68
  have a96_v69 := (fr main_v69 (by decide)).trans a95_v69
  clear e fr a95_arg0 a95_arg3 a95_arg4 a95_arg5 a95_arg6 a95_v1 a95_v3 a95_v13 a95_v49 a95_v68 a95_v69 s95
  -- main_v70
  refine step_unary (fun s97 e fr => ?_)
  have a97_v70 : s97 (Proc.devRef .tc main_v70) = Read.val_main_v70 := e.trans (by rw [a96_c_19]; rfl)
  have a97_arg0 := (fr main_arg0 (by decide)).trans a96_arg0
  have a97_arg3 := (fr main_arg3 (by decide)).trans a96_arg3
  have a97_arg4 := (fr main_arg4 (by decide)).trans a96_arg4
  have a97_arg5 := (fr main_arg5 (by decide)).trans a96_arg5
  have a97_arg6 := (fr main_arg6 (by decide)).trans a96_arg6
  have a97_v1 := (fr main_v1 (by decide)).trans a96_v1
  have a97_v3 := (fr main_v3 (by decide)).trans a96_v3
  have a97_v13 := (fr main_v13 (by decide)).trans a96_v13
  have a97_v49 := (fr main_v49 (by decide)).trans a96_v49
  have a97_v68 := (fr main_v68 (by decide)).trans a96_v68
  have a97_v69 := (fr main_v69 (by decide)).trans a96_v69
  clear e fr a96_arg0 a96_arg3 a96_arg4 a96_arg5 a96_arg6 a96_v1 a96_v3 a96_v13 a96_v49 a96_v68 a96_v69 a96_c_19 s96
  -- main_v71
  refine step_binary (fun s98 e fr => ?_)
  have a98_v71 : s98 (Proc.devRef .tc main_v71) = Read.val_main_v71 x1 x2 := e.trans (by rw [a97_v68, a97_v70]; rfl)
  have a98_arg0 := (fr main_arg0 (by decide)).trans a97_arg0
  have a98_arg3 := (fr main_arg3 (by decide)).trans a97_arg3
  have a98_arg4 := (fr main_arg4 (by decide)).trans a97_arg4
  have a98_arg5 := (fr main_arg5 (by decide)).trans a97_arg5
  have a98_arg6 := (fr main_arg6 (by decide)).trans a97_arg6
  have a98_v1 := (fr main_v1 (by decide)).trans a97_v1
  have a98_v3 := (fr main_v3 (by decide)).trans a97_v3
  have a98_v13 := (fr main_v13 (by decide)).trans a97_v13
  have a98_v49 := (fr main_v49 (by decide)).trans a97_v49
  have a98_v68 := (fr main_v68 (by decide)).trans a97_v68
  have a98_v69 := (fr main_v69 (by decide)).trans a97_v69
  clear e fr a97_arg0 a97_arg3 a97_arg4 a97_arg5 a97_arg6 a97_v1 a97_v3 a97_v13 a97_v49 a97_v68 a97_v69 a97_v70 s97
  -- main_c_20
  refine step_nullary (fun s99 e fr => ?_)
  have a99_c_20 : s99 (Proc.devRef .tc main_c_20) = Read.val_main_c_20 := e.trans (rfl)
  have a99_arg0 := (fr main_arg0 (by decide)).trans a98_arg0
  have a99_arg3 := (fr main_arg3 (by decide)).trans a98_arg3
  have a99_arg4 := (fr main_arg4 (by decide)).trans a98_arg4
  have a99_arg5 := (fr main_arg5 (by decide)).trans a98_arg5
  have a99_arg6 := (fr main_arg6 (by decide)).trans a98_arg6
  have a99_v1 := (fr main_v1 (by decide)).trans a98_v1
  have a99_v3 := (fr main_v3 (by decide)).trans a98_v3
  have a99_v13 := (fr main_v13 (by decide)).trans a98_v13
  have a99_v49 := (fr main_v49 (by decide)).trans a98_v49
  have a99_v68 := (fr main_v68 (by decide)).trans a98_v68
  have a99_v69 := (fr main_v69 (by decide)).trans a98_v69
  have a99_v71 := (fr main_v71 (by decide)).trans a98_v71
  clear e fr a98_arg0 a98_arg3 a98_arg4 a98_arg5 a98_arg6 a98_v1 a98_v3 a98_v13 a98_v49 a98_v68 a98_v69 a98_v71 s98
  -- main_v72
  refine step_unary (fun s100 e fr => ?_)
  have a100_v72 : s100 (Proc.devRef .tc main_v72) = Read.val_main_v72 := e.trans (by rw [a99_c_20]; rfl)
  have a100_arg0 := (fr main_arg0 (by decide)).trans a99_arg0
  have a100_arg3 := (fr main_arg3 (by decide)).trans a99_arg3
  have a100_arg4 := (fr main_arg4 (by decide)).trans a99_arg4
  have a100_arg5 := (fr main_arg5 (by decide)).trans a99_arg5
  have a100_arg6 := (fr main_arg6 (by decide)).trans a99_arg6
  have a100_v1 := (fr main_v1 (by decide)).trans a99_v1
  have a100_v3 := (fr main_v3 (by decide)).trans a99_v3
  have a100_v13 := (fr main_v13 (by decide)).trans a99_v13
  have a100_v49 := (fr main_v49 (by decide)).trans a99_v49
  have a100_v68 := (fr main_v68 (by decide)).trans a99_v68
  have a100_v69 := (fr main_v69 (by decide)).trans a99_v69
  have a100_v71 := (fr main_v71 (by decide)).trans a99_v71
  clear e fr a99_arg0 a99_arg3 a99_arg4 a99_arg5 a99_arg6 a99_v1 a99_v3 a99_v13 a99_v49 a99_v68 a99_v69 a99_v71 a99_c_20 s99
  -- main_v73
  refine step_binary (fun s101 e fr => ?_)
  have a101_v73 : s101 (Proc.devRef .tc main_v73) = Read.val_main_v73 x1 x2 := e.trans (by rw [a100_v68, a100_v72]; rfl)
  have a101_arg0 := (fr main_arg0 (by decide)).trans a100_arg0
  have a101_arg3 := (fr main_arg3 (by decide)).trans a100_arg3
  have a101_arg4 := (fr main_arg4 (by decide)).trans a100_arg4
  have a101_arg5 := (fr main_arg5 (by decide)).trans a100_arg5
  have a101_arg6 := (fr main_arg6 (by decide)).trans a100_arg6
  have a101_v1 := (fr main_v1 (by decide)).trans a100_v1
  have a101_v3 := (fr main_v3 (by decide)).trans a100_v3
  have a101_v13 := (fr main_v13 (by decide)).trans a100_v13
  have a101_v49 := (fr main_v49 (by decide)).trans a100_v49
  have a101_v68 := (fr main_v68 (by decide)).trans a100_v68
  have a101_v69 := (fr main_v69 (by decide)).trans a100_v69
  have a101_v71 := (fr main_v71 (by decide)).trans a100_v71
  clear e fr a100_arg0 a100_arg3 a100_arg4 a100_arg5 a100_arg6 a100_v1 a100_v3 a100_v13 a100_v49 a100_v68 a100_v69 a100_v71 a100_v72 s100
  -- main_v74
  refine step_ternary (fun s102 e fr => ?_)
  have a102_v74 : s102 (Proc.devRef .tc main_v74) = Read.val_main_v74 x1 x2 := e.trans (by rw [a101_v71, a101_v73, a101_v68]; rfl)
  have a102_arg0 := (fr main_arg0 (by decide)).trans a101_arg0
  have a102_arg3 := (fr main_arg3 (by decide)).trans a101_arg3
  have a102_arg4 := (fr main_arg4 (by decide)).trans a101_arg4
  have a102_arg5 := (fr main_arg5 (by decide)).trans a101_arg5
  have a102_arg6 := (fr main_arg6 (by decide)).trans a101_arg6
  have a102_v1 := (fr main_v1 (by decide)).trans a101_v1
  have a102_v3 := (fr main_v3 (by decide)).trans a101_v3
  have a102_v13 := (fr main_v13 (by decide)).trans a101_v13
  have a102_v49 := (fr main_v49 (by decide)).trans a101_v49
  have a102_v69 := (fr main_v69 (by decide)).trans a101_v69
  clear e fr a101_arg0 a101_arg3 a101_arg4 a101_arg5 a101_arg6 a101_v1 a101_v3 a101_v13 a101_v49 a101_v68 a101_v69 a101_v71 a101_v73 s101
  -- main_c_21
  refine step_nullary (fun s103 e fr => ?_)
  have a103_c_21 : s103 (Proc.devRef .tc main_c_21) = Read.val_main_c_21 := e.trans (rfl)
  have a103_arg0 := (fr main_arg0 (by decide)).trans a102_arg0
  have a103_arg3 := (fr main_arg3 (by decide)).trans a102_arg3
  have a103_arg4 := (fr main_arg4 (by decide)).trans a102_arg4
  have a103_arg5 := (fr main_arg5 (by decide)).trans a102_arg5
  have a103_arg6 := (fr main_arg6 (by decide)).trans a102_arg6
  have a103_v1 := (fr main_v1 (by decide)).trans a102_v1
  have a103_v3 := (fr main_v3 (by decide)).trans a102_v3
  have a103_v13 := (fr main_v13 (by decide)).trans a102_v13
  have a103_v49 := (fr main_v49 (by decide)).trans a102_v49
  have a103_v69 := (fr main_v69 (by decide)).trans a102_v69
  have a103_v74 := (fr main_v74 (by decide)).trans a102_v74
  clear e fr a102_arg0 a102_arg3 a102_arg4 a102_arg5 a102_arg6 a102_v1 a102_v3 a102_v13 a102_v49 a102_v69 a102_v74 s102
  -- main_v75
  refine step_unary (fun s104 e fr => ?_)
  have a104_v75 : s104 (Proc.devRef .tc main_v75) = Read.val_main_v75 := e.trans (by rw [a103_c_21]; rfl)
  have a104_arg0 := (fr main_arg0 (by decide)).trans a103_arg0
  have a104_arg3 := (fr main_arg3 (by decide)).trans a103_arg3
  have a104_arg4 := (fr main_arg4 (by decide)).trans a103_arg4
  have a104_arg5 := (fr main_arg5 (by decide)).trans a103_arg5
  have a104_arg6 := (fr main_arg6 (by decide)).trans a103_arg6
  have a104_v1 := (fr main_v1 (by decide)).trans a103_v1
  have a104_v3 := (fr main_v3 (by decide)).trans a103_v3
  have a104_v13 := (fr main_v13 (by decide)).trans a103_v13
  have a104_v49 := (fr main_v49 (by decide)).trans a103_v49
  have a104_v69 := (fr main_v69 (by decide)).trans a103_v69
  have a104_v74 := (fr main_v74 (by decide)).trans a103_v74
  clear e fr a103_arg0 a103_arg3 a103_arg4 a103_arg5 a103_arg6 a103_v1 a103_v3 a103_v13 a103_v49 a103_v69 a103_v74 a103_c_21 s103
  -- main_v76
  refine step_binary (fun s105 e fr => ?_)
  have a105_v76 : s105 (Proc.devRef .tc main_v76) = Read.val_main_v76 x1 := e.trans (by rw [a104_v13, a104_v75]; rfl)
  have a105_arg0 := (fr main_arg0 (by decide)).trans a104_arg0
  have a105_arg3 := (fr main_arg3 (by decide)).trans a104_arg3
  have a105_arg4 := (fr main_arg4 (by decide)).trans a104_arg4
  have a105_arg5 := (fr main_arg5 (by decide)).trans a104_arg5
  have a105_arg6 := (fr main_arg6 (by decide)).trans a104_arg6
  have a105_v1 := (fr main_v1 (by decide)).trans a104_v1
  have a105_v3 := (fr main_v3 (by decide)).trans a104_v3
  have a105_v13 := (fr main_v13 (by decide)).trans a104_v13
  have a105_v49 := (fr main_v49 (by decide)).trans a104_v49
  have a105_v69 := (fr main_v69 (by decide)).trans a104_v69
  have a105_v74 := (fr main_v74 (by decide)).trans a104_v74
  clear e fr a104_arg0 a104_arg3 a104_arg4 a104_arg5 a104_arg6 a104_v1 a104_v3 a104_v13 a104_v49 a104_v69 a104_v74 a104_v75 s104
  -- main_c_22
  refine step_nullary (fun s106 e fr => ?_)
  have a106_c_22 : s106 (Proc.devRef .tc main_c_22) = Read.val_main_c_22 := e.trans (rfl)
  have a106_arg0 := (fr main_arg0 (by decide)).trans a105_arg0
  have a106_arg3 := (fr main_arg3 (by decide)).trans a105_arg3
  have a106_arg4 := (fr main_arg4 (by decide)).trans a105_arg4
  have a106_arg5 := (fr main_arg5 (by decide)).trans a105_arg5
  have a106_arg6 := (fr main_arg6 (by decide)).trans a105_arg6
  have a106_v1 := (fr main_v1 (by decide)).trans a105_v1
  have a106_v3 := (fr main_v3 (by decide)).trans a105_v3
  have a106_v13 := (fr main_v13 (by decide)).trans a105_v13
  have a106_v49 := (fr main_v49 (by decide)).trans a105_v49
  have a106_v69 := (fr main_v69 (by decide)).trans a105_v69
  have a106_v74 := (fr main_v74 (by decide)).trans a105_v74
  have a106_v76 := (fr main_v76 (by decide)).trans a105_v76
  clear e fr a105_arg0 a105_arg3 a105_arg4 a105_arg5 a105_arg6 a105_v1 a105_v3 a105_v13 a105_v49 a105_v69 a105_v74 a105_v76 s105
  -- main_v77
  refine step_unary (fun s107 e fr => ?_)
  have a107_v77 : s107 (Proc.devRef .tc main_v77) = Read.val_main_v77 := e.trans (by rw [a106_c_22]; rfl)
  have a107_arg0 := (fr main_arg0 (by decide)).trans a106_arg0
  have a107_arg3 := (fr main_arg3 (by decide)).trans a106_arg3
  have a107_arg4 := (fr main_arg4 (by decide)).trans a106_arg4
  have a107_arg5 := (fr main_arg5 (by decide)).trans a106_arg5
  have a107_arg6 := (fr main_arg6 (by decide)).trans a106_arg6
  have a107_v1 := (fr main_v1 (by decide)).trans a106_v1
  have a107_v3 := (fr main_v3 (by decide)).trans a106_v3
  have a107_v13 := (fr main_v13 (by decide)).trans a106_v13
  have a107_v49 := (fr main_v49 (by decide)).trans a106_v49
  have a107_v69 := (fr main_v69 (by decide)).trans a106_v69
  have a107_v74 := (fr main_v74 (by decide)).trans a106_v74
  have a107_v76 := (fr main_v76 (by decide)).trans a106_v76
  clear e fr a106_arg0 a106_arg3 a106_arg4 a106_arg5 a106_arg6 a106_v1 a106_v3 a106_v13 a106_v49 a106_v69 a106_v74 a106_v76 a106_c_22 s106
  -- main_v78
  refine step_binary (fun s108 e fr => ?_)
  have a108_v78 : s108 (Proc.devRef .tc main_v78) = Read.val_main_v78 x1 := e.trans (by rw [a107_v13, a107_v77]; rfl)
  have a108_arg0 := (fr main_arg0 (by decide)).trans a107_arg0
  have a108_arg3 := (fr main_arg3 (by decide)).trans a107_arg3
  have a108_arg4 := (fr main_arg4 (by decide)).trans a107_arg4
  have a108_arg5 := (fr main_arg5 (by decide)).trans a107_arg5
  have a108_arg6 := (fr main_arg6 (by decide)).trans a107_arg6
  have a108_v1 := (fr main_v1 (by decide)).trans a107_v1
  have a108_v3 := (fr main_v3 (by decide)).trans a107_v3
  have a108_v13 := (fr main_v13 (by decide)).trans a107_v13
  have a108_v49 := (fr main_v49 (by decide)).trans a107_v49
  have a108_v69 := (fr main_v69 (by decide)).trans a107_v69
  have a108_v74 := (fr main_v74 (by decide)).trans a107_v74
  have a108_v76 := (fr main_v76 (by decide)).trans a107_v76
  clear e fr a107_arg0 a107_arg3 a107_arg4 a107_arg5 a107_arg6 a107_v1 a107_v3 a107_v13 a107_v49 a107_v69 a107_v74 a107_v76 a107_v77 s107
  -- main_v79
  refine step_ternary (fun s109 e fr => ?_)
  have a109_v79 : s109 (Proc.devRef .tc main_v79) = Read.val_main_v79 x1 := e.trans (by rw [a108_v76, a108_v78, a108_v13]; rfl)
  have a109_arg0 := (fr main_arg0 (by decide)).trans a108_arg0
  have a109_arg3 := (fr main_arg3 (by decide)).trans a108_arg3
  have a109_arg4 := (fr main_arg4 (by decide)).trans a108_arg4
  have a109_arg5 := (fr main_arg5 (by decide)).trans a108_arg5
  have a109_arg6 := (fr main_arg6 (by decide)).trans a108_arg6
  have a109_v1 := (fr main_v1 (by decide)).trans a108_v1
  have a109_v3 := (fr main_v3 (by decide)).trans a108_v3
  have a109_v49 := (fr main_v49 (by decide)).trans a108_v49
  have a109_v69 := (fr main_v69 (by decide)).trans a108_v69
  have a109_v74 := (fr main_v74 (by decide)).trans a108_v74
  clear e fr a108_arg0 a108_arg3 a108_arg4 a108_arg5 a108_arg6 a108_v1 a108_v3 a108_v13 a108_v49 a108_v69 a108_v74 a108_v76 a108_v78 s108
  -- main_v80
  refine step_unary (fun s110 e fr => ?_)
  have a110_v80 : s110 (Proc.devRef .tc main_v80) = Read.val_main_v80 x1 x2 := e.trans (by rw [a109_v74]; rfl)
  have a110_arg0 := (fr main_arg0 (by decide)).trans a109_arg0
  have a110_arg3 := (fr main_arg3 (by decide)).trans a109_arg3
  have a110_arg4 := (fr main_arg4 (by decide)).trans a109_arg4
  have a110_arg5 := (fr main_arg5 (by decide)).trans a109_arg5
  have a110_arg6 := (fr main_arg6 (by decide)).trans a109_arg6
  have a110_v1 := (fr main_v1 (by decide)).trans a109_v1
  have a110_v3 := (fr main_v3 (by decide)).trans a109_v3
  have a110_v49 := (fr main_v49 (by decide)).trans a109_v49
  have a110_v69 := (fr main_v69 (by decide)).trans a109_v69
  have a110_v79 := (fr main_v79 (by decide)).trans a109_v79
  clear e fr a109_arg0 a109_arg3 a109_arg4 a109_arg5 a109_arg6 a109_v1 a109_v3 a109_v49 a109_v69 a109_v74 a109_v79 s109
  -- main_v81
  refine step_unary (fun s111 e fr => ?_)
  have a111_v81 : s111 (Proc.devRef .tc main_v81) = Read.val_main_v81 x1 := e.trans (by rw [a110_v79]; rfl)
  have a111_arg0 := (fr main_arg0 (by decide)).trans a110_arg0
  have a111_arg3 := (fr main_arg3 (by decide)).trans a110_arg3
  have a111_arg4 := (fr main_arg4 (by decide)).trans a110_arg4
  have a111_arg5 := (fr main_arg5 (by decide)).trans a110_arg5
  have a111_arg6 := (fr main_arg6 (by decide)).trans a110_arg6
  have a111_v1 := (fr main_v1 (by decide)).trans a110_v1
  have a111_v3 := (fr main_v3 (by decide)).trans a110_v3
  have a111_v49 := (fr main_v49 (by decide)).trans a110_v49
  have a111_v69 := (fr main_v69 (by decide)).trans a110_v69
  have a111_v80 := (fr main_v80 (by decide)).trans a110_v80
  clear e fr a110_arg0 a110_arg3 a110_arg4 a110_arg5 a110_arg6 a110_v1 a110_v3 a110_v49 a110_v69 a110_v79 a110_v80 s110
  -- main_v82
  refine step_binary (fun s112 e fr => ?_)
  have a112_v82 : s112 (Proc.devRef .tc main_v82) = Read.val_main_v82 x1 x2 := e.trans (by rw [a111_v80, a111_v81]; rfl)
  have a112_arg0 := (fr main_arg0 (by decide)).trans a111_arg0
  have a112_arg3 := (fr main_arg3 (by decide)).trans a111_arg3
  have a112_arg4 := (fr main_arg4 (by decide)).trans a111_arg4
  have a112_arg5 := (fr main_arg5 (by decide)).trans a111_arg5
  have a112_arg6 := (fr main_arg6 (by decide)).trans a111_arg6
  have a112_v1 := (fr main_v1 (by decide)).trans a111_v1
  have a112_v3 := (fr main_v3 (by decide)).trans a111_v3
  have a112_v49 := (fr main_v49 (by decide)).trans a111_v49
  have a112_v69 := (fr main_v69 (by decide)).trans a111_v69
  clear e fr a111_arg0 a111_arg3 a111_arg4 a111_arg5 a111_arg6 a111_v1 a111_v3 a111_v49 a111_v69 a111_v80 a111_v81 s111
  -- main_cst_23
  refine step_nullary (fun s113 e fr => ?_)
  have a113_cst_23 : s113 (Proc.devRef .tc main_cst_23) = Read.val_main_cst_23 := e.trans (rfl)
  have a113_arg0 := (fr main_arg0 (by decide)).trans a112_arg0
  have a113_arg3 := (fr main_arg3 (by decide)).trans a112_arg3
  have a113_arg4 := (fr main_arg4 (by decide)).trans a112_arg4
  have a113_arg5 := (fr main_arg5 (by decide)).trans a112_arg5
  have a113_arg6 := (fr main_arg6 (by decide)).trans a112_arg6
  have a113_v1 := (fr main_v1 (by decide)).trans a112_v1
  have a113_v3 := (fr main_v3 (by decide)).trans a112_v3
  have a113_v49 := (fr main_v49 (by decide)).trans a112_v49
  have a113_v69 := (fr main_v69 (by decide)).trans a112_v69
  have a113_v82 := (fr main_v82 (by decide)).trans a112_v82
  clear e fr a112_arg0 a112_arg3 a112_arg4 a112_arg5 a112_arg6 a112_v1 a112_v3 a112_v49 a112_v69 a112_v82 s112
  -- main_v83
  refine step_unary (fun s114 e fr => ?_)
  have a114_v83 : s114 (Proc.devRef .tc main_v83) = Read.val_main_v83 := e.trans (by rw [a113_cst_23]; rfl)
  have a114_arg0 := (fr main_arg0 (by decide)).trans a113_arg0
  have a114_arg3 := (fr main_arg3 (by decide)).trans a113_arg3
  have a114_arg4 := (fr main_arg4 (by decide)).trans a113_arg4
  have a114_arg5 := (fr main_arg5 (by decide)).trans a113_arg5
  have a114_arg6 := (fr main_arg6 (by decide)).trans a113_arg6
  have a114_v1 := (fr main_v1 (by decide)).trans a113_v1
  have a114_v3 := (fr main_v3 (by decide)).trans a113_v3
  have a114_v49 := (fr main_v49 (by decide)).trans a113_v49
  have a114_v69 := (fr main_v69 (by decide)).trans a113_v69
  have a114_v82 := (fr main_v82 (by decide)).trans a113_v82
  clear e fr a113_arg0 a113_arg3 a113_arg4 a113_arg5 a113_arg6 a113_v1 a113_v3 a113_v49 a113_v69 a113_v82 a113_cst_23 s113
  -- main_v84
  refine step_ternary (fun s115 e fr => ?_)
  have a115_v84 : s115 (Proc.devRef .tc main_v84) = Read.val_main_v84 x1 x2 := e.trans (by rw [a114_v69, a114_v82, a114_v83]; rfl)
  have a115_arg0 := (fr main_arg0 (by decide)).trans a114_arg0
  have a115_arg3 := (fr main_arg3 (by decide)).trans a114_arg3
  have a115_arg4 := (fr main_arg4 (by decide)).trans a114_arg4
  have a115_arg5 := (fr main_arg5 (by decide)).trans a114_arg5
  have a115_arg6 := (fr main_arg6 (by decide)).trans a114_arg6
  have a115_v1 := (fr main_v1 (by decide)).trans a114_v1
  have a115_v3 := (fr main_v3 (by decide)).trans a114_v3
  have a115_v49 := (fr main_v49 (by decide)).trans a114_v49
  clear e fr a114_arg0 a114_arg3 a114_arg4 a114_arg5 a114_arg6 a114_v1 a114_v3 a114_v49 a114_v69 a114_v82 a114_v83 s114
  -- main_v85
  refine step_unary (fun s116 e fr => ?_)
  have a116_v85 : s116 (Proc.devRef .tc main_v85) = Read.val_main_v85 x1 x2 := e.trans (by rw [a115_v84]; rfl)
  have a116_arg0 := (fr main_arg0 (by decide)).trans a115_arg0
  have a116_arg3 := (fr main_arg3 (by decide)).trans a115_arg3
  have a116_arg4 := (fr main_arg4 (by decide)).trans a115_arg4
  have a116_arg5 := (fr main_arg5 (by decide)).trans a115_arg5
  have a116_arg6 := (fr main_arg6 (by decide)).trans a115_arg6
  have a116_v1 := (fr main_v1 (by decide)).trans a115_v1
  have a116_v3 := (fr main_v3 (by decide)).trans a115_v3
  have a116_v49 := (fr main_v49 (by decide)).trans a115_v49
  clear e fr a115_arg0 a115_arg3 a115_arg4 a115_arg5 a115_arg6 a115_v1 a115_v3 a115_v49 a115_v84 s115
  -- main_v86
  refine step_binary (fun s117 e fr => ?_)
  have a117_v86 : s117 (Proc.devRef .tc main_v86) = Read.val_main_v86 x1 x2 := e.trans (by rw [a116_v49, a116_v85]; rfl)
  have a117_arg0 := (fr main_arg0 (by decide)).trans a116_arg0
  have a117_arg3 := (fr main_arg3 (by decide)).trans a116_arg3
  have a117_arg4 := (fr main_arg4 (by decide)).trans a116_arg4
  have a117_arg5 := (fr main_arg5 (by decide)).trans a116_arg5
  have a117_arg6 := (fr main_arg6 (by decide)).trans a116_arg6
  have a117_v1 := (fr main_v1 (by decide)).trans a116_v1
  have a117_v3 := (fr main_v3 (by decide)).trans a116_v3
  clear e fr a116_arg0 a116_arg3 a116_arg4 a116_arg5 a116_arg6 a116_v1 a116_v3 a116_v49 a116_v85 s116
  -- main_v87
  refine step_binary (fun s118 e fr => ?_)
  have a118_v87 : s118 (Proc.devRef .tc main_v87) = Read.val_main_v87 x0 x1 x2 := e.trans (by rw [a117_v86, a117_arg0]; rfl)
  have a118_arg0 := (fr main_arg0 (by decide)).trans a117_arg0
  have a118_arg3 := (fr main_arg3 (by decide)).trans a117_arg3
  have a118_arg4 := (fr main_arg4 (by decide)).trans a117_arg4
  have a118_arg5 := (fr main_arg5 (by decide)).trans a117_arg5
  have a118_arg6 := (fr main_arg6 (by decide)).trans a117_arg6
  have a118_v1 := (fr main_v1 (by decide)).trans a117_v1
  have a118_v3 := (fr main_v3 (by decide)).trans a117_v3
  clear e fr a117_arg0 a117_arg3 a117_arg4 a117_arg5 a117_arg6 a117_v1 a117_v3 a117_v86 s117
  -- main_c_24
  refine step_nullary (fun s119 e fr => ?_)
  have a119_c_24 : s119 (Proc.devRef .tc main_c_24) = Read.val_main_c_24 := e.trans (rfl)
  have a119_arg0 := (fr main_arg0 (by decide)).trans a118_arg0
  have a119_arg3 := (fr main_arg3 (by decide)).trans a118_arg3
  have a119_arg4 := (fr main_arg4 (by decide)).trans a118_arg4
  have a119_arg5 := (fr main_arg5 (by decide)).trans a118_arg5
  have a119_arg6 := (fr main_arg6 (by decide)).trans a118_arg6
  have a119_v1 := (fr main_v1 (by decide)).trans a118_v1
  have a119_v3 := (fr main_v3 (by decide)).trans a118_v3
  have a119_v87 := (fr main_v87 (by decide)).trans a118_v87
  clear e fr a118_arg0 a118_arg3 a118_arg4 a118_arg5 a118_arg6 a118_v1 a118_v3 a118_v87 s118
  -- main_v88
  refine step_unary (fun s120 e fr => ?_)
  have a120_v88 : s120 (Proc.devRef .tc main_v88) = Read.val_main_v88 := e.trans (by rw [a119_c_24]; rfl)
  have a120_arg0 := (fr main_arg0 (by decide)).trans a119_arg0
  have a120_arg3 := (fr main_arg3 (by decide)).trans a119_arg3
  have a120_arg4 := (fr main_arg4 (by decide)).trans a119_arg4
  have a120_arg5 := (fr main_arg5 (by decide)).trans a119_arg5
  have a120_arg6 := (fr main_arg6 (by decide)).trans a119_arg6
  have a120_v1 := (fr main_v1 (by decide)).trans a119_v1
  have a120_v3 := (fr main_v3 (by decide)).trans a119_v3
  have a120_v87 := (fr main_v87 (by decide)).trans a119_v87
  clear e fr a119_arg0 a119_arg3 a119_arg4 a119_arg5 a119_arg6 a119_v1 a119_v3 a119_v87 a119_c_24 s119
  -- main_v89
  refine step_binary (fun s121 e fr => ?_)
  have a121_v89 : s121 (Proc.devRef .tc main_v89) = Read.val_main_v89 x2 := e.trans (by rw [a120_v1, a120_v88]; rfl)
  have a121_arg0 := (fr main_arg0 (by decide)).trans a120_arg0
  have a121_arg3 := (fr main_arg3 (by decide)).trans a120_arg3
  have a121_arg4 := (fr main_arg4 (by decide)).trans a120_arg4
  have a121_arg5 := (fr main_arg5 (by decide)).trans a120_arg5
  have a121_arg6 := (fr main_arg6 (by decide)).trans a120_arg6
  have a121_v1 := (fr main_v1 (by decide)).trans a120_v1
  have a121_v3 := (fr main_v3 (by decide)).trans a120_v3
  have a121_v87 := (fr main_v87 (by decide)).trans a120_v87
  clear e fr a120_arg0 a120_arg3 a120_arg4 a120_arg5 a120_arg6 a120_v1 a120_v3 a120_v87 a120_v88 s120
  -- main_c_25
  refine step_nullary (fun s122 e fr => ?_)
  have a122_c_25 : s122 (Proc.devRef .tc main_c_25) = Read.val_main_c_25 := e.trans (rfl)
  have a122_arg0 := (fr main_arg0 (by decide)).trans a121_arg0
  have a122_arg3 := (fr main_arg3 (by decide)).trans a121_arg3
  have a122_arg4 := (fr main_arg4 (by decide)).trans a121_arg4
  have a122_arg5 := (fr main_arg5 (by decide)).trans a121_arg5
  have a122_arg6 := (fr main_arg6 (by decide)).trans a121_arg6
  have a122_v1 := (fr main_v1 (by decide)).trans a121_v1
  have a122_v3 := (fr main_v3 (by decide)).trans a121_v3
  have a122_v87 := (fr main_v87 (by decide)).trans a121_v87
  have a122_v89 := (fr main_v89 (by decide)).trans a121_v89
  clear e fr a121_arg0 a121_arg3 a121_arg4 a121_arg5 a121_arg6 a121_v1 a121_v3 a121_v87 a121_v89 s121
  -- main_v90
  refine step_unary (fun s123 e fr => ?_)
  have a123_v90 : s123 (Proc.devRef .tc main_v90) = Read.val_main_v90 := e.trans (by rw [a122_c_25]; rfl)
  have a123_arg0 := (fr main_arg0 (by decide)).trans a122_arg0
  have a123_arg3 := (fr main_arg3 (by decide)).trans a122_arg3
  have a123_arg4 := (fr main_arg4 (by decide)).trans a122_arg4
  have a123_arg5 := (fr main_arg5 (by decide)).trans a122_arg5
  have a123_arg6 := (fr main_arg6 (by decide)).trans a122_arg6
  have a123_v1 := (fr main_v1 (by decide)).trans a122_v1
  have a123_v3 := (fr main_v3 (by decide)).trans a122_v3
  have a123_v87 := (fr main_v87 (by decide)).trans a122_v87
  have a123_v89 := (fr main_v89 (by decide)).trans a122_v89
  clear e fr a122_arg0 a122_arg3 a122_arg4 a122_arg5 a122_arg6 a122_v1 a122_v3 a122_v87 a122_v89 a122_c_25 s122
  -- main_v91
  refine step_binary (fun s124 e fr => ?_)
  have a124_v91 : s124 (Proc.devRef .tc main_v91) = Read.val_main_v91 x2 := e.trans (by rw [a123_v1, a123_v90]; rfl)
  have a124_arg0 := (fr main_arg0 (by decide)).trans a123_arg0
  have a124_arg3 := (fr main_arg3 (by decide)).trans a123_arg3
  have a124_arg4 := (fr main_arg4 (by decide)).trans a123_arg4
  have a124_arg5 := (fr main_arg5 (by decide)).trans a123_arg5
  have a124_arg6 := (fr main_arg6 (by decide)).trans a123_arg6
  have a124_v1 := (fr main_v1 (by decide)).trans a123_v1
  have a124_v3 := (fr main_v3 (by decide)).trans a123_v3
  have a124_v87 := (fr main_v87 (by decide)).trans a123_v87
  have a124_v89 := (fr main_v89 (by decide)).trans a123_v89
  clear e fr a123_arg0 a123_arg3 a123_arg4 a123_arg5 a123_arg6 a123_v1 a123_v3 a123_v87 a123_v89 a123_v90 s123
  -- main_v92
  refine step_ternary (fun s125 e fr => ?_)
  have a125_v92 : s125 (Proc.devRef .tc main_v92) = Read.val_main_v92 x2 := e.trans (by rw [a124_v89, a124_v91, a124_v1]; rfl)
  have a125_arg0 := (fr main_arg0 (by decide)).trans a124_arg0
  have a125_arg3 := (fr main_arg3 (by decide)).trans a124_arg3
  have a125_arg4 := (fr main_arg4 (by decide)).trans a124_arg4
  have a125_arg5 := (fr main_arg5 (by decide)).trans a124_arg5
  have a125_arg6 := (fr main_arg6 (by decide)).trans a124_arg6
  have a125_v3 := (fr main_v3 (by decide)).trans a124_v3
  have a125_v87 := (fr main_v87 (by decide)).trans a124_v87
  clear e fr a124_arg0 a124_arg3 a124_arg4 a124_arg5 a124_arg6 a124_v1 a124_v3 a124_v87 a124_v89 a124_v91 s124
  -- main_v93
  refine step_unary (fun s126 e fr => ?_)
  have a126_v93 : s126 (Proc.devRef .tc main_v93) = Read.val_main_v93 x2 := e.trans (by rw [a125_v92]; rfl)
  have a126_arg0 := (fr main_arg0 (by decide)).trans a125_arg0
  have a126_arg3 := (fr main_arg3 (by decide)).trans a125_arg3
  have a126_arg4 := (fr main_arg4 (by decide)).trans a125_arg4
  have a126_arg5 := (fr main_arg5 (by decide)).trans a125_arg5
  have a126_arg6 := (fr main_arg6 (by decide)).trans a125_arg6
  have a126_v3 := (fr main_v3 (by decide)).trans a125_v3
  have a126_v87 := (fr main_v87 (by decide)).trans a125_v87
  clear e fr a125_arg0 a125_arg3 a125_arg4 a125_arg5 a125_arg6 a125_v3 a125_v87 a125_v92 s125
  -- main_v94
  refine step_binary (fun s127 e fr => ?_)
  have a127_v94 : s127 (Proc.devRef .tc main_v94) = Read.val_main_v94 x0 x2 := e.trans (by rw [a126_arg0, a126_v93]; rfl)
  have a127_arg0 := (fr main_arg0 (by decide)).trans a126_arg0
  have a127_arg3 := (fr main_arg3 (by decide)).trans a126_arg3
  have a127_arg4 := (fr main_arg4 (by decide)).trans a126_arg4
  have a127_arg5 := (fr main_arg5 (by decide)).trans a126_arg5
  have a127_arg6 := (fr main_arg6 (by decide)).trans a126_arg6
  have a127_v3 := (fr main_v3 (by decide)).trans a126_v3
  have a127_v87 := (fr main_v87 (by decide)).trans a126_v87
  clear e fr a126_arg0 a126_arg3 a126_arg4 a126_arg5 a126_arg6 a126_v3 a126_v87 a126_v93 s126
  -- main_c_26
  refine step_nullary (fun s128 e fr => ?_)
  have a128_c_26 : s128 (Proc.devRef .tc main_c_26) = Read.val_main_c_26 := e.trans (rfl)
  have a128_arg0 := (fr main_arg0 (by decide)).trans a127_arg0
  have a128_arg3 := (fr main_arg3 (by decide)).trans a127_arg3
  have a128_arg4 := (fr main_arg4 (by decide)).trans a127_arg4
  have a128_arg5 := (fr main_arg5 (by decide)).trans a127_arg5
  have a128_arg6 := (fr main_arg6 (by decide)).trans a127_arg6
  have a128_v3 := (fr main_v3 (by decide)).trans a127_v3
  have a128_v87 := (fr main_v87 (by decide)).trans a127_v87
  have a128_v94 := (fr main_v94 (by decide)).trans a127_v94
  clear e fr a127_arg0 a127_arg3 a127_arg4 a127_arg5 a127_arg6 a127_v3 a127_v87 a127_v94 s127
  -- main_v95
  refine step_unary (fun s129 e fr => ?_)
  have a129_v95 : s129 (Proc.devRef .tc main_v95) = Read.val_main_v95 := e.trans (by rw [a128_c_26]; rfl)
  have a129_arg0 := (fr main_arg0 (by decide)).trans a128_arg0
  have a129_arg3 := (fr main_arg3 (by decide)).trans a128_arg3
  have a129_arg4 := (fr main_arg4 (by decide)).trans a128_arg4
  have a129_arg5 := (fr main_arg5 (by decide)).trans a128_arg5
  have a129_arg6 := (fr main_arg6 (by decide)).trans a128_arg6
  have a129_v3 := (fr main_v3 (by decide)).trans a128_v3
  have a129_v87 := (fr main_v87 (by decide)).trans a128_v87
  have a129_v94 := (fr main_v94 (by decide)).trans a128_v94
  clear e fr a128_arg0 a128_arg3 a128_arg4 a128_arg5 a128_arg6 a128_v3 a128_v87 a128_v94 a128_c_26 s128
  -- main_v96
  refine step_binary (fun s130 e fr => ?_)
  have a130_v96 : s130 (Proc.devRef .tc main_v96) = Read.val_main_v96 x2 := e.trans (by rw [a129_v3, a129_v95]; rfl)
  have a130_arg0 := (fr main_arg0 (by decide)).trans a129_arg0
  have a130_arg3 := (fr main_arg3 (by decide)).trans a129_arg3
  have a130_arg4 := (fr main_arg4 (by decide)).trans a129_arg4
  have a130_arg5 := (fr main_arg5 (by decide)).trans a129_arg5
  have a130_arg6 := (fr main_arg6 (by decide)).trans a129_arg6
  have a130_v3 := (fr main_v3 (by decide)).trans a129_v3
  have a130_v87 := (fr main_v87 (by decide)).trans a129_v87
  have a130_v94 := (fr main_v94 (by decide)).trans a129_v94
  clear e fr a129_arg0 a129_arg3 a129_arg4 a129_arg5 a129_arg6 a129_v3 a129_v87 a129_v94 a129_v95 s129
  -- main_c_27
  refine step_nullary (fun s131 e fr => ?_)
  have a131_c_27 : s131 (Proc.devRef .tc main_c_27) = Read.val_main_c_27 := e.trans (rfl)
  have a131_arg0 := (fr main_arg0 (by decide)).trans a130_arg0
  have a131_arg3 := (fr main_arg3 (by decide)).trans a130_arg3
  have a131_arg4 := (fr main_arg4 (by decide)).trans a130_arg4
  have a131_arg5 := (fr main_arg5 (by decide)).trans a130_arg5
  have a131_arg6 := (fr main_arg6 (by decide)).trans a130_arg6
  have a131_v3 := (fr main_v3 (by decide)).trans a130_v3
  have a131_v87 := (fr main_v87 (by decide)).trans a130_v87
  have a131_v94 := (fr main_v94 (by decide)).trans a130_v94
  have a131_v96 := (fr main_v96 (by decide)).trans a130_v96
  clear e fr a130_arg0 a130_arg3 a130_arg4 a130_arg5 a130_arg6 a130_v3 a130_v87 a130_v94 a130_v96 s130
  -- main_v97
  refine step_unary (fun s132 e fr => ?_)
  have a132_v97 : s132 (Proc.devRef .tc main_v97) = Read.val_main_v97 := e.trans (by rw [a131_c_27]; rfl)
  have a132_arg0 := (fr main_arg0 (by decide)).trans a131_arg0
  have a132_arg3 := (fr main_arg3 (by decide)).trans a131_arg3
  have a132_arg4 := (fr main_arg4 (by decide)).trans a131_arg4
  have a132_arg5 := (fr main_arg5 (by decide)).trans a131_arg5
  have a132_arg6 := (fr main_arg6 (by decide)).trans a131_arg6
  have a132_v3 := (fr main_v3 (by decide)).trans a131_v3
  have a132_v87 := (fr main_v87 (by decide)).trans a131_v87
  have a132_v94 := (fr main_v94 (by decide)).trans a131_v94
  have a132_v96 := (fr main_v96 (by decide)).trans a131_v96
  clear e fr a131_arg0 a131_arg3 a131_arg4 a131_arg5 a131_arg6 a131_v3 a131_v87 a131_v94 a131_v96 a131_c_27 s131
  -- main_v98
  refine step_binary (fun s133 e fr => ?_)
  have a133_v98 : s133 (Proc.devRef .tc main_v98) = Read.val_main_v98 x2 := e.trans (by rw [a132_v3, a132_v97]; rfl)
  have a133_arg0 := (fr main_arg0 (by decide)).trans a132_arg0
  have a133_arg3 := (fr main_arg3 (by decide)).trans a132_arg3
  have a133_arg4 := (fr main_arg4 (by decide)).trans a132_arg4
  have a133_arg5 := (fr main_arg5 (by decide)).trans a132_arg5
  have a133_arg6 := (fr main_arg6 (by decide)).trans a132_arg6
  have a133_v3 := (fr main_v3 (by decide)).trans a132_v3
  have a133_v87 := (fr main_v87 (by decide)).trans a132_v87
  have a133_v94 := (fr main_v94 (by decide)).trans a132_v94
  have a133_v96 := (fr main_v96 (by decide)).trans a132_v96
  clear e fr a132_arg0 a132_arg3 a132_arg4 a132_arg5 a132_arg6 a132_v3 a132_v87 a132_v94 a132_v96 a132_v97 s132
  -- main_v99
  refine step_ternary (fun s134 e fr => ?_)
  have a134_v99 : s134 (Proc.devRef .tc main_v99) = Read.val_main_v99 x2 := e.trans (by rw [a133_v96, a133_v98, a133_v3]; rfl)
  have a134_arg0 := (fr main_arg0 (by decide)).trans a133_arg0
  have a134_arg3 := (fr main_arg3 (by decide)).trans a133_arg3
  have a134_arg4 := (fr main_arg4 (by decide)).trans a133_arg4
  have a134_arg5 := (fr main_arg5 (by decide)).trans a133_arg5
  have a134_arg6 := (fr main_arg6 (by decide)).trans a133_arg6
  have a134_v87 := (fr main_v87 (by decide)).trans a133_v87
  have a134_v94 := (fr main_v94 (by decide)).trans a133_v94
  clear e fr a133_arg0 a133_arg3 a133_arg4 a133_arg5 a133_arg6 a133_v3 a133_v87 a133_v94 a133_v96 a133_v98 s133
  -- main_v100
  refine step_unary (fun s135 e fr => ?_)
  have a135_v100 : s135 (Proc.devRef .tc main_v100) = Read.val_main_v100 x2 := e.trans (by rw [a134_v99]; rfl)
  have a135_arg0 := (fr main_arg0 (by decide)).trans a134_arg0
  have a135_arg3 := (fr main_arg3 (by decide)).trans a134_arg3
  have a135_arg4 := (fr main_arg4 (by decide)).trans a134_arg4
  have a135_arg5 := (fr main_arg5 (by decide)).trans a134_arg5
  have a135_arg6 := (fr main_arg6 (by decide)).trans a134_arg6
  have a135_v87 := (fr main_v87 (by decide)).trans a134_v87
  have a135_v94 := (fr main_v94 (by decide)).trans a134_v94
  clear e fr a134_arg0 a134_arg3 a134_arg4 a134_arg5 a134_arg6 a134_v87 a134_v94 a134_v99 s134
  -- main_v101
  refine step_binary (fun s136 e fr => ?_)
  have a136_v101 : s136 (Proc.devRef .tc main_v101) = Read.val_main_v101 x0 x2 := e.trans (by rw [a135_arg0, a135_v100]; rfl)
  have a136_arg3 := (fr main_arg3 (by decide)).trans a135_arg3
  have a136_arg4 := (fr main_arg4 (by decide)).trans a135_arg4
  have a136_arg5 := (fr main_arg5 (by decide)).trans a135_arg5
  have a136_arg6 := (fr main_arg6 (by decide)).trans a135_arg6
  have a136_v87 := (fr main_v87 (by decide)).trans a135_v87
  have a136_v94 := (fr main_v94 (by decide)).trans a135_v94
  clear e fr a135_arg0 a135_arg3 a135_arg4 a135_arg5 a135_arg6 a135_v87 a135_v94 a135_v100 s135
  -- main_v102
  refine step_binary (fun s137 e fr => ?_)
  have a137_v102 : s137 (Proc.devRef .tc main_v102) = Read.val_main_v102 x0 x2 := e.trans (by rw [a136_v94, a136_v101]; rfl)
  have a137_arg3 := (fr main_arg3 (by decide)).trans a136_arg3
  have a137_arg4 := (fr main_arg4 (by decide)).trans a136_arg4
  have a137_arg5 := (fr main_arg5 (by decide)).trans a136_arg5
  have a137_arg6 := (fr main_arg6 (by decide)).trans a136_arg6
  have a137_v87 := (fr main_v87 (by decide)).trans a136_v87
  clear e fr a136_arg3 a136_arg4 a136_arg5 a136_arg6 a136_v87 a136_v94 a136_v101 s136
  -- main_v103
  refine step_binary (fun s138 e fr => ?_)
  have a138_v103 : s138 (Proc.devRef .tc main_v103) = Read.val_main_v103 x0 x1 x2 := e.trans (by rw [a137_v102, a137_v87]; rfl)
  have a138_arg3 := (fr main_arg3 (by decide)).trans a137_arg3
  have a138_arg4 := (fr main_arg4 (by decide)).trans a137_arg4
  have a138_arg5 := (fr main_arg5 (by decide)).trans a137_arg5
  have a138_arg6 := (fr main_arg6 (by decide)).trans a137_arg6
  clear e fr a137_arg3 a137_arg4 a137_arg5 a137_arg6 a137_v87 a137_v102 s137
  -- main_v104
  refine step_binary (fun s139 e fr => ?_)
  have a139_v104 : s139 (Proc.devRef .tc main_v104) = Read.val_main_v104 x0 x1 x2 x3 := e.trans (by rw [a138_v103, a138_arg3]; rfl)
  have a139_arg4 := (fr main_arg4 (by decide)).trans a138_arg4
  have a139_arg5 := (fr main_arg5 (by decide)).trans a138_arg5
  have a139_arg6 := (fr main_arg6 (by decide)).trans a138_arg6
  clear e fr a138_arg3 a138_arg4 a138_arg5 a138_arg6 a138_v103 s138
  -- main_v105
  refine step_unary (fun s140 e fr => ?_)
  have a140_v105 : s140 (Proc.devRef .tc main_v105) = Read.val_main_v105 x4 := e.trans (by rw [a139_arg4]; rfl)
  have a140_arg5 := (fr main_arg5 (by decide)).trans a139_arg5
  have a140_arg6 := (fr main_arg6 (by decide)).trans a139_arg6
  have a140_v104 := (fr main_v104 (by decide)).trans a139_v104
  clear e fr a139_arg4 a139_arg5 a139_arg6 a139_v104 s139
  -- main_v106
  refine step_unary (fun s141 e fr => ?_)
  have a141_v106 : s141 (Proc.devRef .tc main_v106) = Read.val_main_v106 x4 := e.trans (by rw [a140_v105]; rfl)
  have a141_arg5 := (fr main_arg5 (by decide)).trans a140_arg5
  have a141_arg6 := (fr main_arg6 (by decide)).trans a140_arg6
  have a141_v104 := (fr main_v104 (by decide)).trans a140_v104
  clear e fr a140_arg5 a140_arg6 a140_v104 a140_v105 s140
  -- main_v107
  refine step_binary (fun s142 e fr => ?_)
  have a142_v107 : s142 (Proc.devRef .tc main_v107) = Read.val_main_v107 x0 x1 x2 x3 x4 := e.trans (by rw [a141_v104, a141_v106]; rfl)
  have a142_arg5 := (fr main_arg5 (by decide)).trans a141_arg5
  have a142_arg6 := (fr main_arg6 (by decide)).trans a141_arg6
  clear e fr a141_arg5 a141_arg6 a141_v104 a141_v106 s141
  -- main_call2_cst
  refine step_nullary (fun s143 e fr => ?_)
  have a143_call2_cst : s143 (Proc.devRef .tc main_call2_cst) = Read.val_main_call2_cst := e.trans (rfl)
  have a143_arg5 := (fr main_arg5 (by decide)).trans a142_arg5
  have a143_arg6 := (fr main_arg6 (by decide)).trans a142_arg6
  have a143_v107 := (fr main_v107 (by decide)).trans a142_v107
  clear e fr a142_arg5 a142_arg6 a142_v107 s142
  -- main_call2_v0
  refine step_unary (fun s144 e fr => ?_)
  have a144_call2_v0 : s144 (Proc.devRef .tc main_call2_v0) = Read.val_main_call2_v0 := e.trans (by rw [a143_call2_cst]; unfold Read.val_main_call2_v0; generalize Read.val_main_call2_cst (F := F) = g0; rfl)
  have a144_arg5 := (fr main_arg5 (by decide)).trans a143_arg5
  have a144_arg6 := (fr main_arg6 (by decide)).trans a143_arg6
  have a144_v107 := (fr main_v107 (by decide)).trans a143_v107
  clear e fr a143_arg5 a143_arg6 a143_v107 a143_call2_cst s143
  -- main_v108
  refine step_binary (fun s145 e fr => ?_)
  have a145_v108 : s145 (Proc.devRef .tc main_v108) = Read.val_main_v108 x0 x1 x2 x3 x4 := e.trans (by rw [a144_v107, a144_call2_v0]; unfold Read.val_main_v108; generalize Read.val_main_v107 (F := F) x0 x1 x2 x3 x4 = g0; generalize Read.val_main_call2_v0 (F := F) = g1; rfl)
  have a145_arg5 := (fr main_arg5 (by decide)).trans a144_arg5
  have a145_arg6 := (fr main_arg6 (by decide)).trans a144_arg6
  clear e fr a144_arg5 a144_arg6 a144_v107 a144_call2_v0 s144
  -- main_v109
  refine step_binary (fun s146 e fr => ?_)
  have a146_v109 : s146 (Proc.devRef .tc main_v109) = Read.val_main_v109 x0 x1 x2 x3 x4 x5 := e.trans (by rw [a145_v108, a145_arg5]; rfl)
  have a146_arg6 := (fr main_arg6 (by decide)).trans a145_arg6
  clear e fr a145_arg5 a145_arg6 a145_v108 s145
  -- main_v110
  refine step_unary (fun s147 e fr => ?_)
  have a147_v110 : s147 (Proc.devRef .tc main_v110) = Read.val_main_v110 x6 := e.trans (by rw [a146_arg6]; rfl)
  have a147_v109 := (fr main_v109 (by decide)).trans a146_v109
  clear e fr a146_arg6 a146_v109 s146
  -- main_v111
  refine step_unary (fun s148 e fr => ?_)
  have a148_v111 : s148 (Proc.devRef .tc main_v111) = Read.val_main_v111 x6 := e.trans (by rw [a147_v110]; rfl)
  have a148_v109 := (fr main_v109 (by decide)).trans a147_v109
  clear e fr a147_v109 a147_v110 s147
  -- main_v112
  refine step_binary (fun s149 e fr => ?_)
  have a149_v112 : s149 (Proc.devRef .tc main_v112) = Read.val_main_v112 x0 x1 x2 x3 x4 x5 x6 := e.trans (by rw [a148_v109, a148_v111]; rfl)
  clear e fr a148_v109 a148_v111 s148
  -- main_v113
  refine step_reshape (fun s150 e fr => ?_)
  have a150_v113 : s150 (Proc.devRef .tc main_v113) = Read.val_main_v113 x0 x1 x2 x3 x4 x5 x6 := e.trans (by rw [a149_v112]; rfl)
  clear e fr a149_v112 s149
  exact a150_v113

end Cert.Bridge.RefRun

end
-- ==== Proof.Bridge.RefRun.lean ====
/-
  The reference's run: on every device, from any memory with zero counters, every weakly fair execution of the
  reference terminates with its result buffer at the last stage of the arguments' launch contents and its seven
  argument buffers unchanged. The result is the walk over the 150 operations; an argument buffer is written by
  no operation, so the fold leaves it as launched.
-/
import proofs.«126571_j77292231459355_1_alg».proof.Proof.Bridge.RefRunWalk

noncomputable section

namespace Cert.Bridge

open Cert.ReferenceIdeal Cert.ReferenceIdeal.Gen Idealize.ShloMosaic Idealize.ShloMosaic.TcCoe Idealize.SL.Sem Idealize.ShloMosaic.StableHlo
open Cert.Bridge.RefRun

set_option maxRecDepth 8192 in
set_option maxHeartbeats 60000000 in
/-- On every device, from any memory with zero counters: every weakly fair execution of the reference terminates
    with the result buffer at the last stage of the arguments' launch contents and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113) = Read.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v113).trans (ref_after _ _ _ _ _ _ _ _ rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Bridge

end
-- ==== Proof.KI.Value0a.lean ====
/-
  The arithmetic of one grid point of the first region, read at one entry, at the ideal values.

  At a point the kernel multiplies its two 512 × 3712 adjacency blocks entry by entry, multiplies that product by
  its 3712 × 128 feature block and adds the result to the 512 × 128 accumulator. At the ideal values the changes
  of format and the casts to the same shape are the identity and the matrix product into a zero accumulator is the
  textbook sum over the contracted axis, so entry (p, q) of what the point leaves is the accumulator's entry plus
  the sum over k < 3712 of (x0 (p, k) · x1 (p, k)) · x2 (k, q). The value the accumulator restarts from is zero
  at every entry.
-/
import proofs.«126571_j77292231459355_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-- The dimension numbers of the point's matrix product: a 512 × 3712 left operand contracted on its columns
    with a 3712 × 128 right operand contracted on its rows. -/
abbrev dotK : DotDims S512x3712 S3712x128 S512x128 := dot_S512x3712_S3712x128_S512x128_1_0_0_1_n_n

/-- The left operand's row at a result entry is the entry's row, -/
theorem dotK_lhs_0 (i : S512x128.Idx) (k : dotK.contr.Idx) : (dotK.lhsIdx i k 0).val = (i 0).val := by
  unfold DotDims.lhsIdx
  rw [dif_neg (show ¬(0 : Fin S512x3712.rank) ∈ dotK.lhsBatch by decide),
    dif_pos (show (0 : Fin S512x3712.rank) ∈ dotK.lhsNonContracting by decide)]
  rfl
/-- its column the contraction position; -/
theorem dotK_lhs_1 (i : S512x128.Idx) (k : dotK.contr.Idx) : (dotK.lhsIdx i k 1).val = (k ⟨0, by decide⟩).val :=
  dotK.lhsIdx_val_of_single rfl i k
/-- the right operand's row is the contraction position, -/
theorem dotK_rhs_0 (i : S512x128.Idx) (k : dotK.contr.Idx) : (dotK.rhsIdx i k 0).val = (k ⟨0, by decide⟩).val :=
  dotK.rhsIdx_val_of_single rfl i k
/-- its column the entry's column. -/
theorem dotK_rhs_1 (i : S512x128.Idx) (k : dotK.contr.Idx) : (dotK.rhsIdx i k 1).val = (i 1).val := by
  unfold DotDims.rhsIdx
  rw [dif_neg (show ¬(1 : Fin S3712x128.rank) ∈ dotK.rhsBatch by decide),
    dif_pos (show (1 : Fin S3712x128.rank) ∈ dotK.rhsNonContracting by decide)]
  rfl

/-- The matrix product of a point into the zero accumulator, at entry (p, q): the sum over the 3712 contracted
    positions of the left operand's (p, k) times the right operand's (k, q). -/
theorem matmulK_apply {φ₁ φ₂ : FTy} (X : FVec Ideal S512x3712 φ₁) (W : FVec Ideal S3712x128 φ₂) (p : Fin 512) (q : Fin 128) :
    FloatOps.matmul dotK none X W (constant (F := Ideal) S512x128 .f32 0x00000000#32) (ix2 p q)
      = ∑ k : Fin 3712, X (ix2 p k) * W (ix2 k q) := by
  rw [Ideal.matmul_constant_zero_apply, ← Equiv.sum_comp (contrEquiv1 dotK 3712 rfl rfl).symm]
  refine Finset.sum_congr rfl fun k _ => ?_
  have hk := contrEquiv1_symm_val dotK 3712 rfl rfl k
  have el : dotK.lhsIdx (ix2 p q) ((contrEquiv1 dotK 3712 rfl rfl).symm k) = ix2 p k := funext fun b => Fin.ext (by
    match b with
    | ⟨0, _⟩ => exact dotK_lhs_0 _ _
    | ⟨1, _⟩ => exact (dotK_lhs_1 _ _).trans hk)
  have er : dotK.rhsIdx (ix2 p q) ((contrEquiv1 dotK 3712 rfl rfl).symm k) = ix2 k q := funext fun b => Fin.ext (by
    match b with
    | ⟨0, _⟩ => exact (dotK_rhs_0 _ _).trans hk
    | ⟨1, _⟩ => exact dotK_rhs_1 _ _)
  rw [el, er]

/-- WHAT A POINT LEAVES, at entry (p, q): the accumulator's entry plus the sum over k of
    (x0 (p, k) · x1 (p, k)) · x2 (k, q). -/
theorem pay2_apply (x0 x1 : Vec Ideal S512x3712 .f32) (x2 : Vec Ideal S3712x128 .f32) (a : Vec Ideal S512x128 .f32)
    (p : Fin 512) (q : Fin 128) :
    k0_pay2 (F := Ideal) x0 x1 x2 a (ix2 p q)
      = a (ix2 p q) + ∑ k : Fin 3712, (x0 (ix2 p k) * x1 (ix2 p k)) * x2 (ix2 k q) := by
  unfold k0_pay2
  simp only [shapeCast_self]
  show a (ix2 p q) + FloatOps.matmul dotK none (truncf .bf16 (mulf x0 x1) bitsLt_bf16_f32) (truncf .bf16 x2 bitsLt_bf16_f32)
    (constant (F := Ideal) S512x128 .f32 0x00000000#32) (ix2 p q) = _
  rw [matmulK_apply]
  rfl

/-- The value the accumulator restarts from is zero at every entry. -/
theorem pay1_apply (p : Fin 512) (q : Fin 128) : k0_pay1 (F := Ideal) (ix2 p q) = 0 := by
  unfold k0_pay1
  simp only [shapeCast_self]
  show Ideal.ofBits .f32 0x00000000#32 = 0
  exact Ideal.ofBits_zero_f32

end Cert.KernelIdeal.Hand

end
-- ==== Proof.KI.Value0b.lean ====
/-
  The accumulator of the first region along a row of grid points, at the ideal values.

  The grid is 2 × 27: point t has coordinates (t / 27, t % 27). At point (b, n) the two adjacency windows hold
  block (b, n) of their [1024, 100224] arrays in [512, 3712] blocks and the feature window holds block (n, 0) of the
  [100224, 128] array in [3712, 128] blocks, so entry (p, k) of an adjacency block is entry (512·b + p, 3712·n + k)
  of its array and entry (k, q) of the feature block is entry (3712·n + k, q) of its array: a block's coordinate is
  the block index times the block size plus the coordinate inside the block.

  Write term r q m for (A (r, m) · B (r, m)) · X (m, q), the m-th term of entry (r, q) of the product of the
  entrywise product of the two adjacency arrays with the feature array. The accumulator restarts from zero at the
  points (b, 0) and every point adds its 3712 terms, so after point (b, j) its entry (p, q) is the sum of the first
  (j + 1) · 3712 terms of row 512·b + p, and after the last point of the row, (b, 26), the sum of all 100224.
  Only the commutative monoid structure of the extended reals' addition is used.
-/
import proofs.«126571_j77292231459355_1_alg».proof.Proof.KI.Data
import proofs.«126571_j77292231459355_1_alg».proof.Proof.KI.Value0a
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The block index maps of the four windows, decided over the 54 grid points: the adjacency windows at block
    (t / 27, t % 27), the feature window at block (t % 27, 0), the output window at block (t / 27, 0). -/
theorem idx_facts0 : ∀ t : Fin cfg0.N,
    win0_0.index t (0 : Fin 2) = t.val / 27 ∧ win0_0.index t (1 : Fin 2) = t.val % 27
    ∧ win0_1.index t (0 : Fin 2) = t.val / 27 ∧ win0_1.index t (1 : Fin 2) = t.val % 27
    ∧ win0_2.index t (0 : Fin 2) = t.val % 27 ∧ win0_2.index t (1 : Fin 2) = 0
    ∧ win0_3.index t (0 : Fin 2) = t.val / 27 ∧ win0_3.index t (1 : Fin 2) = 0 :=
  (by decide +kernel : ∀ t : Fin grid0.N, _)

/-- Entry `y` of the first adjacency block at point `t` is entry (512·(t / 27) + y₀, 3712·(t % 27) + y₁) of its array. -/
theorem iblk0_0_apply (c : Dev nD) (t : Fin cfg0.N) (y : S512x3712.Idx) (k : S1024x100224.Idx)
    (hk0 : (k 0).val = 512 * (t.val / 27) + (y 0).val) (hk1 : (k 1).val = 3712 * (t.val % 27) + (y 1).val) :
    (iblk0 V c 0 t : Vec Ideal S512x3712 .f32) y = (V c main_v49 : S1024x100224.Idx → EReal) k := by
  obtain ⟨e0, e1, -⟩ := idx_facts0 t
  unfold iblk0
  rw [View.read_apply]
  show V c main_v49 _ = V c main_v49 k
  congr 1
  funext a
  apply Fin.ext
  match a with
  | ⟨0, _⟩ => show win0_0.index t 0 * 512 + 1 * (y 0).val = (k 0).val; rw [e0, hk0]; omega
  | ⟨1, _⟩ => show win0_0.index t 1 * 3712 + 1 * (y 1).val = (k 1).val; rw [e1, hk1]; omega

/-- The same for the second adjacency block. -/
theorem iblk0_1_apply (c : Dev nD) (t : Fin cfg0.N) (y : S512x3712.Idx) (k : S1024x100224.Idx)
    (hk0 : (k 0).val = 512 * (t.val / 27) + (y 0).val) (hk1 : (k 1).val = 3712 * (t.val % 27) + (y 1).val) :
    (iblk0 V c 1 t : Vec Ideal S512x3712 .f32) y = (V c main_v85 : S1024x100224.Idx → EReal) k := by
  obtain ⟨-, -, e0, e1, -⟩ := idx_facts0 t
  unfold iblk0
  rw [View.read_apply]
  show V c main_v85 _ = V c main_v85 k
  congr 1
  funext a
  apply Fin.ext
  match a with
  | ⟨0, _⟩ => show win0_1.index t 0 * 512 + 1 * (y 0).val = (k 0).val; rw [e0, hk0]; omega
  | ⟨1, _⟩ => show win0_1.index t 1 * 3712 + 1 * (y 1).val = (k 1).val; rw [e1, hk1]; omega

/-- Entry `y` of the feature block at point `t` is entry (3712·(t % 27) + y₀, y₁) of its array. -/
theorem iblk0_2_apply (c : Dev nD) (t : Fin cfg0.N) (y : S3712x128.Idx) (k : S100224x128.Idx)
    (hk0 : (k 0).val = 3712 * (t.val % 27) + (y 0).val) (hk1 : (k 1).val = (y 1).val) :
    (iblk0 V c 2 t : Vec Ideal S3712x128 .f32) y = (V c main_v86 : S100224x128.Idx → EReal) k := by
  obtain ⟨-, -, -, -, e0, e1, -⟩ := idx_facts0 t
  unfold iblk0
  rw [View.read_apply]
  show V c main_v86 _ = V c main_v86 k
  congr 1
  funext a
  apply Fin.ext
  match a with
  | ⟨0, _⟩ => show win0_2.index t 0 * 3712 + 1 * (y 0).val = (k 0).val; rw [e0, hk0]; omega
  | ⟨1, _⟩ => show win0_2.index t 1 * 128 + 1 * (y 1).val = (k 1).val; rw [e1, hk1]; omega

/-- Entry (r, q) of the product of the entrywise product of two [1024, 100224] arrays `A`, `B` with a [100224, 128]
    array `X`: the sum over the whole width of (A (r, n) · B (r, n)) · X (n, q). -/
def prodAt (A B : S1024x100224.Idx → EReal) (X : S100224x128.Idx → EReal) (r : Fin 1024) (q : Fin 128) : EReal :=
  ∑ n : Fin 100224, (A (ix2 r n) * B (ix2 r n)) * X (ix2 n q)

theorem prodAt_def (A B : S1024x100224.Idx → EReal) (X : S100224x128.Idx → EReal) (r : Fin 1024) (q : Fin 128) :
    prodAt A B X r q = ∑ n : Fin 100224, (A (ix2 r n) * B (ix2 r n)) * X (ix2 n q) := rfl

/-- Its `m`-th term, as a function of every natural: (A (r, m) · B (r, m)) · X (m, q); zero past the width. -/
def term0 (A B : S1024x100224.Idx → EReal) (X : S100224x128.Idx → EReal) (r : Fin 1024) (q : Fin 128) (m : ℕ) : EReal :=
  if h : m < 100224 then (A (ix2 r ⟨m, h⟩) * B (ix2 r ⟨m, h⟩)) * X (ix2 ⟨m, h⟩ q) else 0

/-- The first 100224 terms add up to the entry. -/
theorem sum_term0 (A B : S1024x100224.Idx → EReal) (X : S100224x128.Idx → EReal) (r : Fin 1024) (q : Fin 128) :
    ∑ m ∈ Finset.range 100224, term0 A B X r q m = prodAt A B X r q := by
  rw [Finset.sum_range]
  unfold prodAt
  refine Finset.sum_congr rfl fun n _ => ?_
  unfold term0
  rw [dif_pos n.isLt]

/-- The 3712 terms point (b, j) adds to entry (p, q) are terms 3712·j … 3712·j + 3711 of row 512·b + p: `x0`, `x1`,
    `x2` are the point's three input blocks. -/
theorem point_sum (c : Dev nD) (t : Fin cfg0.N) (b j : ℕ) (hb : b < 2) (hj : j < 27) (ht : t.val = 27 * b + j)
    (p : Fin 512) (q : Fin 128) (x0 x1 : Vec Ideal S512x3712 .f32) (x2 : Vec Ideal S3712x128 .f32)
    (h0 : x0 = iblk0 V c 0 t) (h1 : x1 = iblk0 V c 1 t) (h2 : x2 = iblk0 V c 2 t) :
    ∑ k : Fin 3712, (x0 (ix2 p k) * x1 (ix2 p k)) * x2 (ix2 k q)
      = ∑ k ∈ Finset.range 3712, term0 (V c main_v49) (V c main_v85) (V c main_v86) ⟨512 * b + p.val, by omega⟩ q (j * 3712 + k) := by
  rw [Finset.sum_range]
  refine Finset.sum_congr rfl fun k _ => ?_
  have hd : t.val / 27 = b := by omega
  have hmod : t.val % 27 = j := by omega
  have hlt : j * 3712 + k.val < 100224 := by have := k.isLt; omega
  have a0 : x0 (ix2 p k) = (V c main_v49 : S1024x100224.Idx → EReal) (ix2 ⟨512 * b + p.val, by omega⟩ ⟨j * 3712 + k.val, hlt⟩) := by
    rw [h0]
    exact iblk0_0_apply V c t (ix2 p k) (ix2 ⟨512 * b + p.val, by omega⟩ ⟨j * 3712 + k.val, hlt⟩)
      (by show 512 * b + p.val = 512 * (t.val / 27) + p.val; omega)
      (by show j * 3712 + k.val = 3712 * (t.val % 27) + k.val; omega)
  have a1 : x1 (ix2 p k) = (V c main_v85 : S1024x100224.Idx → EReal) (ix2 ⟨512 * b + p.val, by omega⟩ ⟨j * 3712 + k.val, hlt⟩) := by
    rw [h1]
    exact iblk0_1_apply V c t (ix2 p k) (ix2 ⟨512 * b + p.val, by omega⟩ ⟨j * 3712 + k.val, hlt⟩)
      (by show 512 * b + p.val = 512 * (t.val / 27) + p.val; omega)
      (by show j * 3712 + k.val = 3712 * (t.val % 27) + k.val; omega)
  have a2 : x2 (ix2 k q) = (V c main_v86 : S100224x128.Idx → EReal) (ix2 ⟨j * 3712 + k.val, hlt⟩ q) := by
    rw [h2]
    exact iblk0_2_apply V c t (ix2 k q) (ix2 ⟨j * 3712 + k.val, hlt⟩ q)
      (by show j * 3712 + k.val = 3712 * (t.val % 27) + k.val; omega)
      (by show q.val = q.val; rfl)
  rw [a0, a1, a2]
  unfold term0
  rw [dif_pos hlt]

/-- The accumulator depends on the point's number only. -/
theorem acc0_congr (c : Dev nD) (u v : ℕ) (hu : u < cfg0.N) (hv : v < cfg0.N) (e : u = v) :
    acc0 V c u hu = acc0 V c v hv := by
  subst e; rfl

/-- AFTER POINT (b, j) entry (p, q) of the accumulator is the sum of the first (j + 1) · 3712 terms of row 512·b + p. -/
theorem acc0_apply (c : Dev nD) (b : ℕ) (hb : b < 2) (p : Fin 512) (q : Fin 128) :
    ∀ (j : ℕ) (hj : j < 27) (h : 27 * b + j < cfg0.N),
      (acc0 V c (27 * b + j) h : Vec Ideal S512x128 .f32) (ix2 p q)
        = ∑ m ∈ Finset.range ((j + 1) * 3712),
            term0 (V c main_v49) (V c main_v85) (V c main_v86) ⟨512 * b + p.val, by omega⟩ q m
  | 0, hj, h => by
    have hm : (⟨27 * b + 0, h⟩ : Fin cfg0.N).val % 27 = 0 := by show (27 * b + 0) % 27 = 0; omega
    refine (congrFun (acc0_first V c ⟨27 * b + 0, h⟩ hm) (ix2 p q)).trans ?_
    refine (pay2_apply (iblk0 V c 0 ⟨27 * b + 0, h⟩) (iblk0 V c 1 ⟨27 * b + 0, h⟩) (iblk0 V c 2 ⟨27 * b + 0, h⟩)
      (k0_pay1 (F := Ideal)) p q).trans ?_
    rw [pay1_apply, zero_add]
    refine (point_sum V c ⟨27 * b + 0, h⟩ b 0 hb hj rfl p q (iblk0 V c 0 ⟨27 * b + 0, h⟩) (iblk0 V c 1 ⟨27 * b + 0, h⟩)
      (iblk0 V c 2 ⟨27 * b + 0, h⟩) rfl rfl rfl).trans ?_
    refine Finset.sum_congr (by norm_num) fun m _ => ?_
    rw [Nat.zero_mul, Nat.zero_add]
  | j + 1, hj, h => by
    have hN : cfg0.N = 54 := N_0
    have hm : ¬ (⟨27 * b + (j + 1), h⟩ : Fin cfg0.N).val % 27 = 0 := by show ¬ (27 * b + (j + 1)) % 27 = 0; omega
    have hlt : 27 * b + j < cfg0.N := by omega
    have e : acc0 V c ((⟨27 * b + (j + 1), h⟩ : Fin cfg0.N).val - 1)
        (Nat.lt_of_le_of_lt (Nat.sub_le _ _) (⟨27 * b + (j + 1), h⟩ : Fin cfg0.N).isLt) = acc0 V c (27 * b + j) hlt :=
      acc0_congr V c _ _ _ _ (by show 27 * b + (j + 1) - 1 = 27 * b + j; omega)
    refine (congrFun (acc0_next V c ⟨27 * b + (j + 1), h⟩ hm) (ix2 p q)).trans ?_
    refine (pay2_apply (iblk0 V c 0 ⟨27 * b + (j + 1), h⟩) (iblk0 V c 1 ⟨27 * b + (j + 1), h⟩) (iblk0 V c 2 ⟨27 * b + (j + 1), h⟩)
      (acc0 V c ((⟨27 * b + (j + 1), h⟩ : Fin cfg0.N).val - 1)
        (Nat.lt_of_le_of_lt (Nat.sub_le _ _) (⟨27 * b + (j + 1), h⟩ : Fin cfg0.N).isLt)) p q).trans ?_
    rw [show (j + 1 + 1) * 3712 = (j + 1) * 3712 + 3712 by ring, Finset.sum_range_add]
    refine congrArg₂ (fun u v : EReal => u + v) ?_ ?_
    · exact (congrFun e (ix2 p q)).trans (acc0_apply c b hb p q j (by omega) hlt)
    · exact point_sum V c ⟨27 * b + (j + 1), h⟩ b (j + 1) hb hj rfl p q (iblk0 V c 0 ⟨27 * b + (j + 1), h⟩)
        (iblk0 V c 1 ⟨27 * b + (j + 1), h⟩) (iblk0 V c 2 ⟨27 * b + (j + 1), h⟩) rfl rfl rfl

/-- AFTER THE LAST POINT OF ROW b, (b, 26), entry (p, q) of the accumulator is entry (512·b + p, q) of the product: the
    whole sum over the padded width 100224 = 27 · 3712. -/
theorem acc0_last (c : Dev nD) (t : Fin cfg0.N) (ht : t.val % 27 = 26) (p : Fin 512) (q : Fin 128)
    (hr : 512 * (t.val / 27) + p.val < 1024) :
    (acc0 V c t.val t.isLt : Vec Ideal S512x128 .f32) (ix2 p q)
      = prodAt (V c main_v49) (V c main_v85) (V c main_v86) ⟨512 * (t.val / 27) + p.val, hr⟩ q := by
  have hN : cfg0.N = 54 := N_0
  have htl := t.isLt
  have hb : t.val / 27 < 2 := by omega
  have hlt : 27 * (t.val / 27) + 26 < cfg0.N := by omega
  have e : acc0 V c t.val t.isLt = acc0 V c (27 * (t.val / 27) + 26) hlt := acc0_congr V c _ _ _ _ (by omega)
  refine (congrFun e (ix2 p q)).trans ?_
  refine (acc0_apply V c (t.val / 27) hb p q 26 (by omega) hlt).trans ?_
  rw [show (26 + 1) * 3712 = 100224 by norm_num]
  exact sum_term0 (V c main_v49) (V c main_v85) (V c main_v86) ⟨512 * (t.val / 27) + p.val, hr⟩ q

end Cert.KernelIdeal.Hand

end
-- ==== Proof.KI.Value0.lean ====
/-
  What the first region leaves in its output array, at the ideal values: the plain matrix product, over the whole
  padded width 100224 = 27 · 3712, of the entrywise product of the two adjacency arrays with the padded feature
  array.

  The output window holds block (b, 0) of the [1024, 128] array in [512, 128] blocks and is written back only at the
  last point of each row of the grid, (b, 26), where the accumulator holds, at entry (p, q), the whole sum of row
  512·b + p against column q. So what a write-back point writes is its block of ONE function of the three input
  arrays, and the two write-back points' blocks (rows 0 … 511 and 512 … 1023) cover the array: row r lies in the
  block of point 27·(r / 512) + 26.
-/
import proofs.«126571_j77292231459355_1_alg».proof.Proof.KI.Data
import proofs.«126571_j77292231459355_1_alg».proof.Proof.KI.Value0b
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The product array: entry (r, j) is the sum over the padded width of (A (r, n) · B (r, n)) · X (n, j). -/
def prod0 (c : Dev nD) : S1024x128.Idx → EReal := fun i =>
  prodAt (V c main_v49) (V c main_v85) (V c main_v86) ⟨(i 0).val, idx2_lt0 i⟩ ⟨(i 1).val, idx2_lt1 i⟩

/-- At a write-back point `t` (the last of its row: `t % 27 = 26`) entry `y` of the accumulator is the product
    array's entry (512·(t / 27) + y₀, y₁). -/
theorem acc0_last_idx (c : Dev nD) (t : Fin cfg0.N) (ht : t.val % 27 = 26) (y : S512x128.Idx) (i : S1024x128.Idx)
    (h0 : (i 0).val = 512 * (t.val / 27) + (y 0).val) (h1 : (i 1).val = (y 1).val) :
    (acc0 V c t.val t.isLt : Vec Ideal S512x128 .f32) y = prod0 V c i := by
  obtain ⟨p, q, rfl⟩ : ∃ (p : Fin 512) (q : Fin 128), y = ix2 p q := ⟨y 0, y 1, eq_ix2 y⟩
  have hr : 512 * (t.val / 27) + p.val < 1024 := by
    have := idx2_lt0 i
    have h0' : (i 0).val = 512 * (t.val / 27) + p.val := h0
    omega
  have ei : i = ix2 (⟨512 * (t.val / 27) + p.val, hr⟩ : Fin 1024) q := by
    funext a; apply Fin.ext
    match a with
    | ⟨0, _⟩ => exact h0
    | ⟨1, _⟩ => exact h1
  subst ei
  exact acc0_last V c t ht p q hr

/-- A [512, 128] block `X` whose entry `y` is, for every `y`, the entry (512·(t / 27) + y₀, y₁) of a [1024, 128] array
    `G` is what the output window's rectangle at point `t` reads off `G`. Stated over an arbitrary `G` and `X`: the
    block's coordinate is the block index times the block size plus the coordinate inside the block. -/
theorem read_blk0_3 (G : S1024x128.Idx → EReal) (X : Vec Ideal S512x128 .f32) (t : Fin cfg0.N)
    (h : ∀ (y : S512x128.Idx) (i : S1024x128.Idx), (i 0).val = 512 * (t.val / 27) + (y 0).val → (i 1).val = (y 1).val →
      X y = G i) :
    (cfg0.win 3).cut (grid0.coords t) X = ((cfg0.win 3).blk t).view.read (Elt Ideal) G := by
  obtain ⟨-, -, -, -, -, -, e0, e1⟩ := idx_facts0 t
  funext y
  show X y = G (((cfg0.win 3).blk t).view.emb y)
  exact h y _
    (by show win0_3.index t (0 : Fin 2) * 512 + 1 * (y 0).val = 512 * (t.val / 27) + (y 0).val; rw [e0]; omega)
    (by show win0_3.index t (1 : Fin 2) * 128 + 1 * (y 1).val = (y 1).val; rw [e1]; omega)

/-- WHAT A WRITE-BACK POINT WRITES is its block of the product array. -/
theorem flushed0_3_eq (c : Dev nD) (t : Fin cfg0.N) (hf : (cfg0.win 3).flush t = true) :
    (dat0 V c).flushed 3 t = ((cfg0.win 3).blk t).view.read (Elt Ideal) (prod0 V c) := by
  have ht : t.val % 27 = 26 := (flush0_3 t).mp hf
  show (cfg0.win 3).cut (grid0.coords t) ((dat0 V c).after 3 t) = _
  rw [after0_3]
  exact read_blk0_3 (prod0 V c) (acc0 V c t.val t.isLt) t (fun y i h0 h1 => acc0_last_idx V c t ht y i h0 h1)

/-- An entry of the array is in point `t`'s output block iff each coordinate is in the block's range on its axis. -/
theorem mem_blk0_3 (t : Fin cfg0.N) (i : S1024x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v87).slice (win0_3.rect t)).set ↔ _
  rw [View.set_slice_whole, Rect.mem_set_unit]
  exact Iff.rfl

/-- Every entry is in a write-back point's block: row r in that of the last point of grid row r / 512. -/
theorem cover0_3 (i : S1024x128.Idx) :
    ∃ t : Fin cfg0.N, (cfg0.win 3).flush t = true ∧ i ∈ ((cfg0.win 3).blk t).view.set := by
  have hN : cfg0.N = 54 := N_0
  have hi0 : (i 0).val < 1024 := idx2_lt0 i
  have hi1 : (i 1).val < 128 := idx2_lt1 i
  have hlt : 27 * ((i 0).val / 512) + 26 < cfg0.N := by omega
  obtain ⟨-, -, -, -, -, -, e0, e1⟩ := idx_facts0 ⟨27 * ((i 0).val / 512) + 26, hlt⟩
  have e0' : win0_3.index ⟨27 * ((i 0).val / 512) + 26, hlt⟩ (0 : Fin 2) = (27 * ((i 0).val / 512) + 26) / 27 := e0
  refine ⟨⟨27 * ((i 0).val / 512) + 26, hlt⟩, (flush0_3 _).mpr (by show (27 * ((i 0).val / 512) + 26) % 27 = 26; omega), ?_⟩
  rw [mem_blk0_3]
  intro a
  match a with
  | ⟨0, _⟩ =>
    show win0_3.index ⟨27 * ((i 0).val / 512) + 26, hlt⟩ (0 : Fin 2) * 512 ≤ (i 0).val
      ∧ (i 0).val < win0_3.index ⟨27 * ((i 0).val / 512) + 26, hlt⟩ (0 : Fin 2) * 512 + 512
    rw [e0']; omega
  | ⟨1, _⟩ =>
    show win0_3.index ⟨27 * ((i 0).val / 512) + 26, hlt⟩ (1 : Fin 2) * 128 ≤ (i 1).val
      ∧ (i 1).val < win0_3.index ⟨27 * ((i 0).val / 512) + 26, hlt⟩ (1 : Fin 2) * 128 + 128
    rw [e1]; omega

/-- THE OUTPUT ARRAY after the region is the product array. -/
theorem final0_3 (c : Dev nD) : (dat0 V c).arrAt 3 cfg0.N = prod0 V c :=
  (dat0 V c).arrAt_eq_of_cover 3 (prod0 V c) (fun t hf => flushed0_3_eq V c t hf) cover0_3

/-- Entry (r, j) of the output array after the region: the sum over the whole padded width of
    (A (r, n) · B (r, n)) · X (n, j), for A, B the two adjacency arrays and X the padded feature array as the region
    finds them. -/
theorem arr0_3 (V : (c : Dev nD) → (b : Ref sig .tc) → Buf (Elt Ideal) ((c : Thread nD τ).loc b)) (c : Dev nD) (r : Fin 1024) (j : Fin 128) :
    ((dat0 (F := Ideal) V c).arrAt 3 cfg0.N : S1024x128.Idx → EReal) (ValueIdx.ix2 r j)
      = prodAt (V c main_v49) (V c main_v85) (V c main_v86) r j :=
  congrFun (final0_3 V c) (ValueIdx.ix2 r j)

end Cert.KernelIdeal.Hand

end
-- ==== Proof.KI.Value1.lean ====
/-
  The value of region 1.

  Region 1's grid has one point, and at that point every window's block is its whole array: each block index is
  zero on both axes and the block has the array's own sizes. So reading an array through the point's block gives the
  array, what the one write-back writes is all of what the body left in the output's buffer, and the one block
  covers the output array. Hence after the region the output array holds the two-layer perceptron of the seven
  WHOLE input arrays as the region found them.
-/
import proofs.«126571_j77292231459355_1_alg».proof.Proof.KI.Data
import Idealize.ShloMosaic.Lib.Pipeline.Value
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyFloat

variable {F : FTy → Type} [FloatOps F]

variable (V : (c : Dev nD) → (b : Ref sig .tc) → Buf (Elt F) ((c : Thread nD τ).loc b))

/-! ## An array read through the one point's block is the array

The block's rectangle starts at block index × block size on each axis; at the one point every block index is zero, and
the block's sizes are the array's. -/

theorem read_blk1_0 (t : Fin cfg1.N) (X : main_v102.ty.Contents (Elt F)) :
    ((cfg1.win 0).blk t).view.read (Elt F) X = X := by
  obtain rfl : t = t1_0 := fin_N1 t
  have hz : (fun a => win1_0.index t1_0 a * main_v102.ty.shape.size a) = fun _ => 0 := funext fun a => by fin_cases a <;> decide
  exact Memref.read_access_unit_zero (Elt F) main_v102 hz (fun a => by rw [congrFun hz a]; simp) X

theorem read_blk1_1 (t : Fin cfg1.N) (X : main_v87.ty.Contents (Elt F)) :
    ((cfg1.win 1).blk t).view.read (Elt F) X = X := by
  obtain rfl : t = t1_0 := fin_N1 t
  have hz : (fun a => win1_1.index t1_0 a * main_v87.ty.shape.size a) = fun _ => 0 := funext fun a => by fin_cases a <;> decide
  exact Memref.read_access_unit_zero (Elt F) main_v87 hz (fun a => by rw [congrFun hz a]; simp) X

theorem read_blk1_2 (t : Fin cfg1.N) (X : main_v103.ty.Contents (Elt F)) :
    ((cfg1.win 2).blk t).view.read (Elt F) X = X := by
  obtain rfl : t = t1_0 := fin_N1 t
  have hz : (fun a => win1_2.index t1_0 a * main_v103.ty.shape.size a) = fun _ => 0 := funext fun a => by fin_cases a <;> decide
  exact Memref.read_access_unit_zero (Elt F) main_v103 hz (fun a => by rw [congrFun hz a]; simp) X

theorem read_blk1_3 (t : Fin cfg1.N) (X : main_v104.ty.Contents (Elt F)) :
    ((cfg1.win 3).blk t).view.read (Elt F) X = X := by
  obtain rfl : t = t1_0 := fin_N1 t
  have hz : (fun a => win1_3.index t1_0 a * main_v104.ty.shape.size a) = fun _ => 0 := funext fun a => by fin_cases a <;> decide
  exact Memref.read_access_unit_zero (Elt F) main_v104 hz (fun a => by rw [congrFun hz a]; simp) X

theorem read_blk1_4 (t : Fin cfg1.N) (X : main_v105.ty.Contents (Elt F)) :
    ((cfg1.win 4).blk t).view.read (Elt F) X = X := by
  obtain rfl : t = t1_0 := fin_N1 t
  have hz : (fun a => win1_4.index t1_0 a * main_v105.ty.shape.size a) = fun _ => 0 := funext fun a => by fin_cases a <;> decide
  exact Memref.read_access_unit_zero (Elt F) main_v105 hz (fun a => by rw [congrFun hz a]; simp) X

theorem read_blk1_5 (t : Fin cfg1.N) (X : main_arg5.ty.Contents (Elt F)) :
    ((cfg1.win 5).blk t).view.read (Elt F) X = X := by
  obtain rfl : t = t1_0 := fin_N1 t
  have hz : (fun a => win1_5.index t1_0 a * main_arg5.ty.shape.size a) = fun _ => 0 := funext fun a => by fin_cases a <;> decide
  exact Memref.read_access_unit_zero (Elt F) main_arg5 hz (fun a => by rw [congrFun hz a]; simp) X

theorem read_blk1_6 (t : Fin cfg1.N) (X : main_v106.ty.Contents (Elt F)) :
    ((cfg1.win 6).blk t).view.read (Elt F) X = X := by
  obtain rfl : t = t1_0 := fin_N1 t
  have hz : (fun a => win1_6.index t1_0 a * main_v106.ty.shape.size a) = fun _ => 0 := funext fun a => by fin_cases a <;> decide
  exact Memref.read_access_unit_zero (Elt F) main_v106 hz (fun a => by rw [congrFun hz a]; simp) X

theorem read_blk1_7 (t : Fin cfg1.N) (X : main_v107.ty.Contents (Elt F)) :
    ((cfg1.win 7).blk t).view.read (Elt F) X = X := by
  obtain rfl : t = t1_0 := fin_N1 t
  have hz : (fun a => win1_7.index t1_0 a * main_v107.ty.shape.size a) = fun _ => 0 := funext fun a => by fin_cases a <;> decide
  exact Memref.read_access_unit_zero (Elt F) main_v107 hz (fun a => by rw [congrFun hz a]; simp) X

/-! ## Each input's block is its array -/

theorem iblk1_0_eq (c : Dev nD) (t : Fin cfg1.N) : iblk1 V c 0 t = V c main_v102 := by
  unfold iblk1; exact read_blk1_0 t _

theorem iblk1_1_eq (c : Dev nD) (t : Fin cfg1.N) : iblk1 V c 1 t = V c main_v87 := by
  unfold iblk1; exact read_blk1_1 t _

theorem iblk1_2_eq (c : Dev nD) (t : Fin cfg1.N) : iblk1 V c 2 t = V c main_v103 := by
  unfold iblk1; exact read_blk1_2 t _

theorem iblk1_3_eq (c : Dev nD) (t : Fin cfg1.N) : iblk1 V c 3 t = V c main_v104 := by
  unfold iblk1; exact read_blk1_3 t _

theorem iblk1_4_eq (c : Dev nD) (t : Fin cfg1.N) : iblk1 V c 4 t = V c main_v105 := by
  unfold iblk1; exact read_blk1_4 t _

theorem iblk1_5_eq (c : Dev nD) (t : Fin cfg1.N) : iblk1 V c 5 t = V c main_arg5 := by
  unfold iblk1; exact read_blk1_5 t _

theorem iblk1_6_eq (c : Dev nD) (t : Fin cfg1.N) : iblk1 V c 6 t = V c main_v106 := by
  unfold iblk1; exact read_blk1_6 t _

/-! ## What the body leaves in the output's buffer, and what the write-back writes -/

/-- After the body the output's buffer holds the perceptron of the whole input arrays. -/
theorem after1_7_whole (c : Dev nD) (t : Fin cfg1.N) :
    (dat1 V c).after 7 t = k1_pay1 (V c main_v102) (V c main_v87) (V c main_v103) (V c main_v104) (V c main_v105) (V c main_arg5) (V c main_v106) := by
  rw [after1_7, iblk1_0_eq V c t, iblk1_1_eq V c t, iblk1_2_eq V c t, iblk1_3_eq V c t, iblk1_4_eq V c t,
    iblk1_5_eq V c t, iblk1_6_eq V c t]

/-- The output window is uncut: the part of a buffer's contents the write-back moves is all of it, which is also those
    contents read as an array through the point's block. -/
theorem cut_eq_read_blk1_7 (t : Fin cfg1.N) (G : main_v107.ty.Contents (Elt F)) :
    (cfg1.win 7).cut (grid1.coords t) G = ((cfg1.win 7).blk t).view.read (Elt F) G :=
  (read_blk1_7 t G).symm

/-- What the one write-back writes is the point's block of the perceptron of the whole input arrays. -/
theorem flushed1_7 (c : Dev nD) (t : Fin cfg1.N) :
    (dat1 V c).flushed 7 t = ((cfg1.win 7).blk t).view.read (Elt F) (k1_pay1 (V c main_v102) (V c main_v87) (V c main_v103) (V c main_v104) (V c main_v105) (V c main_arg5) (V c main_v106)) := by
  show (cfg1.win 7).cut (grid1.coords t) ((dat1 V c).after 7 t) = _
  rw [after1_7_whole V c t]
  exact cut_eq_read_blk1_7 t _

/-- The one point's block covers the output array. -/
theorem cover1_7_arr (c : Dev nD) (i : ((cfg1.win 7).arr.view.loc (c.tc : Thread nD τ)).2.ty.Idx) :
    ∃ t : Fin cfg1.N, (cfg1.win 7).flush t = true ∧ i ∈ ((cfg1.win 7).blk t).view.set :=
  ⟨t1_0, flush1_7 t1_0, by
    show i ∈ ((View.whole main_v107).slice (win1_7.rect t1_0)).set
    rw [View.set_slice_whole, Rect.mem_set_unit]
    intro a
    have h0 : (i 0 : Nat) < 1024 := (i 0).isLt
    have h1 : (i 1 : Nat) < 1 := (i 1).isLt
    match a with
    | ⟨0, _⟩ =>
      show win1_7.index t1_0 0 * win1_7.size 0 ≤ (i 0 : Nat) ∧ (i 0 : Nat) < win1_7.index t1_0 0 * win1_7.size 0 + win1_7.xsize (grid1.coords t1_0) 0
      rw [show win1_7.index t1_0 0 * win1_7.size 0 = 0 from by decide +kernel, show win1_7.xsize (grid1.coords t1_0) 0 = 1024 from by decide +kernel]; omega
    | ⟨1, _⟩ =>
      show win1_7.index t1_0 1 * win1_7.size 1 ≤ (i 1 : Nat) ∧ (i 1 : Nat) < win1_7.index t1_0 1 * win1_7.size 1 + win1_7.xsize (grid1.coords t1_0) 1
      rw [show win1_7.index t1_0 1 * win1_7.size 1 = 0 from by decide +kernel, show win1_7.xsize (grid1.coords t1_0) 1 = 1 from by decide +kernel]; omega⟩

/-- So the output array ends holding the perceptron of the whole input arrays, at any float model. -/
theorem arr1_7_any (c : Dev nD) :
    (dat1 V c).arrAt 7 cfg1.N = k1_pay1 (V c main_v102) (V c main_v87) (V c main_v103) (V c main_v104) (V c main_v105) (V c main_arg5) (V c main_v106) :=
  (dat1 V c).arrAt_eq_of_cover 7 _ (fun t _ => flushed1_7 V c t) (cover1_7_arr c)

end AnyFloat

/-- The output array of region 1 after the region, at the ideal float model: the two-layer perceptron of the whole
    input arrays as the region finds them. -/
theorem arr1_7 (V : (c : Dev nD) → (b : Ref sig .tc) → Buf (Elt Ideal) ((c : Thread nD τ).loc b)) (c : Dev nD) :
    (dat1 (F := Ideal) V c).arrAt 7 cfg1.N
      = k1_pay1 (F := Ideal) (V c main_v102) (V c main_v87) (V c main_v103) (V c main_v104) (V c main_v105) (V c main_arg5) (V c main_v106) :=
  arr1_7_any (F := Ideal) V c

end Cert.KernelIdeal.Hand

end
-- ==== Proof.Bridge.KTail.lean ====
/-
  What the host operations between the two kernel regions, and the one after the second, leave in the buffers
  the second region and the result read — over any contents `W` of the buffers when the first region has ended.

  Between the regions the program forms the pair features: for each of the 1024 target pairs the row of `x`
  numbered by the pair's first node times, entry by entry, the row numbered by its second node (a negative row
  number counts from the end: 100000 is added to it); it cuts the first layer's weights into their upper and
  lower 128 rows, and views the two bias vectors as one-row matrices. After the second region the [1024, 1]
  result is viewed as a vector of 1024.
-/
import proofs.«126571_j77292231459355_1_alg».proof.Proof.Gen.KernelIdeal.Launch
import Idealize.ShloMosaic.Lib.StableHlo.Run
import Idealize.ShloMosaic.Lib.Tactic

set_option maxRecDepth 16384

noncomputable section

namespace Cert.Bridge

open Idealize.ShloMosaic Idealize.ShloMosaic.TcCoe Idealize.ShloMosaic.Tactic
open Idealize.SL.Sem
open Cert.KernelIdeal Cert.KernelIdeal.Gen

variable {F : FTy → Type} [FloatOps F]

/-- The 1024 row numbers `v` as a column of start indices, a negative number counted from the end of the
    100000 rows. -/
def wrapRows (v : (⟨S1024, .i32⟩ : BufTy).Contents (Elt F)) : (⟨S1024x1, .i32⟩ : BufTy).Contents (Elt F) :=
  broadcastInDim S1024x1 ![0] bcast_S1024_S1024x1_0
    (select (cmpi .slt v (broadcastInDim S1024 ![] bcast_S_S1024 (constantI S_ 32 0#32)))
      (addi v (broadcastInDim S1024 ![] bcast_S_S1024 (constantI S_ 32 100000#32))) v)

/-- The rows of `x` numbered by `v`. -/
def rowsAt (x : (⟨S100000x128, .f32⟩ : BufTy).Contents (Elt F)) (v : (⟨S1024, .i32⟩ : BufTy).Contents (Elt F)) :
    (⟨S1024x128, .f32⟩ : BufTy).Contents (Elt F) :=
  Host.gather gather_S100000x128_S1024x1_S1024x128_1_0_n_n_0_1_1128 x (wrapRows v)

/-- The pair features: row `v1 r` of `x` times row `v3 r` of `x`, entry by entry. -/
def pairFeat (x : (⟨S100000x128, .f32⟩ : BufTy).Contents (Elt F)) (v1 v3 : (⟨S1024, .i32⟩ : BufTy).Contents (Elt F)) :
    (⟨S1024x128, .f32⟩ : BufTy).Contents (Elt F) :=
  mulf (rowsAt x v1) (rowsAt x v3)

variable (W : Valuation τ sig (Elt F))

/-- The pair features the second region reads. -/
theorem kv102 : StableHlo.after (hostOps1 (F := F)) W (Proc.devRef .tc main_v102) =
    pairFeat (W main_arg0) (W main_v1) (W main_v3) := by
  show StableHlo.after hostOps1 W (Proc.devRef .tc main_v102) = _
  after_results_simp
  rfl

/-- The upper 128 rows of the first layer's weights. -/
theorem kv103 : StableHlo.after (hostOps1 (F := F)) W (Proc.devRef .tc main_v103) =
    extractStridedSlice S128x512 ![0, 0] (W main_arg3) slices_S256x512_S128x512_0_0 := by
  show StableHlo.after hostOps1 W (Proc.devRef .tc main_v103) = _
  after_results

/-- The lower 128 rows of the first layer's weights. -/
theorem kv104 : StableHlo.after (hostOps1 (F := F)) W (Proc.devRef .tc main_v104) =
    extractStridedSlice S128x512 ![128, 0] (W main_arg3) slices_S256x512_S128x512_128_0 := by
  show StableHlo.after hostOps1 W (Proc.devRef .tc main_v104) = _
  after_results

/-- The first layer's bias as a one-row matrix. -/
theorem kv105 : StableHlo.after (hostOps1 (F := F)) W (Proc.devRef .tc main_v105) =
    shapeCast S1x512 (W main_arg4) shapeCasts_S512_S1x512 := by
  show StableHlo.after hostOps1 W (Proc.devRef .tc main_v105) = _
  after_results
  rfl

/-- The second layer's bias as a one-entry matrix. -/
theorem kv106 : StableHlo.after (hostOps1 (F := F)) W (Proc.devRef .tc main_v106) =
    shapeCast S1x1 (W main_arg6) shapeCasts_S1_S1x1 := by
  show StableHlo.after hostOps1 W (Proc.devRef .tc main_v106) = _
  after_results
  rfl

/-- The result: the second region's [1024, 1] output viewed as a vector. -/
theorem kv108 : StableHlo.after (hostOps2 (F := F)) W (Proc.devRef .tc main_v108) =
    shapeCast S1024 (W main_v107) shapeCasts_S1024x1_S1024 := by
  show StableHlo.after hostOps2 W (Proc.devRef .tc main_v108) = _
  after_results
  rfl

end Cert.Bridge

end
-- ==== Proof.Bridge.KResult.lean ====
/-
  What the kernel's program leaves in its result array, at the ideal values, as one term of the launch memory.

  The result is the final reshape of what the second region leaves in its output array. The second region's one
  point computes the two-layer perceptron of its seven whole input arrays as it finds them; the stretch of host
  operations between the regions writes five of them — the pair features (rows of the feature matrix, as launched,
  numbered by the two node-index vectors the first stretch left), the two halves of the first layer's weights, and the
  two biases as one-row matrices —, the first region writes the sixth — the product array —, and the seventh is the
  second layer's weights as launched. No stretch before the first region and no window of it touches an argument
  array, so the arguments are read as launched.
-/
import proofs.«126571_j77292231459355_1_alg».proof.Proof.KI.Run
import proofs.«126571_j77292231459355_1_alg».proof.Proof.KI.Value0
import proofs.«126571_j77292231459355_1_alg».proof.Proof.KI.Value1
import proofs.«126571_j77292231459355_1_alg».proof.Proof.Bridge.KTail

set_option maxRecDepth 16384

noncomputable section

namespace Cert.Bridge

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

/-! ## The first region's exit contents -/

/-- A buffer that no stretch before the first region writes and that is no window's array of it holds, at the
    region's exit, its launch contents. -/
theorem exit0_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : ∀ w, Pipeline.arrRef spec0 w ≠ r) :
    Hand.W7 m c (Proc.devRef .tc r) = m ((c : Thread nD τ).loc r) :=
  (Hand.W7_of_ne m c r h6).trans <| (V6_of m c r h5).trans <| (V5_of m c r h4).trans <| (V4_of m c r h3).trans <|
    (V3_of m c r h2).trans <| (V2_of m c r h1).trans <| (V1_of m c r h0).trans rfl

theorem exit0_arg0 (c : Dev nD) : Hand.W7 m c (Proc.devRef .tc main_arg0) = m ((c : Thread nD τ).loc main_arg0) :=
  exit0_launch m c main_arg0 (by decide) (by decide) (by decide) (by decide) (by decide) (by decide) (by decide)
theorem exit0_arg3 (c : Dev nD) : Hand.W7 m c (Proc.devRef .tc main_arg3) = m ((c : Thread nD τ).loc main_arg3) :=
  exit0_launch m c main_arg3 (by decide) (by decide) (by decide) (by decide) (by decide) (by decide) (by decide)
theorem exit0_arg4 (c : Dev nD) : Hand.W7 m c (Proc.devRef .tc main_arg4) = m ((c : Thread nD τ).loc main_arg4) :=
  exit0_launch m c main_arg4 (by decide) (by decide) (by decide) (by decide) (by decide) (by decide) (by decide)
theorem exit0_arg5 (c : Dev nD) : Hand.W7 m c (Proc.devRef .tc main_arg5) = m ((c : Thread nD τ).loc main_arg5) :=
  exit0_launch m c main_arg5 (by decide) (by decide) (by decide) (by decide) (by decide) (by decide) (by decide)
theorem exit0_arg6 (c : Dev nD) : Hand.W7 m c (Proc.devRef .tc main_arg6) = m ((c : Thread nD τ).loc main_arg6) :=
  exit0_launch m c main_arg6 (by decide) (by decide) (by decide) (by decide) (by decide) (by decide) (by decide)

/-- The two node-index vectors are no window's array of the first region: it leaves them as it found them. -/
theorem exit0_v1 (c : Dev nD) : Hand.W7 m c (Proc.devRef .tc main_v1) = V6 m c main_v1 :=
  Hand.W7_of_ne m c main_v1 (by decide)
theorem exit0_v3 (c : Dev nD) : Hand.W7 m c (Proc.devRef .tc main_v3) = V6 m c main_v3 :=
  Hand.W7_of_ne m c main_v3 (by decide)

/-- The first region's output array at its exit is the product array. -/
theorem exit0_v87 (c : Dev nD) : Hand.W7 m c (Proc.devRef .tc main_v87) = Hand.prod0 (Hand.U6 m) c :=
  (Hand.W7_arr m c 3).trans (Hand.final0_3 (Hand.U6 m) c)

/-! ## The second region's seven input arrays at its entry -/

theorem entry1_v102 (c : Dev nD) : Hand.W8 m c (Proc.devRef .tc main_v102)
    = pairFeat (m ((c : Thread nD τ).loc main_arg0)) (V6 m c main_v1) (V6 m c main_v3) :=
  (kv102 (Hand.W7 m c)).trans (congr (congr (congrArg (pairFeat (F := Ideal)) (exit0_arg0 m c)) (exit0_v1 m c)) (exit0_v3 m c))

theorem entry1_v87 (c : Dev nD) : Hand.W8 m c (Proc.devRef .tc main_v87) = Hand.prod0 (Hand.U6 m) c :=
  (StableHlo.after_of_writes_sub hostOps1 _ hostOps1_writes (by decide)).trans (exit0_v87 m c)

theorem entry1_v103 (c : Dev nD) : Hand.W8 m c (Proc.devRef .tc main_v103)
    = extractStridedSlice S128x512 ![0, 0] (m ((c : Thread nD τ).loc main_arg3)) slices_S256x512_S128x512_0_0 :=
  (kv103 (Hand.W7 m c)).trans (congrArg (fun X => extractStridedSlice S128x512 ![0, 0] X slices_S256x512_S128x512_0_0) (exit0_arg3 m c))

theorem entry1_v104 (c : Dev nD) : Hand.W8 m c (Proc.devRef .tc main_v104)
    = extractStridedSlice S128x512 ![128, 0] (m ((c : Thread nD τ).loc main_arg3)) slices_S256x512_S128x512_128_0 :=
  (kv104 (Hand.W7 m c)).trans (congrArg (fun X => extractStridedSlice S128x512 ![128, 0] X slices_S256x512_S128x512_128_0) (exit0_arg3 m c))

theorem entry1_v105 (c : Dev nD) : Hand.W8 m c (Proc.devRef .tc main_v105)
    = shapeCast S1x512 (m ((c : Thread nD τ).loc main_arg4)) shapeCasts_S512_S1x512 :=
  (kv105 (Hand.W7 m c)).trans (congrArg (fun X => shapeCast S1x512 X shapeCasts_S512_S1x512) (exit0_arg4 m c))

theorem entry1_arg5 (c : Dev nD) : Hand.W8 m c (Proc.devRef .tc main_arg5) = m ((c : Thread nD τ).loc main_arg5) :=
  (StableHlo.after_of_writes_sub hostOps1 _ hostOps1_writes (by decide)).trans (exit0_arg5 m c)

theorem entry1_v106 (c : Dev nD) : Hand.W8 m c (Proc.devRef .tc main_v106)
    = shapeCast S1x1 (m ((c : Thread nD τ).loc main_arg6)) shapeCasts_S1_S1x1 :=
  (kv106 (Hand.W7 m c)).trans (congrArg (fun X => shapeCast S1x1 X shapeCasts_S1_S1x1) (exit0_arg6 m c))

/-! ## The result -/

/-- THE KERNEL'S RESULT: the reshape to a vector of the perceptron of the pair features, the product array, the two
    halves of the first layer's weights, its bias as a row, the second layer's weights and its bias as a 1 × 1 matrix. -/
theorem kernel_result (c : Dev nD) :
    Hand.W10 m c (Proc.devRef .tc main_v108)
      = shapeCast S1024 (k1_pay1 (F := Ideal)
          (pairFeat (m ((c : Thread nD τ).loc main_arg0)) (V6 m c main_v1) (V6 m c main_v3))
          (Hand.prod0 (Hand.U6 m) c)
          (extractStridedSlice S128x512 ![0, 0] (m ((c : Thread nD τ).loc main_arg3)) slices_S256x512_S128x512_0_0)
          (extractStridedSlice S128x512 ![128, 0] (m ((c : Thread nD τ).loc main_arg3)) slices_S256x512_S128x512_128_0)
          (shapeCast S1x512 (m ((c : Thread nD τ).loc main_arg4)) shapeCasts_S512_S1x512)
          (m ((c : Thread nD τ).loc main_arg5))
          (shapeCast S1x1 (m ((c : Thread nD τ).loc main_arg6)) shapeCasts_S1_S1x1)) shapeCasts_S1024x1_S1024 := by
  refine (kv108 (Hand.W9 m c)).trans ?_
  refine congrArg (fun X => shapeCast S1024 X shapeCasts_S1024x1_S1024) ?_
  refine (Hand.W9_arr m c 7).trans ?_
  refine (Hand.arr1_7 (Hand.U8 m) c).trans ?_
  exact congr (congr (congr (congr (congr (congr (congrArg (k1_pay1 (F := Ideal)) (entry1_v102 m c)) (entry1_v87 m c))
    (entry1_v103 m c)) (entry1_v104 m c)) (entry1_v105 m c)) (entry1_arg5 m c)) (entry1_v106 m c)

end Cert.Bridge

end
-- ==== Proof.Bridge.KTargets.lean ====
/-
  The two target-node vectors when the first region is entered.

  The program's first four host operations cut the [2, 1024] array of target pairs into its two rows and view each
  row as a vector of 1024 node numbers. No later operation before the first region writes either vector, and the
  array of target pairs is an argument, which nothing writes: so at the region's entry each vector is that row of
  the array as launched.
-/
import proofs.«126571_j77292231459355_1_alg».proof.Proof.Gen.KernelIdeal.Regions
import Idealize.ShloMosaic.Lib.StableHlo.Run
import Idealize.ShloMosaic.Lib.Tactic

set_option maxRecDepth 16384

noncomputable section

namespace Cert.Bridge

open Idealize.ShloMosaic Idealize.ShloMosaic.TcCoe Idealize.ShloMosaic.Tactic
open Idealize.SL.Sem
open Cert.KernelIdeal Cert.KernelIdeal.Gen

variable {F : FTy → Type} [FloatOps F]

/-- Row 0 of the target pairs, as a vector, after the first stretch of host operations from any contents `W`. -/
theorem read_v1 (W : Valuation τ sig (Elt F)) : StableHlo.after (hostOps0 (F := F)) W (Proc.devRef .tc main_v1) =
    shapeCast S1024 (extractStridedSlice S1x1024 ![0, 0] (W main_arg2) slices_S2x1024_S1x1024_0_0) shapeCasts_S1x1024_S1024 := by
  show StableHlo.after hostOps0 W (Proc.devRef .tc main_v1) = _
  after_results_simp
  rfl

/-- Row 1 of the target pairs, as a vector. -/
theorem read_v3 (W : Valuation τ sig (Elt F)) : StableHlo.after (hostOps0 (F := F)) W (Proc.devRef .tc main_v3) =
    shapeCast S1024 (extractStridedSlice S1x1024 ![1, 0] (W main_arg2) slices_S2x1024_S1x1024_1_0) shapeCasts_S1x1024_S1024 := by
  show StableHlo.after hostOps0 W (Proc.devRef .tc main_v3) = _
  after_results_simp
  rfl

variable (m : (ℓ : Loc nD τ sig) → Buf (Elt F) ℓ)

/-- A buffer the second to sixth stretches do not write holds at the first region's entry what the first stretch left. -/
theorem V6_eq_V1 (c : Dev nD) (r : Ref sig .tc) (h5 : r ∉ hostOps0_5_W) (h4 : r ∉ hostOps0_4_W) (h3 : r ∉ hostOps0_3_W)
    (h2 : r ∉ hostOps0_2_W) (h1 : r ∉ hostOps0_1_W) : V6 m c r = V1 m c r :=
  (V6_of m c r h5).trans <| (V5_of m c r h4).trans <| (V4_of m c r h3).trans <| (V3_of m c r h2).trans (V2_of m c r h1)

/-- THE FIRST TARGET VECTOR at the first region's entry: row 0 of the target pairs as launched. -/
theorem kv1_slice (c : Dev nD) : V6 m c main_v1 =
    shapeCast S1024 (extractStridedSlice S1x1024 ![0, 0] (m ((c : Thread nD τ).loc main_arg2)) slices_S2x1024_S1x1024_0_0)
      shapeCasts_S1x1024_S1024 :=
  (V6_eq_V1 m c main_v1 (by decide) (by decide) (by decide) (by decide) (by decide)).trans (read_v1 (V0 m c))

/-- THE SECOND TARGET VECTOR at the first region's entry: row 1 of the target pairs as launched. -/
theorem kv3_slice (c : Dev nD) : V6 m c main_v3 =
    shapeCast S1024 (extractStridedSlice S1x1024 ![1, 0] (m ((c : Thread nD τ).loc main_arg2)) slices_S2x1024_S1x1024_1_0)
      shapeCasts_S1x1024_S1024 :=
  (V6_eq_V1 m c main_v3 (by decide) (by decide) (by decide) (by decide) (by decide)).trans (read_v3 (V0 m c))

end Cert.Bridge

end
-- ==== Proof.Bridge.HostRead.lean ====
/-
  Reading what a stretch of host operations leaves in a buffer.

  The contents of the buffers after a stretch is a fold over the stretch's operations: each operation replaces the
  contents of the buffer it writes by its function of the contents of the buffers it reads and leaves every other
  buffer alone. Read at one buffer, the fold is therefore a tree of the operations' functions over the contents the
  stretch started from.

  A join of two arrays along an axis is stated over a list of (shape, array) pairs. `cat2` is the same join as a
  function of the two arrays, so that each of the two arrays is an argument of its own.
-/
import Idealize.ShloMosaic.Lib.StableHlo.Run
import Idealize.ShloMosaic.Lib.Pipeline.Value

noncomputable section

namespace Cert.Bridge

open Idealize.ShloMosaic

/-- Two arrays joined along axis `a`, as a function of the two arrays. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The join of a two-element list of pieces is `cat2` of the pieces. -/
theorem cat2_fold {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

open StableHlo in
/-- Reads the fold of a literal stretch of host operations at one buffer: every operation's result at the buffer it
    writes is its function's value, at any other buffer what was there before; a two-piece join is folded into
    `cat2` so that both pieces are read as well. -/
macro "host_results" : tactic =>
  `(tactic| (simp (disch := decide) only [cat2_fold, after_cons, after_nil,
      nullary_result', unary_result', binary_result', ternary_result', quaternary_result', reshape_result',
      nullary_result_ne', unary_result_ne', binary_result_ne', ternary_result_ne', quaternary_result_ne',
      reshape_result_ne']))

end Cert.Bridge

end
-- ==== Proof.Bridge.KHost.lean ====
/-
  What the kernel program's buffers hold when region 0 is entered, for the arrays the region reads.

  Before region 0 the program builds, by host operations, two adjacency arrays of shape [1024, 100224] and the node
  features padded from 100000 to 100224 rows. Each adjacency array is a scatter-add of ones into a zero array of shape
  [1025, 100224] at a [6400000, 2] array of (row, column) pairs, with its last row cut off; the padded features are the
  features with 224 rows of zeros appended. The buffers are read here as those operations' functions of the scatter
  index arrays and of the feature argument; the padded features are also read entry by entry.
-/
import proofs.«126571_j77292231459355_1_alg».proof.Proof.Gen.KernelIdeal.Regions
import proofs.«126571_j77292231459355_1_alg».proof.Proof.Bridge.HostRead
import Idealize.ShloMosaic.Lib.KernelVsHost
import Idealize.ShloMosaic.Lib.ValueIdx

set_option maxRecDepth 16384

noncomputable section

namespace Cert.Bridge

open Idealize.ShloMosaic Idealize.ShloMosaic.TcCoe Idealize.SL.Sem
open Cert.KernelIdeal Cert.KernelIdeal.Gen

section Generic

variable {F : FTy → Type} [FloatOps F]

/-! ## Each stretch read at a buffer, from any contents `W` before the stretch -/

/-- The first adjacency array after the third stretch: the scatter-add of the stretch's update array into zeros at
    the stretch's index array, without its last row. -/
theorem read49 (W : Valuation τ sig (Elt F)) :
    (StableHlo.after (hostOps0_2 (F := F)) W main_v49 : S1024x100224.Idx → Elt F .f32)
      = extractStridedSlice S1024x100224 ![0, 0]
          (Host.scatterAdd scatter_S1025x100224_S6400000x2_S6400000_n_01_01_1
            (broadcastInDim S1025x100224 ![] Facts₀.bcast_S_S1025x100224 (constant (F := F) S_ .f32 0x00000000#32))
            (StableHlo.after (hostOps0_2 (F := F)) W main_v46) (StableHlo.after (hostOps0_2 (F := F)) W main_v47))
          Facts₀.slices_S1025x100224_S1024x100224_0_0 := by
  host_results

/-- The update array of the first scatter-add: all ones. -/
theorem read47 (W : Valuation τ sig (Elt F)) :
    (StableHlo.after (hostOps0_2 (F := F)) W main_v47 : S6400000.Idx → Elt F .f32)
      = broadcastInDim S6400000 ![] Facts₀.bcast_S_S6400000 (constant (F := F) S_ .f32 0x3F800000#32) := by
  host_results

/-- The second adjacency array after the fifth stretch. -/
theorem read85 (W : Valuation τ sig (Elt F)) :
    (StableHlo.after (hostOps0_4 (F := F)) W main_v85 : S1024x100224.Idx → Elt F .f32)
      = extractStridedSlice S1024x100224 ![0, 0]
          (Host.scatterAdd scatter_S1025x100224_S6400000x2_S6400000_n_01_01_1
            (broadcastInDim S1025x100224 ![] Facts₀.bcast_S_S1025x100224 (constant (F := F) S_ .f32 0x00000000#32))
            (StableHlo.after (hostOps0_4 (F := F)) W main_v82) (StableHlo.after (hostOps0_4 (F := F)) W main_v83))
          Facts₀.slices_S1025x100224_S1024x100224_0_0 := by
  host_results

/-- The update array of the second scatter-add: all ones. -/
theorem read83 (W : Valuation τ sig (Elt F)) :
    (StableHlo.after (hostOps0_4 (F := F)) W main_v83 : S6400000.Idx → Elt F .f32)
      = broadcastInDim S6400000 ![] Facts₀.bcast_S_S6400000 (constant (F := F) S_ .f32 0x3F800000#32) := by
  host_results

/-- The integer constant the fifth stretch ends with: zero. -/
theorem read_c24 (W : Valuation τ sig (Elt F)) :
    (StableHlo.after (hostOps0_4 (F := F)) W main_c_24 : S_.Idx → Elt F .i32) = constantI S_ 32 0#32 := by
  host_results

/-- The padded features after the sixth stretch: the feature argument padded with 224 rows of the integer constant
    converted to a float. -/
theorem read86 (W : Valuation τ sig (Elt F)) :
    (StableHlo.after (hostOps0_5 (F := F)) W main_v86 : S100224x128.Idx → Elt F .f32)
      = pad S100224x128 ![0, 0] ![224, 0] ![0, 0] (W main_arg0 : S100000x128.Idx → Elt F .f32)
          (sitofp .f32 (W main_c_24 : S_.Idx → Elt F .i32)) Facts₀.pads_S100000x128_S100224x128_02240_000 Facts₀.h_S_ := by
  host_results
  rfl

/-! ## At region 0's entry -/

variable (m : (ℓ : Loc nD τ sig) → Buf (Elt F) ℓ)

/-- A buffer the last three stretches before region 0 do not write holds at the region's entry what the third
    stretch left. -/
theorem V6_eq_V3 (c : Dev nD) (r : Ref sig .tc) (h5 : r ∉ hostOps0_5_W) (h4 : r ∉ hostOps0_4_W) (h3 : r ∉ hostOps0_3_W) :
    V6 m c r = V3 m c r :=
  (V6_of m c r h5).trans ((V5_of m c r h4).trans (V4_of m c r h3))

/-- The feature argument is as launched when the sixth stretch starts. -/
theorem V5_arg0 (c : Dev nD) : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide)).trans rfl

/-- THE FIRST ADJACENCY ARRAY at region 0's entry, as a function of the scatter's index and update arrays there. -/
theorem kv49 (c : Dev nD) :
    (V6 m c main_v49 : S1024x100224.Idx → Elt F .f32)
      = extractStridedSlice S1024x100224 ![0, 0]
          (Host.scatterAdd scatter_S1025x100224_S6400000x2_S6400000_n_01_01_1
            (broadcastInDim S1025x100224 ![] Facts₀.bcast_S_S1025x100224 (constant (F := F) S_ .f32 0x00000000#32))
            (V6 m c main_v46) (V6 m c main_v47))
          Facts₀.slices_S1025x100224_S1024x100224_0_0 := by
  rw [V6_eq_V3 m c main_v49 (by decide) (by decide) (by decide), V6_eq_V3 m c main_v46 (by decide) (by decide) (by decide),
    V6_eq_V3 m c main_v47 (by decide) (by decide) (by decide)]
  exact read49 (V2 m c)

/-- The update array of the first scatter-add at region 0's entry: all ones. -/
theorem kv47 (c : Dev nD) :
    (V6 m c main_v47 : S6400000.Idx → Elt F .f32)
      = broadcastInDim S6400000 ![] Facts₀.bcast_S_S6400000 (constant (F := F) S_ .f32 0x3F800000#32) := by
  rw [V6_eq_V3 m c main_v47 (by decide) (by decide) (by decide)]
  exact read47 (V2 m c)

/-- THE SECOND ADJACENCY ARRAY at region 0's entry. -/
theorem kv85 (c : Dev nD) :
    (V6 m c main_v85 : S1024x100224.Idx → Elt F .f32)
      = extractStridedSlice S1024x100224 ![0, 0]
          (Host.scatterAdd scatter_S1025x100224_S6400000x2_S6400000_n_01_01_1
            (broadcastInDim S1025x100224 ![] Facts₀.bcast_S_S1025x100224 (constant (F := F) S_ .f32 0x00000000#32))
            (V6 m c main_v82) (V6 m c main_v83))
          Facts₀.slices_S1025x100224_S1024x100224_0_0 := by
  rw [V6_of m c main_v85 (by decide), V6_of m c main_v82 (by decide), V6_of m c main_v83 (by decide)]
  exact read85 (V4 m c)

/-- The update array of the second scatter-add at region 0's entry: all ones. -/
theorem kv83 (c : Dev nD) :
    (V6 m c main_v83 : S6400000.Idx → Elt F .f32)
      = broadcastInDim S6400000 ![] Facts₀.bcast_S_S6400000 (constant (F := F) S_ .f32 0x3F800000#32) := by
  rw [V6_of m c main_v83 (by decide)]
  exact read83 (V4 m c)

/-- The padded features at region 0's entry: the feature argument padded with 224 rows of the converted integer
    zero. -/
theorem kv86_pad (c : Dev nD) :
    (V6 m c main_v86 : S100224x128.Idx → Elt F .f32)
      = pad S100224x128 ![0, 0] ![224, 0] ![0, 0] (m ((c : Thread nD τ).loc main_arg0) : S100000x128.Idx → Elt F .f32)
          (sitofp .f32 (constantI S_ 32 0#32 : S_.Idx → Elt F .i32)) Facts₀.pads_S100000x128_S100224x128_02240_000 Facts₀.h_S_ := by
  have e := read86 (F := F) (V5 m c)
  rw [V5_arg0 m c, show (V5 m c main_c_24 : S_.Idx → Elt F .i32) = constantI S_ 32 0#32 from read_c24 (V4 m c)] at e
  exact e

end Generic

/-! ## The padded features entry by entry, at the ideal values -/

/-- An array of 100000 rows padded with 224 rows of a value that is zero: row `n` is the array's row `n` for
    `n < 100000`, and zero after. -/
theorem pad_rows_apply (x : S100000x128.Idx → EReal) (v : S_.Idx → EReal) (hv : ∀ i, v i = 0) (n : Fin 100224) (j : Fin 128) :
    pad S100224x128 ![0, 0] ![224, 0] ![0, 0] x v Facts₀.pads_S100000x128_S100224x128_02240_000 Facts₀.h_S_ (ValueIdx.ix2 n j)
      = if h : n.val < 100000 then x (ValueIdx.ix2 (⟨n.val, h⟩ : Fin 100000) j) else 0 := by
  by_cases h : n.val < 100000
  · rw [dif_pos h]
    exact pad_apply_of_inside ![0, 0] ![224, 0] ![0, 0] x v Facts₀.pads_S100000x128_S100224x128_02240_000 Facts₀.h_S_
      (ValueIdx.ix2 n j) (ValueIdx.ix2 (⟨n.val, h⟩ : Fin 100000) j) (fun a => by
        match a with
        | ⟨0, _⟩ => show n.val = 0 + n.val * (0 + 1); omega
        | ⟨1, _⟩ => show j.val = 0 + j.val * (0 + 1); omega)
  · rw [dif_neg h]
    refine (pad_apply_of_not_inside ![0, 0] ![224, 0] ![0, 0] x v Facts₀.pads_S100000x128_S100224x128_02240_000 Facts₀.h_S_
      (ValueIdx.ix2 n j) (0 : Fin 2) ?_).trans (hv _)
    show ¬(0 ≤ n.val ∧ (n.val - 0) % (0 + 1) = 0 ∧ (n.val - 0) / (0 + 1) < 100000)
    omega

/-- THE PADDED FEATURES at region 0's entry: row `n` is row `n` of the feature argument for `n < 100000`, and zero for
    the 224 rows after. -/
theorem kv86 (m : (ℓ : Loc nD τ sig) → Buf (Elt Ideal) ℓ) (c : Dev nD) (n : Fin 100224) (j : Fin 128) :
    (V6 m c main_v86 : S100224x128.Idx → EReal) (ValueIdx.ix2 n j)
      = (if h : n.val < 100000 then
          (m ((c : Thread nD τ).loc main_arg0) : S100000x128.Idx → EReal) (ValueIdx.ix2 ⟨n.val, h⟩ j)
        else (0 : EReal) : EReal) := by
  rw [kv86_pad m c]
  exact pad_rows_apply (m ((c : Thread nD τ).loc main_arg0))
    (sitofp (F := Ideal) .f32 (constantI S_ 32 0#32 : IVec S_ 32)) (fun _ => sitofp_zero (φ := .f32)) n j

/-- The zero array both scatter-adds start from reads zero at every index. -/
theorem kzero (i : S1025x100224.Idx) :
    broadcastInDim S1025x100224 ![] Facts₀.bcast_S_S1025x100224 (constant (F := Ideal) S_ .f32 0x00000000#32) i = 0 :=
  Ideal.ofBits_zero_f32

end Cert.Bridge

end
-- ==== Proof.Bridge.PreNonneg.lean ====
/-
  The precondition bounds the edge-index argument from below.

  The predicate of the statement's precondition is a conjunction of "all" tests, one per argument; its last conjunct
  tests `edge_index ≥ 0` entry by entry, as signed 32-bit words. Where the predicate is all ones, every entry of the
  edge-index argument is therefore a nonnegative signed word.
-/
import proofs.«126571_j77292231459355_1_alg».proof.Defs
import proofs.«126571_j77292231459355_1_alg».proof.Proof.Gen.Pre_finite_inputs
import Idealize.ShloMosaic.Lib.ReduceAll
import Idealize.ShloMosaic.Lib.ValueIdx

set_option maxRecDepth 16384

noncomputable section

namespace Cert.Bridge

open Idealize.ShloMosaic Idealize.SL.Sem

/-- An array without axes has one index. -/
instance : Subsingleton Cert.Pre_finite_inputs.S_.Idx := ⟨fun a b => funext fun d => d.elim0⟩

/-- Where the predicate holds of the seven arguments, every entry of the second one, the edge index, is nonnegative
    as a signed word: the predicate's last conjunct is the "all" of the entrywise signed test `edge_index ≥ 0`. -/
theorem nonneg_of_finite_inputs {F : FTy → Type} [FloatOps F]
    (a0 : FVec F Cert.Pre_finite_inputs.S100000x128 .f32) (a1 : IVec Cert.Pre_finite_inputs.S2x3200000 32)
    (a2 : IVec Cert.Pre_finite_inputs.S2x1024 32) (a3 : FVec F Cert.Pre_finite_inputs.S256x512 .f32)
    (a4 : FVec F Cert.Pre_finite_inputs.S512 .f32) (a5 : FVec F Cert.Pre_finite_inputs.S512x1 .f32)
    (a6 : FVec F Cert.Pre_finite_inputs.S1 .f32)
    (h : Cert.Pre_finite_inputs.fn (F := F) a0 a1 a2 a3 a4 a5 a6 = fun _ => 1#1)
    (i : Cert.Pre_finite_inputs.S2x3200000.Idx) : 0 ≤ (a1 i).toInt := by
  have e := congrFun h ValueIdx.ix0
  dsimp only [Cert.Pre_finite_inputs.fn, Cert.Pre_finite_inputs.fn_part1] at e
  have e2 := (IntOp.andi_eq_one.1 e).2
  have e3 := Host.reduce_andi_all _ _ _ _ _ e2 i
  have e4 := IntOp.cmpi_sge.1 e3
  exact e4

/-- EVERY ENTRY OF THE EDGE-INDEX ARGUMENT IS NONNEGATIVE under the kernel program's precondition. -/
theorem ei_nonneg {m : (ℓ : Loc Cert.KernelIdeal.nD Cert.KernelIdeal.τ Cert.KernelIdeal.sig) → Buf (Elt Ideal) ℓ}
    (hpre : Cert.Pre_KernelIdeal m) (c : Dev Cert.KernelIdeal.nD) (i : Cert.KernelIdeal.S2x3200000.Idx) :
    0 ≤ ((m ((c.tc : Thread Cert.KernelIdeal.nD Cert.KernelIdeal.τ).loc Cert.KernelIdeal.main_arg1)
      : Cert.KernelIdeal.S2x3200000.Idx → BitVec 32) i).toInt :=
  nonneg_of_finite_inputs _ _ _ _ _ _ _ (hpre c) i

end Cert.Bridge

end
-- ==== Proof.LibGatherScatter.lean ====
/-
  General facts about two host operations on a matrix indexed by a one-column table of row numbers.

  * Row gather: `x[row]` of a matrix or a vector at an `[E, 1]` column of row numbers reads, at entry
    `(e, j)`, row `row[e]` (read signed and clamped into the operand) at column `j`.
  * Row scatter-add: an update row `e` lands on row `n` of the operand exactly when `row[e]`, read
    signed and not clamped, is `n`, and then column by column.
  * Algebra over the extended reals: a nonnegative real factor moves into a finite sum, so scaling a
    scatter-add of rows is the scatter-add of the scaled rows.
  * Words: a nonnegative signed 32-bit row number is left alone by the negative-index normalisation, and
    clamping a row number that is in range does nothing.
-/
import Idealize.ShloMosaic.Lib.ValueIdx
import Idealize.ShloMosaic.Lib.Affine

noncomputable section

open scoped BigOperators

namespace Cert.GatherScatter

open Idealize.ShloMosaic Idealize.ShloMosaic.ValueIdx

/-! ## Algebra: a nonnegative real factor and a finite sum of extended reals -/

/-- A nonnegative real factor moves into a finite sum of extended reals: right distributivity holds for a
    factor that is neither negative nor infinite, whatever the summands. -/
theorem sum_mul_coe_of_nonneg {ι : Type*} (s : Finset ι) (f : ι → EReal) (r : ℝ) (hr : 0 ≤ r) :
    (∑ q ∈ s, f q) * (r : EReal) = ∑ q ∈ s, f q * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Scaling a scatter-add into zero: when every update `q` that lands on `i` has `v q = u q * r` for a
    nonnegative real `r`, the accumulated sum of the `u` at `i`, times `r`, is the accumulated sum of the `v`. -/
theorem scatter_scale {ι κ : Type} [Fintype ι] (land : ι → Option κ) (i : κ)
    [DecidablePred fun q => land q = some i] (u v : ι → EReal) (r : ℝ) (hr : 0 ≤ r)
    (h : ∀ q, land q = some i → v q = u q * (r : EReal)) :
    ((0 : EReal) + ∑ q ∈ Finset.univ.filter (fun q => land q = some i), u q) * (r : EReal)
      = 0 + ∑ q ∈ Finset.univ.filter (fun q => land q = some i), v q := by
  rw [zero_add, zero_add, sum_mul_coe_of_nonneg _ _ r hr]
  refine Finset.sum_congr rfl fun q hq => ?_
  rw [h q (Finset.mem_filter.mp hq).2]

/-! ## Row scatter: updates `[E, W]` into an operand `[N, W]` at an `[E, 1]` column of row numbers -/

/-- The dimension numbers of a scatter of whole rows: update row `e` goes to the operand row named by
    `idx[e, 0]`, column by column. Their conditions `wf` are decided on a program's literal shapes. -/
abbrev rowScatterDims (N W E : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable {N W E w : Nat} (wf : ScatterDims.WF ⟨2, ![N, W]⟩ ⟨2, ![E, 1]⟩ ⟨2, ![E, W]⟩ [1] [0] [0] 1)

/-- On the row axis the window of update `(e, j')` starts at the row number `idx[e, 0]`, read signed. -/
theorem rowScatter_start_row (idx : IVec ⟨2, ![E, 1]⟩ w) (e : Fin E) (j' : Fin W) :
    (rowScatterDims N W E wf).start (ix2 e j') idx 0 = (idx (ix2 e (0 : Fin 1))).toInt := by
  unfold ScatterDims.start
  rw [dif_pos (show (0 : Fin 2) ∈ (rowScatterDims N W E wf).scatterDimsToOperandDims from List.mem_singleton.mpr rfl)]
  have hsi : (rowScatterDims N W E wf).siIdx (ix2 e j') ⟨List.idxOf (0 : Fin 2) (rowScatterDims N W E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices name rows only. -/
theorem rowScatter_start_col (idx : IVec ⟨2, ![E, 1]⟩ w) (e : Fin E) (j' : Fin W) :
    (rowScatterDims N W E wf).start (ix2 e j') idx 1 = 0 := by
  unfold ScatterDims.start
  rw [dif_neg (show (1 : Fin 2) ∉ (rowScatterDims N W E wf).scatterDimsToOperandDims from
    show (1 : Fin 2) ∉ [(0 : Fin 2)] by decide)]

/-- The row axis is inserted: the window coordinate on it is `0`. -/
theorem rowScatter_window_row (e : Fin E) (j' : Fin W) : (rowScatterDims N W E wf).window (ix2 e j') 0 = 0 := by
  unfold ScatterDims.window
  rw [dif_neg (show (0 : Fin 2) ∉ (rowScatterDims N W E wf).sKept from
    show (0 : Fin 2) ∉ (List.finRange 2).filter (· ∉ [(0 : Fin 2)]) by decide)]

/-- On the column axis the window coordinate is the update's column. -/
theorem rowScatter_window_col (e : Fin E) (j' : Fin W) : (rowScatterDims N W E wf).window (ix2 e j') 1 = j'.val := by
  unfold ScatterDims.window
  rw [dif_pos (show (1 : Fin 2) ∈ (rowScatterDims N W E wf).sKept from
    show (1 : Fin 2) ∈ (List.finRange 2).filter (· ∉ [(0 : Fin 2)]) by decide)]
  rfl

/-- WHERE A ROW UPDATE LANDS: update `(e, j')` lands on operand entry `(n, j)` exactly when the row number
    `idx[e, 0]`, read signed and not clamped, is `n`, and the columns agree. A row number outside the operand
    lands nowhere. -/
theorem rowScatter_lands_iff (idx : IVec ⟨2, ![E, 1]⟩ w) (e : Fin E) (j' : Fin W) (n : Fin N) (j : Fin W) :
    (rowScatterDims N W E wf).resultIdx? (ix2 e j') idx = some (ix2 n j)
      ↔ (idx (ix2 e (0 : Fin 1))).toInt = (n.val : Int) ∧ j' = j := by
  have h0 := rowScatter_start_row wf idx e j'
  have h1 := rowScatter_start_col wf idx e j'
  have g0 := rowScatter_window_row (N := N) wf e j'
  have g1 := rowScatter_window_col (N := N) wf e j'
  unfold ScatterDims.resultIdx?
  split
  · rename_i h
    rw [Option.some.injEq]
    constructor
    · intro hf
      have e0 := congrArg (fun f => (f 0).val) hf
      have e1 := congrArg (fun f => (f 1).val) hf
      simp only [h0, h1, g0, g1] at e0 e1
      have hh := (h 0).1
      rw [h0, g0] at hh
      change _ = n.val at e0
      change _ = j.val at e1
      refine ⟨by omega, Fin.ext (by omega)⟩
    · rintro ⟨hr, rfl⟩
      funext a
      refine Fin.ext ?_
      match a with
      | ⟨0, _⟩ => show ((rowScatterDims N W E wf).start (ix2 e j') idx 0 + ((rowScatterDims N W E wf).window (ix2 e j') 0 : Int)).toNat = n.val; rw [h0, g0, hr]; omega
      | ⟨1, _⟩ => show ((rowScatterDims N W E wf).start (ix2 e j') idx 1 + ((rowScatterDims N W E wf).window (ix2 e j') 1 : Int)).toNat = j'.val; rw [h1, g1]; omega
  · rename_i h
    constructor
    · intro hf; exact absurd hf (by simp)
    · rintro ⟨hr, rfl⟩
      exfalso; apply h
      intro a
      match a with
      | ⟨0, _⟩ =>
        show 0 ≤ (rowScatterDims N W E wf).start (ix2 e j') idx 0 + ((rowScatterDims N W E wf).window (ix2 e j') 0 : Int) ∧
          (rowScatterDims N W E wf).start (ix2 e j') idx 0 + ((rowScatterDims N W E wf).window (ix2 e j') 0 : Int) < (N : Int)
        rw [h0, g0, hr]; have := n.isLt; omega
      | ⟨1, _⟩ =>
        show 0 ≤ (rowScatterDims N W E wf).start (ix2 e j') idx 1 + ((rowScatterDims N W E wf).window (ix2 e j') 1 : Int) ∧
          (rowScatterDims N W E wf).start (ix2 e j') idx 1 + ((rowScatterDims N W E wf).window (ix2 e j') 1 : Int) < (W : Int)
        rw [h1, g1]; have := j'.isLt; omega

end RowScatter

/-! ## Vector scatter: updates `[E]` into an operand `[N]` at an `[E, 1]` column of element numbers -/

/-- The dimension numbers of a scatter of single elements: update `e` goes to the operand element named by
    `idx[e, 0]`. Their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The window of update `e` starts at the element number `idx[e, 0]`, read signed. -/
theorem vecScatter_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window (e : Fin E) : (vecScatterDims N E wf).window (ix1 e) 0 = 0 := by
  unfold ScatterDims.window
  rw [dif_neg (show (0 : Fin 1) ∉ (vecScatterDims N E wf).sKept from
    show (0 : Fin 1) ∉ (List.finRange 1).filter (· ∉ [(0 : Fin 1)]) by decide)]

/-- WHERE AN ELEMENT UPDATE LANDS: update `e` lands on operand element `n` exactly when the element number
    `idx[e, 0]`, read signed and not clamped, is `n`. A number outside the operand lands nowhere. -/
theorem vecScatter_lands_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  have h0 := vecScatter_start wf idx e
  have g0 := vecScatter_window (N := N) wf e
  unfold ScatterDims.resultIdx?
  split
  · rename_i h
    rw [Option.some.injEq]
    constructor
    · intro hf
      have e0 := congrArg (fun f => (f 0).val) hf
      simp only [h0, g0] at e0
      change _ = n.val at e0
      have hh := (h 0).1
      rw [h0, g0] at hh
      omega
    · intro hr
      funext a
      obtain rfl : a = 0 := Subsingleton.elim _ _
      refine Fin.ext ?_
      show ((vecScatterDims N E wf).start (ix1 e) idx 0 + ((vecScatterDims N E wf).window (ix1 e) 0 : Int)).toNat = n.val
      rw [h0, g0, hr]; omega
  · rename_i h
    constructor
    · intro hf; exact absurd hf (by simp)
    · intro hr
      exfalso; apply h
      intro a
      obtain rfl : a = 0 := Subsingleton.elim _ _
      show 0 ≤ (vecScatterDims N E wf).start (ix1 e) idx 0 + ((vecScatterDims N E wf).window (ix1 e) 0 : Int) ∧
        (vecScatterDims N E wf).start (ix1 e) idx 0 + ((vecScatterDims N E wf).window (ix1 e) 0 : Int) < (N : Int)
      rw [h0, g0, hr]; have := n.isLt; omega

end VecScatter

/-! ## Row gather: rows of a matrix `[N, W]` at an `[E, 1]` column of row numbers -/

/-- The dimension numbers of `x[row]` for a matrix `x : [N, W]` and row numbers `[E, 1]`: result row `e` is the
    whole operand row named by `idx[e, 0]`. Their conditions `wf` are decided on a program's literal shapes. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW GATHER READ AT `(e, j)`: the operand at row `idx[e, 0]`, read signed and clamped into `[0, N − 1]`,
    and column `j`. -/
theorem rowGather_apply {N W E w : Nat} (hN : 0 < N)
    (wf : GatherDims.WF ⟨2, ![N, W]⟩ ⟨2, ![E, 1]⟩ ⟨2, ![E, W]⟩ [1] [0] [] [0] [] 1 ![1, W]) {α : Type}
    (x : (⟨2, ![N, W]⟩ : Shape).Idx → α) (idx : IVec ⟨2, ![E, 1]⟩ w) (e : Fin E) (j : Fin W) :
    Host.gather (rowGatherDims N W E wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowGatherDims N W E wf).start (ix2 e j) idx 0 + (rowGatherDims N W E wf).batchCoord (ix2 e j) 0
      + (rowGatherDims N W E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e j) ⟨List.idxOf (0 : Fin 2) (rowGatherDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N W E wf).start (ix2 e j) idx 1 + (rowGatherDims N W E wf).batchCoord (ix2 e j) 1
      + (rowGatherDims N W E wf).offCoord (ix2 e j) 1 = j.val
    rw [GatherDims.batchCoord_eq_zero _ _ _ List.not_mem_nil]
    unfold GatherDims.start GatherDims.offCoord
    rw [dif_neg (show (1 : Fin 2) ∉ (rowGatherDims N W E wf).startIndexMap from
        show (1 : Fin 2) ∉ [(0 : Fin 2)] by decide),
      dif_pos (show (1 : Fin 2) ∈ (rowGatherDims N W E wf).sKept from
        show (1 : Fin 2) ∈ (List.finRange 2).filter (· ∉ [(0 : Fin 2)] ++ []) by decide)]
    simp only [Nat.zero_add]
    rfl

/-! ## Row gather of a vector `[N]` at an `[E, 1]` column of row numbers -/

/-- The dimension numbers of `x[row]` for a vector `x : [N]` and row numbers `[E, 1]`: result element `e` is the
    operand element named by `idx[e, 0]`. Their conditions `wf` are decided on a program's literal shapes. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The accumulating scatters read at an entry -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ROW SCATTER-ADD READ AT `(n, j)`: the operand there plus column `j` of every update row whose row
    number, read signed, is `n`. -/
theorem rowScatterAdd_apply {N W E w : Nat} (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd (rowScatterDims N W E wf) x idx upd (ix2 n j)
      = x (ix2 n j)
        + ∑ e ∈ Finset.univ.filter (fun e : Fin E => (idx (ix2 e (0 : Fin 1))).toInt = (n.val : Int)), upd (ix2 e j) := by
  unfold Ideal.hostScatterAdd
  congr 1
  rw [Finset.sum_filter, sum_idx2, Finset.sum_filter]
  refine Finset.sum_congr rfl fun e _ => ?_
  simp only [rowScatter_lands_iff wf idx e _ n j]
  by_cases hr : (idx (ix2 e (0 : Fin 1))).toInt = (n.val : Int)
  · simp only [hr, true_and, if_true]
    rw [Finset.sum_ite_eq' Finset.univ j (fun j' => upd (ix2 e j'))]
    simp
  · simp only [hr, false_and, if_false, Finset.sum_const_zero]

/-- THE VECTOR SCATTER-ADD READ AT `n`: the operand there plus every update whose element number, read
    signed, is `n`. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n)
        + ∑ e ∈ Finset.univ.filter (fun e : Fin E => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [vecScatter_lands_iff wf idx e n]

/-- Scaling a row scatter-add into zeros by a nonnegative real: when every update row `e` whose row number is `n`
    has `v (e, j) = u (e, j) * r`, the scatter-add of `u` at `(n, j)`, times `r`, is the scatter-add of `v` there. -/
theorem rowScatterAdd_zero_scale {N W E w : Nat}
    (wf : ScatterDims.WF ⟨2, ![N, W]⟩ ⟨2, ![E, 1]⟩ ⟨2, ![E, W]⟩ [1] [0] [0] 1) (idx : IVec ⟨2, ![E, 1]⟩ w)
    (u v : (⟨2, ![E, W]⟩ : Shape).Idx → EReal) (r : ℝ) (hr : 0 ≤ r) (n : Fin N) (j : Fin W)
    (h : ∀ e : Fin E, (idx (ix2 e (0 : Fin 1))).toInt = (n.val : Int) → v (ix2 e j) = u (ix2 e j) * (r : EReal)) :
    Ideal.hostScatterAdd (rowScatterDims N W E wf) (fun _ => 0) idx u (ix2 n j) * (r : EReal)
      = Ideal.hostScatterAdd (rowScatterDims N W E wf) (fun _ => 0) idx v (ix2 n j) := by
  rw [rowScatterAdd_apply, rowScatterAdd_apply, zero_add, zero_add, sum_mul_coe_of_nonneg _ _ r hr]
  refine Finset.sum_congr rfl fun e he => ?_
  rw [h e (Finset.mem_filter.mp he).2]

/-! ## Words: a signed row number that is in range -/

/-- The negative-index normalisation `if c < 0 then c + k else c` leaves a nonnegative signed word alone. -/
theorem wrapIndex_of_nonneg {w : Nat} (c k : BitVec w) (hc : 0 ≤ c.toInt) :
    Scalar.select (IntOp.cmpi .slt c 0#w) (IntOp.addi c k) c = c := by
  have hne : ¬IntOp.cmpi .slt c 0#w = 1#1 := fun h => by
    have := IntOp.cmpi_slt.mp h
    rw [BitVec.toInt_zero] at this
    omega
  rw [eq_zero_of_ne_one hne, select_zero]

/-- The same on vectors, read at an index: where the row number is nonnegative (and the vector compared
    against reads zero there) the normalised vector reads the row number. -/
theorem wrapIndex_apply {s : Shape} {w : Nat} (row zero k : IVec s w) (i : s.Idx) (hz : zero i = 0#w)
    (h : 0 ≤ (row i).toInt) : select (cmpi .slt row zero) (addi row k) row i = row i := by
  show Scalar.select (IntOp.cmpi .slt (row i) (zero i)) (IntOp.addi (row i) (k i)) (row i) = row i
  rw [hz]
  exact wrapIndex_of_nonneg (row i) (k i) h

/-- Clamping a row number that is in range does nothing: a signed word that reads `n`, for `n` below `N`,
    clamped into `[0, N − 1]` is `n`. -/
theorem clamp_of_toInt_eq {w N : Nat} (c : BitVec w) (n : Fin N) (h : c.toInt = (n.val : Int)) :
    min c.toInt.toNat (N - 1) = n.val := by
  have := n.isLt
  rw [h]
  omega

end Cert.GatherScatter

end
-- ==== Proof.Bridge.KIdx.lean ====
/-
  The kernel program's two scatter index arrays are the reference's.

  Both programs build, for each of the two target rows, a [6400000, 2] array of (row, column) pairs: the row is
  looked up from the target through the same chain of operations with the same constants in both programs; the column
  is the edge list's other endpoint, normalised by `if c < 0 then c + C else c` where `C` is the column count of the
  array scattered into — 100224 in the kernel, 100000 in the reference. Every entry of the edge index is nonnegative,
  so the normalisation leaves the column alone whatever `C` is, and the two arrays of pairs are equal.

  The kernel program's buffers are read stretch by stretch: what a stretch leaves in a buffer is stated over the
  contents `W` before the stretch, and the stages are chained by equations.
-/
import proofs.«126571_j77292231459355_1_alg».proof.Proof.Gen.KernelIdeal.Regions
import proofs.«126571_j77292231459355_1_alg».proof.Proof.RefReadP
import proofs.«126571_j77292231459355_1_alg».proof.Proof.Bridge.HostRead
import proofs.«126571_j77292231459355_1_alg».proof.Proof.LibGatherScatter
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Cert.KernelIdeal Cert.KernelIdeal.Gen

variable {F : FTy → Type} [FloatOps F]

/-! ## The first stretch: the edge lists, the lookup table, the first looked-up rows -/

/-- The column array (the edge list's second row followed by its first) is the reference's. -/
theorem read13 (W : Valuation τ sig (Elt F)) :
    (StableHlo.after (hostOps0 (F := F)) W main_v13 : S6400000.Idx → Elt F .i32)
      = Cert.ReferenceIdeal.Read.val_main_v13 (F := F) (W main_arg1) := by
  host_results
  rfl

/-- The source array (the edge list's first row followed by its second) is the reference's. -/
theorem read8 (W : Valuation τ sig (Elt F)) :
    (StableHlo.after (hostOps0 (F := F)) W main_v8 : S6400000.Idx → Elt F .i32)
      = Cert.ReferenceIdeal.Read.val_main_v8 (F := F) (W main_arg1) := by
  host_results
  rfl

/-- The second target row is the reference's. -/
theorem read3 (W : Valuation τ sig (Elt F)) :
    (StableHlo.after (hostOps0 (F := F)) W main_v3 : S1024.Idx → Elt F .i32)
      = Cert.ReferenceIdeal.Read.val_main_v3 (F := F) (W main_arg2) := by
  host_results
  rfl

set_option maxHeartbeats 1000000 in
/-- The first target row's table looked up at the source array is the reference's. -/
theorem read29 (W : Valuation τ sig (Elt F)) :
    (StableHlo.after (hostOps0 (F := F)) W main_v29 : S6400000.Idx → Elt F .i32)
      = Cert.ReferenceIdeal.Read.val_main_v29 (F := F) (W main_arg1) (W main_arg2) := by
  host_results
  rfl

set_option maxHeartbeats 1000000 in
/-- Its test against zero is the reference's. -/
theorem read31 (W : Valuation τ sig (Elt F)) :
    (StableHlo.after (hostOps0 (F := F)) W main_v31 : S6400000.Idx → Elt F .i1)
      = Cert.ReferenceIdeal.Read.val_main_v31 (F := F) (W main_arg1) (W main_arg2) := by
  host_results
  rfl

/-- The constant 1024 the first stretch ends with is the reference's. -/
theorem read_c5 (W : Valuation τ sig (Elt F)) :
    (StableHlo.after (hostOps0 (F := F)) W main_c_5 : S_.Idx → Elt F .i32)
      = Cert.ReferenceIdeal.Read.val_main_c_5 (F := F) := by
  host_results
  rfl

/-! ## The second and fourth stretches: a select of three arrays read before the stretch -/

/-- The second stretch: where the test holds the looked-up row, elsewhere the constant. -/
theorem read32_step (W : Valuation τ sig (Elt F)) :
    (StableHlo.after (hostOps0_1 (F := F)) W main_v32 : S6400000.Idx → Elt F .i32)
      = select (W main_v31 : IVec S6400000 1) (W main_v29 : IVec S6400000 32)
          (broadcastInDim S6400000 ![] Facts₀.bcast_S_S6400000 (W main_c_5 : IVec S_ 32)) := by
  host_results
  rfl

/-- The fourth stretch: the same for the second target row. -/
theorem read68_step (W : Valuation τ sig (Elt F)) :
    (StableHlo.after (hostOps0_3 (F := F)) W main_v68 : S6400000.Idx → Elt F .i32)
      = select (W main_v67 : IVec S6400000 1) (W main_v65 : IVec S6400000 32)
          (broadcastInDim S6400000 ![] Facts₀.bcast_S_S6400000 (W main_c_17 : IVec S_ 32)) := by
  host_results
  rfl

/-! ## The third stretch: the first array of pairs, and the second target row's lookup -/

set_option maxHeartbeats 4000000 in
/-- The first array of pairs, over the row and column arrays before the stretch: the rows normalised against 1025,
    the columns against 100224, joined as two columns. -/
theorem read46 (W : Valuation τ sig (Elt F)) :
    (StableHlo.after (hostOps0_2 (F := F)) W main_v46 : S6400000x2.Idx → Elt F .i32)
      = cat2 S6400000x2 1 S6400000x1 S6400000x1 Facts₀.concatenates_S6400000x1_S6400000x1_S6400000x2_d1
          (broadcastInDim S6400000x1 ![0] Facts₀.bcast_S6400000_S6400000x1_0
            (select (cmpi .slt (W main_v32 : IVec S6400000 32) (broadcastInDim S6400000 ![] Facts₀.bcast_S_S6400000 (constantI S_ 32 0#32)))
              (addi (W main_v32 : IVec S6400000 32) (broadcastInDim S6400000 ![] Facts₀.bcast_S_S6400000 (constantI S_ 32 1025#32)))
              (W main_v32 : IVec S6400000 32)))
          (broadcastInDim S6400000x1 ![0] Facts₀.bcast_S6400000_S6400000x1_0
            (select (cmpi .slt (W main_v13 : IVec S6400000 32) (broadcastInDim S6400000 ![] Facts₀.bcast_S_S6400000 (constantI S_ 32 0#32)))
              (addi (W main_v13 : IVec S6400000 32) (broadcastInDim S6400000 ![] Facts₀.bcast_S_S6400000 (constantI S_ 32 100224#32)))
              (W main_v13 : IVec S6400000 32))) := by
  host_results

set_option maxHeartbeats 4000000 in
/-- The second target row's table looked up at the source array is the reference's, once the second target row and
    the source array before the stretch are. -/
theorem read65 (W : Valuation τ sig (Elt F)) (x1 : IVec Cert.ReferenceIdeal.S2x3200000 32) (x2 : IVec Cert.ReferenceIdeal.S2x1024 32)
    (h3 : (W main_v3 : S1024.Idx → Elt F .i32) = Cert.ReferenceIdeal.Read.val_main_v3 (F := F) x2)
    (h8 : (W main_v8 : S6400000.Idx → Elt F .i32) = Cert.ReferenceIdeal.Read.val_main_v8 (F := F) x1) :
    (StableHlo.after (hostOps0_2 (F := F)) W main_v65 : S6400000.Idx → Elt F .i32)
      = Cert.ReferenceIdeal.Read.val_main_v65 (F := F) x1 x2 := by
  host_results
  rw [h3, h8]
  rfl

set_option maxHeartbeats 4000000 in
/-- Its test against zero is the reference's. -/
theorem read67 (W : Valuation τ sig (Elt F)) (x1 : IVec Cert.ReferenceIdeal.S2x3200000 32) (x2 : IVec Cert.ReferenceIdeal.S2x1024 32)
    (h3 : (W main_v3 : S1024.Idx → Elt F .i32) = Cert.ReferenceIdeal.Read.val_main_v3 (F := F) x2)
    (h8 : (W main_v8 : S6400000.Idx → Elt F .i32) = Cert.ReferenceIdeal.Read.val_main_v8 (F := F) x1) :
    (StableHlo.after (hostOps0_2 (F := F)) W main_v67 : S6400000.Idx → Elt F .i1)
      = Cert.ReferenceIdeal.Read.val_main_v67 (F := F) x1 x2 := by
  host_results
  rw [h3, h8]
  rfl

set_option maxHeartbeats 4000000 in
/-- The constant 1024 the third stretch ends with is the reference's. -/
theorem read_c17 (W : Valuation τ sig (Elt F)) :
    (StableHlo.after (hostOps0_2 (F := F)) W main_c_17 : S_.Idx → Elt F .i32)
      = Cert.ReferenceIdeal.Read.val_main_c_17 (F := F) := by
  host_results
  rfl

/-! ## The fifth stretch: the second array of pairs -/

set_option maxHeartbeats 4000000 in
/-- The second array of pairs, over the row and column arrays before the stretch. -/
theorem read82 (W : Valuation τ sig (Elt F)) :
    (StableHlo.after (hostOps0_4 (F := F)) W main_v82 : S6400000x2.Idx → Elt F .i32)
      = cat2 S6400000x2 1 S6400000x1 S6400000x1 Facts₀.concatenates_S6400000x1_S6400000x1_S6400000x2_d1
          (broadcastInDim S6400000x1 ![0] Facts₀.bcast_S6400000_S6400000x1_0
            (select (cmpi .slt (W main_v68 : IVec S6400000 32) (broadcastInDim S6400000 ![] Facts₀.bcast_S_S6400000 (constantI S_ 32 0#32)))
              (addi (W main_v68 : IVec S6400000 32) (broadcastInDim S6400000 ![] Facts₀.bcast_S_S6400000 (constantI S_ 32 1025#32)))
              (W main_v68 : IVec S6400000 32)))
          (broadcastInDim S6400000x1 ![0] Facts₀.bcast_S6400000_S6400000x1_0
            (select (cmpi .slt (W main_v13 : IVec S6400000 32) (broadcastInDim S6400000 ![] Facts₀.bcast_S_S6400000 (constantI S_ 32 0#32)))
              (addi (W main_v13 : IVec S6400000 32) (broadcastInDim S6400000 ![] Facts₀.bcast_S_S6400000 (constantI S_ 32 100224#32)))
              (W main_v13 : IVec S6400000 32))) := by
  host_results

/-! ## The column array is nonnegative, so its normalisation does nothing -/

/-- A property of every entry of two arrays of 3200000 entries holds of every entry of their join. -/
theorem cat_halves_all (P : BitVec 32 → Prop) (x₁ x₂ : Cert.ReferenceIdeal.S3200000.Idx → BitVec 32)
    (h1 : ∀ k, P (x₁ k)) (h2 : ∀ k, P (x₂ k)) (i : Cert.ReferenceIdeal.S6400000.Idx) :
    P (concatenate Cert.ReferenceIdeal.S6400000 0 [⟨Cert.ReferenceIdeal.S3200000, x₁⟩, ⟨Cert.ReferenceIdeal.S3200000, x₂⟩]
      Cert.ReferenceIdeal.Facts₀.concatenates_S3200000_S3200000_S6400000_d0 i) := by
  obtain ⟨p, rfl⟩ : ∃ p : Fin 6400000, i = ValueIdx.ix1 p := ⟨i 0, ValueIdx.eq_ix1 i⟩
  by_cases hp : p.val < 3200000
  · rw [concatenate_pair_apply_left (0 : Fin 1) x₁ x₂ Cert.ReferenceIdeal.Facts₀.concatenates_S3200000_S3200000_S6400000_d0
      (ValueIdx.ix1 p) rfl (ValueIdx.ix1 (⟨p.val, hp⟩ : Fin 3200000)) (fun b => by match b with | ⟨0, _⟩ => rfl)]
    exact h1 _
  · rw [concatenate_pair_apply_right (0 : Fin 1) x₁ x₂ Cert.ReferenceIdeal.Facts₀.concatenates_S3200000_S3200000_S6400000_d0
      (ValueIdx.ix1 p) rfl rfl (ValueIdx.ix1 (⟨p.val - 3200000, by omega⟩ : Fin 3200000))
      (fun b hb => by match b with | ⟨0, _⟩ => exact absurd rfl hb)
      (by show (p.val - 3200000) + 3200000 = p.val; omega)]
    exact h2 _

/-- Every entry of the column array is an entry of the edge index: nonnegative when those are. -/
theorem v13_nonneg (ei : IVec Cert.ReferenceIdeal.S2x3200000 32) (hnn : ∀ i, 0 ≤ (ei i).toInt)
    (i : Cert.ReferenceIdeal.S6400000.Idx) :
    0 ≤ ((Cert.ReferenceIdeal.Read.val_main_v13 (F := F) ei : IVec Cert.ReferenceIdeal.S6400000 32) i).toInt := by
  unfold Cert.ReferenceIdeal.Read.val_main_v13
  exact cat_halves_all (fun w => 0 ≤ w.toInt) _ _ (fun k => hnn _) (fun k => hnn _) i

/-- The negative-index normalisation of a nonnegative array of signed words, against any constant, is the array. -/
theorem wrap_of_nonneg (d k : IVec S6400000 32) (hd : ∀ i, 0 ≤ (d i).toInt) :
    select (cmpi .slt d (broadcastInDim S6400000 ![] Facts₀.bcast_S_S6400000 (constantI S_ 32 0#32))) (addi d k) d = d :=
  funext fun i => Cert.GatherScatter.wrapIndex_apply d _ k i rfl (hd i)

/-! ## At region 0's entry -/

variable (m : (ℓ : Loc nD τ sig) → Buf (Elt F) ℓ)

/-- The column array is the reference's from the first stretch on. -/
theorem V1_v13 (c : Dev nD) :
    (V1 m c main_v13 : S6400000.Idx → Elt F .i32)
      = Cert.ReferenceIdeal.Read.val_main_v13 (F := F) (m ((c : Thread nD τ).loc main_arg1)) :=
  read13 (V0 m c)

/-- The first target row's looked-up rows after the second stretch are the reference's. -/
theorem V2_v32 (c : Dev nD) :
    (V2 m c main_v32 : S6400000.Idx → Elt F .i32)
      = Cert.ReferenceIdeal.Read.val_main_v32 (F := F) (m ((c : Thread nD τ).loc main_arg1)) (m ((c : Thread nD τ).loc main_arg2)) := by
  have e := read32_step (V1 m c)
  rw [show (V1 m c main_v31 : S6400000.Idx → Elt F .i1) = _ from read31 (V0 m c),
    show (V1 m c main_v29 : S6400000.Idx → Elt F .i32) = _ from read29 (V0 m c),
    show (V1 m c main_c_5 : S_.Idx → Elt F .i32) = _ from read_c5 (V0 m c)] at e
  exact e.trans rfl

/-- The second target row's looked-up rows after the fourth stretch are the reference's. -/
theorem V4_v68 (c : Dev nD) :
    (V4 m c main_v68 : S6400000.Idx → Elt F .i32)
      = Cert.ReferenceIdeal.Read.val_main_v68 (F := F) (m ((c : Thread nD τ).loc main_arg1)) (m ((c : Thread nD τ).loc main_arg2)) := by
  have h3 : (V2 m c main_v3 : S1024.Idx → Elt F .i32)
      = Cert.ReferenceIdeal.Read.val_main_v3 (F := F) (m ((c : Thread nD τ).loc main_arg2)) :=
    (V2_of m c main_v3 (by decide)).trans (read3 (V0 m c))
  have h8 : (V2 m c main_v8 : S6400000.Idx → Elt F .i32)
      = Cert.ReferenceIdeal.Read.val_main_v8 (F := F) (m ((c : Thread nD τ).loc main_arg1)) :=
    (V2_of m c main_v8 (by decide)).trans (read8 (V0 m c))
  have e := read68_step (V3 m c)
  rw [show (V3 m c main_v67 : S6400000.Idx → Elt F .i1) = _ from read67 (V2 m c) _ _ h3 h8,
    show (V3 m c main_v65 : S6400000.Idx → Elt F .i32) = _ from read65 (V2 m c) _ _ h3 h8,
    show (V3 m c main_c_17 : S_.Idx → Elt F .i32) = _ from read_c17 (V2 m c)] at e
  exact e.trans rfl

/-- THE FIRST ARRAY OF PAIRS at region 0's entry is the reference's, when every entry of the edge index is
    nonnegative. -/
theorem kidx_i_of_nonneg (c : Dev nD)
    (hnn : ∀ i, 0 ≤ ((m ((c : Thread nD τ).loc main_arg1) : S2x3200000.Idx → BitVec 32) i).toInt) :
    (V6 m c main_v46 : S6400000x2.Idx → Elt F .i32)
      = Cert.ReferenceIdeal.Read.val_main_v46 (F := F) (m ((c : Thread nD τ).loc main_arg1)) (m ((c : Thread nD τ).loc main_arg2)) := by
  have e13 : (V2 m c main_v13 : S6400000.Idx → Elt F .i32)
      = Cert.ReferenceIdeal.Read.val_main_v13 (F := F) (m ((c : Thread nD τ).loc main_arg1)) :=
    (V2_of m c main_v13 (by decide)).trans (V1_v13 m c)
  have hd := v13_nonneg (F := F) (m ((c : Thread nD τ).loc main_arg1)) hnn
  have e46 := read46 (V2 m c)
  rw [V2_v32 m c, e13, wrap_of_nonneg _ _ hd] at e46
  have e43 : Cert.ReferenceIdeal.Read.val_main_v43 (F := F) (m ((c : Thread nD τ).loc main_arg1))
      = Cert.ReferenceIdeal.Read.val_main_v13 (F := F) (m ((c : Thread nD τ).loc main_arg1)) := by
    unfold Cert.ReferenceIdeal.Read.val_main_v43 Cert.ReferenceIdeal.Read.val_main_v40 Cert.ReferenceIdeal.Read.val_main_v42
    exact wrap_of_nonneg _ _ hd
  refine ((V6_of m c main_v46 (by decide)).trans ((V5_of m c main_v46 (by decide)).trans (V4_of m c main_v46 (by decide)))).trans
    (e46.trans ?_)
  unfold Cert.ReferenceIdeal.Read.val_main_v46 Cert.ReferenceIdeal.Read.val_main_v45 Cert.ReferenceIdeal.Read.val_main_v44
  rw [e43]
  rfl

/-- THE SECOND ARRAY OF PAIRS at region 0's entry is the reference's, when every entry of the edge index is
    nonnegative. -/
theorem kidx_j_of_nonneg (c : Dev nD)
    (hnn : ∀ i, 0 ≤ ((m ((c : Thread nD τ).loc main_arg1) : S2x3200000.Idx → BitVec 32) i).toInt) :
    (V6 m c main_v82 : S6400000x2.Idx → Elt F .i32)
      = Cert.ReferenceIdeal.Read.val_main_v82 (F := F) (m ((c : Thread nD τ).loc main_arg1)) (m ((c : Thread nD τ).loc main_arg2)) := by
  have e13 : (V4 m c main_v13 : S6400000.Idx → Elt F .i32)
      = Cert.ReferenceIdeal.Read.val_main_v13 (F := F) (m ((c : Thread nD τ).loc main_arg1)) :=
    (V4_of m c main_v13 (by decide)).trans ((V3_of m c main_v13 (by decide)).trans ((V2_of m c main_v13 (by decide)).trans (V1_v13 m c)))
  have hd := v13_nonneg (F := F) (m ((c : Thread nD τ).loc main_arg1)) hnn
  have e82 := read82 (V4 m c)
  rw [V4_v68 m c, e13, wrap_of_nonneg _ _ hd] at e82
  have e79 : Cert.ReferenceIdeal.Read.val_main_v79 (F := F) (m ((c : Thread nD τ).loc main_arg1))
      = Cert.ReferenceIdeal.Read.val_main_v13 (F := F) (m ((c : Thread nD τ).loc main_arg1)) := by
    unfold Cert.ReferenceIdeal.Read.val_main_v79 Cert.ReferenceIdeal.Read.val_main_v76 Cert.ReferenceIdeal.Read.val_main_v78
    exact wrap_of_nonneg _ _ hd
  refine (V6_of m c main_v82 (by decide)).trans (e82.trans ?_)
  unfold Cert.ReferenceIdeal.Read.val_main_v82 Cert.ReferenceIdeal.Read.val_main_v81 Cert.ReferenceIdeal.Read.val_main_v80
  rw [e79]
  rfl

end Cert.Bridge

end
-- ==== Proof.Bridge.KIdxPre.lean ====
/-
  The kernel program's scatter index arrays and update arrays at region 0's entry are the reference's, under the
  precondition: the precondition makes every entry of the edge index nonnegative, which is what the equality of the
  index arrays needs; the update arrays are all ones in both programs.
-/
import proofs.«126571_j77292231459355_1_alg».proof.Proof.Bridge.KIdx
import proofs.«126571_j77292231459355_1_alg».proof.Proof.Bridge.KHost
import proofs.«126571_j77292231459355_1_alg».proof.Proof.Bridge.PreNonneg

set_option maxRecDepth 16384

noncomputable section

namespace Cert.Bridge

open Idealize.ShloMosaic Idealize.ShloMosaic.TcCoe Idealize.SL.Sem
open Cert.KernelIdeal Cert.KernelIdeal.Gen

variable {m : (ℓ : Loc nD τ sig) → Buf (Elt Ideal) ℓ}

/-- THE FIRST SCATTER'S INDEX ARRAY at region 0's entry is the reference's. -/
theorem kidx_i (hpre : Cert.Pre_KernelIdeal m) (c : Dev nD) :
    (V6 m c main_v46 : S6400000x2.Idx → Elt Ideal .i32)
      = Cert.ReferenceIdeal.Read.val_main_v46 (F := Ideal) (m ((c : Thread nD τ).loc main_arg1)) (m ((c : Thread nD τ).loc main_arg2)) :=
  kidx_i_of_nonneg m c (ei_nonneg hpre c)

/-- THE SECOND SCATTER'S INDEX ARRAY at region 0's entry is the reference's. -/
theorem kidx_j (hpre : Cert.Pre_KernelIdeal m) (c : Dev nD) :
    (V6 m c main_v82 : S6400000x2.Idx → Elt Ideal .i32)
      = Cert.ReferenceIdeal.Read.val_main_v82 (F := Ideal) (m ((c : Thread nD τ).loc main_arg1)) (m ((c : Thread nD τ).loc main_arg2)) :=
  kidx_j_of_nonneg m c (ei_nonneg hpre c)

/-- The first scatter's update array at region 0's entry is the reference's: all ones. -/
theorem kupd_i (m : (ℓ : Loc nD τ sig) → Buf (Elt Ideal) ℓ) (c : Dev nD) :
    (V6 m c main_v47 : S6400000.Idx → Elt Ideal .f32) = Cert.ReferenceIdeal.Read.val_main_v47 (F := Ideal) :=
  (kv47 m c).trans rfl

/-- The second scatter's update array at region 0's entry is the reference's: all ones. -/
theorem kupd_j (m : (ℓ : Loc nD τ sig) → Buf (Elt Ideal) ℓ) (c : Dev nD) :
    (V6 m c main_v83 : S6400000.Idx → Elt Ideal .f32) = Cert.ReferenceIdeal.Read.val_main_v83 (F := Ideal) :=
  (kv83 m c).trans rfl

end Cert.Bridge

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Bridge.KPay.lean ====
/-
  The second kernel region's payload at an entry.

  The region computes, on whole arrays, a two-layer perceptron of the two feature arrays `x0`, `x1` (1024 rows
  of 128): the first layer multiplies `x0` by the upper and `x1` by the lower 128 rows of the weights, adds the
  two products and the bias row, and replaces every entry `y` by `max y 0`; the second layer multiplies by the
  512 × 1 weights and adds the one-entry bias. A change of float format is the identity on the extended reals,
  and a matrix product into a zero accumulator is the sum over the contracted axis, so row `r` of the result is
  the textbook expression below.
-/
import proofs.«126571_j77292231459355_1_alg».proof.Proof.Gen.KernelIdeal.Skeleton
import proofs.«126571_j77292231459355_1_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal Cert.KernelIdeal.Gen

/-- The first layer's product at `(r, h)`: the sum over the 128 features. -/
theorem mm1_apply {φ₁ φ₂ : FTy} (a : FVec Ideal S1024x128 φ₁) (b : FVec Ideal S128x512 φ₂) (r : Fin 1024) (h : Fin 512) :
    matmul dot_S1024x128_S128x512_S1024x512_1_0_0_1_n_n none a b (constant S1024x512 .f32 0x00000000#32) (ix2 r h)
      = ∑ k : Fin 128, a (ix2 r k) * b (ix2 k h) :=
  PlainDot.matmul_zero_apply 1024 128 512 none a b r h

/-- The second layer's product at `(r, 0)`: the sum over the 512 hidden units. -/
theorem mm2_apply {φ₁ φ₂ : FTy} (a : FVec Ideal S1024x512 φ₁) (b : FVec Ideal S512x1 φ₂) (r : Fin 1024) :
    matmul dot_S1024x512_S512x1_S1024x1_1_0_0_1_n_n none a b (constant S1024x1 .f32 0x00000000#32) (ix2 r (0 : Fin 1))
      = ∑ k : Fin 512, a (ix2 r k) * b (ix2 k (0 : Fin 1)) :=
  PlainDot.matmul_zero_apply 1024 512 1 none a b r 0

/-- Row `r` of the region's result. -/
theorem k1_pay1_apply (x0 x1 : Vec Ideal S1024x128 .f32) (w1t w1b : Vec Ideal S128x512 .f32) (b1r : Vec Ideal S1x512 .f32)
    (w2 : Vec Ideal S512x1 .f32) (b2r : Vec Ideal S1x1 .f32) (r : Fin 1024) :
    k1_pay1 (F := Ideal) x0 x1 w1t w1b b1r w2 b2r (ix2 r (0 : Fin 1)) =
      (∑ h : Fin 512,
          max ((∑ k : Fin 128, x0 (ix2 r k) * w1t (ix2 k h)) + (∑ k : Fin 128, x1 (ix2 r k) * w1b (ix2 k h))
              + b1r (ix2 (0 : Fin 1) h)) 0
            * w2 (ix2 h (0 : Fin 1)))
        + b2r (ix2 (0 : Fin 1) (0 : Fin 1)) := by
  unfold k1_pay1
  simp only [shapeCast_self]
  rw [addf_apply, mm2_apply, broadcastTo_1b_ab_apply]
  refine congrArg (· + b2r (ix2 (0 : Fin 1) (0 : Fin 1))) (Finset.sum_congr rfl fun h _ => ?_)
  rw [truncf_apply, truncf_apply, maximumf_apply, addf_apply, addf_apply, mm1_apply, mm1_apply, broadcastTo_1b_ab_apply,
    broadcast_apply]
  simp only [truncf_apply]
  show max _ (Ideal.ofBits .f32 0x00000000#32) * _ = _
  rw [Ideal.ofBits_zero_f32]

/-- Entry `r` of the kernel's result from the arguments: the weights of the first layer enter through their upper
    and lower 128 rows, the biases through their one-row views, and the [1024, 1] result is viewed as a vector. -/
theorem k1_out_apply (x0 x1 : Vec Ideal S1024x128 .f32) (W1 : Vec Ideal S256x512 .f32) (b1 : Vec Ideal S512 .f32)
    (W2 : Vec Ideal S512x1 .f32) (b2 : Vec Ideal S1 .f32) (r : Fin 1024) :
    shapeCast S1024 (k1_pay1 (F := Ideal) x0 x1
        (extractStridedSlice S128x512 ![0, 0] W1 slices_S256x512_S128x512_0_0)
        (extractStridedSlice S128x512 ![128, 0] W1 slices_S256x512_S128x512_128_0)
        (shapeCast S1x512 b1 shapeCasts_S512_S1x512) W2 (shapeCast S1x1 b2 shapeCasts_S1_S1x1))
      shapeCasts_S1024x1_S1024 (ix1 r) =
      (∑ h : Fin 512,
          max ((∑ k : Fin 128, x0 (ix2 r k) * W1 (ix2 (⟨k.val, by omega⟩ : Fin 256) h))
              + (∑ k : Fin 128, x1 (ix2 r k) * W1 (ix2 (⟨128 + k.val, by omega⟩ : Fin 256) h))
              + b1 (ix1 h)) 0
            * W2 (ix2 h (0 : Fin 1)))
        + b2 (ix1 (0 : Fin 1)) := by
  refine (shapeCast_apply _ shapeCasts_S1024x1_S1024 (ix1 r) (ix2 r (0 : Fin 1)) (by
    rw [Shape.rowMajor_val_two, Shape.rowMajor_val_one]
    show r.val * 1 + 0 = r.val
    omega)).trans ?_
  rw [k1_pay1_apply, shapeCast_a_1a_apply]
  refine congrArg (· + b2 (ix1 (0 : Fin 1))) (Finset.sum_congr rfl fun h _ => ?_)
  rw [shapeCast_a_1a_apply]
  refine congrArg (fun t => max (t + b1 (ix1 h)) 0 * W2 (ix2 h (0 : Fin 1))) ?_
  refine congrArg₂ (· + ·) (Finset.sum_congr rfl fun k _ => ?_) (Finset.sum_congr rfl fun k _ => ?_)
  · rw [slice2_axis0_apply 0 W1 slices_S256x512_S128x512_0_0 k h ⟨k.val, by omega⟩ (by show k.val = 0 + k.val; omega)]
  · rw [slice2_axis0_apply 128 W1 slices_S256x512_S128x512_128_0 k h ⟨128 + k.val, by omega⟩ rfl]

end Cert.Bridge

end
-- ==== Proof.Bridge.RefMlp.lean ====
/-
  The reference's result at an entry.

  The reference joins the pair features and the common-neighbour features side by side into 1024 rows of 256,
  multiplies by the 256 × 512 weights, adds the bias, replaces every entry `y` by `max y 0`, multiplies by the
  512 × 1 weights, adds the bias and views the [1024, 1] result as a vector. Column `k` of the joined array is
  column `k` of the first piece for `k < 128` and column `k - 128` of the second otherwise, so the sum over the
  256 columns is the sum over the first piece against the upper 128 rows of the weights plus the sum over the
  second against the lower 128 rows.
-/
import proofs.«126571_j77292231459355_1_alg».proof.Proof.RefReadP
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal Cert.ReferenceIdeal.Gen

/-- Two arrays of 1024 rows of 128 joined side by side: a column below 128 reads the first. -/
theorem cat_left (a b : (⟨S1024x128, .f32⟩ : BufTy).Contents (Elt Ideal)) (r : Fin 1024) (k : Fin 128) (j : Fin 256)
    (hj : j.val = k.val) :
    concatenate S1024x256 1 [⟨S1024x128, a⟩, ⟨S1024x128, b⟩] concatenates_S1024x128_S1024x128_S1024x256_d1 (ix2 r j)
      = a (ix2 r k) :=
  concatenate_pair_apply_left 1 a b concatenates_S1024x128_S1024x128_S1024x256_d1 (ix2 r j) rfl (ix2 r k) (fun c => by
    match c with
    | ⟨0, _⟩ => rfl
    | ⟨1, _⟩ => exact hj.symm)

/-- A column from 128 on reads the second, 128 columns to the left. -/
theorem cat_right (a b : (⟨S1024x128, .f32⟩ : BufTy).Contents (Elt Ideal)) (r : Fin 1024) (k : Fin 128) (j : Fin 256)
    (hj : j.val = 128 + k.val) :
    concatenate S1024x256 1 [⟨S1024x128, a⟩, ⟨S1024x128, b⟩] concatenates_S1024x128_S1024x128_S1024x256_d1 (ix2 r j)
      = b (ix2 r k) :=
  concatenate_pair_apply_right 1 a b concatenates_S1024x128_S1024x128_S1024x256_d1 (ix2 r j) rfl rfl (ix2 r k)
    (fun c hc => by
      match c with
      | ⟨0, _⟩ => rfl
      | ⟨1, _⟩ => exact absurd rfl hc)
    (by show k.val + 128 = j.val; omega)

/-- Entry `r` of the reference's result. -/
theorem ref_out_apply (x : (⟨S100000x128, .f32⟩ : BufTy).Contents (Elt Ideal)) (ei : (⟨S2x3200000, .i32⟩ : BufTy).Contents (Elt Ideal))
    (tar : (⟨S2x1024, .i32⟩ : BufTy).Contents (Elt Ideal)) (W1 : (⟨S256x512, .f32⟩ : BufTy).Contents (Elt Ideal))
    (b1 : (⟨S512, .f32⟩ : BufTy).Contents (Elt Ideal)) (W2 : (⟨S512x1, .f32⟩ : BufTy).Contents (Elt Ideal))
    (b2 : (⟨S1, .f32⟩ : BufTy).Contents (Elt Ideal)) (r : Fin 1024) :
    Read.val_main_v113 (F := Ideal) x ei tar W1 b1 W2 b2 (ix1 r) =
      (∑ h : Fin 512,
          max ((∑ k : Fin 128, Read.val_main_v102 (F := Ideal) x tar (ix2 r k) * W1 (ix2 (⟨k.val, by omega⟩ : Fin 256) h))
              + (∑ k : Fin 128, Read.val_main_v87 (F := Ideal) x ei tar (ix2 r k) * W1 (ix2 (⟨128 + k.val, by omega⟩ : Fin 256) h))
              + b1 (ix1 h)) 0
            * W2 (ix2 h (0 : Fin 1)))
        + b2 (ix1 (0 : Fin 1)) := by
  have e113 : Read.idx_main_v113 (ix1 r) = ix2 r (0 : Fin 1) := funext fun a => Fin.ext (by
    match a with
    | ⟨0, _⟩ => exact Nat.div_one _
    | ⟨1, _⟩ => rfl)
  have e110 : Read.idx_main_v110 (Read.idx_main_v111 (ix2 r (0 : Fin 1))) = ix1 (0 : Fin 1) := funext fun a => Fin.ext (by
    match a with
    | ⟨0, _⟩ => rfl)
  rw [Read.val_main_v113_apply, e113, Read.val_main_v112_apply, Read.val_main_v111_apply, Read.val_main_v110_apply, e110,
    Read.val_main_v109_apply]
  show (∑ h : Fin 512, _) + _ = _
  refine congrArg (· + b2 (ix1 (0 : Fin 1))) (Finset.sum_congr rfl fun h _ => ?_)
  have el9 : Read.lidx_main_v109 (ix2 r (0 : Fin 1)) h = ix2 r h := funext fun a => Fin.ext (by
    match a with
    | ⟨0, _⟩ => rfl
    | ⟨1, _⟩ => rfl)
  have er9 : Read.ridx_main_v109 (ix2 r (0 : Fin 1)) h = ix2 h (0 : Fin 1) := funext fun a => Fin.ext (by
    match a with
    | ⟨0, _⟩ => rfl
    | ⟨1, _⟩ => rfl)
  have e105 : Read.idx_main_v105 (Read.idx_main_v106 (ix2 r h)) = ix1 h := funext fun a => Fin.ext (by
    match a with
    | ⟨0, _⟩ => rfl)
  rw [el9, er9, Read.val_main_v108_apply, Read.val_main_call2_v0_apply, Read.val_main_call2_cst_apply, Read.val_main_v107_apply,
    Read.val_main_v106_apply, Read.val_main_v105_apply, e105, Read.val_main_v104_apply]
  show max (_ + _) (Ideal.ofBits .f32 0x00000000#32) * _ = _
  rw [Ideal.ofBits_zero_f32]
  refine congrArg (fun t => max (t + b1 (ix1 h)) 0 * W2 (ix2 h (0 : Fin 1))) ?_
  show (∑ k : Fin (128 + 128), _) = _
  rw [Fin.sum_univ_add]
  refine congrArg₂ (· + ·) (Finset.sum_congr rfl fun k _ => ?_) (Finset.sum_congr rfl fun k _ => ?_)
  · have el : Read.lidx_main_v104 (ix2 r h) (Fin.castAdd 128 k) = ix2 r (⟨k.val, by omega⟩ : Fin 256) := funext fun a => Fin.ext (by
      match a with
      | ⟨0, _⟩ => rfl
      | ⟨1, _⟩ => rfl)
    have er : Read.ridx_main_v104 (ix2 r h) (Fin.castAdd 128 k) = ix2 (⟨k.val, by omega⟩ : Fin 256) h := funext fun a => Fin.ext (by
      match a with
      | ⟨0, _⟩ => rfl
      | ⟨1, _⟩ => rfl)
    rw [el, er]
    unfold Read.val_main_v103
    rw [cat_left _ _ r k ⟨k.val, by omega⟩ rfl]
  · have el : Read.lidx_main_v104 (ix2 r h) (Fin.natAdd 128 k) = ix2 r (⟨128 + k.val, by omega⟩ : Fin 256) := funext fun a => Fin.ext (by
      match a with
      | ⟨0, _⟩ => rfl
      | ⟨1, _⟩ => rfl)
    have er : Read.ridx_main_v104 (ix2 r h) (Fin.natAdd 128 k) = ix2 (⟨128 + k.val, by omega⟩ : Fin 256) h := funext fun a => Fin.ext (by
      match a with
      | ⟨0, _⟩ => rfl
      | ⟨1, _⟩ => rfl)
    rw [el, er]
    unfold Read.val_main_v103
    rw [cat_right _ _ r k ⟨128 + k.val, by omega⟩ rfl]

end Cert.Bridge

end
-- ==== Proof.Bridge.Mlp.lean ====
/-
  From "the common-neighbour features agree" to "the results agree".

  Both programs apply the same two-layer perceptron to the pair features and the common-neighbour features: the
  kernel as the product of the first with the upper 128 rows of the weights plus the product of the second with
  the lower 128 rows, the reference as one product of the two arrays joined side by side with all 256 rows. Entry
  by entry the two are the same expression over the extended reals, so the results agree wherever the
  common-neighbour features do. The pair features are the same operations with the same constants in both
  programs.
-/
import proofs.«126571_j77292231459355_1_alg».proof.Proof.Bridge.KTail
import proofs.«126571_j77292231459355_1_alg».proof.Proof.Bridge.KPay
import proofs.«126571_j77292231459355_1_alg».proof.Proof.Bridge.RefMlp

set_option maxRecDepth 16384

noncomputable section

namespace Cert.Bridge

open Idealize.ShloMosaic Idealize.ShloMosaic.ValueIdx

/-- The kernel's pair features of the two target-node vectors are the reference's: the same row lookups with
    the same wrap of a negative row number, multiplied entry by entry. -/
theorem pairFeat_eq {F : FTy → Type} [FloatOps F]
    (x : (⟨Cert.ReferenceIdeal.S100000x128, .f32⟩ : BufTy).Contents (Elt F))
    (tar : (⟨Cert.ReferenceIdeal.S2x1024, .i32⟩ : BufTy).Contents (Elt F)) :
    pairFeat x (Cert.ReferenceIdeal.Read.val_main_v1 (F := F) tar) (Cert.ReferenceIdeal.Read.val_main_v3 (F := F) tar)
      = Cert.ReferenceIdeal.Read.val_main_v102 (F := F) x tar := by
  unfold pairFeat rowsAt wrapRows
  unfold Cert.ReferenceIdeal.Read.val_main_v102
  unfold Cert.ReferenceIdeal.Read.val_main_v94 Cert.ReferenceIdeal.Read.val_main_v101
  unfold Cert.ReferenceIdeal.Read.val_main_v93 Cert.ReferenceIdeal.Read.val_main_v100
  unfold Cert.ReferenceIdeal.Read.val_main_v92 Cert.ReferenceIdeal.Read.val_main_v99
  unfold Cert.ReferenceIdeal.Read.val_main_v89 Cert.ReferenceIdeal.Read.val_main_v91
  unfold Cert.ReferenceIdeal.Read.val_main_v96 Cert.ReferenceIdeal.Read.val_main_v98
  unfold Cert.ReferenceIdeal.Read.val_main_v88 Cert.ReferenceIdeal.Read.val_main_v90
  unfold Cert.ReferenceIdeal.Read.val_main_v95 Cert.ReferenceIdeal.Read.val_main_v97
  unfold Cert.ReferenceIdeal.Read.val_main_c_24 Cert.ReferenceIdeal.Read.val_main_c_25
  unfold Cert.ReferenceIdeal.Read.val_main_c_26 Cert.ReferenceIdeal.Read.val_main_c_27
  rfl

/-- The kernel's result, computed from the reference's pair features and from common-neighbour features that
    agree with the reference's, is the reference's result. -/
theorem mlp_bridge
    (x : (⟨Cert.ReferenceIdeal.S100000x128, .f32⟩ : BufTy).Contents (Elt Ideal))
    (ei : (⟨Cert.ReferenceIdeal.S2x3200000, .i32⟩ : BufTy).Contents (Elt Ideal))
    (tar : (⟨Cert.ReferenceIdeal.S2x1024, .i32⟩ : BufTy).Contents (Elt Ideal))
    (W1 : (⟨Cert.ReferenceIdeal.S256x512, .f32⟩ : BufTy).Contents (Elt Ideal))
    (b1 : (⟨Cert.ReferenceIdeal.S512, .f32⟩ : BufTy).Contents (Elt Ideal))
    (W2 : (⟨Cert.ReferenceIdeal.S512x1, .f32⟩ : BufTy).Contents (Elt Ideal))
    (b2 : (⟨Cert.ReferenceIdeal.S1, .f32⟩ : BufTy).Contents (Elt Ideal))
    (xcn : (⟨Cert.ReferenceIdeal.S1024x128, .f32⟩ : BufTy).Contents (Elt Ideal))
    (hxcn : ∀ (r : Fin 1024) (j : Fin 128),
      xcn (ix2 r j) = Cert.ReferenceIdeal.Read.val_main_v87 (F := Ideal) x ei tar (ix2 r j)) :
    shapeCast Cert.KernelIdeal.S1024
        (Cert.KernelIdeal.Gen.k1_pay1 (F := Ideal) (Cert.ReferenceIdeal.Read.val_main_v102 (F := Ideal) x tar) xcn
          (extractStridedSlice Cert.KernelIdeal.S128x512 ![0, 0] W1 Cert.KernelIdeal.Gen.slices_S256x512_S128x512_0_0)
          (extractStridedSlice Cert.KernelIdeal.S128x512 ![128, 0] W1 Cert.KernelIdeal.Gen.slices_S256x512_S128x512_128_0)
          (shapeCast Cert.KernelIdeal.S1x512 b1 Cert.KernelIdeal.Gen.shapeCasts_S512_S1x512) W2
          (shapeCast Cert.KernelIdeal.S1x1 b2 Cert.KernelIdeal.Gen.shapeCasts_S1_S1x1))
        Cert.KernelIdeal.Gen.shapeCasts_S1024x1_S1024
      = Cert.ReferenceIdeal.Read.val_main_v113 (F := Ideal) x ei tar W1 b1 W2 b2 := by
  funext i
  obtain ⟨r, rfl⟩ : ∃ r : Fin 1024, i = ix1 r := ⟨i 0, eq_ix1 i⟩
  rw [ref_out_apply]
  refine (k1_out_apply _ _ W1 b1 W2 b2 r).trans ?_
  refine congrArg (· + b2 (ix1 (0 : Fin 1))) (Finset.sum_congr rfl fun h _ => ?_)
  refine congrArg (fun t => max (t + b1 (ix1 h)) 0 * W2 (ix2 h (0 : Fin 1))) ?_
  refine congrArg (fun t => (∑ k : Fin 128, Cert.ReferenceIdeal.Read.val_main_v102 (F := Ideal) x tar (ix2 r k)
    * W1 (ix2 (⟨k.val, by omega⟩ : Fin 256) h)) + t) ?_
  exact Finset.sum_congr rfl fun k _ => by rw [hxcn r k]

end Cert.Bridge

end
-- ==== Proof.Bridge.ScatterWidth.lean ====
/-
  A scatter of single elements into a matrix: update `e` goes to the operand entry whose row and column are the
  two signed words `idx[e, 0]`, `idx[e, 1]`, and an update whose row or column is outside the operand is dropped.

  Where an update lands does not depend on how wide the operand is, as long as the entry asked about is inside it:
  update `e` lands on `(r, n)` exactly when `idx[e, 0]` reads `r` and `idx[e, 1]` reads `n`. So a scatter-add of
  the same updates at the same indices into a zero matrix of 100224 columns and into one of 100000 columns agree at
  every entry whose column is below 100000.
-/
import proofs.«126571_j77292231459355_1_alg».proof.KernelIdeal
import proofs.«126571_j77292231459355_1_alg».proof.ReferenceIdeal
import Idealize.ShloMosaic.PureOps.Ideal
import Idealize.ShloMosaic.Lib.ValueIdx

set_option maxRecDepth 16384

noncomputable section

open scoped BigOperators

namespace Cert.Bridge

open Idealize.ShloMosaic Idealize.ShloMosaic.ValueIdx

/-! ## A scatter of single elements into a matrix, at any extents -/

/-- The dimension numbers of a scatter of single elements into a matrix `[R, C]`: update `e` goes to the entry
    `(idx[e, 0], idx[e, 1])`. Both operand axes are inserted, so there are no window axes. -/
abbrev pointScatterDims (R C E : Nat) (wf : ScatterDims.WF ⟨2, ![R, C]⟩ ⟨2, ![E, 2]⟩ ⟨1, ![E]⟩ [] [0, 1] [0, 1] 1) :
    ScatterDims ⟨2, ![R, C]⟩ ⟨2, ![E, 2]⟩ ⟨1, ![E]⟩ where
  updateWindowDims := []
  insertedWindowDims := [0, 1]
  scatterDimsToOperandDims := [0, 1]
  indexVectorDim := 1
  wf := wf

section PointScatter
variable {R C E w : Nat} (wf : ScatterDims.WF ⟨2, ![R, C]⟩ ⟨2, ![E, 2]⟩ ⟨1, ![E]⟩ [] [0, 1] [0, 1] 1)

/-- On the row axis update `e` starts at `idx[e, 0]`, read signed. -/
theorem pointScatter_start_row (idx : IVec ⟨2, ![E, 2]⟩ w) (e : Fin E) :
    (pointScatterDims R C E wf).start (ix1 e) idx 0 = (idx (ix2 e (0 : Fin 2))).toInt := by
  unfold ScatterDims.start
  rw [dif_pos (show (0 : Fin 2) ∈ (pointScatterDims R C E wf).scatterDimsToOperandDims from
    show (0 : Fin 2) ∈ [(0 : Fin 2), 1] by decide)]
  have hsi : (pointScatterDims R C E wf).siIdx (ix1 e) ⟨List.idxOf (0 : Fin 2) (pointScatterDims R C E wf).scatterDimsToOperandDims,
      List.idxOf_lt_length_iff.2 (show (0 : Fin 2) ∈ [(0 : Fin 2), 1] by decide)⟩ = ix2 e (0 : Fin 2) := by
    funext b; refine Fin.ext ?_
    match b with
    | ⟨0, _⟩ => rfl
    | ⟨1, _⟩ => rfl
  rw [hsi]

/-- On the column axis update `e` starts at `idx[e, 1]`, read signed. -/
theorem pointScatter_start_col (idx : IVec ⟨2, ![E, 2]⟩ w) (e : Fin E) :
    (pointScatterDims R C E wf).start (ix1 e) idx 1 = (idx (ix2 e (1 : Fin 2))).toInt := by
  unfold ScatterDims.start
  rw [dif_pos (show (1 : Fin 2) ∈ (pointScatterDims R C E wf).scatterDimsToOperandDims from
    show (1 : Fin 2) ∈ [(0 : Fin 2), 1] by decide)]
  have hsi : (pointScatterDims R C E wf).siIdx (ix1 e) ⟨List.idxOf (1 : Fin 2) (pointScatterDims R C E wf).scatterDimsToOperandDims,
      List.idxOf_lt_length_iff.2 (show (1 : Fin 2) ∈ [(0 : Fin 2), 1] by decide)⟩ = ix2 e (1 : Fin 2) := by
    funext b; refine Fin.ext ?_
    match b with
    | ⟨0, _⟩ => rfl
    | ⟨1, _⟩ => rfl
  rw [hsi]

/-- Both operand axes are inserted: the window coordinate is `0` on the row axis … -/
theorem pointScatter_window_row (e : Fin E) : (pointScatterDims R C E wf).window (ix1 e) 0 = 0 := by
  unfold ScatterDims.window
  rw [dif_neg (show (0 : Fin 2) ∉ (pointScatterDims R C E wf).sKept from
    show (0 : Fin 2) ∉ (List.finRange 2).filter (· ∉ [(0 : Fin 2), 1]) by decide)]

/-- … and on the column axis. -/
theorem pointScatter_window_col (e : Fin E) : (pointScatterDims R C E wf).window (ix1 e) 1 = 0 := by
  unfold ScatterDims.window
  rw [dif_neg (show (1 : Fin 2) ∉ (pointScatterDims R C E wf).sKept from
    show (1 : Fin 2) ∉ (List.finRange 2).filter (· ∉ [(0 : Fin 2), 1]) by decide)]

/-- WHERE AN UPDATE LANDS: update `e` lands on entry `(r, n)` exactly when its two index words, read signed and not
    clamped, are `r` and `n`. An update whose row or column is outside the operand lands nowhere. -/
theorem pointScatter_lands_iff (idx : IVec ⟨2, ![E, 2]⟩ w) (e : Fin E) (r : Fin R) (n : Fin C) :
    (pointScatterDims R C E wf).resultIdx? (ix1 e) idx = some (ix2 r n)
      ↔ (idx (ix2 e (0 : Fin 2))).toInt = (r.val : Int) ∧ (idx (ix2 e (1 : Fin 2))).toInt = (n.val : Int) := by
  have h0 := pointScatter_start_row wf idx e
  have h1 := pointScatter_start_col wf idx e
  have g0 := pointScatter_window_row (R := R) (C := C) wf e
  have g1 := pointScatter_window_col (R := R) (C := C) wf e
  unfold ScatterDims.resultIdx?
  split
  · rename_i h
    rw [Option.some.injEq]
    constructor
    · intro hf
      have e0 := congrArg (fun f => (f 0).val) hf
      have e1 := congrArg (fun f => (f 1).val) hf
      simp only [h0, g0] at e0
      simp only [h1, g1] at e1
      change _ = r.val at e0
      change _ = n.val at e1
      have hh0 := (h 0).1
      have hh1 := (h 1).1
      rw [h0, g0] at hh0
      rw [h1, g1] at hh1
      constructor <;> omega
    · rintro ⟨hr, hn⟩
      funext a
      refine Fin.ext ?_
      match a with
      | ⟨0, _⟩ =>
        show ((pointScatterDims R C E wf).start (ix1 e) idx 0 + ((pointScatterDims R C E wf).window (ix1 e) 0 : Int)).toNat = r.val
        rw [h0, g0, hr]; omega
      | ⟨1, _⟩ =>
        show ((pointScatterDims R C E wf).start (ix1 e) idx 1 + ((pointScatterDims R C E wf).window (ix1 e) 1 : Int)).toNat = n.val
        rw [h1, g1, hn]; omega
  · rename_i h
    constructor
    · intro hf; exact absurd hf (by simp)
    · rintro ⟨hr, hn⟩
      exfalso; apply h
      intro a
      match a with
      | ⟨0, _⟩ =>
        show 0 ≤ (pointScatterDims R C E wf).start (ix1 e) idx 0 + ((pointScatterDims R C E wf).window (ix1 e) 0 : Int) ∧
          (pointScatterDims R C E wf).start (ix1 e) idx 0 + ((pointScatterDims R C E wf).window (ix1 e) 0 : Int) < (R : Int)
        rw [h0, g0, hr]; have := r.isLt; omega
      | ⟨1, _⟩ =>
        show 0 ≤ (pointScatterDims R C E wf).start (ix1 e) idx 1 + ((pointScatterDims R C E wf).window (ix1 e) 1 : Int) ∧
          (pointScatterDims R C E wf).start (ix1 e) idx 1 + ((pointScatterDims R C E wf).window (ix1 e) 1 : Int) < (C : Int)
        rw [h1, g1, hn]; have := n.isLt; omega

end PointScatter

/-! ## The two scatters of this program: into 100224 columns and into 100000 columns -/

section Width
variable [Cert.KernelIdeal.Facts₀] [Cert.ReferenceIdeal.Facts₀]

/-- Update `j` lands on `(r, n)` of the wide operand exactly when it lands on `(r, n)` of the narrow one, for a
    column `n` that both have. -/
theorem resultIdx_width (idx : IVec Cert.KernelIdeal.S6400000x2 32) (r : Fin 1025) (n : Fin 100000)
    (j : Cert.KernelIdeal.S6400000.Idx) :
    Cert.KernelIdeal.scatter_S1025x100224_S6400000x2_S6400000_n_01_01_1.resultIdx? j idx
        = some (ix2 r (⟨n.val, by omega⟩ : Fin 100224) : Cert.KernelIdeal.S1025x100224.Idx)
      ↔ Cert.ReferenceIdeal.scatter_S1025x100000_S6400000x2_S6400000_n_01_01_1.resultIdx? j idx
        = some (ix2 r n : Cert.ReferenceIdeal.S1025x100000.Idx) := by
  obtain ⟨e, rfl⟩ : ∃ e, j = ix1 e := ⟨_, eq_ix1 j⟩
  exact (pointScatter_lands_iff (R := 1025) (C := 100224) (E := 6400000)
      Cert.KernelIdeal.Facts₀.scatter_S1025x100224_S6400000x2_S6400000_n_01_01_1_wf idx e r ⟨n.val, by omega⟩).trans
    (pointScatter_lands_iff (R := 1025) (C := 100000) (E := 6400000)
      Cert.ReferenceIdeal.Facts₀.scatter_S1025x100000_S6400000x2_S6400000_n_01_01_1_wf idx e r n).symm

/-- The scatter-add of the same updates at the same indices into zeros of either width: equal at every entry whose
    column is below 100000. -/
theorem scatterAdd_width (idx : IVec Cert.KernelIdeal.S6400000x2 32) (upd : Cert.KernelIdeal.S6400000.Idx → EReal)
    (r : Fin 1025) (n : Fin 100000) :
    Ideal.hostScatterAdd Cert.KernelIdeal.scatter_S1025x100224_S6400000x2_S6400000_n_01_01_1 (fun _ => 0) idx upd
        (ix2 r (⟨n.val, by omega⟩ : Fin 100224) : Cert.KernelIdeal.S1025x100224.Idx)
      = Ideal.hostScatterAdd Cert.ReferenceIdeal.scatter_S1025x100000_S6400000x2_S6400000_n_01_01_1 (fun _ => 0) idx upd
        (ix2 r n : Cert.ReferenceIdeal.S1025x100000.Idx) := by
  unfold Ideal.hostScatterAdd
  refine congrArg (fun s : EReal => (0 : EReal) + s)
    (Finset.sum_congr (Finset.filter_congr fun j _ => ?_) fun _ _ => rfl)
  exact resultIdx_width idx r n j

end Width

end Cert.Bridge

end
-- ==== Proof.Bridge.Xcn.lean ====
/-
  The common-neighbour product, kernel against reference.

  The kernel builds its two adjacency-row arrays 100224 columns wide and multiplies their entrywise product by the
  feature array padded with 224 zero rows; the reference builds them 100000 columns wide and multiplies by the
  feature array itself. Both scatter the same updates at the same indices into zeros, so the arrays agree at every
  column below 100000; the 224 further columns of the kernel's meet a zero row of the padded features, and a
  product with zero is zero for every extended real. So the kernel's sum over 100224 columns is the reference's
  contraction over 100000.
-/
import proofs.«126571_j77292231459355_1_alg».proof.Proof.Bridge.ScatterWidth
import proofs.«126571_j77292231459355_1_alg».proof.Proof.RefReadP
import Idealize.ShloMosaic.Lib.Pipeline.Value
import Idealize.ShloMosaic.PureOps.Ideal.Laws

set_option maxRecDepth 16384

noncomputable section

open scoped BigOperators

namespace Cert.Bridge

open Idealize.ShloMosaic Idealize.ShloMosaic.ValueIdx

/-! ## A sum over 100224 terms whose last 224 vanish -/

/-- A sum over `Fin 100224` whose terms from 100000 on are zero is the sum of its first 100000 terms. -/
theorem sum_pad (f : Fin 100224 → EReal) (g : Fin 100000 → EReal)
    (h1 : ∀ n : Fin 100000, f ⟨n.val, by omega⟩ = g n)
    (h2 : ∀ m : Fin 224, f ⟨100000 + m.val, by omega⟩ = 0) :
    ∑ n, f n = ∑ n, g n := by
  have hs := Fin.sum_univ_add (M := EReal) (a := 100000) (b := 224) f
  rw [hs]
  have e2 : ∑ i : Fin 224, f (Fin.natAdd 100000 i) = 0 := Finset.sum_eq_zero fun m _ => h2 m
  rw [e2, add_zero]
  exact Finset.sum_congr rfl fun n _ => h1 n

/-! ## The slices of the two scatter-adds, entry by entry -/

/-- At the ideal values the host's accumulating scatter is the exact sum: the operand plus the updates that land on
    the entry. Stated over variable shapes, so that a proof rewrites by it and never asks for the two sides to be
    compared at a program's literal extents. -/
theorem hostScatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

section
variable [Cert.KernelIdeal.Facts₀] [Cert.ReferenceIdeal.Facts₀]

/-- Rows 0 … 1023 of the scatter-add into zeros: the wide one and the narrow one agree at every column below
    100000. -/
theorem slice_width (zK : FVec Ideal Cert.KernelIdeal.S1025x100224 .f32) (zR : FVec Ideal Cert.ReferenceIdeal.S1025x100000 .f32)
    (hzK : ∀ i, zK i = 0) (hzR : ∀ i, zR i = 0)
    (idx : IVec Cert.KernelIdeal.S6400000x2 32) (upd : FVec Ideal Cert.KernelIdeal.S6400000 .f32) (r : Fin 1024) (n : Fin 100000) :
    extractStridedSlice Cert.KernelIdeal.S1024x100224 ![0, 0]
        (Host.scatterAdd Cert.KernelIdeal.scatter_S1025x100224_S6400000x2_S6400000_n_01_01_1 zK idx upd)
        Cert.KernelIdeal.Facts₀.slices_S1025x100224_S1024x100224_0_0 (ix2 r (⟨n.val, by omega⟩ : Fin 100224))
      = extractStridedSlice Cert.ReferenceIdeal.S1024x100000 ![0, 0]
        (Host.scatterAdd Cert.ReferenceIdeal.scatter_S1025x100000_S6400000x2_S6400000_n_01_01_1 zR idx upd)
        Cert.ReferenceIdeal.Facts₀.slices_S1025x100000_S1024x100000_0_0 (ix2 r n) := by
  obtain rfl : zK = fun _ => 0 := funext hzK
  obtain rfl : zR = fun _ => 0 := funext hzR
  rw [extractStridedSlice_apply ![0, 0] _ Cert.KernelIdeal.Facts₀.slices_S1025x100224_S1024x100224_0_0
      (ix2 r (⟨n.val, by omega⟩ : Fin 100224)) (ix2 (⟨r.val, by omega⟩ : Fin 1025) (⟨n.val, by omega⟩ : Fin 100224))
      (fun a => match a with
        | ⟨0, _⟩ => by show r.val = 0 + r.val; omega
        | ⟨1, _⟩ => by show n.val = 0 + n.val; omega),
    extractStridedSlice_apply ![0, 0] _ Cert.ReferenceIdeal.Facts₀.slices_S1025x100000_S1024x100000_0_0
      (ix2 r n) (ix2 (⟨r.val, by omega⟩ : Fin 1025) n)
      (fun a => match a with
        | ⟨0, _⟩ => by show r.val = 0 + r.val; omega
        | ⟨1, _⟩ => by show n.val = 0 + n.val; omega)]
  rw [hostScatterAdd_ideal, hostScatterAdd_ideal]
  exact scatterAdd_width idx upd ⟨r.val, by omega⟩ n

end

/-! ## The bridge -/

section
variable [Cert.KernelIdeal.Facts₀]

/-- The reference's zero operand of its first scatter reads zero everywhere. -/
theorem ref_v33_zero (i : Cert.ReferenceIdeal.S1025x100000.Idx) : Cert.ReferenceIdeal.Read.val_main_v33 (F := Ideal) i = 0 := by
  rw [Cert.ReferenceIdeal.Read.val_main_v33_apply, Cert.ReferenceIdeal.Read.val_main_cst_apply]
  exact Ideal.ofBits_zero_f32

/-- The reference's zero operand of its second scatter reads zero everywhere. -/
theorem ref_v69_zero (i : Cert.ReferenceIdeal.S1025x100000.Idx) : Cert.ReferenceIdeal.Read.val_main_v69 (F := Ideal) i = 0 := by
  rw [Cert.ReferenceIdeal.Read.val_main_v69_apply, Cert.ReferenceIdeal.Read.val_main_cst_18_apply]
  exact Ideal.ofBits_zero_f32

/-- THE BRIDGE. `ai`, `aj` are rows 0 … 1023 of the kernel's two scatter-adds into zeros (100224 columns), at the
    reference's index arrays and updates; `xp` is the feature array with 224 zero rows after it. Entry `(r, j)` of the
    kernel's common-neighbour product, the sum over all 100224 columns, is entry `(r, j)` of the reference's. -/
theorem xcn_bridge (x : FVec Ideal Cert.ReferenceIdeal.S100000x128 .f32)
    (ei : IVec Cert.ReferenceIdeal.S2x3200000 32) (tar : IVec Cert.ReferenceIdeal.S2x1024 32)
    (zi zj : FVec Ideal Cert.KernelIdeal.S1025x100224 .f32) (hzi : ∀ i, zi i = 0) (hzj : ∀ i, zj i = 0)
    (ai aj : Cert.KernelIdeal.S1024x100224.Idx → EReal) (xp : Cert.KernelIdeal.S100224x128.Idx → EReal)
    (hai : ai = extractStridedSlice Cert.KernelIdeal.S1024x100224 ![0, 0]
        (Host.scatterAdd Cert.KernelIdeal.scatter_S1025x100224_S6400000x2_S6400000_n_01_01_1 zi
          (Cert.ReferenceIdeal.Read.val_main_v46 (F := Ideal) ei tar) (Cert.ReferenceIdeal.Read.val_main_v47 (F := Ideal)))
        Cert.KernelIdeal.Facts₀.slices_S1025x100224_S1024x100224_0_0)
    (haj : aj = extractStridedSlice Cert.KernelIdeal.S1024x100224 ![0, 0]
        (Host.scatterAdd Cert.KernelIdeal.scatter_S1025x100224_S6400000x2_S6400000_n_01_01_1 zj
          (Cert.ReferenceIdeal.Read.val_main_v82 (F := Ideal) ei tar) (Cert.ReferenceIdeal.Read.val_main_v83 (F := Ideal)))
        Cert.KernelIdeal.Facts₀.slices_S1025x100224_S1024x100224_0_0)
    (hxp : ∀ (n : Fin 100224) (j : Fin 128), xp (ix2 n j) = if h : n.val < 100000 then x (ix2 (⟨n.val, h⟩ : Fin 100000) j) else 0)
    (r : Fin 1024) (j : Fin 128) :
    ∑ n : Fin 100224, (ai (ix2 r n) * aj (ix2 r n)) * xp (ix2 n j)
      = Cert.ReferenceIdeal.Read.val_main_v87 (F := Ideal) x ei tar (ix2 r j) := by
  rw [Cert.ReferenceIdeal.Read.val_main_v87_apply]
  refine sum_pad _ _ (fun n => ?_) (fun m => ?_)
  · -- a column both arrays have
    have el : Cert.ReferenceIdeal.Read.lidx_main_v87 (ix2 r j) n = ix2 r n :=
      funext fun a => match a with | ⟨0, _⟩ => rfl | ⟨1, _⟩ => rfl
    have er : Cert.ReferenceIdeal.Read.ridx_main_v87 (ix2 r j) n = ix2 n j :=
      funext fun a => match a with | ⟨0, _⟩ => rfl | ⟨1, _⟩ => rfl
    have hi : ai (ix2 r (⟨n.val, by omega⟩ : Fin 100224)) = Cert.ReferenceIdeal.Read.val_main_v49 (F := Ideal) ei tar (ix2 r n) := by
      rw [hai]
      unfold Cert.ReferenceIdeal.Read.val_main_v49 Cert.ReferenceIdeal.Read.val_main_v48
      exact slice_width zi (Cert.ReferenceIdeal.Read.val_main_v33 (F := Ideal)) hzi ref_v33_zero _ _ r n
    have hj : aj (ix2 r (⟨n.val, by omega⟩ : Fin 100224)) = Cert.ReferenceIdeal.Read.val_main_v85 (F := Ideal) ei tar (ix2 r n) := by
      rw [haj]
      unfold Cert.ReferenceIdeal.Read.val_main_v85 Cert.ReferenceIdeal.Read.val_main_v84
      exact slice_width zj (Cert.ReferenceIdeal.Read.val_main_v69 (F := Ideal)) hzj ref_v69_zero _ _ r n
    have hx : xp (ix2 (⟨n.val, by omega⟩ : Fin 100224) j) = x (ix2 n j) := by
      rw [hxp, dif_pos n.isLt]
    rw [el, er, Cert.ReferenceIdeal.Read.val_main_v86_apply, Ideal.mulf_def]
    show (ai (ix2 r (⟨n.val, _⟩ : Fin 100224)) * aj (ix2 r (⟨n.val, _⟩ : Fin 100224))) * xp (ix2 (⟨n.val, _⟩ : Fin 100224) j) = _
    rw [hi, hj, hx]
  · -- a padding column: the padded features' row is zero
    show (ai (ix2 r (⟨100000 + m.val, _⟩ : Fin 100224)) * aj (ix2 r (⟨100000 + m.val, _⟩ : Fin 100224)))
      * xp (ix2 (⟨100000 + m.val, _⟩ : Fin 100224) j) = 0
    rw [hxp, dif_neg (show ¬ (100000 + m.val < 100000) by omega), mul_zero]

end

end Cert.Bridge

end
-- ==== Proof.Bridge.Final.lean ====
/-
  The two programs end with equal results, at the ideal values.

  The kernel's program computes, per pair of target nodes, the two-layer perceptron of the pair's features and of its
  common-neighbour features; the reference computes the same perceptron of the same two feature arrays, built by its
  own host operations. So the results agree once the two feature arrays do.

  The pair features are the same row lookups of the feature argument at the two rows of the target pairs. The
  common-neighbour features are, on the kernel's side, the sum over 100224 columns of the product of two adjacency
  arrays with the feature argument padded by 224 zero rows; on the reference's side the same sum over 100000 columns.
  The adjacency arrays are scatter-adds of ones into zeros at the same index arrays, so they agree below column 100000,
  and the padding rows are zero: the two sums are equal.
-/
import proofs.«126571_j77292231459355_1_alg».proof.Proof.Bridge.KResult
import proofs.«126571_j77292231459355_1_alg».proof.Proof.Bridge.KTargets
import proofs.«126571_j77292231459355_1_alg».proof.Proof.Bridge.KHost
import proofs.«126571_j77292231459355_1_alg».proof.Proof.Bridge.PreNonneg
import proofs.«126571_j77292231459355_1_alg».proof.Proof.Bridge.KIdxPre
import proofs.«126571_j77292231459355_1_alg».proof.Proof.Bridge.Mlp
import proofs.«126571_j77292231459355_1_alg».proof.Proof.Bridge.Xcn
import proofs.«126571_j77292231459355_1_alg».proof.Proof.RefReadP

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen

section Pieces

variable (m : (ℓ : Loc nD τ sig) → Buf (Elt Ideal) ℓ)

/-! ## The two target vectors are the reference's -/

/-- The first target vector at the first region's entry is the reference's: row 0 of the target pairs, as a vector. -/
theorem kv1 (c : Dev nD) :
    V6 m c main_v1 = Cert.ReferenceIdeal.Read.val_main_v1 (F := Ideal) (m ((c.tc : Thread nD τ).loc main_arg2)) :=
  (kv1_slice m c).trans (by unfold Cert.ReferenceIdeal.Read.val_main_v1; unfold Cert.ReferenceIdeal.Read.val_main_v0; rfl)

/-- The second target vector likewise: row 1. -/
theorem kv3 (c : Dev nD) :
    V6 m c main_v3 = Cert.ReferenceIdeal.Read.val_main_v3 (F := Ideal) (m ((c.tc : Thread nD τ).loc main_arg2)) :=
  (kv3_slice m c).trans (by unfold Cert.ReferenceIdeal.Read.val_main_v3; unfold Cert.ReferenceIdeal.Read.val_main_v2; rfl)

/-! ## The kernel's common-neighbour features are the reference's -/

/-- The kernel's array of ones, scattered into the first adjacency array, is the reference's. -/
theorem ones_i :
    (broadcastInDim S6400000 ![] Facts₀.bcast_S_S6400000 (constant (F := Ideal) S_ .f32 0x3F800000#32)
      : S6400000.Idx → EReal) = Cert.ReferenceIdeal.Read.val_main_v47 (F := Ideal) := by
  unfold Cert.ReferenceIdeal.Read.val_main_v47; unfold Cert.ReferenceIdeal.Read.val_main_cst_10; rfl

/-- The one scattered into the second adjacency array likewise. -/
theorem ones_j :
    (broadcastInDim S6400000 ![] Facts₀.bcast_S_S6400000 (constant (F := Ideal) S_ .f32 0x3F800000#32)
      : S6400000.Idx → EReal) = Cert.ReferenceIdeal.Read.val_main_v83 (F := Ideal) := by
  unfold Cert.ReferenceIdeal.Read.val_main_v83; unfold Cert.ReferenceIdeal.Read.val_main_cst_23; rfl

/-- Entry (r, j) of the product array is the sum over the padded width at (r, j). -/
theorem prod0_ix2 (V : (c : Dev nD) → (b : Ref sig .tc) → Buf (Elt Ideal) ((c : Thread nD τ).loc b)) (c : Dev nD)
    (r : Fin 1024) (j : Fin 128) :
    Hand.prod0 V c (ix2 r j) = Hand.prodAt (V c main_v49) (V c main_v85) (V c main_v86) r j :=
  (congrFun (Hand.final0_3 V c) (ix2 r j)).symm.trans (Hand.arr0_3 V c r j)

/-- THE COMMON-NEIGHBOUR FEATURES: entry (r, j) of the kernel's product array, computed from the buffers as the first
    region finds them, is entry (r, j) of the reference's, computed from the arguments. The two adjacency arrays are
    the scatter-adds of ones into zeros at the reference's index arrays (the edge indices being nonnegative, no index
    is wrapped), 100224 columns wide; the padded features are the features followed by zero rows. -/
theorem xcn_eq (hpre : Cert.Pre_KernelIdeal m) (c : Dev nD) (r : Fin 1024) (j : Fin 128) :
    Hand.prod0 (Hand.U6 m) c (ix2 r j)
      = Cert.ReferenceIdeal.Read.val_main_v87 (F := Ideal) (m ((c.tc : Thread nD τ).loc main_arg0)) (m ((c.tc : Thread nD τ).loc main_arg1)) (m ((c.tc : Thread nD τ).loc main_arg2)) (ix2 r j) := by
  refine (prod0_ix2 (Hand.U6 m) c r j).trans ?_
  refine (Hand.prodAt_def _ _ _ r j).trans ?_
  refine xcn_bridge (m ((c.tc : Thread nD τ).loc main_arg0)) (m ((c.tc : Thread nD τ).loc main_arg1)) (m ((c.tc : Thread nD τ).loc main_arg2)) _ _ kzero kzero (V6 m c main_v49) (V6 m c main_v85) (V6 m c main_v86)
    ?_ ?_ (fun n j => kv86 m c n j) r j
  · refine (kv49 m c).trans ?_
    rw [kidx_i hpre c, kv47 m c, ones_i]
  · refine (kv85 m c).trans ?_
    rw [kidx_j hpre c, kv83 m c, ones_j]

end Pieces

/-! ## The result -/

/-- THE RESULTS ARE EQUAL. From launch memories that agree on the seven arguments, the kernel's satisfying its
    precondition, the last stage of the reference read at its arguments — what the reference's run leaves in its
    result array — is what the kernel program's run leaves in its own. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Read.val_main_v113 (F := Ideal)
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.KernelIdeal.Hand.W10 m c (Proc.devRef .tc Cert.KernelIdeal.main_v108) := by
  obtain ⟨h0, h1, h2, h3, h4, h5, h6⟩ := hagree c
  -- the reference's result, read at the kernel's arguments: the memories agree on all seven
  rw [h0, h1, h2, h3, h4, h5, h6]
  -- the kernel's pair features are the reference's
  have hp : pairFeat (m ((c : Thread nD τ).loc main_arg0)) (V6 m c main_v1) (V6 m c main_v3)
      = Cert.ReferenceIdeal.Read.val_main_v102 (F := Ideal) (m ((c.tc : Thread nD τ).loc main_arg0)) (m ((c.tc : Thread nD τ).loc main_arg2)) := by
    rw [kv1 m c, kv3 m c]
    exact pairFeat_eq _ _
  refine Eq.trans ?_ (kernel_result m c).symm
  rw [hp]
  exact (mlp_bridge _ _ _ _ _ _ _ (Hand.prod0 (Hand.U6 m) c) (fun r j => xcn_eq m hpre c r j)).symm

end Cert.Bridge

end
-- ==== Proof.lean ====
/-
  Two programs compute a link score for 1024 pairs of nodes of a graph with 100000 nodes and 3.2 million edges,
  and the claim is that, read over the extended reals, they compute the same 1024 numbers.

  Both build, by a scatter-add of ones over the 6.4 million directed edges, two adjacency arrays A_i, A_j whose
  row r counts the edges from the r-th node of a pair to each node; multiply them entry by entry (the common
  neighbours), multiply that by the node features x (xcn = (A_i · A_j) x), concatenate with the product of the two
  nodes' own features, and apply a two-layer perceptron. The kernel pads the node axis from 100000 to
  100224 = 27 · 3712, accumulates the product xcn block by block over a 2 × 27 grid in a scratch buffer, and
  applies the perceptron with the first layer's weights split in two halves instead of concatenating.

  They agree because (1) for non-negative edge indices — the statement's precondition — both programs scatter at
  the same index pairs, and a scatter-add into a wider zero array agrees with the narrower one on the narrower
  array's entries; (2) the padded rows of x are zero, so the 224 extra columns contribute a · 0 = 0; (3) a sum
  accumulated block by block is the whole sum, and a sum over 256 terms is the sum of its two halves. Only the
  commutativity and associativity of + and · on the extended reals and a · 0 = 0 are used: the finiteness of the
  float inputs is never opened.

  The frames: each kernel program is run as ten segments (host operations, the first region, host operations, the
  second region, the final reshape), every buffer named at every boundary, the first region's scratch accumulator
  carried in its invariant; the reference's frame is its run — read stretch by stretch, its three called functions each as one step — with the
  result dropped.
-/
import proofs.«126571_j77292231459355_1_alg».proof.Defs
import proofs.«126571_j77292231459355_1_alg».proof.Proof.Gen.Kernel
import proofs.«126571_j77292231459355_1_alg».proof.Proof.Gen.KernelIdeal
import proofs.«126571_j77292231459355_1_alg».proof.Proof.Gen.ReferenceIdeal
import proofs.«126571_j77292231459355_1_alg».proof.Proof.Gen.Pre_finite_inputs
import proofs.«126571_j77292231459355_1_alg».proof.Proof.K.Run
import proofs.«126571_j77292231459355_1_alg».proof.Proof.KI.Run
import proofs.«126571_j77292231459355_1_alg».proof.Proof.Bridge.RefRun
import proofs.«126571_j77292231459355_1_alg».proof.Proof.Bridge.Final
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.Bridge.ref_run m ρ)

/-- The idealization rewrote nothing. -/
theorem preserves : Cert.preserves_Kernel_KernelIdeal := trivial

/-- From memories agreeing on the arguments, with non-negative edge indices, both idealized programs end with the
    same result array — what the kernel's last reshape leaves — and unchanged arguments. -/
theorem algebraic : Cert.algebraic_KernelIdeal_ReferenceIdeal := by
  intro m ρ m' ρ' hpre hagree
  refine ⟨fun c => Cert.KernelIdeal.Hand.W10 m c (Proc.devRef .tc Cert.KernelIdeal.main_v108), ?_, ?_⟩
  · exact (θ_run Cert.KernelIdeal.defs _ _).mono (fun r h c =>
      ⟨h c _ (Cert.KernelIdeal.Hand.mem_uc Cert.KernelIdeal.main_v108 (by decide)),
       (h c _ (Cert.KernelIdeal.Hand.mem_uc Cert.KernelIdeal.main_arg0 (by decide))).trans (Cert.KernelIdeal.Hand.W10_arg m c Cert.KernelIdeal.main_arg0 (by decide) (by decide) (by decide) (by decide) (by decide) (by decide) (by decide) (by decide) (by decide) (by decide)),
       (h c _ (Cert.KernelIdeal.Hand.mem_uc Cert.KernelIdeal.main_arg1 (by decide))).trans (Cert.KernelIdeal.Hand.W10_arg m c Cert.KernelIdeal.main_arg1 (by decide) (by decide) (by decide) (by decide) (by decide) (by decide) (by decide) (by decide) (by decide) (by decide)),
       (h c _ (Cert.KernelIdeal.Hand.mem_uc Cert.KernelIdeal.main_arg2 (by decide))).trans (Cert.KernelIdeal.Hand.W10_arg m c Cert.KernelIdeal.main_arg2 (by decide) (by decide) (by decide) (by decide) (by decide) (by decide) (by decide) (by decide) (by decide) (by decide)),
       (h c _ (Cert.KernelIdeal.Hand.mem_uc Cert.KernelIdeal.main_arg3 (by decide))).trans (Cert.KernelIdeal.Hand.W10_arg m c Cert.KernelIdeal.main_arg3 (by decide) (by decide) (by decide) (by decide) (by decide) (by decide) (by decide) (by decide) (by decide) (by decide)),
       (h c _ (Cert.KernelIdeal.Hand.mem_uc Cert.KernelIdeal.main_arg4 (by decide))).trans (Cert.KernelIdeal.Hand.W10_arg m c Cert.KernelIdeal.main_arg4 (by decide) (by decide) (by decide) (by decide) (by decide) (by decide) (by decide) (by decide) (by decide) (by decide)),
       (h c _ (Cert.KernelIdeal.Hand.mem_uc Cert.KernelIdeal.main_arg5 (by decide))).trans (Cert.KernelIdeal.Hand.W10_arg5 m c),
       (h c _ (Cert.KernelIdeal.Hand.mem_uc Cert.KernelIdeal.main_arg6 (by decide))).trans (Cert.KernelIdeal.Hand.W10_arg m c Cert.KernelIdeal.main_arg6 (by decide) (by decide) (by decide) (by decide) (by decide) (by decide) (by decide) (by decide) (by decide) (by decide))⟩)
      (Cert.KernelIdeal.Hand.run (F := Ideal) m ρ)
  · exact (θ_run Cert.ReferenceIdeal.defs _ _).mono (fun _ h c =>
      ⟨(h c).1.trans (Cert.Bridge.result_eq m m' hpre hagree c), (h c).2⟩)
      (Cert.Bridge.ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
